-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.sign_bit.Statement Cert.KernelIdeal.S9000x64 .f32
  ∧ IdealRules.sign_bit.Statement Cert.KernelIdeal.S9000x64 .f32
  ∧ IdealRules.sign_bit.Statement Cert.KernelIdeal.S9000x64 .f32
  ∧ IdealRules.sign_bit.Statement Cert.KernelIdeal.S9000x64 .f32
  ∧ IdealRules.named_const.Statement Cert.KernelIdeal.κ "inv_temp" .f32 0x40A00000#32 ((67108864 / 13421773 : ℝ) : EReal)
  ∧ IdealRules.named_const.Statement Cert.KernelIdeal.κ "inv_temp" .f32 0x40A00000#32 ((67108864 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v272)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v272) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v314) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S30000x64 : Shape := ⟨2, ![30000, 64]⟩
abbrev S60000x64 : Shape := ⟨2, ![60000, 64]⟩
abbrev S1600000 : Shape := ⟨1, ![1600000]⟩
abbrev S2x2x90000x64 : Shape := ⟨4, ![2, 2, 90000, 64]⟩
abbrev S_ : Shape := ⟨0, ![]⟩

class Facts : Prop where
  bcast_S_S30000x64 : S_.BroadcastsInDim S30000x64 (![] : Fin 0 → Fin S30000x64.rank)
  reducesTo_S30000x64_S_d0_1 : S30000x64.ReducesTo [0, 1] S_
  h_S_ : 0 < S_.numel
  bcast_S_S60000x64 : S_.BroadcastsInDim S60000x64 (![] : Fin 0 → Fin S60000x64.rank)
  reducesTo_S60000x64_S_d0_1 : S60000x64.ReducesTo [0, 1] S_
  bcast_S_S2x2x90000x64 : S_.BroadcastsInDim S2x2x90000x64 (![] : Fin 0 → Fin S2x2x90000x64.rank)
  reducesTo_S2x2x90000x64_S_d0_1_2_3 : S2x2x90000x64.ReducesTo [0, 1, 2, 3] S_

variable [Facts]

def fn {F : FTy → Type} [FloatOps F] (main_arg0 : IVec S8192 32) (main_arg1 : IVec S8192 32) (main_arg2 : IVec S8192 32) (main_arg3 : FVec F S30000x64 .f32) (main_arg4 : FVec F S60000x64 .f32) (main_arg5 : IVec S1600000 32) (main_arg6 : IVec S1600000 32) (main_arg7 : FVec F S2x2x90000x64 .f32) : IVec S_ 1 :=
  let main_v0 : FVec F S30000x64 .f32 := Host.absf main_arg3
  let main_cst : FVec F S_ .f32 := constant S_ .f32 0x7F800000#32
  let main_v1 : FVec F S30000x64 .f32 := broadcastInDim S30000x64 ![] bcast_S_S30000x64 main_cst
  let main_v2 : IVec S30000x64 1 := cmpf .olt main_v0 main_v1
  let main_c : IVec S_ 1 := constantI S_ 1 1#1
  let main_v3 : IVec S_ 1 := (fun x v => Host.reduce IntOp.andi x v reducesTo_S30000x64_S_d0_1 h_S_) main_v2 main_c
  let main_v4 : FVec F S60000x64 .f32 := Host.absf main_arg4
  let main_cst_0 : FVec F S_ .f32 := constant S_ .f32 0x7F800000#32
  let main_v5 : FVec F S60000x64 .f32 := broadcastInDim S60000x64 ![] bcast_S_S60000x64 main_cst_0
  let main_v6 : IVec S60000x64 1 := cmpf .olt main_v4 main_v5
  let main_c_1 : IVec S_ 1 := constantI S_ 1 1#1
  let main_v7 : IVec S_ 1 := (fun x v => Host.reduce IntOp.andi x v reducesTo_S60000x64_S_d0_1 h_S_) main_v6 main_c_1
  let main_v8 : IVec S_ 1 := andi main_v3 main_v7
  let main_v9 : FVec F S2x2x90000x64 .f32 := Host.absf main_arg7
  let main_cst_2 : FVec F S_ .f32 := constant S_ .f32 0x7F800000#32
  let main_v10 : FVec F S2x2x90000x64 .f32 := broadcastInDim S2x2x90000x64 ![] bcast_S_S2x2x90000x64 main_cst_2
  let main_v11 : IVec S2x2x90000x64 1 := cmpf .olt main_v9 main_v10
  let main_c_3 : IVec S_ 1 := constantI S_ 1 1#1
  let main_v12 : IVec S_ 1 := (fun x v => Host.reduce IntOp.andi x v reducesTo_S2x2x90000x64_S_d0_1_2_3 h_S_) main_v11 main_c_3
  let main_v13 : IVec S_ 1 := andi main_v8 main_v12
  main_v13
-- ==== Kernel.lean ====
abbrev S8192 : Shape := ⟨1, ![8192]⟩
abbrev S30000x64 : Shape := ⟨2, ![30000, 64]⟩
abbrev S60000x64 : Shape := ⟨2, ![60000, 64]⟩
abbrev S1600000 : Shape := ⟨1, ![1600000]⟩
abbrev S2x2x90000x64 : Shape := ⟨4, ![2, 2, 90000, 64]⟩
abbrev S_ : Shape := ⟨0, ![]⟩
abbrev S90000 : Shape := ⟨1, ![90000]⟩
abbrev S1600000x1 : Shape := ⟨2, ![1600000, 1]⟩
abbrev S90000x64 : Shape := ⟨2, ![90000, 64]⟩
abbrev S1600000x64 : Shape := ⟨2, ![1600000, 64]⟩
abbrev S1x1x90000x64 : Shape := ⟨4, ![1, 1, 90000, 64]⟩
abbrev S9000x64 : Shape := ⟨2, ![9000, 64]⟩
abbrev S9000 : Shape := ⟨1, ![9000]⟩
abbrev S9000x1 : Shape := ⟨2, ![9000, 1]⟩
abbrev S8192x1 : Shape := ⟨2, ![8192, 1]⟩
abbrev S8192x64 : Shape := ⟨2, ![8192, 64]⟩
abbrev S2048x64 : Shape := ⟨2, ![2048, 64]⟩
abbrev S512x64 : Shape := ⟨2, ![512, 64]⟩
abbrev S2048x1 : Shape := ⟨2, ![2048, 1]⟩
abbrev S2048x512 : Shape := ⟨2, ![2048, 512]⟩
abbrev S2048 : Shape := ⟨1, ![2048]⟩
abbrev S1 : Shape := ⟨1, ![1]⟩
abbrev S4 : Shape := ⟨1, ![4]⟩

abbrev nBuf : Space → Nat
  | .hbm => 385
  | .vmem => 38
  | .smem => 0
  | _ => 0

abbrev hbmTy0_0 (i : Nat) : BufTy := match i % 128 with
  | 0 => ⟨S8192, .i32⟩
  | 1 => ⟨S8192, .i32⟩
  | 2 => ⟨S8192, .i32⟩
  | 3 => ⟨S30000x64, .f32⟩
  | 4 => ⟨S60000x64, .f32⟩
  | 5 => ⟨S1600000, .i32⟩
  | 6 => ⟨S1600000, .i32⟩
  | 7 => ⟨S2x2x90000x64, .f32⟩
  | 8 => ⟨S_, .f32⟩
  | 9 => ⟨S1600000, .f32⟩
  | 10 => ⟨S_, .f32⟩
  | 11 => ⟨S90000, .f32⟩
  | 12 => ⟨S1600000x1, .i32⟩
  | 13 => ⟨S90000, .f32⟩
  | 14 => ⟨S_, .f32⟩
  | 15 => ⟨S90000, .f32⟩
  | 16 => ⟨S90000, .i1⟩
  | 17 => ⟨S_, .f32⟩
  | 18 => ⟨S_, .f32⟩
  | 19 => ⟨S90000, .f32⟩
  | 20 => ⟨S90000, .f32⟩
  | 21 => ⟨S_, .f32⟩
  | 22 => ⟨S90000, .f32⟩
  | 23 => ⟨S90000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S90000x64, .f32⟩
  | 44 => ⟨S1600000x1, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S1600000x64, .f32⟩
  | 55 => ⟨S1600000x64, .f32⟩
  | 56 => ⟨S_, .f32⟩
  | 57 => ⟨S90000x64, .f32⟩
  | 58 => ⟨S1600000x1, .i32⟩
  | 59 => ⟨S90000x64, .f32⟩
  | 60 => ⟨S1600000x1, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x64, .f32⟩
  | 70 => ⟨S1600000x64, .f32⟩
  | 71 => ⟨S1600000x64, .f32⟩
  | 72 => ⟨S_, .f32⟩
  | 73 => ⟨S90000x64, .f32⟩
  | 74 => ⟨S1600000x1, .i32⟩
  | 75 => ⟨S90000x64, .f32⟩
  | 76 => ⟨S1x1x90000x64, .f32⟩
  | 77 => ⟨S90000x64, .f32⟩
  | 78 => ⟨S90000x64, .f32⟩
  | 79 => ⟨S1600000x1, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x64, .f32⟩
  | 89 => ⟨S1600000x64, .f32⟩
  | 90 => ⟨S1600000x64, .f32⟩
  | 91 => ⟨S_, .f32⟩
  | 92 => ⟨S90000x64, .f32⟩
  | 93 => ⟨S1600000x1, .i32⟩
  | 94 => ⟨S90000x64, .f32⟩
  | 95 => ⟨S1x1x90000x64, .f32⟩
  | 96 => ⟨S90000x64, .f32⟩
  | 97 => ⟨S90000x64, .f32⟩
  | 98 => ⟨S90000x64, .f32⟩
  | 99 => ⟨S90000x64, .f32⟩
  | 100 => ⟨S90000x64, .f32⟩
  | 101 => ⟨S1600000x1, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x64, .f32⟩
  | 111 => ⟨S1600000x64, .f32⟩
  | 112 => ⟨S1600000x64, .f32⟩
  | 113 => ⟨S_, .f32⟩
  | 114 => ⟨S90000x64, .f32⟩
  | 115 => ⟨S1600000x1, .i32⟩
  | 116 => ⟨S90000x64, .f32⟩
  | 117 => ⟨S1600000x1, .f32⟩
  | 118 => ⟨S_, .i32⟩
  | 119 => ⟨S1600000, .i32⟩
  | 120 => ⟨S1600000, .i1⟩
  | 121 => ⟨S_, .i32⟩
  | 122 => ⟨S1600000, .i32⟩
  | 123 => ⟨S1600000, .i32⟩
  | 124 => ⟨S1600000, .i32⟩
  | 125 => ⟨S1600000x1, .i32⟩
  | 126 => ⟨S1600000x64, .f32⟩
  | 127 => ⟨S1600000x64, .f32⟩
  | _ => ⟨S8192, .i32⟩

abbrev hbmTy0_1 (i : Nat) : BufTy := match i % 128 with
  | 0 => ⟨S1600000x64, .f32⟩
  | 1 => ⟨S_, .f32⟩
  | 2 => ⟨S90000x64, .f32⟩
  | 3 => ⟨S1600000x1, .i32⟩
  | 4 => ⟨S90000x64, .f32⟩
  | 5 => ⟨S1x1x90000x64, .f32⟩
  | 6 => ⟨S90000x64, .f32⟩
  | 7 => ⟨S90000x64, .f32⟩
  | 8 => ⟨S1600000x1, .f32⟩
  | 9 => ⟨S_, .i32⟩
  | 10 => ⟨S1600000, .i32⟩
  | 11 => ⟨S1600000, .i1⟩
  | 12 => ⟨S_, .i32⟩
  | 13 => ⟨S1600000, .i32⟩
  | 14 => ⟨S1600000, .i32⟩
  | 15 => ⟨S1600000, .i32⟩
  | 16 => ⟨S1600000x1, .i32⟩
  | 17 => ⟨S1600000x64, .f32⟩
  | 18 => ⟨S1600000x64, .f32⟩
  | 19 => ⟨S1600000x64, .f32⟩
  | 20 => ⟨S_, .f32⟩
  | 21 => ⟨S90000x64, .f32⟩
  | 22 => ⟨S1600000x1, .i32⟩
  | 23 => ⟨S90000x64, .f32⟩
  | 24 => ⟨S1x1x90000x64, .f32⟩
  | 25 => ⟨S90000x64, .f32⟩
  | 26 => ⟨S90000x64, .f32⟩
  | 27 => ⟨S90000x64, .f32⟩
  | 28 => ⟨S90000x64, .f32⟩
  | 29 => ⟨S90000x64, .f32⟩
  | 30 => ⟨S30000x64, .f32⟩
  | 31 => ⟨S60000x64, .f32⟩
  | 32 => ⟨S30000x64, .f32⟩
  | 33 => ⟨S60000x64, .f32⟩
  | 34 => ⟨S30000x64, .f32⟩
  | 35 => ⟨S60000x64, .f32⟩
  | 36 => ⟨S_, .i32⟩
  | 37 => ⟨S8192, .i32⟩
  | 38 => ⟨S8192, .i1⟩
  | 39 => ⟨S_, .i32⟩
  | 40 => ⟨S8192, .i32⟩
  | 41 => ⟨S8192, .i32⟩
  | 42 => ⟨S8192, .i32⟩
  | 43 => ⟨S8192x1, .i32⟩
  | 44 => ⟨S8192x64, .f32⟩
  | 45 => ⟨S_, .i32⟩
  | 46 => ⟨S8192, .i32⟩
  | 47 => ⟨S8192, .i1⟩
  | 48 => ⟨S_, .i32⟩
  | 49 => ⟨S8192, .i32⟩
  | 50 => ⟨S8192, .i32⟩
  | 51 => ⟨S8192, .i32⟩
  | 52 => ⟨S8192x1, .i32⟩
  | 53 => ⟨S8192x64, .f32⟩
  | 54 => ⟨S_, .i32⟩
  | 55 => ⟨S8192, .i32⟩
  | 56 => ⟨S8192, .i1⟩
  | 57 => ⟨S_, .i32⟩
  | 58 => ⟨S8192, .i32⟩
  | 59 => ⟨S8192, .i32⟩
  | 60 => ⟨S8192, .i32⟩
  | 61 => ⟨S8192x1, .i32⟩
  | 62 => ⟨S8192x64, .f32⟩
  | 63 => ⟨S8192x64, .f32⟩
  | 64 => ⟨S_, .f32⟩
  | 65 => ⟨S8192, .f32⟩
  | 66 => ⟨S8192x64, .f32⟩
  | 67 => ⟨S_, .f32⟩
  | 68 => ⟨S8192, .f32⟩
  | 69 => ⟨S8192, .f32⟩
  | 70 => ⟨S_, .f32⟩
  | 71 => ⟨S8192, .f32⟩
  | 72 => ⟨S8192, .f32⟩
  | 73 => ⟨S8192, .f32⟩
  | 74 => ⟨S8192, .f32⟩
  | 75 => ⟨S8192, .i1⟩
  | 76 => ⟨S8192, .f32⟩
  | 77 => ⟨S8192, .f32⟩
  | 78 => ⟨S8192, .f32⟩
  | 79 => ⟨S8192, .f32⟩
  | 80 => ⟨S8192, .f32⟩
  | 81 => ⟨S8192, .f32⟩
  | 82 => ⟨S8192, .f32⟩
  | 83 => ⟨S8192, .f32⟩
  | 84 => ⟨S_, .f32⟩
  | 85 => ⟨S_, .f32⟩
  | 86 => ⟨S_, .f32⟩
  | 87 => ⟨S_, .f32⟩
  | 88 => ⟨S_, .i32⟩
  | 89 => ⟨S8192, .i32⟩
  | 90 => ⟨S8192, .i1⟩
  | 91 => ⟨S_, .i32⟩
  | 92 => ⟨S8192, .i32⟩
  | 93 => ⟨S8192, .i32⟩
  | 94 => ⟨S8192, .i32⟩
  | 95 => ⟨S8192x1, .i32⟩
  | 96 => ⟨S8192x64, .f32⟩
  | 97 => ⟨S8192x64, .f32⟩
  | 98 => ⟨S_, .f32⟩
  | 99 => ⟨S_, .f32⟩
  | 100 => ⟨S_, .i32⟩
  | 101 => ⟨S8192, .i32⟩
  | 102 => ⟨S8192, .i1⟩
  | 103 => ⟨S_, .i32⟩
  | 104 => ⟨S8192, .i32⟩
  | 105 => ⟨S8192, .i32⟩
  | 106 => ⟨S8192, .i32⟩
  | 107 => ⟨S8192x1, .i32⟩
  | 108 => ⟨S8192x64, .f32⟩
  | 109 => ⟨S8192x64, .f32⟩
  | 110 => ⟨S_, .f32⟩
  | 111 => ⟨S_, .f32⟩
  | 112 => ⟨S_, .f32⟩
  | 113 => ⟨S_, .i32⟩
  | 114 => ⟨S8192, .i32⟩
  | 115 => ⟨S8192, .i1⟩
  | 116 => ⟨S_, .i32⟩
  | 117 => ⟨S8192, .i32⟩
  | 118 => ⟨S8192, .i32⟩
  | 119 => ⟨S8192, .i32⟩
  | 120 => ⟨S8192x1, .i32⟩
  | 121 => ⟨S8192x64, .f32⟩
  | 122 => ⟨S8192x64, .f32⟩
  | 123 => ⟨S_, .f32⟩
  | 124 => ⟨S_, .f32⟩
  | 125 => ⟨S_, .f32⟩
  | 126 => ⟨S_, .f32⟩
  | 127 => ⟨S_, .f32⟩
  | _ => ⟨S8192, .i32⟩

abbrev hbmTy0_2 (i : Nat) : BufTy := match i % 128 with
  | 0 => ⟨S_, .i32⟩
  | 1 => ⟨S8192, .i32⟩
  | 2 => ⟨S8192, .i1⟩
  | 3 => ⟨S_, .i32⟩
  | 4 => ⟨S8192, .i32⟩
  | 5 => ⟨S8192, .i32⟩
  | 6 => ⟨S8192, .i32⟩
  | 7 => ⟨S8192x1, .i32⟩
  | 8 => ⟨S8192x64, .f32⟩
  | 9 => ⟨S8192x64, .f32⟩
  | 10 => ⟨S_, .f32⟩
  | 11 => ⟨S8192, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x64, .f32⟩
  | 18 => ⟨S8192x64, .f32⟩
  | 19 => ⟨S_, .i32⟩
  | 20 => ⟨S8192, .i32⟩
  | 21 => ⟨S8192, .i1⟩
  | 22 => ⟨S_, .i32⟩
  | 23 => ⟨S8192, .i32⟩
  | 24 => ⟨S8192, .i32⟩
  | 25 => ⟨S8192, .i32⟩
  | 26 => ⟨S8192x1, .i32⟩
  | 27 => ⟨S8192x64, .f32⟩
  | 28 => ⟨S8192x64, .f32⟩
  | 29 => ⟨S_, .f32⟩
  | 30 => ⟨S8192, .f32⟩
  | 31 => ⟨S8192x1, .f32⟩
  | 32 => ⟨S8192x1, .f32⟩
  | 33 => ⟨S_, .f32⟩
  | 34 => ⟨S8192x1, .f32⟩
  | 35 => ⟨S8192x1, .f32⟩
  | 36 => ⟨S8192x64, .f32⟩
  | 37 => ⟨S8192x64, .f32⟩
  | 38 => ⟨S_, .i32⟩
  | 39 => ⟨S8192, .i32⟩
  | 40 => ⟨S8192, .i1⟩
  | 41 => ⟨S_, .i32⟩
  | 42 => ⟨S8192, .i32⟩
  | 43 => ⟨S8192, .i32⟩
  | 44 => ⟨S8192, .i32⟩
  | 45 => ⟨S8192x1, .i32⟩
  | 46 => ⟨S8192x64, .f32⟩
  | 47 => ⟨S8192x64, .f32⟩
  | 48 => ⟨S_, .f32⟩
  | 49 => ⟨S8192, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x64, .f32⟩
  | 56 => ⟨S8192x64, .f32⟩
  | 57 => ⟨S_, .i32⟩
  | 58 => ⟨S8192, .i32⟩
  | 59 => ⟨S8192, .i1⟩
  | 60 => ⟨S_, .i32⟩
  | 61 => ⟨S8192, .i32⟩
  | 62 => ⟨S8192, .i32⟩
  | 63 => ⟨S8192, .i32⟩
  | 64 => ⟨S8192x1, .i32⟩
  | 65 => ⟨S8192x64, .f32⟩
  | 66 => ⟨S8192x64, .f32⟩
  | 67 => ⟨S_, .f32⟩
  | 68 => ⟨S8192, .f32⟩
  | 69 => ⟨S8192x1, .f32⟩
  | 70 => ⟨S8192x1, .f32⟩
  | 71 => ⟨S_, .f32⟩
  | 72 => ⟨S8192x1, .f32⟩
  | 73 => ⟨S8192x1, .f32⟩
  | 74 => ⟨S8192x64, .f32⟩
  | 75 => ⟨S8192x64, .f32⟩
  | 76 => ⟨S8192x64, .f32⟩
  | 77 => ⟨S_, .f32⟩
  | 78 => ⟨S8192, .f32⟩
  | 79 => ⟨S_, .f32⟩
  | 80 => ⟨S8192, .f32⟩
  | 81 => ⟨S8192, .f32⟩
  | 82 => ⟨S8192, .f32⟩
  | 83 => ⟨S8192x1, .f32⟩
  | 84 => ⟨S8192, .f32⟩
  | 85 => ⟨S_, .f32⟩
  | 86 => ⟨S8192, .f32⟩
  | 87 => ⟨S8192, .f32⟩
  | 88 => ⟨S8192, .f32⟩
  | 89 => ⟨S_, .f32⟩
  | 90 => ⟨S8192, .f32⟩
  | 91 => ⟨S8192, .f32⟩
  | 92 => ⟨S8192, .f32⟩
  | 93 => ⟨S8192, .f32⟩
  | 94 => ⟨S_, .f32⟩
  | 95 => ⟨S_, .f32⟩
  | 96 => ⟨S_, .f32⟩
  | 97 => ⟨S_, .f32⟩
  | 98 => ⟨S8192x64, .f32⟩
  | 99 => ⟨S_, .f32⟩
  | 100 => ⟨S8192, .f32⟩
  | 101 => ⟨S_, .f32⟩
  | 102 => ⟨S8192, .f32⟩
  | 103 => ⟨S8192, .f32⟩
  | 104 => ⟨S8192, .f32⟩
  | 105 => ⟨S8192x1, .f32⟩
  | 106 => ⟨S8192, .f32⟩
  | 107 => ⟨S_, .f32⟩
  | 108 => ⟨S8192, .f32⟩
  | 109 => ⟨S8192, .f32⟩
  | 110 => ⟨S8192, .f32⟩
  | 111 => ⟨S_, .f32⟩
  | 112 => ⟨S8192, .f32⟩
  | 113 => ⟨S8192, .f32⟩
  | 114 => ⟨S8192, .f32⟩
  | 115 => ⟨S8192, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S1, .f32⟩
  | 125 => ⟨S1, .f32⟩
  | 126 => ⟨S1, .f32⟩
  | 127 => ⟨S1, .f32⟩
  | _ => ⟨S8192, .i32⟩

abbrev hbmTy0_3 (i : Nat) : BufTy := match i % 128 with
  | 0 => ⟨S4, .f32⟩
  | _ => ⟨S8192, .i32⟩

abbrev hbmTy (i : Nat) : BufTy := match i / 128 with
  | 0 => hbmTy0_0 i
  | 1 => hbmTy0_1 i
  | 2 => hbmTy0_2 i
  | 3 => hbmTy0_3 i
  | _ => ⟨S8192, .i32⟩

abbrev bufTy : (tb : Table) → Fin (tcTables nBuf tb) → BufTy
  | .hbm, ⟨i, _⟩ => hbmTy i
  | .local _ .vmem, ⟨0, _⟩ => ⟨S9000x64, .f32⟩
  | .local _ .vmem, ⟨1, _⟩ => ⟨S9000x64, .f32⟩
  | .local _ .vmem, ⟨2, _⟩ => ⟨S9000x64, .f32⟩
  | .local _ .vmem, ⟨3, _⟩ => ⟨S9000x64, .f32⟩
  | .local _ .vmem, ⟨4, _⟩ => ⟨S9000x64, .f32⟩
  | .local _ .vmem, ⟨5, _⟩ => ⟨S9000x64, .f32⟩
  | .local _ .vmem, ⟨6, _⟩ => ⟨S9000x64, .f32⟩
  | .local _ .vmem, ⟨7, _⟩ => ⟨S9000x64, .f32⟩
  | .local _ .vmem, ⟨8, _⟩ => ⟨S9000x64, .f32⟩
  | .local _ .vmem, ⟨9, _⟩ => ⟨S9000x64, .f32⟩
  | .local _ .vmem, ⟨10, _⟩ => ⟨S9000x64, .f32⟩
  | .local _ .vmem, ⟨11, _⟩ => ⟨S9000x64, .f32⟩
  | .local _ .vmem, ⟨12, _⟩ => ⟨S9000x64, .f32⟩
  | .local _ .vmem, ⟨13, _⟩ => ⟨S9000x64, .f32⟩
  | .local _ .vmem, ⟨14, _⟩ => ⟨S9000x64, .f32⟩
  | .local _ .vmem, ⟨15, _⟩ => ⟨S9000x64, .f32⟩
  | .local _ .vmem, ⟨16, _⟩ => ⟨S9000x64, .f32⟩
  | .local _ .vmem, ⟨17, _⟩ => ⟨S9000x64, .f32⟩
  | .local _ .vmem, ⟨18, _⟩ => ⟨S9000x64, .f32⟩
  | .local _ .vmem, ⟨19, _⟩ => ⟨S9000x64, .f32⟩
  | .local _ .vmem, ⟨20, _⟩ => ⟨S9000x64, .f32⟩
  | .local _ .vmem, ⟨21, _⟩ => ⟨S9000x64, .f32⟩
  | .local _ .vmem, ⟨22, _⟩ => ⟨S9000x64, .f32⟩
  | .local _ .vmem, ⟨23, _⟩ => ⟨S9000x64, .f32⟩
  | .local _ .vmem, ⟨24, _⟩ => ⟨S2048x64, .f32⟩
  | .local _ .vmem, ⟨25, _⟩ => ⟨S2048x64, .f32⟩
  | .local _ .vmem, ⟨26, _⟩ => ⟨S512x64, .f32⟩
  | .local _ .vmem, ⟨27, _⟩ => ⟨S512x64, .f32⟩
  | .local _ .vmem, ⟨28, _⟩ => ⟨S2048x1, .f32⟩
  | .local _ .vmem, ⟨29, _⟩ => ⟨S2048x1, .f32⟩
  | .local _ .vmem, ⟨30, _⟩ => ⟨S2048x1, .f32⟩
  | .local _ .vmem, ⟨31, _⟩ => ⟨S2048x64, .f32⟩
  | .local _ .vmem, ⟨32, _⟩ => ⟨S2048x64, .f32⟩
  | .local _ .vmem, ⟨33, _⟩ => ⟨S512x64, .f32⟩
  | .local _ .vmem, ⟨34, _⟩ => ⟨S512x64, .f32⟩
  | .local _ .vmem, ⟨35, _⟩ => ⟨S2048x1, .f32⟩
  | .local _ .vmem, ⟨36, _⟩ => ⟨S2048x1, .f32⟩
  | .local _ .vmem, ⟨37, _⟩ => ⟨S2048x1, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v6 : Ref sig .tc := ⟨.hbm, 20, rfl⟩
abbrev main_cst_3 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_5 : Ref sig .tc := ⟨.hbm, 33, rfl⟩
abbrev main_v16 : Ref sig .tc := ⟨.hbm, 34, rfl⟩
abbrev main_v17 : Ref sig .tc := ⟨.hbm, 35, rfl⟩
abbrev main_c_6 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_7 : Ref sig .tc := ⟨.hbm, 45, rfl⟩
abbrev main_v26 : Ref sig .tc := ⟨.hbm, 46, rfl⟩
abbrev main_v27 : Ref sig .tc := ⟨.hbm, 47, rfl⟩
abbrev main_c_8 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_10 : Ref sig .tc := ⟨.hbm, 61, rfl⟩
abbrev main_v39 : Ref sig .tc := ⟨.hbm, 62, rfl⟩
abbrev main_v40 : Ref sig .tc := ⟨.hbm, 63, rfl⟩
abbrev main_c_11 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_12 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_13 : Ref sig .tc := ⟨.hbm, 80, rfl⟩
abbrev main_v55 : Ref sig .tc := ⟨.hbm, 81, rfl⟩
abbrev main_v56 : Ref sig .tc := ⟨.hbm, 82, rfl⟩
abbrev main_c_14 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_15 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_c_17 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_18 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_c_19 : Ref sig .tc := ⟨.hbm, 118, rfl⟩
abbrev main_v87 : Ref sig .tc := ⟨.hbm, 119, rfl⟩
abbrev main_v88 : Ref sig .tc := ⟨.hbm, 120, rfl⟩
abbrev main_c_20 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_21 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_c_22 : Ref sig .tc := ⟨.hbm, 137, rfl⟩
abbrev main_v103 : Ref sig .tc := ⟨.hbm, 138, rfl⟩
abbrev main_v104 : Ref sig .tc := ⟨.hbm, 139, rfl⟩
abbrev main_c_23 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_24 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_c_25 : Ref sig .tc := ⟨.hbm, 164, rfl⟩
abbrev main_v127 : Ref sig .tc := ⟨.hbm, 165, rfl⟩
abbrev main_v128 : Ref sig .tc := ⟨.hbm, 166, rfl⟩
abbrev main_c_26 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_c_27 : Ref sig .tc := ⟨.hbm, 173, rfl⟩
abbrev main_v134 : Ref sig .tc := ⟨.hbm, 174, rfl⟩
abbrev main_v135 : Ref sig .tc := ⟨.hbm, 175, rfl⟩
abbrev main_c_28 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_c_29 : Ref sig .tc := ⟨.hbm, 182, rfl⟩
abbrev main_v141 : Ref sig .tc := ⟨.hbm, 183, rfl⟩
abbrev main_v142 : Ref sig .tc := ⟨.hbm, 184, rfl⟩
abbrev main_c_30 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_cst_31 : Ref sig .tc := ⟨.hbm, 192, rfl⟩
abbrev main_v149 : Ref sig .tc := ⟨.hbm, 193, rfl⟩
abbrev main_v150 : Ref sig .tc := ⟨.hbm, 194, rfl⟩
abbrev main_cst_32 : Ref sig .tc := ⟨.hbm, 195, rfl⟩
abbrev main_v151 : Ref sig .tc := ⟨.hbm, 196, rfl⟩
abbrev main_v152 : Ref sig .tc := ⟨.hbm, 197, rfl⟩
abbrev main_call1_cst : Ref sig .tc := ⟨.hbm, 198, rfl⟩
abbrev main_call1_v0 : Ref sig .tc := ⟨.hbm, 199, rfl⟩
abbrev main_call1_v1 : Ref sig .tc := ⟨.hbm, 200, rfl⟩
abbrev main_call1_v2 : Ref sig .tc := ⟨.hbm, 201, rfl⟩
abbrev main_call1_v3 : Ref sig .tc := ⟨.hbm, 202, rfl⟩
abbrev main_call1_v4 : Ref sig .tc := ⟨.hbm, 203, rfl⟩
abbrev main_call1_v5 : Ref sig .tc := ⟨.hbm, 204, rfl⟩
abbrev main_call1_v6 : Ref sig .tc := ⟨.hbm, 205, rfl⟩
abbrev main_call1_v7 : Ref sig .tc := ⟨.hbm, 206, rfl⟩
abbrev main_call1_v8 : Ref sig .tc := ⟨.hbm, 207, rfl⟩
abbrev main_call1_v9 : Ref sig .tc := ⟨.hbm, 208, rfl⟩
abbrev main_call1_v10 : Ref sig .tc := ⟨.hbm, 209, rfl⟩
abbrev main_call1_v11 : Ref sig .tc := ⟨.hbm, 210, rfl⟩
abbrev main_v153 : Ref sig .tc := ⟨.hbm, 211, rfl⟩
abbrev main_cst_33 : Ref sig .tc := ⟨.hbm, 212, rfl⟩
abbrev main_v154 : Ref sig .tc := ⟨.hbm, 213, rfl⟩
abbrev main_cst_34 : Ref sig .tc := ⟨.hbm, 214, rfl⟩
abbrev main_v155 : Ref sig .tc := ⟨.hbm, 215, rfl⟩
abbrev main_c_35 : Ref sig .tc := ⟨.hbm, 216, rfl⟩
abbrev main_v156 : Ref sig .tc := ⟨.hbm, 217, rfl⟩
abbrev main_v157 : Ref sig .tc := ⟨.hbm, 218, rfl⟩
abbrev main_c_36 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_cst_37 : Ref sig .tc := ⟨.hbm, 226, rfl⟩
abbrev main_v164 : Ref sig .tc := ⟨.hbm, 227, rfl⟩
abbrev main_c_38 : Ref sig .tc := ⟨.hbm, 228, rfl⟩
abbrev main_v165 : Ref sig .tc := ⟨.hbm, 229, rfl⟩
abbrev main_v166 : Ref sig .tc := ⟨.hbm, 230, rfl⟩
abbrev main_c_39 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_cst_40 : Ref sig .tc := ⟨.hbm, 238, rfl⟩
abbrev main_v173 : Ref sig .tc := ⟨.hbm, 239, rfl⟩
abbrev main_v174 : Ref sig .tc := ⟨.hbm, 240, rfl⟩
abbrev main_c_41 : Ref sig .tc := ⟨.hbm, 241, rfl⟩
abbrev main_v175 : Ref sig .tc := ⟨.hbm, 242, rfl⟩
abbrev main_v176 : Ref sig .tc := ⟨.hbm, 243, rfl⟩
abbrev main_c_42 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_v181 : Ref sig .tc := ⟨.hbm, 249, rfl⟩
abbrev main_v182 : Ref sig .tc := ⟨.hbm, 250, rfl⟩
abbrev main_cst_43 : Ref sig .tc := ⟨.hbm, 251, rfl⟩
abbrev main_v183 : Ref sig .tc := ⟨.hbm, 252, rfl⟩
abbrev main_v184 : Ref sig .tc := ⟨.hbm, 253, rfl⟩
abbrev main_cst_44 : Ref sig .tc := ⟨.hbm, 254, rfl⟩
abbrev main_v185 : Ref sig .tc := ⟨.hbm, 255, rfl⟩
abbrev main_c_45 : Ref sig .tc := ⟨.hbm, 256, rfl⟩
abbrev main_v186 : Ref sig .tc := ⟨.hbm, 257, rfl⟩
abbrev main_v187 : Ref sig .tc := ⟨.hbm, 258, rfl⟩
abbrev main_c_46 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_call2_v0 : Ref sig .tc := ⟨.hbm, 265, rfl⟩
abbrev main_call2_cst : Ref sig .tc := ⟨.hbm, 266, rfl⟩
abbrev main_call2_v1 : Ref sig .tc := ⟨.hbm, 267, rfl⟩
abbrev main_call2_v2 : Ref sig .tc := ⟨.hbm, 268, rfl⟩
abbrev main_v193 : Ref sig .tc := ⟨.hbm, 269, rfl⟩
abbrev main_cst_47 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_c_48 : Ref sig .tc := ⟨.hbm, 275, rfl⟩
abbrev main_v198 : Ref sig .tc := ⟨.hbm, 276, rfl⟩
abbrev main_v199 : Ref sig .tc := ⟨.hbm, 277, rfl⟩
abbrev main_c_49 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩
abbrev main_v204 : Ref sig .tc := ⟨.hbm, 283, rfl⟩
abbrev main_call3_v0 : Ref sig .tc := ⟨.hbm, 284, rfl⟩
abbrev main_call3_cst : Ref sig .tc := ⟨.hbm, 285, rfl⟩
abbrev main_call3_v1 : Ref sig .tc := ⟨.hbm, 286, rfl⟩
abbrev main_call3_v2 : Ref sig .tc := ⟨.hbm, 287, rfl⟩
abbrev main_v205 : Ref sig .tc := ⟨.hbm, 288, rfl⟩
abbrev main_cst_50 : Ref sig .tc := ⟨.hbm, 289, rfl⟩
abbrev main_v206 : Ref sig .tc := ⟨.hbm, 290, rfl⟩
abbrev main_v207 : Ref sig .tc := ⟨.hbm, 291, rfl⟩
abbrev main_v208 : Ref sig .tc := ⟨.hbm, 292, rfl⟩
abbrev main_v209 : Ref sig .tc := ⟨.hbm, 293, rfl⟩
abbrev main_c_51 : Ref sig .tc := ⟨.hbm, 294, rfl⟩
abbrev main_v210 : Ref sig .tc := ⟨.hbm, 295, rfl⟩
abbrev main_v211 : Ref sig .tc := ⟨.hbm, 296, rfl⟩
abbrev main_c_52 : Ref sig .tc := ⟨.hbm, 297, rfl⟩
abbrev main_v212 : Ref sig .tc := ⟨.hbm, 298, rfl⟩
abbrev main_v213 : Ref sig .tc := ⟨.hbm, 299, rfl⟩
abbrev main_v214 : Ref sig .tc := ⟨.hbm, 300, rfl⟩
abbrev main_v215 : Ref sig .tc := ⟨.hbm, 301, rfl⟩
abbrev main_v216 : Ref sig .tc := ⟨.hbm, 302, rfl⟩
abbrev main_call4_v0 : Ref sig .tc := ⟨.hbm, 303, rfl⟩
abbrev main_call4_cst : Ref sig .tc := ⟨.hbm, 304, rfl⟩
abbrev main_call4_v1 : Ref sig .tc := ⟨.hbm, 305, rfl⟩
abbrev main_call4_v2 : Ref sig .tc := ⟨.hbm, 306, rfl⟩
abbrev main_v217 : Ref sig .tc := ⟨.hbm, 307, rfl⟩
abbrev main_cst_53 : Ref sig .tc := ⟨.hbm, 308, rfl⟩
abbrev main_v218 : Ref sig .tc := ⟨.hbm, 309, rfl⟩
abbrev main_v219 : Ref sig .tc := ⟨.hbm, 310, rfl⟩
abbrev main_v220 : Ref sig .tc := ⟨.hbm, 311, rfl⟩
abbrev main_v221 : Ref sig .tc := ⟨.hbm, 312, rfl⟩
abbrev main_c_54 : Ref sig .tc := ⟨.hbm, 313, rfl⟩
abbrev main_v222 : Ref sig .tc := ⟨.hbm, 314, rfl⟩
abbrev main_v223 : Ref sig .tc := ⟨.hbm, 315, rfl⟩
abbrev main_c_55 : Ref sig .tc := ⟨.hbm, 316, rfl⟩
abbrev main_v224 : Ref sig .tc := ⟨.hbm, 317, rfl⟩
abbrev main_v225 : Ref sig .tc := ⟨.hbm, 318, rfl⟩
abbrev main_v226 : Ref sig .tc := ⟨.hbm, 319, rfl⟩
abbrev main_v227 : Ref sig .tc := ⟨.hbm, 320, rfl⟩
abbrev main_v228 : Ref sig .tc := ⟨.hbm, 321, rfl⟩
abbrev main_call5_v0 : Ref sig .tc := ⟨.hbm, 322, rfl⟩
abbrev main_call5_cst : Ref sig .tc := ⟨.hbm, 323, rfl⟩
abbrev main_call5_v1 : Ref sig .tc := ⟨.hbm, 324, rfl⟩
abbrev main_call5_v2 : Ref sig .tc := ⟨.hbm, 325, rfl⟩
abbrev main_v229 : Ref sig .tc := ⟨.hbm, 326, rfl⟩
abbrev main_cst_56 : Ref sig .tc := ⟨.hbm, 327, rfl⟩
abbrev main_v230 : Ref sig .tc := ⟨.hbm, 328, rfl⟩
abbrev main_v231 : Ref sig .tc := ⟨.hbm, 329, rfl⟩
abbrev main_v232 : Ref sig .tc := ⟨.hbm, 330, rfl⟩
abbrev main_v233 : Ref sig .tc := ⟨.hbm, 331, rfl⟩
abbrev main_v234 : Ref sig .tc := ⟨.hbm, 332, rfl⟩
abbrev main_cst_57 : Ref sig .tc := ⟨.hbm, 333, rfl⟩
abbrev main_v235 : Ref sig .tc := ⟨.hbm, 334, rfl⟩
abbrev main_cst_58 : Ref sig .tc := ⟨.hbm, 335, rfl⟩
abbrev main_v236 : Ref sig .tc := ⟨.hbm, 336, rfl⟩
abbrev main_v237 : Ref sig .tc := ⟨.hbm, 337, rfl⟩
abbrev main_v238 : Ref sig .tc := ⟨.hbm, 338, rfl⟩
abbrev main_v239 : Ref sig .tc := ⟨.hbm, 339, rfl⟩
abbrev main_v240 : Ref sig .tc := ⟨.hbm, 340, rfl⟩
abbrev main_cst_59 : Ref sig .tc := ⟨.hbm, 341, rfl⟩
abbrev main_v241 : Ref sig .tc := ⟨.hbm, 342, rfl⟩
abbrev main_v242 : Ref sig .tc := ⟨.hbm, 343, rfl⟩
abbrev main_v243 : Ref sig .tc := ⟨.hbm, 344, rfl⟩
abbrev main_cst_60 : Ref sig .tc := ⟨.hbm, 345, rfl⟩
abbrev main_v244 : Ref sig .tc := ⟨.hbm, 346, rfl⟩
abbrev main_v245 : Ref sig .tc := ⟨.hbm, 347, rfl⟩
abbrev main_v246 : Ref sig .tc := ⟨.hbm, 348, rfl⟩
abbrev main_v247 : Ref sig .tc := ⟨.hbm, 349, rfl⟩
abbrev main_cst_61 : Ref sig .tc := ⟨.hbm, 350, rfl⟩
abbrev main_v248 : Ref sig .tc := ⟨.hbm, 351, rfl⟩
abbrev main_cst_62 : Ref sig .tc := ⟨.hbm, 352, rfl⟩
abbrev main_v249 : Ref sig .tc := ⟨.hbm, 353, rfl⟩
abbrev main_v250 : Ref sig .tc := ⟨.hbm, 354, rfl⟩
abbrev main_cst_63 : Ref sig .tc := ⟨.hbm, 355, rfl⟩
abbrev main_v251 : Ref sig .tc := ⟨.hbm, 356, rfl⟩
abbrev main_cst_64 : Ref sig .tc := ⟨.hbm, 357, rfl⟩
abbrev main_v252 : Ref sig .tc := ⟨.hbm, 358, rfl⟩
abbrev main_v253 : Ref sig .tc := ⟨.hbm, 359, rfl⟩
abbrev main_v254 : Ref sig .tc := ⟨.hbm, 360, rfl⟩
abbrev main_v255 : Ref sig .tc := ⟨.hbm, 361, rfl⟩
abbrev main_v256 : Ref sig .tc := ⟨.hbm, 362, rfl⟩
abbrev main_cst_65 : Ref sig .tc := ⟨.hbm, 363, rfl⟩
abbrev main_v257 : Ref sig .tc := ⟨.hbm, 364, rfl⟩
abbrev main_v258 : Ref sig .tc := ⟨.hbm, 365, rfl⟩
abbrev main_v259 : Ref sig .tc := ⟨.hbm, 366, rfl⟩
abbrev main_cst_66 : Ref sig .tc := ⟨.hbm, 367, rfl⟩
abbrev main_v260 : Ref sig .tc := ⟨.hbm, 368, rfl⟩
abbrev main_v261 : Ref sig .tc := ⟨.hbm, 369, rfl⟩
abbrev main_v262 : Ref sig .tc := ⟨.hbm, 370, rfl⟩
abbrev main_v263 : Ref sig .tc := ⟨.hbm, 371, rfl⟩
abbrev main_cst_67 : Ref sig .tc := ⟨.hbm, 372, rfl⟩
abbrev main_v264 : Ref sig .tc := ⟨.hbm, 373, rfl⟩
abbrev main_cst_68 : Ref sig .tc := ⟨.hbm, 374, rfl⟩
abbrev main_v265 : Ref sig .tc := ⟨.hbm, 375, rfl⟩
abbrev main_v266 : Ref sig .tc := ⟨.hbm, 376, rfl⟩
abbrev main_cst_69 : Ref sig .tc := ⟨.hbm, 377, rfl⟩
abbrev main_v267 : Ref sig .tc := ⟨.hbm, 378, rfl⟩
abbrev main_cst_70 : Ref sig .tc := ⟨.hbm, 379, rfl⟩
abbrev main_v268 : Ref sig .tc := ⟨.hbm, 380, rfl⟩
abbrev main_v269 : Ref sig .tc := ⟨.hbm, 381, rfl⟩
abbrev main_v270 : Ref sig .tc := ⟨.hbm, 382, rfl⟩
abbrev main_v271 : Ref sig .tc := ⟨.hbm, 383, rfl⟩
abbrev main_v272 : Ref sig .tc := ⟨.hbm, 384, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_scratch0 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [BitOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S9000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S9000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S9000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S9000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S9000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S9000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S9000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S9000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S9000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S9000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S9000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S9000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨2, ![4, 16], ![false, false]⟩

def k4_cond2 (i : grid4.Coords) : BitVec 1 :=
  let arg1 : BitVec 32 := BitVec.ofNat 32 (i 1).val
  let c15_i32 : BitVec 32 := 15#32
  let v20 : BitVec 1 := Scalar.cmpi .eq arg1 c15_i32
  let v21 : BitVec 32 := Scalar.extui v20
  let c0_i32_10 : BitVec 32 := 0#32
  let v22 : BitVec 1 := Scalar.cmpi .ne v21 c0_i32_10
  v22

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S512x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨2, ![4, 16], ![false, false]⟩

def k5_cond2 (i : grid5.Coords) : BitVec 1 :=
  let arg1 : BitVec 32 := BitVec.ofNat 32 (i 1).val
  let c15_i32 : BitVec 32 := 15#32
  let v20 : BitVec 1 := Scalar.cmpi .eq arg1 c15_i32
  let v21 : BitVec 32 := Scalar.extui v20
  let c0_i32_10 : BitVec 32 := 0#32
  let v22 : BitVec 1 := Scalar.cmpi .ne v21 c0_i32_10
  v22

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S2048x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S512x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2048x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

class Facts₀ : Prop where
  bcast_S_S1600000 : S_.BroadcastsInDim S1600000 (![] : Fin 0 → Fin S1600000.rank)
  bcast_S_S90000 : S_.BroadcastsInDim S90000 (![] : Fin 0 → Fin S90000.rank)
  bcast_S1600000_S1600000x1_0 : S1600000.BroadcastsInDim S1600000x1 (![0] : Fin 1 → Fin S1600000x1.rank)
  concatenates_S30000x64_S60000x64_S90000x64_d0 : Shape.Concatenates [S30000x64, S60000x64] S90000x64 0
  bcast_S1600000x1_S1600000x64_0_1 : S1600000x1.BroadcastsInDim S1600000x64 (![0, 1] : Fin 2 → Fin S1600000x64.rank)
  bcast_S_S90000x64 : S_.BroadcastsInDim S90000x64 (![] : Fin 0 → Fin S90000x64.rank)
  slices_S2x2x90000x64_S1x1x90000x64_0_0_0_0 : S2x2x90000x64.Slices ![0, 0, 0, 0] S1x1x90000x64
  shapeCasts_S1x1x90000x64_S90000x64 : S1x1x90000x64.ShapeCasts S90000x64
  inb_S9000x64_S9000x64_0_0 : ∀ a, (![0, 0] : Fin 2 → Nat) a + S9000x64.size a ≤ S9000x64.size a
  h_S9000x64 : 0 < S9000x64.numel
  shapeCasts_S9000x64_S9000x64 : S9000x64.ShapeCasts S9000x64
  reduces_S9000x64_S9000 : S9000x64.Reduces [1] S9000
  shapeCasts_S9000_S9000x1 : S9000.ShapeCasts S9000x1
  broadcasts_S9000x1_S9000x64 : S9000x1.Broadcasts S9000x64
  slices_S2x2x90000x64_S1x1x90000x64_0_1_0_0 : S2x2x90000x64.Slices ![0, 1, 0, 0] S1x1x90000x64
  slices_S2x2x90000x64_S1x1x90000x64_1_0_0_0 : S2x2x90000x64.Slices ![1, 0, 0, 0] S1x1x90000x64
  slices_S2x2x90000x64_S1x1x90000x64_1_1_0_0 : S2x2x90000x64.Slices ![1, 1, 0, 0] S1x1x90000x64
  slices_S90000x64_S30000x64_0_0 : S90000x64.Slices ![0, 0] S30000x64
  slices_S90000x64_S60000x64_30000_0 : S90000x64.Slices ![30000, 0] S60000x64
  bcast_S_S8192 : S_.BroadcastsInDim S8192 (![] : Fin 0 → Fin S8192.rank)
  bcast_S8192_S8192x1_0 : S8192.BroadcastsInDim S8192x1 (![0] : Fin 1 → Fin S8192x1.rank)
  reducesTo_S8192x64_S8192_d1 : S8192x64.ReducesTo [1] S8192
  h_S_ : 0 < S_.numel
  reducesTo_S8192_S_d0 : S8192.ReducesTo [0] S_
  reducesTo_S8192x64_S_d0_1 : S8192x64.ReducesTo [0, 1] S_
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  reduces_S2048x512_S2048 : S2048x512.Reduces [1] S2048
  shapeCasts_S2048_S2048x1 : S2048.ShapeCasts S2048x1
  shapeCasts_S8192x1_S8192 : S8192x1.ShapeCasts S8192
  bcast_S_S1 : S_.BroadcastsInDim S1 (![] : Fin 0 → Fin S1.rank)
  concatenates_S1_S1_S1_S1_S4_d0 : Shape.Concatenates [S1, S1, S1, S1] S4 0
  scatter_S90000_S1600000x1_S1600000_n_0_0_1_wf : ScatterDims.WF S90000 S1600000x1 S1600000 [] [0] [0] 1
  gather_S90000_S1600000x1_S1600000_n_0_n_n_0_1_1_wf : GatherDims.WF S90000 S1600000x1 S1600000 [] [0] [] [0] [] 1 ![1]
  gather_S90000x64_S1600000x1_S1600000x64_1_0_n_n_0_1_164_wf : GatherDims.WF S90000x64 S1600000x1 S1600000x64 [1] [0] [] [0] [] 1 ![1, 64]
  scatter_S90000x64_S1600000x1_S1600000x64_1_0_0_1_wf : ScatterDims.WF S90000x64 S1600000x1 S1600000x64 [1] [0] [0] 1
  gather_S30000x64_S8192x1_S8192x64_1_0_n_n_0_1_164_wf : GatherDims.WF S30000x64 S8192x1 S8192x64 [1] [0] [] [0] [] 1 ![1, 64]
  gather_S60000x64_S8192x1_S8192x64_1_0_n_n_0_1_164_wf : GatherDims.WF S60000x64 S8192x1 S8192x64 [1] [0] [] [0] [] 1 ![1, 64]
  dot_S2048x64_S512x64_S2048x512_1_1_0_0_n_n_wf : DotDims.WF S2048x64 S512x64 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S9000x64.size a ≤ S90000x64.size a
  hwx0_0 : ∀ i : grid0.Coords, EltTy.bits .f32 = 32 ∨ (Rect.block (s := S90000x64) S9000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S9000x64.size a ≤ S90000x64.size a
  hwx0_1 : ∀ i : grid0.Coords, EltTy.bits .f32 = 32 ∨ (Rect.block (s := S90000x64) S9000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S9000x64.size a ≤ S90000x64.size a
  hwx0_2 : ∀ i : grid0.Coords, EltTy.bits .f32 = 32 ∨ (Rect.block (s := S90000x64) S9000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S9000x64.size a ≤ S90000x64.size a
  hwx1_0 : ∀ i : grid1.Coords, EltTy.bits .f32 = 32 ∨ (Rect.block (s := S90000x64) S9000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S9000x64.size a ≤ S90000x64.size a
  hwx1_1 : ∀ i : grid1.Coords, EltTy.bits .f32 = 32 ∨ (Rect.block (s := S90000x64) S9000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S9000x64.size a ≤ S90000x64.size a
  hwx1_2 : ∀ i : grid1.Coords, EltTy.bits .f32 = 32 ∨ (Rect.block (s := S90000x64) S9000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S9000x64.size a ≤ S90000x64.size a
  hwx2_0 : ∀ i : grid2.Coords, EltTy.bits .f32 = 32 ∨ (Rect.block (s := S90000x64) S9000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S9000x64.size a ≤ S90000x64.size a
  hwx2_1 : ∀ i : grid2.Coords, EltTy.bits .f32 = 32 ∨ (Rect.block (s := S90000x64) S9000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S9000x64.size a ≤ S90000x64.size a
  hwx2_2 : ∀ i : grid2.Coords, EltTy.bits .f32 = 32 ∨ (Rect.block (s := S90000x64) S9000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S9000x64.size a ≤ S90000x64.size a
  hwx3_0 : ∀ i : grid3.Coords, EltTy.bits .f32 = 32 ∨ (Rect.block (s := S90000x64) S9000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S9000x64.size a ≤ S90000x64.size a
  hwx3_1 : ∀ i : grid3.Coords, EltTy.bits .f32 = 32 ∨ (Rect.block (s := S90000x64) S9000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S9000x64.size a ≤ S90000x64.size a
  hwx3_2 : ∀ i : grid3.Coords, EltTy.bits .f32 = 32 ∨ (Rect.block (s := S90000x64) S9000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x64.size a ≤ S8192x64.size a
  hwx4_0 : ∀ i : grid4.Coords, EltTy.bits .f32 = 32 ∨ (Rect.block (s := S8192x64) S2048x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x64.size a ≤ S8192x64.size a
  hwx4_1 : ∀ i : grid4.Coords, EltTy.bits .f32 = 32 ∨ (Rect.block (s := S8192x64) S512x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x1.size a ≤ S8192x1.size a
  hwx4_2 : ∀ i : grid4.Coords, EltTy.bits .f32 = 32 ∨ (Rect.block (s := S8192x1) S2048x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x64.size a ≤ S8192x64.size a
  hwx5_0 : ∀ i : grid5.Coords, EltTy.bits .f32 = 32 ∨ (Rect.block (s := S8192x64) S2048x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S512x64.size a ≤ S8192x64.size a
  hwx5_1 : ∀ i : grid5.Coords, EltTy.bits .f32 = 32 ∨ (Rect.block (s := S8192x64) S512x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x1.size a ≤ S8192x1.size a
  hwx5_2 : ∀ i : grid5.Coords, EltTy.bits .f32 = 32 ∨ (Rect.block (s := S8192x1) S2048x1.size (cc5_transform_2 i) (hinb5_2 i)).WholeWords (EltTy.packing .f32)

variable [Facts₀]

def scatter_S90000_S1600000x1_S1600000_n_0_0_1 : ScatterDims S90000 S1600000x1 S1600000 where
  updateWindowDims := []
  insertedWindowDims := [0]
  scatterDimsToOperandDims := [0]
  indexVectorDim := 1
  wf := scatter_S90000_S1600000x1_S1600000_n_0_0_1_wf
def gather_S90000_S1600000x1_S1600000_n_0_n_n_0_1_1 : GatherDims S90000 S1600000x1 S1600000 where
  offsetDims := []
  collapsedSliceDims := [0]
  operandBatchingDims := []
  startIndicesBatchingDims := []
  startIndexMap := [0]
  indexVectorDim := 1
  sliceSizes := ![1]
  wf := gather_S90000_S1600000x1_S1600000_n_0_n_n_0_1_1_wf
def gather_S90000x64_S1600000x1_S1600000x64_1_0_n_n_0_1_164 : GatherDims S90000x64 S1600000x1 S1600000x64 where
  offsetDims := [1]
  collapsedSliceDims := [0]
  operandBatchingDims := []
  startIndicesBatchingDims := []
  startIndexMap := [0]
  indexVectorDim := 1
  sliceSizes := ![1, 64]
  wf := gather_S90000x64_S1600000x1_S1600000x64_1_0_n_n_0_1_164_wf
def scatter_S90000x64_S1600000x1_S1600000x64_1_0_0_1 : ScatterDims S90000x64 S1600000x1 S1600000x64 where
  updateWindowDims := [1]
  insertedWindowDims := [0]
  scatterDimsToOperandDims := [0]
  indexVectorDim := 1
  wf := scatter_S90000x64_S1600000x1_S1600000x64_1_0_0_1_wf
def gather_S30000x64_S8192x1_S8192x64_1_0_n_n_0_1_164 : GatherDims S30000x64 S8192x1 S8192x64 where
  offsetDims := [1]
  collapsedSliceDims := [0]
  operandBatchingDims := []
  startIndicesBatchingDims := []
  startIndexMap := [0]
  indexVectorDim := 1
  sliceSizes := ![1, 64]
  wf := gather_S30000x64_S8192x1_S8192x64_1_0_n_n_0_1_164_wf
def gather_S60000x64_S8192x1_S8192x64_1_0_n_n_0_1_164 : GatherDims S60000x64 S8192x1 S8192x64 where
  offsetDims := [1]
  collapsedSliceDims := [0]
  operandBatchingDims := []
  startIndicesBatchingDims := []
  startIndexMap := [0]
  indexVectorDim := 1
  sliceSizes := ![1, 64]
  wf := gather_S60000x64_S8192x1_S8192x64_1_0_n_n_0_1_164_wf
def dot_S2048x64_S512x64_S2048x512_1_1_0_0_n_n : DotDims S2048x64 S512x64 S2048x512 where
  lhsContracting := [1]
  rhsContracting := [1]
  lhsNonContracting := [0]
  rhsNonContracting := [0]
  lhsBatch := []
  rhsBatch := []
  wf := dot_S2048x64_S512x64_S2048x512_1_1_0_0_n_n_wf

abbrev win0_0 : Pipeline.Window sig grid0 :=
  Pipeline.Window.ofSpec (Memref.whole main_v50) S9000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S9000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S9000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v66) S9000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v68) S9000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v69) S9000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v98) S9000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v100) S9000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v101) S9000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v114) S9000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v116) S9000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v117) S9000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v197) S2048x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v209) S512x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v239) S2048x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v221) S2048x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v233) S512x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v255) S2048x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

class Facts : Prop extends Facts₀ where

variable [Facts]
-- ==== ReferenceIdeal.lean ====
abbrev S8192 : Shape := ⟨1, ![8192]⟩
abbrev S30000x64 : Shape := ⟨2, ![30000, 64]⟩
abbrev S60000x64 : Shape := ⟨2, ![60000, 64]⟩
abbrev S1600000 : Shape := ⟨1, ![1600000]⟩
abbrev S2x2x90000x64 : Shape := ⟨4, ![2, 2, 90000, 64]⟩
abbrev S_ : Shape := ⟨0, ![]⟩
abbrev S90000 : Shape := ⟨1, ![90000]⟩
abbrev S1600000x1 : Shape := ⟨2, ![1600000, 1]⟩
abbrev S90000x64 : Shape := ⟨2, ![90000, 64]⟩
abbrev S1600000x64 : Shape := ⟨2, ![1600000, 64]⟩
abbrev S1x1x90000x64 : Shape := ⟨4, ![1, 1, 90000, 64]⟩
abbrev S90000x1 : Shape := ⟨2, ![90000, 1]⟩
abbrev S8192x1 : Shape := ⟨2, ![8192, 1]⟩
abbrev S8192x64 : Shape := ⟨2, ![8192, 64]⟩
abbrev S8192x8192 : Shape := ⟨2, ![8192, 8192]⟩
abbrev S1 : Shape := ⟨1, ![1]⟩
abbrev S4 : Shape := ⟨1, ![4]⟩

abbrev nBuf : Space → Nat
  | .hbm => 455
  | .vmem => 0
  | .smem => 0
  | _ => 0

abbrev hbmTy0_0 (i : Nat) : BufTy := match i % 128 with
  | 0 => ⟨S8192, .i32⟩
  | 1 => ⟨S8192, .i32⟩
  | 2 => ⟨S8192, .i32⟩
  | 3 => ⟨S30000x64, .f32⟩
  | 4 => ⟨S60000x64, .f32⟩
  | 5 => ⟨S1600000, .i32⟩
  | 6 => ⟨S1600000, .i32⟩
  | 7 => ⟨S2x2x90000x64, .f32⟩
  | 8 => ⟨S_, .f32⟩
  | 9 => ⟨S1600000, .f32⟩
  | 10 => ⟨S_, .f32⟩
  | 11 => ⟨S90000, .f32⟩
  | 12 => ⟨S1600000x1, .i32⟩
  | 13 => ⟨S90000, .f32⟩
  | 14 => ⟨S_, .f32⟩
  | 15 => ⟨S90000, .f32⟩
  | 16 => ⟨S90000, .i1⟩
  | 17 => ⟨S_, .f32⟩
  | 18 => ⟨S_, .f32⟩
  | 19 => ⟨S90000, .f32⟩
  | 20 => ⟨S90000, .f32⟩
  | 21 => ⟨S_, .f32⟩
  | 22 => ⟨S90000, .f32⟩
  | 23 => ⟨S90000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S90000x64, .f32⟩
  | 44 => ⟨S1600000x1, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S1600000x64, .f32⟩
  | 55 => ⟨S1600000x64, .f32⟩
  | 56 => ⟨S_, .f32⟩
  | 57 => ⟨S90000x64, .f32⟩
  | 58 => ⟨S1600000x1, .i32⟩
  | 59 => ⟨S90000x64, .f32⟩
  | 60 => ⟨S1600000x1, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x64, .f32⟩
  | 70 => ⟨S1600000x64, .f32⟩
  | 71 => ⟨S1600000x64, .f32⟩
  | 72 => ⟨S_, .f32⟩
  | 73 => ⟨S90000x64, .f32⟩
  | 74 => ⟨S1600000x1, .i32⟩
  | 75 => ⟨S90000x64, .f32⟩
  | 76 => ⟨S1x1x90000x64, .f32⟩
  | 77 => ⟨S90000x64, .f32⟩
  | 78 => ⟨S90000x64, .f32⟩
  | 79 => ⟨S_, .f32⟩
  | 80 => ⟨S90000, .f32⟩
  | 81 => ⟨S90000x1, .f32⟩
  | 82 => ⟨S90000x1, .f32⟩
  | 83 => ⟨S_, .f32⟩
  | 84 => ⟨S90000x1, .f32⟩
  | 85 => ⟨S90000x1, .f32⟩
  | 86 => ⟨S90000x64, .f32⟩
  | 87 => ⟨S90000x64, .f32⟩
  | 88 => ⟨S90000x64, .f32⟩
  | 89 => ⟨S90000x64, .f32⟩
  | 90 => ⟨S_, .f32⟩
  | 91 => ⟨S90000x64, .f32⟩
  | 92 => ⟨S90000x64, .f32⟩
  | 93 => ⟨S90000x64, .f32⟩
  | 94 => ⟨S1600000x1, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x64, .f32⟩
  | 104 => ⟨S1600000x64, .f32⟩
  | 105 => ⟨S1600000x64, .f32⟩
  | 106 => ⟨S_, .f32⟩
  | 107 => ⟨S90000x64, .f32⟩
  | 108 => ⟨S1600000x1, .i32⟩
  | 109 => ⟨S90000x64, .f32⟩
  | 110 => ⟨S1x1x90000x64, .f32⟩
  | 111 => ⟨S90000x64, .f32⟩
  | 112 => ⟨S90000x64, .f32⟩
  | 113 => ⟨S_, .f32⟩
  | 114 => ⟨S90000, .f32⟩
  | 115 => ⟨S90000x1, .f32⟩
  | 116 => ⟨S90000x1, .f32⟩
  | 117 => ⟨S_, .f32⟩
  | 118 => ⟨S90000x1, .f32⟩
  | 119 => ⟨S90000x1, .f32⟩
  | 120 => ⟨S90000x64, .f32⟩
  | 121 => ⟨S90000x64, .f32⟩
  | 122 => ⟨S90000x64, .f32⟩
  | 123 => ⟨S90000x64, .f32⟩
  | 124 => ⟨S_, .f32⟩
  | 125 => ⟨S90000x64, .f32⟩
  | 126 => ⟨S90000x64, .f32⟩
  | 127 => ⟨S90000x64, .f32⟩
  | _ => ⟨S8192, .i32⟩

abbrev hbmTy0_1 (i : Nat) : BufTy := match i % 128 with
  | 0 => ⟨S90000x64, .f32⟩
  | 1 => ⟨S90000x64, .f32⟩
  | 2 => ⟨S90000x64, .f32⟩
  | 3 => ⟨S1600000x1, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000x64, .f32⟩
  | 13 => ⟨S1600000x64, .f32⟩
  | 14 => ⟨S1600000x64, .f32⟩
  | 15 => ⟨S_, .f32⟩
  | 16 => ⟨S90000x64, .f32⟩
  | 17 => ⟨S1600000x1, .i32⟩
  | 18 => ⟨S90000x64, .f32⟩
  | 19 => ⟨S1600000x1, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x64, .f32⟩
  | 29 => ⟨S1600000x64, .f32⟩
  | 30 => ⟨S1600000x64, .f32⟩
  | 31 => ⟨S_, .f32⟩
  | 32 => ⟨S90000x64, .f32⟩
  | 33 => ⟨S1600000x1, .i32⟩
  | 34 => ⟨S90000x64, .f32⟩
  | 35 => ⟨S1x1x90000x64, .f32⟩
  | 36 => ⟨S90000x64, .f32⟩
  | 37 => ⟨S90000x64, .f32⟩
  | 38 => ⟨S_, .f32⟩
  | 39 => ⟨S90000, .f32⟩
  | 40 => ⟨S90000x1, .f32⟩
  | 41 => ⟨S90000x1, .f32⟩
  | 42 => ⟨S_, .f32⟩
  | 43 => ⟨S90000x1, .f32⟩
  | 44 => ⟨S90000x1, .f32⟩
  | 45 => ⟨S90000x64, .f32⟩
  | 46 => ⟨S90000x64, .f32⟩
  | 47 => ⟨S90000x64, .f32⟩
  | 48 => ⟨S90000x64, .f32⟩
  | 49 => ⟨S_, .f32⟩
  | 50 => ⟨S90000x64, .f32⟩
  | 51 => ⟨S90000x64, .f32⟩
  | 52 => ⟨S90000x64, .f32⟩
  | 53 => ⟨S1600000x1, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x64, .f32⟩
  | 63 => ⟨S1600000x64, .f32⟩
  | 64 => ⟨S1600000x64, .f32⟩
  | 65 => ⟨S_, .f32⟩
  | 66 => ⟨S90000x64, .f32⟩
  | 67 => ⟨S1600000x1, .i32⟩
  | 68 => ⟨S90000x64, .f32⟩
  | 69 => ⟨S1x1x90000x64, .f32⟩
  | 70 => ⟨S90000x64, .f32⟩
  | 71 => ⟨S90000x64, .f32⟩
  | 72 => ⟨S_, .f32⟩
  | 73 => ⟨S90000, .f32⟩
  | 74 => ⟨S90000x1, .f32⟩
  | 75 => ⟨S90000x1, .f32⟩
  | 76 => ⟨S_, .f32⟩
  | 77 => ⟨S90000x1, .f32⟩
  | 78 => ⟨S90000x1, .f32⟩
  | 79 => ⟨S90000x64, .f32⟩
  | 80 => ⟨S90000x64, .f32⟩
  | 81 => ⟨S90000x64, .f32⟩
  | 82 => ⟨S90000x64, .f32⟩
  | 83 => ⟨S_, .f32⟩
  | 84 => ⟨S90000x64, .f32⟩
  | 85 => ⟨S90000x64, .f32⟩
  | 86 => ⟨S90000x64, .f32⟩
  | 87 => ⟨S90000x64, .f32⟩
  | 88 => ⟨S90000x64, .f32⟩
  | 89 => ⟨S90000x64, .f32⟩
  | 90 => ⟨S30000x64, .f32⟩
  | 91 => ⟨S60000x64, .f32⟩
  | 92 => ⟨S30000x64, .f32⟩
  | 93 => ⟨S60000x64, .f32⟩
  | 94 => ⟨S30000x64, .f32⟩
  | 95 => ⟨S60000x64, .f32⟩
  | 96 => ⟨S_, .i32⟩
  | 97 => ⟨S8192, .i32⟩
  | 98 => ⟨S8192, .i1⟩
  | 99 => ⟨S_, .i32⟩
  | 100 => ⟨S8192, .i32⟩
  | 101 => ⟨S8192, .i32⟩
  | 102 => ⟨S8192, .i32⟩
  | 103 => ⟨S8192x1, .i32⟩
  | 104 => ⟨S8192x64, .f32⟩
  | 105 => ⟨S_, .i32⟩
  | 106 => ⟨S8192, .i32⟩
  | 107 => ⟨S8192, .i1⟩
  | 108 => ⟨S_, .i32⟩
  | 109 => ⟨S8192, .i32⟩
  | 110 => ⟨S8192, .i32⟩
  | 111 => ⟨S8192, .i32⟩
  | 112 => ⟨S8192x1, .i32⟩
  | 113 => ⟨S8192x64, .f32⟩
  | 114 => ⟨S_, .i32⟩
  | 115 => ⟨S8192, .i32⟩
  | 116 => ⟨S8192, .i1⟩
  | 117 => ⟨S_, .i32⟩
  | 118 => ⟨S8192, .i32⟩
  | 119 => ⟨S8192, .i32⟩
  | 120 => ⟨S8192, .i32⟩
  | 121 => ⟨S8192x1, .i32⟩
  | 122 => ⟨S8192x64, .f32⟩
  | 123 => ⟨S8192x64, .f32⟩
  | 124 => ⟨S_, .f32⟩
  | 125 => ⟨S8192, .f32⟩
  | 126 => ⟨S8192x64, .f32⟩
  | 127 => ⟨S_, .f32⟩
  | _ => ⟨S8192, .i32⟩

abbrev hbmTy0_2 (i : Nat) : BufTy := match i % 128 with
  | 0 => ⟨S8192, .f32⟩
  | 1 => ⟨S8192, .f32⟩
  | 2 => ⟨S_, .f32⟩
  | 3 => ⟨S8192, .f32⟩
  | 4 => ⟨S8192, .f32⟩
  | 5 => ⟨S8192, .f32⟩
  | 6 => ⟨S8192, .f32⟩
  | 7 => ⟨S8192, .i1⟩
  | 8 => ⟨S8192, .f32⟩
  | 9 => ⟨S8192, .f32⟩
  | 10 => ⟨S8192, .f32⟩
  | 11 => ⟨S8192, .f32⟩
  | 12 => ⟨S8192, .f32⟩
  | 13 => ⟨S8192, .f32⟩
  | 14 => ⟨S8192, .f32⟩
  | 15 => ⟨S8192, .f32⟩
  | 16 => ⟨S_, .f32⟩
  | 17 => ⟨S_, .f32⟩
  | 18 => ⟨S_, .f32⟩
  | 19 => ⟨S_, .f32⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S8192x64, .f32⟩
  | 29 => ⟨S8192x64, .f32⟩
  | 30 => ⟨S_, .f32⟩
  | 31 => ⟨S_, .f32⟩
  | 32 => ⟨S_, .i32⟩
  | 33 => ⟨S8192, .i32⟩
  | 34 => ⟨S8192, .i1⟩
  | 35 => ⟨S_, .i32⟩
  | 36 => ⟨S8192, .i32⟩
  | 37 => ⟨S8192, .i32⟩
  | 38 => ⟨S8192, .i32⟩
  | 39 => ⟨S8192x1, .i32⟩
  | 40 => ⟨S8192x64, .f32⟩
  | 41 => ⟨S8192x64, .f32⟩
  | 42 => ⟨S_, .f32⟩
  | 43 => ⟨S_, .f32⟩
  | 44 => ⟨S_, .f32⟩
  | 45 => ⟨S_, .i32⟩
  | 46 => ⟨S8192, .i32⟩
  | 47 => ⟨S8192, .i1⟩
  | 48 => ⟨S_, .i32⟩
  | 49 => ⟨S8192, .i32⟩
  | 50 => ⟨S8192, .i32⟩
  | 51 => ⟨S8192, .i32⟩
  | 52 => ⟨S8192x1, .i32⟩
  | 53 => ⟨S8192x64, .f32⟩
  | 54 => ⟨S8192x64, .f32⟩
  | 55 => ⟨S_, .f32⟩
  | 56 => ⟨S_, .f32⟩
  | 57 => ⟨S_, .f32⟩
  | 58 => ⟨S_, .f32⟩
  | 59 => ⟨S_, .f32⟩
  | 60 => ⟨S_, .i32⟩
  | 61 => ⟨S8192, .i32⟩
  | 62 => ⟨S8192, .i1⟩
  | 63 => ⟨S_, .i32⟩
  | 64 => ⟨S8192, .i32⟩
  | 65 => ⟨S8192, .i32⟩
  | 66 => ⟨S8192, .i32⟩
  | 67 => ⟨S8192x1, .i32⟩
  | 68 => ⟨S8192x64, .f32⟩
  | 69 => ⟨S8192x64, .f32⟩
  | 70 => ⟨S_, .f32⟩
  | 71 => ⟨S8192, .f32⟩
  | 72 => ⟨S8192x1, .f32⟩
  | 73 => ⟨S8192x1, .f32⟩
  | 74 => ⟨S_, .f32⟩
  | 75 => ⟨S8192x1, .f32⟩
  | 76 => ⟨S8192x1, .f32⟩
  | 77 => ⟨S8192x64, .f32⟩
  | 78 => ⟨S8192x64, .f32⟩
  | 79 => ⟨S_, .i32⟩
  | 80 => ⟨S8192, .i32⟩
  | 81 => ⟨S8192, .i1⟩
  | 82 => ⟨S_, .i32⟩
  | 83 => ⟨S8192, .i32⟩
  | 84 => ⟨S8192, .i32⟩
  | 85 => ⟨S8192, .i32⟩
  | 86 => ⟨S8192x1, .i32⟩
  | 87 => ⟨S8192x64, .f32⟩
  | 88 => ⟨S8192x64, .f32⟩
  | 89 => ⟨S_, .f32⟩
  | 90 => ⟨S8192, .f32⟩
  | 91 => ⟨S8192x1, .f32⟩
  | 92 => ⟨S8192x1, .f32⟩
  | 93 => ⟨S_, .f32⟩
  | 94 => ⟨S8192x1, .f32⟩
  | 95 => ⟨S8192x1, .f32⟩
  | 96 => ⟨S8192x64, .f32⟩
  | 97 => ⟨S8192x64, .f32⟩
  | 98 => ⟨S_, .i32⟩
  | 99 => ⟨S8192, .i32⟩
  | 100 => ⟨S8192, .i1⟩
  | 101 => ⟨S_, .i32⟩
  | 102 => ⟨S8192, .i32⟩
  | 103 => ⟨S8192, .i32⟩
  | 104 => ⟨S8192, .i32⟩
  | 105 => ⟨S8192x1, .i32⟩
  | 106 => ⟨S8192x64, .f32⟩
  | 107 => ⟨S8192x64, .f32⟩
  | 108 => ⟨S_, .f32⟩
  | 109 => ⟨S8192, .f32⟩
  | 110 => ⟨S8192x1, .f32⟩
  | 111 => ⟨S8192x1, .f32⟩
  | 112 => ⟨S_, .f32⟩
  | 113 => ⟨S8192x1, .f32⟩
  | 114 => ⟨S8192x1, .f32⟩
  | 115 => ⟨S8192x64, .f32⟩
  | 116 => ⟨S8192x64, .f32⟩
  | 117 => ⟨S_, .i32⟩
  | 118 => ⟨S8192, .i32⟩
  | 119 => ⟨S8192, .i1⟩
  | 120 => ⟨S_, .i32⟩
  | 121 => ⟨S8192, .i32⟩
  | 122 => ⟨S8192, .i32⟩
  | 123 => ⟨S8192, .i32⟩
  | 124 => ⟨S8192x1, .i32⟩
  | 125 => ⟨S8192x64, .f32⟩
  | 126 => ⟨S8192x64, .f32⟩
  | 127 => ⟨S_, .f32⟩
  | _ => ⟨S8192, .i32⟩

abbrev hbmTy0_3 (i : Nat) : BufTy := match i % 128 with
  | 0 => ⟨S8192, .f32⟩
  | 1 => ⟨S8192x1, .f32⟩
  | 2 => ⟨S8192x1, .f32⟩
  | 3 => ⟨S_, .f32⟩
  | 4 => ⟨S8192x1, .f32⟩
  | 5 => ⟨S8192x1, .f32⟩
  | 6 => ⟨S8192x64, .f32⟩
  | 7 => ⟨S8192x64, .f32⟩
  | 8 => ⟨S8192x64, .f32⟩
  | 9 => ⟨S_, .f32⟩
  | 10 => ⟨S8192, .f32⟩
  | 11 => ⟨S_, .f32⟩
  | 12 => ⟨S8192, .f32⟩
  | 13 => ⟨S8192, .f32⟩
  | 14 => ⟨S8192, .f32⟩
  | 15 => ⟨S8192x8192, .f32⟩
  | 16 => ⟨S_, .f32⟩
  | 17 => ⟨S8192x8192, .f32⟩
  | 18 => ⟨S8192x8192, .f32⟩
  | 19 => ⟨S8192x8192, .f32⟩
  | 20 => ⟨S_, .f32⟩
  | 21 => ⟨S8192, .f32⟩
  | 22 => ⟨S_, .f32⟩
  | 23 => ⟨S8192, .f32⟩
  | 24 => ⟨S8192, .f32⟩
  | 25 => ⟨S8192, .f32⟩
  | 26 => ⟨S_, .f32⟩
  | 27 => ⟨S8192, .f32⟩
  | 28 => ⟨S8192, .f32⟩
  | 29 => ⟨S8192, .f32⟩
  | 30 => ⟨S8192, .f32⟩
  | 31 => ⟨S_, .f32⟩
  | 32 => ⟨S_, .f32⟩
  | 33 => ⟨S_, .f32⟩
  | 34 => ⟨S_, .f32⟩
  | 35 => ⟨S8192x64, .f32⟩
  | 36 => ⟨S_, .f32⟩
  | 37 => ⟨S8192, .f32⟩
  | 38 => ⟨S_, .f32⟩
  | 39 => ⟨S8192, .f32⟩
  | 40 => ⟨S8192, .f32⟩
  | 41 => ⟨S8192, .f32⟩
  | 42 => ⟨S8192x8192, .f32⟩
  | 43 => ⟨S_, .f32⟩
  | 44 => ⟨S8192x8192, .f32⟩
  | 45 => ⟨S8192x8192, .f32⟩
  | 46 => ⟨S8192x8192, .f32⟩
  | 47 => ⟨S_, .f32⟩
  | 48 => ⟨S8192, .f32⟩
  | 49 => ⟨S_, .f32⟩
  | 50 => ⟨S8192, .f32⟩
  | 51 => ⟨S8192, .f32⟩
  | 52 => ⟨S8192, .f32⟩
  | 53 => ⟨S_, .f32⟩
  | 54 => ⟨S8192, .f32⟩
  | 55 => ⟨S8192, .f32⟩
  | 56 => ⟨S8192, .f32⟩
  | 57 => ⟨S8192, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S1, .f32⟩
  | 67 => ⟨S1, .f32⟩
  | 68 => ⟨S1, .f32⟩
  | 69 => ⟨S1, .f32⟩
  | 70 => ⟨S4, .f32⟩
  | _ => ⟨S8192, .i32⟩

abbrev hbmTy (i : Nat) : BufTy := match i / 128 with
  | 0 => hbmTy0_0 i
  | 1 => hbmTy0_1 i
  | 2 => hbmTy0_2 i
  | 3 => hbmTy0_3 i
  | _ => ⟨S8192, .i32⟩

abbrev bufTy : (tb : Table) → Fin (tcTables nBuf tb) → BufTy
  | .hbm, ⟨i, _⟩ => hbmTy i
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v6 : Ref sig .tc := ⟨.hbm, 20, rfl⟩
abbrev main_cst_3 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c_5 : Ref sig .tc := ⟨.hbm, 33, rfl⟩
abbrev main_v16 : Ref sig .tc := ⟨.hbm, 34, rfl⟩
abbrev main_v17 : Ref sig .tc := ⟨.hbm, 35, rfl⟩
abbrev main_c_6 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_7 : Ref sig .tc := ⟨.hbm, 45, rfl⟩
abbrev main_v26 : Ref sig .tc := ⟨.hbm, 46, rfl⟩
abbrev main_v27 : Ref sig .tc := ⟨.hbm, 47, rfl⟩
abbrev main_c_8 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_10 : Ref sig .tc := ⟨.hbm, 61, rfl⟩
abbrev main_v39 : Ref sig .tc := ⟨.hbm, 62, rfl⟩
abbrev main_v40 : Ref sig .tc := ⟨.hbm, 63, rfl⟩
abbrev main_c_11 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_12 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call1_v0 : Ref sig .tc := ⟨.hbm, 78, rfl⟩
abbrev main_call1_cst : Ref sig .tc := ⟨.hbm, 79, rfl⟩
abbrev main_call1_v1 : Ref sig .tc := ⟨.hbm, 80, rfl⟩
abbrev main_call1_v2 : Ref sig .tc := ⟨.hbm, 81, rfl⟩
abbrev main_v53 : Ref sig .tc := ⟨.hbm, 82, rfl⟩
abbrev main_cst_13 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_14 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_15 : Ref sig .tc := ⟨.hbm, 95, rfl⟩
abbrev main_v64 : Ref sig .tc := ⟨.hbm, 96, rfl⟩
abbrev main_v65 : Ref sig .tc := ⟨.hbm, 97, rfl⟩
abbrev main_c_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_17 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_call2_v0 : Ref sig .tc := ⟨.hbm, 112, rfl⟩
abbrev main_call2_cst : Ref sig .tc := ⟨.hbm, 113, rfl⟩
abbrev main_call2_v1 : Ref sig .tc := ⟨.hbm, 114, rfl⟩
abbrev main_call2_v2 : Ref sig .tc := ⟨.hbm, 115, rfl⟩
abbrev main_v78 : Ref sig .tc := ⟨.hbm, 116, rfl⟩
abbrev main_cst_18 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_19 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_20 : Ref sig .tc := ⟨.hbm, 132, rfl⟩
abbrev main_v92 : Ref sig .tc := ⟨.hbm, 133, rfl⟩
abbrev main_v93 : Ref sig .tc := ⟨.hbm, 134, rfl⟩
abbrev main_c_21 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_22 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_c_23 : Ref sig .tc := ⟨.hbm, 148, rfl⟩
abbrev main_v105 : Ref sig .tc := ⟨.hbm, 149, rfl⟩
abbrev main_v106 : Ref sig .tc := ⟨.hbm, 150, rfl⟩
abbrev main_c_24 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_25 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_call3_v0 : Ref sig .tc := ⟨.hbm, 165, rfl⟩
abbrev main_call3_cst : Ref sig .tc := ⟨.hbm, 166, rfl⟩
abbrev main_call3_v1 : Ref sig .tc := ⟨.hbm, 167, rfl⟩
abbrev main_call3_v2 : Ref sig .tc := ⟨.hbm, 168, rfl⟩
abbrev main_v119 : Ref sig .tc := ⟨.hbm, 169, rfl⟩
abbrev main_cst_26 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_cst_27 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_c_28 : Ref sig .tc := ⟨.hbm, 182, rfl⟩
abbrev main_v130 : Ref sig .tc := ⟨.hbm, 183, rfl⟩
abbrev main_v131 : Ref sig .tc := ⟨.hbm, 184, rfl⟩
abbrev main_c_29 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_cst_30 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_call4_v0 : Ref sig .tc := ⟨.hbm, 199, rfl⟩
abbrev main_call4_cst : Ref sig .tc := ⟨.hbm, 200, rfl⟩
abbrev main_call4_v1 : Ref sig .tc := ⟨.hbm, 201, rfl⟩
abbrev main_call4_v2 : Ref sig .tc := ⟨.hbm, 202, rfl⟩
abbrev main_v144 : Ref sig .tc := ⟨.hbm, 203, rfl⟩
abbrev main_cst_31 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_cst_32 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_c_33 : Ref sig .tc := ⟨.hbm, 224, rfl⟩
abbrev main_v163 : Ref sig .tc := ⟨.hbm, 225, rfl⟩
abbrev main_v164 : Ref sig .tc := ⟨.hbm, 226, rfl⟩
abbrev main_c_34 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_c_35 : Ref sig .tc := ⟨.hbm, 233, rfl⟩
abbrev main_v170 : Ref sig .tc := ⟨.hbm, 234, rfl⟩
abbrev main_v171 : Ref sig .tc := ⟨.hbm, 235, rfl⟩
abbrev main_c_36 : Ref sig .tc := ⟨.hbm, 236, rfl⟩
abbrev main_v172 : Ref sig .tc := ⟨.hbm, 237, rfl⟩
abbrev main_v173 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_c_37 : Ref sig .tc := ⟨.hbm, 242, rfl⟩
abbrev main_v177 : Ref sig .tc := ⟨.hbm, 243, rfl⟩
abbrev main_v178 : Ref sig .tc := ⟨.hbm, 244, rfl⟩
abbrev main_c_38 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_cst_39 : Ref sig .tc := ⟨.hbm, 252, rfl⟩
abbrev main_v185 : Ref sig .tc := ⟨.hbm, 253, rfl⟩
abbrev main_v186 : Ref sig .tc := ⟨.hbm, 254, rfl⟩
abbrev main_cst_40 : Ref sig .tc := ⟨.hbm, 255, rfl⟩
abbrev main_v187 : Ref sig .tc := ⟨.hbm, 256, rfl⟩
abbrev main_v188 : Ref sig .tc := ⟨.hbm, 257, rfl⟩
abbrev main_call5_cst : Ref sig .tc := ⟨.hbm, 258, rfl⟩
abbrev main_call5_v0 : Ref sig .tc := ⟨.hbm, 259, rfl⟩
abbrev main_call5_v1 : Ref sig .tc := ⟨.hbm, 260, rfl⟩
abbrev main_call5_v2 : Ref sig .tc := ⟨.hbm, 261, rfl⟩
abbrev main_call5_v3 : Ref sig .tc := ⟨.hbm, 262, rfl⟩
abbrev main_call5_v4 : Ref sig .tc := ⟨.hbm, 263, rfl⟩
abbrev main_call5_v5 : Ref sig .tc := ⟨.hbm, 264, rfl⟩
abbrev main_call5_v6 : Ref sig .tc := ⟨.hbm, 265, rfl⟩
abbrev main_call5_v7 : Ref sig .tc := ⟨.hbm, 266, rfl⟩
abbrev main_call5_v8 : Ref sig .tc := ⟨.hbm, 267, rfl⟩
abbrev main_call5_v9 : Ref sig .tc := ⟨.hbm, 268, rfl⟩
abbrev main_call5_v10 : Ref sig .tc := ⟨.hbm, 269, rfl⟩
abbrev main_call5_v11 : Ref sig .tc := ⟨.hbm, 270, rfl⟩
abbrev main_v189 : Ref sig .tc := ⟨.hbm, 271, rfl⟩
abbrev main_cst_41 : Ref sig .tc := ⟨.hbm, 272, rfl⟩
abbrev main_v190 : Ref sig .tc := ⟨.hbm, 273, rfl⟩
abbrev main_cst_42 : Ref sig .tc := ⟨.hbm, 274, rfl⟩
abbrev main_v191 : Ref sig .tc := ⟨.hbm, 275, rfl⟩
abbrev main_c_43 : Ref sig .tc := ⟨.hbm, 276, rfl⟩
abbrev main_v192 : Ref sig .tc := ⟨.hbm, 277, rfl⟩
abbrev main_v193 : Ref sig .tc := ⟨.hbm, 278, rfl⟩
abbrev main_c_44 : Ref sig .tc := ⟨.hbm, 279, rfl⟩
abbrev main_v194 : Ref sig .tc := ⟨.hbm, 280, rfl⟩
abbrev main_v195 : Ref sig .tc := ⟨.hbm, 281, rfl⟩
abbrev main_v196 : Ref sig .tc := ⟨.hbm, 282, rfl⟩
abbrev main_v197 : Ref sig .tc := ⟨.hbm, 283, rfl⟩
abbrev main_v198 : Ref sig .tc := ⟨.hbm, 284, rfl⟩
abbrev main_v199 : Ref sig .tc := ⟨.hbm, 285, rfl⟩
abbrev main_cst_45 : Ref sig .tc := ⟨.hbm, 286, rfl⟩
abbrev main_v200 : Ref sig .tc := ⟨.hbm, 287, rfl⟩
abbrev main_c_46 : Ref sig .tc := ⟨.hbm, 288, rfl⟩
abbrev main_v201 : Ref sig .tc := ⟨.hbm, 289, rfl⟩
abbrev main_v202 : Ref sig .tc := ⟨.hbm, 290, rfl⟩
abbrev main_c_47 : Ref sig .tc := ⟨.hbm, 291, rfl⟩
abbrev main_v203 : Ref sig .tc := ⟨.hbm, 292, rfl⟩
abbrev main_v204 : Ref sig .tc := ⟨.hbm, 293, rfl⟩
abbrev main_v205 : Ref sig .tc := ⟨.hbm, 294, rfl⟩
abbrev main_v206 : Ref sig .tc := ⟨.hbm, 295, rfl⟩
abbrev main_v207 : Ref sig .tc := ⟨.hbm, 296, rfl⟩
abbrev main_v208 : Ref sig .tc := ⟨.hbm, 297, rfl⟩
abbrev main_cst_48 : Ref sig .tc := ⟨.hbm, 298, rfl⟩
abbrev main_v209 : Ref sig .tc := ⟨.hbm, 299, rfl⟩
abbrev main_v210 : Ref sig .tc := ⟨.hbm, 300, rfl⟩
abbrev main_c_49 : Ref sig .tc := ⟨.hbm, 301, rfl⟩
abbrev main_v211 : Ref sig .tc := ⟨.hbm, 302, rfl⟩
abbrev main_v212 : Ref sig .tc := ⟨.hbm, 303, rfl⟩
abbrev main_c_50 : Ref sig .tc := ⟨.hbm, 304, rfl⟩
abbrev main_v213 : Ref sig .tc := ⟨.hbm, 305, rfl⟩
abbrev main_v214 : Ref sig .tc := ⟨.hbm, 306, rfl⟩
abbrev main_v215 : Ref sig .tc := ⟨.hbm, 307, rfl⟩
abbrev main_v216 : Ref sig .tc := ⟨.hbm, 308, rfl⟩
abbrev main_v217 : Ref sig .tc := ⟨.hbm, 309, rfl⟩
abbrev main_v218 : Ref sig .tc := ⟨.hbm, 310, rfl⟩
abbrev main_cst_51 : Ref sig .tc := ⟨.hbm, 311, rfl⟩
abbrev main_v219 : Ref sig .tc := ⟨.hbm, 312, rfl⟩
abbrev main_v220 : Ref sig .tc := ⟨.hbm, 313, rfl⟩
abbrev main_cst_52 : Ref sig .tc := ⟨.hbm, 314, rfl⟩
abbrev main_v221 : Ref sig .tc := ⟨.hbm, 315, rfl⟩
abbrev main_c_53 : Ref sig .tc := ⟨.hbm, 316, rfl⟩
abbrev main_v222 : Ref sig .tc := ⟨.hbm, 317, rfl⟩
abbrev main_v223 : Ref sig .tc := ⟨.hbm, 318, rfl⟩
abbrev main_c_54 : Ref sig .tc := ⟨.hbm, 319, rfl⟩
abbrev main_v224 : Ref sig .tc := ⟨.hbm, 320, rfl⟩
abbrev main_v225 : Ref sig .tc := ⟨.hbm, 321, rfl⟩
abbrev main_v226 : Ref sig .tc := ⟨.hbm, 322, rfl⟩
abbrev main_v227 : Ref sig .tc := ⟨.hbm, 323, rfl⟩
abbrev main_v228 : Ref sig .tc := ⟨.hbm, 324, rfl⟩
abbrev main_call6_v0 : Ref sig .tc := ⟨.hbm, 325, rfl⟩
abbrev main_call6_cst : Ref sig .tc := ⟨.hbm, 326, rfl⟩
abbrev main_call6_v1 : Ref sig .tc := ⟨.hbm, 327, rfl⟩
abbrev main_call6_v2 : Ref sig .tc := ⟨.hbm, 328, rfl⟩
abbrev main_v229 : Ref sig .tc := ⟨.hbm, 329, rfl⟩
abbrev main_cst_55 : Ref sig .tc := ⟨.hbm, 330, rfl⟩
abbrev main_v230 : Ref sig .tc := ⟨.hbm, 331, rfl⟩
abbrev main_v231 : Ref sig .tc := ⟨.hbm, 332, rfl⟩
abbrev main_v232 : Ref sig .tc := ⟨.hbm, 333, rfl⟩
abbrev main_v233 : Ref sig .tc := ⟨.hbm, 334, rfl⟩
abbrev main_c_56 : Ref sig .tc := ⟨.hbm, 335, rfl⟩
abbrev main_v234 : Ref sig .tc := ⟨.hbm, 336, rfl⟩
abbrev main_v235 : Ref sig .tc := ⟨.hbm, 337, rfl⟩
abbrev main_c_57 : Ref sig .tc := ⟨.hbm, 338, rfl⟩
abbrev main_v236 : Ref sig .tc := ⟨.hbm, 339, rfl⟩
abbrev main_v237 : Ref sig .tc := ⟨.hbm, 340, rfl⟩
abbrev main_v238 : Ref sig .tc := ⟨.hbm, 341, rfl⟩
abbrev main_v239 : Ref sig .tc := ⟨.hbm, 342, rfl⟩
abbrev main_v240 : Ref sig .tc := ⟨.hbm, 343, rfl⟩
abbrev main_call7_v0 : Ref sig .tc := ⟨.hbm, 344, rfl⟩
abbrev main_call7_cst : Ref sig .tc := ⟨.hbm, 345, rfl⟩
abbrev main_call7_v1 : Ref sig .tc := ⟨.hbm, 346, rfl⟩
abbrev main_call7_v2 : Ref sig .tc := ⟨.hbm, 347, rfl⟩
abbrev main_v241 : Ref sig .tc := ⟨.hbm, 348, rfl⟩
abbrev main_cst_58 : Ref sig .tc := ⟨.hbm, 349, rfl⟩
abbrev main_v242 : Ref sig .tc := ⟨.hbm, 350, rfl⟩
abbrev main_v243 : Ref sig .tc := ⟨.hbm, 351, rfl⟩
abbrev main_v244 : Ref sig .tc := ⟨.hbm, 352, rfl⟩
abbrev main_v245 : Ref sig .tc := ⟨.hbm, 353, rfl⟩
abbrev main_c_59 : Ref sig .tc := ⟨.hbm, 354, rfl⟩
abbrev main_v246 : Ref sig .tc := ⟨.hbm, 355, rfl⟩
abbrev main_v247 : Ref sig .tc := ⟨.hbm, 356, rfl⟩
abbrev main_c_60 : Ref sig .tc := ⟨.hbm, 357, rfl⟩
abbrev main_v248 : Ref sig .tc := ⟨.hbm, 358, rfl⟩
abbrev main_v249 : Ref sig .tc := ⟨.hbm, 359, rfl⟩
abbrev main_v250 : Ref sig .tc := ⟨.hbm, 360, rfl⟩
abbrev main_v251 : Ref sig .tc := ⟨.hbm, 361, rfl⟩
abbrev main_v252 : Ref sig .tc := ⟨.hbm, 362, rfl⟩
abbrev main_call8_v0 : Ref sig .tc := ⟨.hbm, 363, rfl⟩
abbrev main_call8_cst : Ref sig .tc := ⟨.hbm, 364, rfl⟩
abbrev main_call8_v1 : Ref sig .tc := ⟨.hbm, 365, rfl⟩
abbrev main_call8_v2 : Ref sig .tc := ⟨.hbm, 366, rfl⟩
abbrev main_v253 : Ref sig .tc := ⟨.hbm, 367, rfl⟩
abbrev main_cst_61 : Ref sig .tc := ⟨.hbm, 368, rfl⟩
abbrev main_v254 : Ref sig .tc := ⟨.hbm, 369, rfl⟩
abbrev main_v255 : Ref sig .tc := ⟨.hbm, 370, rfl⟩
abbrev main_v256 : Ref sig .tc := ⟨.hbm, 371, rfl⟩
abbrev main_v257 : Ref sig .tc := ⟨.hbm, 372, rfl⟩
abbrev main_c_62 : Ref sig .tc := ⟨.hbm, 373, rfl⟩
abbrev main_v258 : Ref sig .tc := ⟨.hbm, 374, rfl⟩
abbrev main_v259 : Ref sig .tc := ⟨.hbm, 375, rfl⟩
abbrev main_c_63 : Ref sig .tc := ⟨.hbm, 376, rfl⟩
abbrev main_v260 : Ref sig .tc := ⟨.hbm, 377, rfl⟩
abbrev main_v261 : Ref sig .tc := ⟨.hbm, 378, rfl⟩
abbrev main_v262 : Ref sig .tc := ⟨.hbm, 379, rfl⟩
abbrev main_v263 : Ref sig .tc := ⟨.hbm, 380, rfl⟩
abbrev main_v264 : Ref sig .tc := ⟨.hbm, 381, rfl⟩
abbrev main_call9_v0 : Ref sig .tc := ⟨.hbm, 382, rfl⟩
abbrev main_call9_cst : Ref sig .tc := ⟨.hbm, 383, rfl⟩
abbrev main_call9_v1 : Ref sig .tc := ⟨.hbm, 384, rfl⟩
abbrev main_call9_v2 : Ref sig .tc := ⟨.hbm, 385, rfl⟩
abbrev main_v265 : Ref sig .tc := ⟨.hbm, 386, rfl⟩
abbrev main_cst_64 : Ref sig .tc := ⟨.hbm, 387, rfl⟩
abbrev main_v266 : Ref sig .tc := ⟨.hbm, 388, rfl⟩
abbrev main_v267 : Ref sig .tc := ⟨.hbm, 389, rfl⟩
abbrev main_v268 : Ref sig .tc := ⟨.hbm, 390, rfl⟩
abbrev main_v269 : Ref sig .tc := ⟨.hbm, 391, rfl⟩
abbrev main_v270 : Ref sig .tc := ⟨.hbm, 392, rfl⟩
abbrev main_cst_65 : Ref sig .tc := ⟨.hbm, 393, rfl⟩
abbrev main_v271 : Ref sig .tc := ⟨.hbm, 394, rfl⟩
abbrev main_cst_66 : Ref sig .tc := ⟨.hbm, 395, rfl⟩
abbrev main_v272 : Ref sig .tc := ⟨.hbm, 396, rfl⟩
abbrev main_v273 : Ref sig .tc := ⟨.hbm, 397, rfl⟩
abbrev main_v274 : Ref sig .tc := ⟨.hbm, 398, rfl⟩
abbrev main_v275 : Ref sig .tc := ⟨.hbm, 399, rfl⟩
abbrev main_cst_67 : Ref sig .tc := ⟨.hbm, 400, rfl⟩
abbrev main_v276 : Ref sig .tc := ⟨.hbm, 401, rfl⟩
abbrev main_v277 : Ref sig .tc := ⟨.hbm, 402, rfl⟩
abbrev main_v278 : Ref sig .tc := ⟨.hbm, 403, rfl⟩
abbrev main_cst_68 : Ref sig .tc := ⟨.hbm, 404, rfl⟩
abbrev main_v279 : Ref sig .tc := ⟨.hbm, 405, rfl⟩
abbrev main_cst_69 : Ref sig .tc := ⟨.hbm, 406, rfl⟩
abbrev main_v280 : Ref sig .tc := ⟨.hbm, 407, rfl⟩
abbrev main_v281 : Ref sig .tc := ⟨.hbm, 408, rfl⟩
abbrev main_v282 : Ref sig .tc := ⟨.hbm, 409, rfl⟩
abbrev main_cst_70 : Ref sig .tc := ⟨.hbm, 410, rfl⟩
abbrev main_v283 : Ref sig .tc := ⟨.hbm, 411, rfl⟩
abbrev main_v284 : Ref sig .tc := ⟨.hbm, 412, rfl⟩
abbrev main_v285 : Ref sig .tc := ⟨.hbm, 413, rfl⟩
abbrev main_v286 : Ref sig .tc := ⟨.hbm, 414, rfl⟩
abbrev main_cst_71 : Ref sig .tc := ⟨.hbm, 415, rfl⟩
abbrev main_v287 : Ref sig .tc := ⟨.hbm, 416, rfl⟩
abbrev main_cst_72 : Ref sig .tc := ⟨.hbm, 417, rfl⟩
abbrev main_v288 : Ref sig .tc := ⟨.hbm, 418, rfl⟩
abbrev main_v289 : Ref sig .tc := ⟨.hbm, 419, rfl⟩
abbrev main_cst_73 : Ref sig .tc := ⟨.hbm, 420, rfl⟩
abbrev main_v290 : Ref sig .tc := ⟨.hbm, 421, rfl⟩
abbrev main_cst_74 : Ref sig .tc := ⟨.hbm, 422, rfl⟩
abbrev main_v291 : Ref sig .tc := ⟨.hbm, 423, rfl⟩
abbrev main_v292 : Ref sig .tc := ⟨.hbm, 424, rfl⟩
abbrev main_v293 : Ref sig .tc := ⟨.hbm, 425, rfl⟩
abbrev main_v294 : Ref sig .tc := ⟨.hbm, 426, rfl⟩
abbrev main_cst_75 : Ref sig .tc := ⟨.hbm, 427, rfl⟩
abbrev main_v295 : Ref sig .tc := ⟨.hbm, 428, rfl⟩
abbrev main_v296 : Ref sig .tc := ⟨.hbm, 429, rfl⟩
abbrev main_v297 : Ref sig .tc := ⟨.hbm, 430, rfl⟩
abbrev main_cst_76 : Ref sig .tc := ⟨.hbm, 431, rfl⟩
abbrev main_v298 : Ref sig .tc := ⟨.hbm, 432, rfl⟩
abbrev main_cst_77 : Ref sig .tc := ⟨.hbm, 433, rfl⟩
abbrev main_v299 : Ref sig .tc := ⟨.hbm, 434, rfl⟩
abbrev main_v300 : Ref sig .tc := ⟨.hbm, 435, rfl⟩
abbrev main_v301 : Ref sig .tc := ⟨.hbm, 436, rfl⟩
abbrev main_cst_78 : Ref sig .tc := ⟨.hbm, 437, rfl⟩
abbrev main_v302 : Ref sig .tc := ⟨.hbm, 438, rfl⟩
abbrev main_v303 : Ref sig .tc := ⟨.hbm, 439, rfl⟩
abbrev main_v304 : Ref sig .tc := ⟨.hbm, 440, rfl⟩
abbrev main_v305 : Ref sig .tc := ⟨.hbm, 441, rfl⟩
abbrev main_cst_79 : Ref sig .tc := ⟨.hbm, 442, rfl⟩
abbrev main_v306 : Ref sig .tc := ⟨.hbm, 443, rfl⟩
abbrev main_cst_80 : Ref sig .tc := ⟨.hbm, 444, rfl⟩
abbrev main_v307 : Ref sig .tc := ⟨.hbm, 445, rfl⟩
abbrev main_v308 : Ref sig .tc := ⟨.hbm, 446, rfl⟩
abbrev main_cst_81 : Ref sig .tc := ⟨.hbm, 447, rfl⟩
abbrev main_v309 : Ref sig .tc := ⟨.hbm, 448, rfl⟩
abbrev main_cst_82 : Ref sig .tc := ⟨.hbm, 449, rfl⟩
abbrev main_v310 : Ref sig .tc := ⟨.hbm, 450, rfl⟩
abbrev main_v311 : Ref sig .tc := ⟨.hbm, 451, rfl⟩
abbrev main_v312 : Ref sig .tc := ⟨.hbm, 452, rfl⟩
abbrev main_v313 : Ref sig .tc := ⟨.hbm, 453, rfl⟩
abbrev main_v314 : Ref sig .tc := ⟨.hbm, 454, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S90000 : S_.BroadcastsInDim S90000 (![] : Fin 0 → Fin S90000.rank)
  bcast_S1600000_S1600000x1_0 : S1600000.BroadcastsInDim S1600000x1 (![0] : Fin 1 → Fin S1600000x1.rank)
  concatenates_S30000x64_S60000x64_S90000x64_d0 : Shape.Concatenates [S30000x64, S60000x64] S90000x64 0
  bcast_S1600000x1_S1600000x64_0_1 : S1600000x1.BroadcastsInDim S1600000x64 (![0, 1] : Fin 2 → Fin S1600000x64.rank)
  bcast_S_S90000x64 : S_.BroadcastsInDim S90000x64 (![] : Fin 0 → Fin S90000x64.rank)
  slices_S2x2x90000x64_S1x1x90000x64_0_0_0_0 : S2x2x90000x64.Slices ![0, 0, 0, 0] S1x1x90000x64
  shapeCasts_S1x1x90000x64_S90000x64 : S1x1x90000x64.ShapeCasts S90000x64
  reducesTo_S90000x64_S90000_d1 : S90000x64.ReducesTo [1] S90000
  h_S_ : 0 < S_.numel
  bcast_S90000_S90000x1_0 : S90000.BroadcastsInDim S90000x1 (![0] : Fin 1 → Fin S90000x1.rank)
  bcast_S_S90000x1 : S_.BroadcastsInDim S90000x1 (![] : Fin 0 → Fin S90000x1.rank)
  bcast_S90000x1_S90000x64_0_1 : S90000x1.BroadcastsInDim S90000x64 (![0, 1] : Fin 2 → Fin S90000x64.rank)
  slices_S2x2x90000x64_S1x1x90000x64_0_1_0_0 : S2x2x90000x64.Slices ![0, 1, 0, 0] S1x1x90000x64
  slices_S2x2x90000x64_S1x1x90000x64_1_0_0_0 : S2x2x90000x64.Slices ![1, 0, 0, 0] S1x1x90000x64
  slices_S2x2x90000x64_S1x1x90000x64_1_1_0_0 : S2x2x90000x64.Slices ![1, 1, 0, 0] S1x1x90000x64
  slices_S90000x64_S30000x64_0_0 : S90000x64.Slices ![0, 0] S30000x64
  slices_S90000x64_S60000x64_30000_0 : S90000x64.Slices ![30000, 0] S60000x64
  bcast_S_S8192 : S_.BroadcastsInDim S8192 (![] : Fin 0 → Fin S8192.rank)
  bcast_S8192_S8192x1_0 : S8192.BroadcastsInDim S8192x1 (![0] : Fin 1 → Fin S8192x1.rank)
  reducesTo_S8192x64_S8192_d1 : S8192x64.ReducesTo [1] S8192
  reducesTo_S8192_S_d0 : S8192.ReducesTo [0] S_
  reducesTo_S8192x64_S_d0_1 : S8192x64.ReducesTo [0, 1] S_
  bcast_S_S8192x1 : S_.BroadcastsInDim S8192x1 (![] : Fin 0 → Fin S8192x1.rank)
  bcast_S8192x1_S8192x64_0_1 : S8192x1.BroadcastsInDim S8192x64 (![0, 1] : Fin 2 → Fin S8192x64.rank)
  bcast_S_S8192x8192 : S_.BroadcastsInDim S8192x8192 (![] : Fin 0 → Fin S8192x8192.rank)
  reducesTo_S8192x8192_S8192_d1 : S8192x8192.ReducesTo [1] S8192
  bcast_S_S1 : S_.BroadcastsInDim S1 (![] : Fin 0 → Fin S1.rank)
  concatenates_S1_S1_S1_S1_S4_d0 : Shape.Concatenates [S1, S1, S1, S1] S4 0
  scatter_S90000_S1600000x1_S1600000_n_0_0_1_wf : ScatterDims.WF S90000 S1600000x1 S1600000 [] [0] [0] 1
  gather_S90000_S1600000x1_S1600000_n_0_n_n_0_1_1_wf : GatherDims.WF S90000 S1600000x1 S1600000 [] [0] [] [0] [] 1 ![1]
  gather_S90000x64_S1600000x1_S1600000x64_1_0_n_n_0_1_164_wf : GatherDims.WF S90000x64 S1600000x1 S1600000x64 [1] [0] [] [0] [] 1 ![1, 64]
  scatter_S90000x64_S1600000x1_S1600000x64_1_0_0_1_wf : ScatterDims.WF S90000x64 S1600000x1 S1600000x64 [1] [0] [0] 1
  gather_S30000x64_S8192x1_S8192x64_1_0_n_n_0_1_164_wf : GatherDims.WF S30000x64 S8192x1 S8192x64 [1] [0] [] [0] [] 1 ![1, 64]
  gather_S60000x64_S8192x1_S8192x64_1_0_n_n_0_1_164_wf : GatherDims.WF S60000x64 S8192x1 S8192x64 [1] [0] [] [0] [] 1 ![1, 64]
  dot_S8192x64_S8192x64_S8192x8192_1_1_0_0_n_n_wf : DotDims.WF S8192x64 S8192x64 S8192x8192 [1] [1] [0] [0] [] []

variable [Facts₀]

def scatter_S90000_S1600000x1_S1600000_n_0_0_1 : ScatterDims S90000 S1600000x1 S1600000 where
  updateWindowDims := []
  insertedWindowDims := [0]
  scatterDimsToOperandDims := [0]
  indexVectorDim := 1
  wf := scatter_S90000_S1600000x1_S1600000_n_0_0_1_wf
def gather_S90000_S1600000x1_S1600000_n_0_n_n_0_1_1 : GatherDims S90000 S1600000x1 S1600000 where
  offsetDims := []
  collapsedSliceDims := [0]
  operandBatchingDims := []
  startIndicesBatchingDims := []
  startIndexMap := [0]
  indexVectorDim := 1
  sliceSizes := ![1]
  wf := gather_S90000_S1600000x1_S1600000_n_0_n_n_0_1_1_wf
def gather_S90000x64_S1600000x1_S1600000x64_1_0_n_n_0_1_164 : GatherDims S90000x64 S1600000x1 S1600000x64 where
  offsetDims := [1]
  collapsedSliceDims := [0]
  operandBatchingDims := []
  startIndicesBatchingDims := []
  startIndexMap := [0]
  indexVectorDim := 1
  sliceSizes := ![1, 64]
  wf := gather_S90000x64_S1600000x1_S1600000x64_1_0_n_n_0_1_164_wf
def scatter_S90000x64_S1600000x1_S1600000x64_1_0_0_1 : ScatterDims S90000x64 S1600000x1 S1600000x64 where
  updateWindowDims := [1]
  insertedWindowDims := [0]
  scatterDimsToOperandDims := [0]
  indexVectorDim := 1
  wf := scatter_S90000x64_S1600000x1_S1600000x64_1_0_0_1_wf
def gather_S30000x64_S8192x1_S8192x64_1_0_n_n_0_1_164 : GatherDims S30000x64 S8192x1 S8192x64 where
  offsetDims := [1]
  collapsedSliceDims := [0]
  operandBatchingDims := []
  startIndicesBatchingDims := []
  startIndexMap := [0]
  indexVectorDim := 1
  sliceSizes := ![1, 64]
  wf := gather_S30000x64_S8192x1_S8192x64_1_0_n_n_0_1_164_wf
def gather_S60000x64_S8192x1_S8192x64_1_0_n_n_0_1_164 : GatherDims S60000x64 S8192x1 S8192x64 where
  offsetDims := [1]
  collapsedSliceDims := [0]
  operandBatchingDims := []
  startIndicesBatchingDims := []
  startIndexMap := [0]
  indexVectorDim := 1
  sliceSizes := ![1, 64]
  wf := gather_S60000x64_S8192x1_S8192x64_1_0_n_n_0_1_164_wf
def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.Preserves.lean ====
/-
  The idealized kernel differs from the word-level kernel at six sites, and each difference is an instance of a stated rule.

  Four sites (one per perturbation kernel) compute sign(x) for the update x + n̂ · sign(x) · ε: the word-level program builds
  the float whose pattern is 1.0 with x's sign bit; over the extended reals that float is −1 where x < 0 and +1 elsewhere, which
  is the select the idealized program prints. (The kernel then replaces it by x itself wherever |x| > 0 fails, so sign(0) = 0.)

  Two sites (one per negative-sum kernel) are the scale applied to the score matrix before the exponential. The source writes
  it as 1.0 / TEMP with TEMP = 0.2, which is folded to the float 5.0; the reference divides the same scores by the float nearest
  0.2, which is 13421773 / 67108864. The float 5.0 is the nearest float to the exact reciprocal 67108864 / 13421773, and that
  reciprocal is what the name "inv_temp" denotes over the extended reals.
-/
import proofs.«131157_j87900800680713_1_alg».proof.Defs

noncomputable section

open Idealize.ShloMosaic

namespace Cert.Proof.Parts

/-- The six rewrites, in the order the statement lists them: four sign-bit windows on [9000, 64] blocks, then the named
    reciprocal of the temperature at its two sites. -/
theorem preserves : Cert.preserves_Kernel_KernelIdeal :=
  ⟨IdealRules.sign_bit.statement Cert.KernelIdeal.S9000x64 .f32,
   IdealRules.sign_bit.statement Cert.KernelIdeal.S9000x64 .f32,
   IdealRules.sign_bit.statement Cert.KernelIdeal.S9000x64 .f32,
   IdealRules.sign_bit.statement Cert.KernelIdeal.S9000x64 .f32,
   IdealRules.named_const.statement Cert.KernelIdeal.κ "inv_temp" .f32 0x40A00000#32 ((67108864 / 13421773 : ℝ) : EReal) rfl,
   IdealRules.named_const.statement Cert.KernelIdeal.κ "inv_temp" .f32 0x40A00000#32 ((67108864 / 13421773 : ℝ) : EReal) rfl⟩

end Cert.Proof.Parts

end
-- ==== Proof.PerturbB0.lean ====
/-
  One perturbation kernel of the program, as the pipeline runs it: the update  out = x + n̂ · sign(x) · ε  on a [90000, 64]
  array, ten blocks of 9000 rows, one block per grid point. Each row of the noise block is divided by its Euclidean length
  (clamped below), so a block of the result depends only on the same block of x and of the noise: nothing is carried from one
  grid point to the next, and the three windows' blocks tile their arrays.

  This module states, at any contents V of the buffers when the region is entered: what each window's block is at a point,
  what the body leaves in the output window's staging buffer (its one store, whole), the body's run on whole staging buffers,
  the pipeline's proof data, and the body obligation at every point.
-/
import proofs.«131157_j87900800680713_1_alg».proof.Proof.Gen.Kernel.Launch
import proofs.«131157_j87900800680713_1_alg».proof.Proof.Gen.Kernel.Skeleton
import proofs.«131157_j87900800680713_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Perturb0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at grid point `t`: rows 9000·t … 9000·t + 8999 of its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's staging buffer holds x's block at every point, for any proof data over `V` whose body leaves that block
    in place: the window is an input, never idle, its blocks tile the array. -/
theorem found_x {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The same for the noise window. -/
theorem found_nz {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output window's buffer -/

/-- The one rectangle the body loads and stores through: the whole [9000, 64] block. -/
abbrev whole : Rect S9000x64 := Rect.unit (s := S9000x64) ![0, 0] S9000x64.size inb_S9000x64_S9000x64_0_0

/-- The output block after the body, from the x block and the noise block: the body's single store, of the update
    x + n̂ · sign(x) · ε computed from the two loaded blocks. -/
def stored (x nz : Vec F S9000x64 .f32) : Vec F S9000x64 .f32 :=
  View.canon [⟨whole, k0_pay1 (View.ld nz whole) (View.ld x whole)⟩]

/-- That store covers the block. -/
theorem stored_covers (p : Vec F S9000x64 .f32) (y : S9000x64.Idx) :
    ∃ pc ∈ ([⟨whole, p⟩] : List (View.Piece (Elt F) S9000x64 .f32)), y ∈ pc.1.set :=
  View.cover_of_tiled [⟨whole, p⟩] S9000x64.size (by rfl) y

/-! ## The body's run -/

set_option maxHeartbeats 1000000 in
/-- The body on whole staging buffers — x's holding `x`, the noise's holding `nz`, the output's holding anything — runs to its
    end leaving the inputs as they were and the output's buffer at `stored x nz`. -/
theorem body_run (c : Dev nD) (E : Set ℕ) (i : grid0.Coords)
    (arg1 : Memref sig .tc .vmem S9000x64 .f32) (harg1 : arg1.IsWhole) (arg2 : Memref sig .tc .vmem S9000x64 .f32) (harg2 : arg2.IsWhole)
    (arg3 : Memref sig .tc .vmem S9000x64 .f32) (harg3 : arg3.IsWhole)
    (x nz : Vec F S9000x64 .f32) (K : PUnit → sProp 𝕄) :
    iprop(owns (c : Thread nD τ) arg1 fullShare x ∗ owns (c : Thread nD τ) arg2 fullShare nz ∗ (∃ d, owns (c : Thread nD τ) arg3 fullShare d)
        ∗ (iprop(owns (c : Thread nD τ) arg1 fullShare x ∗ owns (c : Thread nD τ) arg2 fullShare nz
            ∗ owns (c : Thread nD τ) arg3 fullShare (stored x nz)) -∗ K ⟨⟩))
      ⊢ wp frame (wpE (defs₀ (F := F)) Variants.none c none) E (cc0__perturb_kernel i arg1 harg1 arg2 harg2 arg3 harg3) K := by
  simp only [cc0__perturb_kernel_eq_skeleton]; unfold cc0__perturb_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_covers _)

/-! ## The pipeline's proof data -/

/-- On core `c`: the arrays as the region finds them; after the body at point `t` each input's buffer still at its block and
    the output's at `stored` of the two input blocks; the invariant is the scoped rest and the generator register, untouched;
    nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => stored (blockAt V c 0 t) (blockAt V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem dat_after_x (c : Dev nD) (t : Fin cfg0.N) : (dat V c).after 0 t = blockAt V c 0 t := by dsimp only [dat]
theorem dat_after_nz (c : Dev nD) (t : Fin cfg0.N) : (dat V c).after 1 t = blockAt V c 1 t := by dsimp only [dat]
theorem dat_after_out (c : Dev nD) (t : Fin cfg0.N) :
    (dat V c).after 2 t = stored (blockAt V c 0 t) (blockAt V c 1 t) := by dsimp only [dat]

theorem dat_before_x (c : Dev nD) (t : Fin cfg0.N) (d) : (dat V c).before 0 t d = blockAt V c 0 t :=
  found_x V (dat V c) (dat_A V c 0) (dat_after_x V c) t d
theorem dat_before_nz (c : Dev nD) (t : Fin cfg0.N) (d) : (dat V c).before 1 t d = blockAt V c 1 t :=
  found_nz V (dat V c) (dat_A V c 1) (dat_after_nz V c) t d

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' buffers hold their blocks, so `body_run` applies; the invariant and what the core
    owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [dat_before_x, dat_before_nz]
  rw [show (dat V c).Φ t.succ = (dat V c).Φ t.castSucc from rfl,
    show (dat V c).owesAt () t.succ = (dat V c).owesAt () t.castSucc from rfl,
    dat_after_x, dat_after_nz, dat_after_out]
  iintro ⟨HΦ, Ho, ⟨%d0, H0⟩, ⟨%d1, H1⟩, ⟨%d2, H2⟩⟩
  iapply (body_run c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Perturb0

end
-- ==== Proof.PerturbB1.lean ====
/-
  One perturbation kernel of the program, as the pipeline runs it: the update  out = x + n̂ · sign(x) · ε  on a [90000, 64]
  array, ten blocks of 9000 rows, one block per grid point. Each row of the noise block is divided by its Euclidean length
  (clamped below), so a block of the result depends only on the same block of x and of the noise: nothing is carried from one
  grid point to the next, and the three windows' blocks tile their arrays.

  This module states, at any contents V of the buffers when the region is entered: what each window's block is at a point,
  what the body leaves in the output window's staging buffer (its one store, whole), the body's run on whole staging buffers,
  the pipeline's proof data, and the body obligation at every point.
-/
import proofs.«131157_j87900800680713_1_alg».proof.Proof.Gen.Kernel.Launch
import proofs.«131157_j87900800680713_1_alg».proof.Proof.Gen.Kernel.Skeleton
import proofs.«131157_j87900800680713_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Perturb1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at grid point `t`: rows 9000·t … 9000·t + 8999 of its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x window's staging buffer holds x's block at every point, for any proof data over `V` whose body leaves that block
    in place: the window is an input, never idle, its blocks tile the array. -/
theorem found_x {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The same for the noise window. -/
theorem found_nz {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output window's buffer -/

/-- The one rectangle the body loads and stores through: the whole [9000, 64] block. -/
abbrev whole : Rect S9000x64 := Rect.unit (s := S9000x64) ![0, 0] S9000x64.size inb_S9000x64_S9000x64_0_0

/-- The output block after the body, from the x block and the noise block: the body's single store, of the update
    x + n̂ · sign(x) · ε computed from the two loaded blocks. -/
def stored (x nz : Vec F S9000x64 .f32) : Vec F S9000x64 .f32 :=
  View.canon [⟨whole, k1_pay1 (View.ld nz whole) (View.ld x whole)⟩]

/-- That store covers the block. -/
theorem stored_covers (p : Vec F S9000x64 .f32) (y : S9000x64.Idx) :
    ∃ pc ∈ ([⟨whole, p⟩] : List (View.Piece (Elt F) S9000x64 .f32)), y ∈ pc.1.set :=
  View.cover_of_tiled [⟨whole, p⟩] S9000x64.size (by rfl) y

/-! ## The body's run -/

set_option maxHeartbeats 1000000 in
/-- The body on whole staging buffers — x's holding `x`, the noise's holding `nz`, the output's holding anything — runs to its
    end leaving the inputs as they were and the output's buffer at `stored x nz`. -/
theorem body_run (c : Dev nD) (E : Set ℕ) (i : grid1.Coords)
    (arg1 : Memref sig .tc .vmem S9000x64 .f32) (harg1 : arg1.IsWhole) (arg2 : Memref sig .tc .vmem S9000x64 .f32) (harg2 : arg2.IsWhole)
    (arg3 : Memref sig .tc .vmem S9000x64 .f32) (harg3 : arg3.IsWhole)
    (x nz : Vec F S9000x64 .f32) (K : PUnit → sProp 𝕄) :
    iprop(owns (c : Thread nD τ) arg1 fullShare x ∗ owns (c : Thread nD τ) arg2 fullShare nz ∗ (∃ d, owns (c : Thread nD τ) arg3 fullShare d)
        ∗ (iprop(owns (c : Thread nD τ) arg1 fullShare x ∗ owns (c : Thread nD τ) arg2 fullShare nz
            ∗ owns (c : Thread nD τ) arg3 fullShare (stored x nz)) -∗ K ⟨⟩))
      ⊢ wp frame (wpE (defs₀ (F := F)) Variants.none c none) E (cc1__perturb_kernel i arg1 harg1 arg2 harg2 arg3 harg3) K := by
  simp only [cc1__perturb_kernel_eq_skeleton]; unfold cc1__perturb_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_covers _)

/-! ## The pipeline's proof data -/

/-- On core `c`: the arrays as the region finds them; after the body at point `t` each input's buffer still at its block and
    the output's at `stored` of the two input blocks; the invariant is the scoped rest and the generator register, untouched;
    nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => stored (blockAt V c 0 t) (blockAt V c 1 t)
  Φ _ := Pipeline.ΦA spec1 c
  q _ := fullShare
  owed _ := 0

theorem dat_A (c : Dev nD) (w : Fin cfg1.W) : (dat V c).A w = V c (Pipeline.arrRef spec1 w) := by
  dsimp only [dat]

theorem dat_after_x (c : Dev nD) (t : Fin cfg1.N) : (dat V c).after 0 t = blockAt V c 0 t := by dsimp only [dat]
theorem dat_after_nz (c : Dev nD) (t : Fin cfg1.N) : (dat V c).after 1 t = blockAt V c 1 t := by dsimp only [dat]
theorem dat_after_out (c : Dev nD) (t : Fin cfg1.N) :
    (dat V c).after 2 t = stored (blockAt V c 0 t) (blockAt V c 1 t) := by dsimp only [dat]

theorem dat_before_x (c : Dev nD) (t : Fin cfg1.N) (d) : (dat V c).before 0 t d = blockAt V c 0 t :=
  found_x V (dat V c) (dat_A V c 0) (dat_after_x V c) t d
theorem dat_before_nz (c : Dev nD) (t : Fin cfg1.N) (d) : (dat V c).before 1 t d = blockAt V c 1 t :=
  found_nz V (dat V c) (dat_A V c 1) (dat_after_nz V c) t d

/-! ## The body obligation -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' buffers hold their blocks, so `body_run` applies; the invariant and what the core
    owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [dat_before_x, dat_before_nz]
  rw [show (dat V c).Φ t.succ = (dat V c).Φ t.castSucc from rfl,
    show (dat V c).owesAt () t.succ = (dat V c).owesAt () t.castSucc from rfl,
    dat_after_x, dat_after_nz, dat_after_out]
  iintro ⟨HΦ, Ho, ⟨%d0, H0⟩, ⟨%d1, H1⟩, ⟨%d2, H2⟩⟩
  iapply (body_run c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Perturb1

end
-- ==== Proof.PerturbB2.lean ====
/-
  One perturbation kernel of the program, as the pipeline runs it: the update  out = x + n̂ · sign(x) · ε  on a [90000, 64]
  array, ten blocks of 9000 rows, one block per grid point. Each row of the noise block is divided by its Euclidean length
  (clamped below), so a block of the result depends only on the same block of x and of the noise: nothing is carried from one
  grid point to the next, and the three windows' blocks tile their arrays.

  This module states, at any contents V of the buffers when the region is entered: what each window's block is at a point,
  what the body leaves in the output window's staging buffer (its one store, whole), the body's run on whole staging buffers,
  the pipeline's proof data, and the body obligation at every point.
-/
import proofs.«131157_j87900800680713_1_alg».proof.Proof.Gen.Kernel.Launch
import proofs.«131157_j87900800680713_1_alg».proof.Proof.Gen.Kernel.Skeleton
import proofs.«131157_j87900800680713_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Perturb2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at grid point `t`: rows 9000·t … 9000·t + 8999 of its array as the region finds it. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The x window's staging buffer holds x's block at every point, for any proof data over `V` whose body leaves that block
    in place: the window is an input, never idle, its blocks tile the array. -/
theorem found_x {c : Dev nD} (dat : Dat τ (Elt F) Unit ℕ (UR sig nD τ) ℕ cfg2 c) (hA : dat.A 0 = V c (Pipeline.arrRef spec2 0))
    (hafter : ∀ t, dat.after 0 t = blockAt V c 0 t) (t : Fin cfg2.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The same for the noise window. -/
theorem found_nz {c : Dev nD} (dat : Dat τ (Elt F) Unit ℕ (UR sig nD τ) ℕ cfg2 c) (hA : dat.A 1 = V c (Pipeline.arrRef spec2 1))
    (hafter : ∀ t, dat.after 1 t = blockAt V c 1 t) (t : Fin cfg2.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output window's buffer -/

/-- The one rectangle the body loads and stores through: the whole [9000, 64] block. -/
abbrev whole : Rect S9000x64 := Rect.unit (s := S9000x64) ![0, 0] S9000x64.size inb_S9000x64_S9000x64_0_0

/-- The output block after the body, from the x block and the noise block: the body's single store, of the update
    x + n̂ · sign(x) · ε computed from the two loaded blocks. -/
def stored (x nz : Vec F S9000x64 .f32) : Vec F S9000x64 .f32 :=
  View.canon [⟨whole, k2_pay1 (View.ld nz whole) (View.ld x whole)⟩]

/-- That store covers the block. -/
theorem stored_covers (p : Vec F S9000x64 .f32) (y : S9000x64.Idx) :
    ∃ pc ∈ ([⟨whole, p⟩] : List (View.Piece (Elt F) S9000x64 .f32)), y ∈ pc.1.set :=
  View.cover_of_tiled [⟨whole, p⟩] S9000x64.size (by rfl) y

/-! ## The body's run -/

set_option maxHeartbeats 1000000 in
/-- The body on whole staging buffers — x's holding `x`, the noise's holding `nz`, the output's holding anything — runs to its
    end leaving the inputs as they were and the output's buffer at `stored x nz`. -/
theorem body_run (c : Dev nD) (E : Set ℕ) (i : grid2.Coords)
    (arg1 : Memref sig .tc .vmem S9000x64 .f32) (harg1 : arg1.IsWhole) (arg2 : Memref sig .tc .vmem S9000x64 .f32) (harg2 : arg2.IsWhole)
    (arg3 : Memref sig .tc .vmem S9000x64 .f32) (harg3 : arg3.IsWhole)
    (x nz : Vec F S9000x64 .f32) (K : PUnit → sProp 𝕄) :
    iprop(owns (c : Thread nD τ) arg1 fullShare x ∗ owns (c : Thread nD τ) arg2 fullShare nz ∗ (∃ d, owns (c : Thread nD τ) arg3 fullShare d)
        ∗ (iprop(owns (c : Thread nD τ) arg1 fullShare x ∗ owns (c : Thread nD τ) arg2 fullShare nz
            ∗ owns (c : Thread nD τ) arg3 fullShare (stored x nz)) -∗ K ⟨⟩))
      ⊢ wp frame (wpE (defs₀ (F := F)) Variants.none c none) E (cc2__perturb_kernel i arg1 harg1 arg2 harg2 arg3 harg3) K := by
  simp only [cc2__perturb_kernel_eq_skeleton]; unfold cc2__perturb_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_covers _)

/-! ## The pipeline's proof data -/

/-- On core `c`: the arrays as the region finds them; after the body at point `t` each input's buffer still at its block and
    the output's at `stored` of the two input blocks; the invariant is the scoped rest and the generator register, untouched;
    nothing owed; full shares. -/
def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => stored (blockAt V c 0 t) (blockAt V c 1 t)
  Φ _ := Pipeline.ΦA spec2 c
  q _ := fullShare
  owed _ := 0

theorem dat_A (c : Dev nD) (w : Fin cfg2.W) : (dat V c).A w = V c (Pipeline.arrRef spec2 w) := by
  dsimp only [dat]

theorem dat_after_x (c : Dev nD) (t : Fin cfg2.N) : (dat V c).after 0 t = blockAt V c 0 t := by dsimp only [dat]
theorem dat_after_nz (c : Dev nD) (t : Fin cfg2.N) : (dat V c).after 1 t = blockAt V c 1 t := by dsimp only [dat]
theorem dat_after_out (c : Dev nD) (t : Fin cfg2.N) :
    (dat V c).after 2 t = stored (blockAt V c 0 t) (blockAt V c 1 t) := by dsimp only [dat]

theorem dat_before_x (c : Dev nD) (t : Fin cfg2.N) (d) : (dat V c).before 0 t d = blockAt V c 0 t :=
  found_x V (dat V c) (dat_A V c 0) (dat_after_x V c) t d
theorem dat_before_nz (c : Dev nD) (t : Fin cfg2.N) (d) : (dat V c).before 1 t d = blockAt V c 1 t :=
  found_nz V (dat V c) (dat_A V c 1) (dat_after_nz V c) t d

/-! ## The body obligation -/

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the inputs' buffers hold their blocks, so `body_run` applies; the invariant and what the core
    owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [dat_before_x, dat_before_nz]
  rw [show (dat V c).Φ t.succ = (dat V c).Φ t.castSucc from rfl,
    show (dat V c).owesAt () t.succ = (dat V c).owesAt () t.castSucc from rfl,
    dat_after_x, dat_after_nz, dat_after_out]
  iintro ⟨HΦ, Ho, ⟨%d0, H0⟩, ⟨%d1, H1⟩, ⟨%d2, H2⟩⟩
  iapply (body_run c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.Perturb2

end
-- ==== Proof.PerturbB3.lean ====
/-
  One perturbation kernel of the program, as the pipeline runs it: the update  out = x + n̂ · sign(x) · ε  on a [90000, 64]
  array, ten blocks of 9000 rows, one block per grid point. Each row of the noise block is divided by its Euclidean length
  (clamped below), so a block of the result depends only on the same block of x and of the noise: nothing is carried from one
  grid point to the next, and the three windows' blocks tile their arrays.

  This module states, at any contents V of the buffers when the region is entered: what each window's block is at a point,
  what the body leaves in the output window's staging buffer (its one store, whole), the body's run on whole staging buffers,
  the pipeline's proof data, and the body obligation at every point.
-/
import proofs.«131157_j87900800680713_1_alg».proof.Proof.Gen.Kernel.Launch
import proofs.«131157_j87900800680713_1_alg».proof.Proof.Gen.Kernel.Skeleton
import proofs.«131157_j87900800680713_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Perturb3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at grid point `t`: rows 9000·t … 9000·t + 8999 of its array as the region finds it. -/
def blockAt (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The x window's staging buffer holds x's block at every point, for any proof data over `V` whose body leaves that block
    in place: the window is an input, never idle, its blocks tile the array. -/
theorem found_x {c : Dev nD} (dat : Dat τ (Elt F) Unit ℕ (UR sig nD τ) ℕ cfg3 c) (hA : dat.A 0 = V c (Pipeline.arrRef spec3 0))
    (hafter : ∀ t, dat.after 0 t = blockAt V c 0 t) (t : Fin cfg3.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The same for the noise window. -/
theorem found_nz {c : Dev nD} (dat : Dat τ (Elt F) Unit ℕ (UR sig nD τ) ℕ cfg3 c) (hA : dat.A 1 = V c (Pipeline.arrRef spec3 1))
    (hafter : ∀ t, dat.after 1 t = blockAt V c 1 t) (t : Fin cfg3.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output window's buffer -/

/-- The one rectangle the body loads and stores through: the whole [9000, 64] block. -/
abbrev whole : Rect S9000x64 := Rect.unit (s := S9000x64) ![0, 0] S9000x64.size inb_S9000x64_S9000x64_0_0

/-- The output block after the body, from the x block and the noise block: the body's single store, of the update
    x + n̂ · sign(x) · ε computed from the two loaded blocks. -/
def stored (x nz : Vec F S9000x64 .f32) : Vec F S9000x64 .f32 :=
  View.canon [⟨whole, k3_pay1 (View.ld nz whole) (View.ld x whole)⟩]

/-- That store covers the block. -/
theorem stored_covers (p : Vec F S9000x64 .f32) (y : S9000x64.Idx) :
    ∃ pc ∈ ([⟨whole, p⟩] : List (View.Piece (Elt F) S9000x64 .f32)), y ∈ pc.1.set :=
  View.cover_of_tiled [⟨whole, p⟩] S9000x64.size (by rfl) y

/-! ## The body's run -/

set_option maxHeartbeats 1000000 in
/-- The body on whole staging buffers — x's holding `x`, the noise's holding `nz`, the output's holding anything — runs to its
    end leaving the inputs as they were and the output's buffer at `stored x nz`. -/
theorem body_run (c : Dev nD) (E : Set ℕ) (i : grid3.Coords)
    (arg1 : Memref sig .tc .vmem S9000x64 .f32) (harg1 : arg1.IsWhole) (arg2 : Memref sig .tc .vmem S9000x64 .f32) (harg2 : arg2.IsWhole)
    (arg3 : Memref sig .tc .vmem S9000x64 .f32) (harg3 : arg3.IsWhole)
    (x nz : Vec F S9000x64 .f32) (K : PUnit → sProp 𝕄) :
    iprop(owns (c : Thread nD τ) arg1 fullShare x ∗ owns (c : Thread nD τ) arg2 fullShare nz ∗ (∃ d, owns (c : Thread nD τ) arg3 fullShare d)
        ∗ (iprop(owns (c : Thread nD τ) arg1 fullShare x ∗ owns (c : Thread nD τ) arg2 fullShare nz
            ∗ owns (c : Thread nD τ) arg3 fullShare (stored x nz)) -∗ K ⟨⟩))
      ⊢ wp frame (wpE (defs₀ (F := F)) Variants.none c none) E (cc3__perturb_kernel i arg1 harg1 arg2 harg2 arg3 harg3) K := by
  simp only [cc3__perturb_kernel_eq_skeleton]; unfold cc3__perturb_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_covers _)

/-! ## The pipeline's proof data -/

/-- On core `c`: the arrays as the region finds them; after the body at point `t` each input's buffer still at its block and
    the output's at `stored` of the two input blocks; the invariant is the scoped rest and the generator register, untouched;
    nothing owed; full shares. -/
def dat (c : Dev nD) : Dat τ (Elt F) Unit ℕ (UR sig nD τ) ℕ cfg3 c where
  A w := V c (Pipeline.arrRef spec3 w)
  after w t := match w with
    | ⟨0, _⟩ => blockAt V c 0 t
    | ⟨1, _⟩ => blockAt V c 1 t
    | ⟨2, _⟩ => stored (blockAt V c 0 t) (blockAt V c 1 t)
  Φ _ := Pipeline.ΦA spec3 c
  q _ := fullShare
  owed _ := 0

theorem dat_A (c : Dev nD) (w : Fin cfg3.W) : (dat V c).A w = V c (Pipeline.arrRef spec3 w) := by
  dsimp only [dat]

theorem dat_after_x (c : Dev nD) (t : Fin cfg3.N) : (dat V c).after 0 t = blockAt V c 0 t := by dsimp only [dat]
theorem dat_after_nz (c : Dev nD) (t : Fin cfg3.N) : (dat V c).after 1 t = blockAt V c 1 t := by dsimp only [dat]
theorem dat_after_out (c : Dev nD) (t : Fin cfg3.N) :
    (dat V c).after 2 t = stored (blockAt V c 0 t) (blockAt V c 1 t) := by dsimp only [dat]

theorem dat_before_x (c : Dev nD) (t : Fin cfg3.N) (d) : (dat V c).before 0 t d = blockAt V c 0 t :=
  found_x V (dat V c) (dat_A V c 0) (dat_after_x V c) t d
theorem dat_before_nz (c : Dev nD) (t : Fin cfg3.N) (d) : (dat V c).before 1 t d = blockAt V c 1 t :=
  found_nz V (dat V c) (dat_A V c 1) (dat_after_nz V c) t d

/-! ## The body obligation -/

/-- What the body is called with at point `t`, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t))

/-- The body at any point: the inputs' buffers hold their blocks, so `body_run` applies; the invariant and what the core
    owes pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [dat_before_x, dat_before_nz]
  rw [show (dat V c).Φ t.succ = (dat V c).Φ t.castSucc from rfl,
    show (dat V c).owesAt () t.succ = (dat V c).owesAt () t.castSucc from rfl,
    dat_after_x, dat_after_nz, dat_after_out]
  iintro ⟨HΦ, Ho, ⟨%d0, H0⟩, ⟨%d1, H1⟩, ⟨%d2, H2⟩⟩
  iapply (body_run c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W3, bigSep_W3]
  exact sound_body V c t

end Cert.Kernel.Perturb3

end
-- ==== Proof.NegSumB4.lean ====
/-
  One negative-sum kernel of the program, as the pipeline runs it:  neg[r] = Σ_j exp(⟨e1[r], e2[j]⟩ · s)  for the 8192 rows of
  e1 against the 8192 rows of e2, on a 4 × 16 grid. Point (a, k) holds rows 2048·a … of e1 and rows 512·k … of e2; the partial
  sums over a column tile are added into a [2048, 1] scratch column that lives across the sixteen points of a row of the grid:
  zeroed when k = 0, added to at every k, and copied to the output block when k = 15. The output block is idle (neither stored
  nor written back) at the fifteen other points, and the e1 block is fetched only when k = 0.

  So a grid point is in one of three cases — first (k = 0), middle, last (k = 15) — decided from the point's number modulo 16.
  This module states, at any contents V of the buffers when the region is entered: the windows' blocks, the body's run in each
  case, what the scratch and the output hold after each point (by recursion on the point, the scratch read from the point
  before), the invariant that carries the scratch, the pipeline's proof data and the body obligation.
-/
import proofs.«131157_j87900800680713_1_alg».proof.Proof.Gen.Kernel.Launch
import proofs.«131157_j87900800680713_1_alg».proof.Proof.Gen.Kernel.Skeleton
import proofs.«131157_j87900800680713_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.NegSum4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## Which case a point is in -/

/-- The body's first branch: the column-tile coordinate k is 0 (as the body computes it from the grid coordinates). -/
abbrev isFirst (i : grid4.Coords) : Prop := (Scalar.cmpi .ne (Scalar.extui (Scalar.cmpi .eq (BitVec.ofNat 32 (i 1).val) 0#32)) 0#32) = 1#1
/-- The body's second branch: k is 15, the last column tile. -/
abbrev isLast (i : grid4.Coords) : Prop := k4_cond2 i = 1#1
/-- Point t has k = t mod 16: it is first exactly when 16 divides t, -/
theorem isFirst_iff : ∀ t : Fin cfg4.N, isFirst (grid4.coords t) ↔ t.val % 16 = 0 :=
  (by decide +kernel : ∀ t : Fin grid4.N, isFirst (grid4.coords t) ↔ t.val % 16 = 0)
/-- and last exactly when t ≡ 15 (mod 16). -/
theorem isLast_iff : ∀ t : Fin cfg4.N, isLast (grid4.coords t) ↔ t.val % 16 = 15 :=
  (by decide +kernel : ∀ t : Fin grid4.N, isLast (grid4.coords t) ↔ t.val % 16 = 15)

/-! ## Where the windows are idle -/

theorem live_e1 : ∀ t : Fin cfg4.N, cfg4.idle 0 (grid4.coords t) = false := by decide +kernel
theorem live_e2 : ∀ t : Fin cfg4.N, cfg4.idle 1 (grid4.coords t) = false := by decide +kernel
/-- At a first point the output block is idle and not written back; -/
theorem out_idle_first : ∀ t : Fin cfg4.N, isFirst (grid4.coords t) → ¬isLast (grid4.coords t) → cfg4.idle 2 (grid4.coords t) = true := by decide +kernel
theorem out_unflushed_first : ∀ t : Fin cfg4.N, isFirst (grid4.coords t) → ¬isLast (grid4.coords t) → (cfg4.win 2).flush t = false := by decide +kernel
/-- the same at a middle point; -/
theorem out_idle_mid : ∀ t : Fin cfg4.N, ¬isFirst (grid4.coords t) → ¬isLast (grid4.coords t) → cfg4.idle 2 (grid4.coords t) = true := by decide +kernel
theorem out_unflushed_mid : ∀ t : Fin cfg4.N, ¬isFirst (grid4.coords t) → ¬isLast (grid4.coords t) → (cfg4.win 2).flush t = false := by decide +kernel
/-- at a last point it is live: the body stores the finished column into it. -/
theorem out_live_last : ∀ t : Fin cfg4.N, ¬isFirst (grid4.coords t) → isLast (grid4.coords t) → cfg4.idle 2 (grid4.coords t) = false := by decide +kernel

/-! ## The buffers the body is called with -/

/-- One staging buffer of the output window, through which its contents are stated. -/
abbrev outView : View sig .tc .vmem S2048x1 .f32 := (Memref.whole cc4_stg2_0 : Memref sig .tc .vmem S2048x1 .f32).view
abbrev m_e1 (t : Fin cfg4.N) : Memref sig .tc .vmem S2048x64 .f32 := win4_0.stage (cfg4.slots t 0)
abbrev h_e1 (t : Fin cfg4.N) : (m_e1 t).IsWhole := hstage4_0 ((cfg4.slots t 0).cast nbuf4_0)
abbrev m_e2 (t : Fin cfg4.N) : Memref sig .tc .vmem S512x64 .f32 := win4_1.stage (cfg4.slots t 1)
abbrev h_e2 (t : Fin cfg4.N) : (m_e2 t).IsWhole := hstage4_1 ((cfg4.slots t 1).cast nbuf4_1)
abbrev m_out (t : Fin cfg4.N) : Memref sig .tc .vmem S2048x1 .f32 := win4_2.stage (cfg4.slots t 2)
abbrev h_out (t : Fin cfg4.N) : (m_out t).IsWhole := hstage4_2 ((cfg4.slots t 2).cast nbuf4_2)
/-- The scratch column: a whole scoped buffer of the kernel's own. -/
abbrev scratch : Memref sig .tc .vmem S2048x1 .f32 := Memref.whole cc4_scratch0
abbrev scratchView : View sig .tc .vmem S2048x1 .f32 := scratch.view

/-- What the launch hands the region besides the windows: the scratch at some contents, every other scoped buffer unopened,
    and the generator register at some state. -/
theorem rest_eq (c : Dev nD) :
    (Pipeline.ΦA spec4 c : sProp 𝕄)
      = iprop(iprop((∃ d, owns (c : Thread nD τ) scratch fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scratch, owns_whole]; try rfl

/-! ## The body's run, case by case

Each run is stated with the lists of pieces the body's stores leave in the output buffer and in the scratch; the lists are
whatever the run finds (they are fixed when the run hands each buffer to the continuation). -/

set_option maxHeartbeats 2000000 in
/-- FIRST point of a row: the scratch is zeroed, then the tile's partial sums are added to it; the output buffer is handed
    back untouched. -/
noncomputable def runFirst (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : isFirst i) (hc1 : ¬isLast i)
    (e1 : Vec F S2048x64 .f32) (e2 : Vec F S512x64 .f32) :
    Σ' (LO : List (View.Piece (Elt F) S2048x1 .f32)), { LS : List (View.Piece (Elt F) S2048x1 .f32) //
      ∀ (xo : Vec F S2048x1 .f32) (E : Set ℕ) (K : PUnit → sProp 𝕄),
        iprop(owns (c : Thread nD τ) arg2 fullShare e1 ∗ owns (c : Thread nD τ) arg3 fullShare e2 ∗ owns (c : Thread nD τ) arg4 fullShare xo
            ∗ (∃ d, owns (c : Thread nD τ) arg5 fullShare d)
            ∗ (iprop(owns (c : Thread nD τ) arg2 fullShare e1 ∗ owns (c : Thread nD τ) arg3 fullShare e2 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc4__neg_sum_kernel i arg2 harg2 arg3 harg3 arg4 harg4 arg5 harg5) K } := by
  refine ⟨[], ?_, fun xo E K => ?run⟩
  case run =>
    simp only [cc4__neg_sum_kernel_eq_skeleton]; unfold cc4__neg_sum_kernel_skel
    unfold owns
    iintro ⟨⟨%f2, %hf2, H2⟩, ⟨%f3, %hf3, H3⟩, ⟨%f4, %hf4, H4⟩, ⟨%d5, %f5, -, H5⟩, Hk⟩
    obtain rfl := harg2.eq_unread hf2; obtain rfl := harg3.eq_unread hf3; obtain rfl := harg4.eq_unread hf4
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

set_option maxHeartbeats 2000000 in
/-- MIDDLE point: the tile's partial sums are added to the scratch as the point before left it (`xs`); the output buffer is
    handed back untouched. -/
noncomputable def runMid (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : ¬isLast i)
    (e1 : Vec F S2048x64 .f32) (e2 : Vec F S512x64 .f32) (xs : Vec F S2048x1 .f32) :
    Σ' (LO : List (View.Piece (Elt F) S2048x1 .f32)), { LS : List (View.Piece (Elt F) S2048x1 .f32) //
      ∀ (xo : Vec F S2048x1 .f32) (E : Set ℕ) (K : PUnit → sProp 𝕄),
        iprop(owns (c : Thread nD τ) arg2 fullShare e1 ∗ owns (c : Thread nD τ) arg3 fullShare e2 ∗ owns (c : Thread nD τ) arg4 fullShare xo
            ∗ owns (c : Thread nD τ) arg5 fullShare xs
            ∗ (iprop(owns (c : Thread nD τ) arg2 fullShare e1 ∗ owns (c : Thread nD τ) arg3 fullShare e2 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc4__neg_sum_kernel i arg2 harg2 arg3 harg3 arg4 harg4 arg5 harg5) K } := by
  refine ⟨[], ?_, fun xo E K => ?run⟩
  case run =>
    simp only [cc4__neg_sum_kernel_eq_skeleton]; unfold cc4__neg_sum_kernel_skel
    unfold owns
    iintro ⟨⟨%f2, %hf2, H2⟩, ⟨%f3, %hf3, H3⟩, ⟨%f4, %hf4, H4⟩, ⟨%f5, %hf5, H5⟩, Hk⟩
    obtain rfl := harg2.eq_unread hf2; obtain rfl := harg3.eq_unread hf3; obtain rfl := harg4.eq_unread hf4; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

set_option maxHeartbeats 2000000 in
/-- LAST point of a row: the tile's partial sums are added to the scratch, and the finished column is stored into the output
    buffer, whatever it held. -/
noncomputable def runLast (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : isLast i)
    (e1 : Vec F S2048x64 .f32) (e2 : Vec F S512x64 .f32) (xs : Vec F S2048x1 .f32) :
    Σ' (LO : List (View.Piece (Elt F) S2048x1 .f32)), { LS : List (View.Piece (Elt F) S2048x1 .f32) //
      ∀ (E : Set ℕ) (K : PUnit → sProp 𝕄),
        iprop(owns (c : Thread nD τ) arg2 fullShare e1 ∗ owns (c : Thread nD τ) arg3 fullShare e2 ∗ (∃ d, owns (c : Thread nD τ) arg4 fullShare d)
            ∗ owns (c : Thread nD τ) arg5 fullShare xs
            ∗ (iprop(owns (c : Thread nD τ) arg2 fullShare e1 ∗ owns (c : Thread nD τ) arg3 fullShare e2
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc4__neg_sum_kernel i arg2 harg2 arg3 harg3 arg4 harg4 arg5 harg5) K } := by
  refine ⟨?_, ?_, fun E K => ?run⟩
  case run =>
    simp only [cc4__neg_sum_kernel_eq_skeleton]; unfold cc4__neg_sum_kernel_skel
    unfold owns
    iintro ⟨⟨%f2, %hf2, H2⟩, ⟨%f3, %hf3, H3⟩, ⟨%d4, %f4, -, H4⟩, ⟨%f5, %hf5, H5⟩, Hk⟩
    obtain rfl := harg2.eq_unread hf2; obtain rfl := harg3.eq_unread hf3; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact H5

/-! ## What each case leaves, as contents -/

/-- A first point stores nothing into the output block: a placeholder nothing reads, the block being neither written back there
    nor read at the next point. -/
def outFirst (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : isFirst i) (hc1 : ¬isLast i)
    (e1 : Vec F S2048x64 .f32) (e2 : Vec F S512x64 .f32) : Vec F S2048x1 .f32 :=
  outView.read (Elt F) (outView.writes (Elt F) outView.junk (runFirst c i arg2 harg2 arg3 harg3 arg4 harg4 arg5 harg5 hc0 hc1 e1 e2).1)
/-- The first point's stores into the scratch cover it, -/
theorem scratch_covered_first (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : isFirst i) (hc1 : ¬isLast i)
    (e1 : Vec F S2048x64 .f32) (e2 : Vec F S512x64 .f32) (y : S2048x1.Idx) :
    ∃ pc ∈ (runFirst c i arg2 harg2 arg3 harg3 arg4 harg4 arg5 harg5 hc0 hc1 e1 e2).2.1, y ∈ pc.1.set :=
  View.cover_of_tiledL (runFirst c i arg2 harg2 arg3 harg3 arg4 harg4 arg5 harg5 hc0 hc1 e1 e2).2.1 S2048x1.size (by sl_kernel_rfl) y
/-- so the scratch after a first point is those stores read back: the tile's partial sums added to zero. -/
def scratchFirst (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : isFirst i) (hc1 : ¬isLast i)
    (e1 : Vec F S2048x64 .f32) (e2 : Vec F S512x64 .f32) : Vec F S2048x1 .f32 :=
  scratchView.read (Elt F) (scratchView.writes (Elt F) scratchView.junk (runFirst c i arg2 harg2 arg3 harg3 arg4 harg4 arg5 harg5 hc0 hc1 e1 e2).2.1)

def outMid (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : ¬isLast i)
    (e1 : Vec F S2048x64 .f32) (e2 : Vec F S512x64 .f32) (xs : Vec F S2048x1 .f32) : Vec F S2048x1 .f32 :=
  outView.read (Elt F) (outView.writes (Elt F) outView.junk (runMid c i arg2 harg2 arg3 harg3 arg4 harg4 arg5 harg5 hc0 hc1 e1 e2 xs).1)
theorem scratch_covered_mid (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : ¬isLast i)
    (e1 : Vec F S2048x64 .f32) (e2 : Vec F S512x64 .f32) (xs : Vec F S2048x1 .f32) (y : S2048x1.Idx) :
    ∃ pc ∈ (runMid c i arg2 harg2 arg3 harg3 arg4 harg4 arg5 harg5 hc0 hc1 e1 e2 xs).2.1, y ∈ pc.1.set :=
  View.cover_of_tiledL (runMid c i arg2 harg2 arg3 harg3 arg4 harg4 arg5 harg5 hc0 hc1 e1 e2 xs).2.1 S2048x1.size (by sl_kernel_rfl) y
/-- The scratch after a middle point: the tile's partial sums added to what the point before left. -/
def scratchMid (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : ¬isLast i)
    (e1 : Vec F S2048x64 .f32) (e2 : Vec F S512x64 .f32) (xs : Vec F S2048x1 .f32) : Vec F S2048x1 .f32 :=
  scratchView.read (Elt F) (scratchView.writes (Elt F) scratchView.junk (runMid c i arg2 harg2 arg3 harg3 arg4 harg4 arg5 harg5 hc0 hc1 e1 e2 xs).2.1)

/-- A last point's store into the output block covers it, -/
theorem out_covered_last (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : isLast i)
    (e1 : Vec F S2048x64 .f32) (e2 : Vec F S512x64 .f32) (xs : Vec F S2048x1 .f32) (y : S2048x1.Idx) :
    ∃ pc ∈ (runLast c i arg2 harg2 arg3 harg3 arg4 harg4 arg5 harg5 hc0 hc1 e1 e2 xs).1, y ∈ pc.1.set :=
  View.cover_of_tiledL (runLast c i arg2 harg2 arg3 harg3 arg4 harg4 arg5 harg5 hc0 hc1 e1 e2 xs).1 S2048x1.size (by sl_kernel_rfl) y
/-- so the output block after a last point is that store read back: the finished column. -/
def outLast (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : isLast i)
    (e1 : Vec F S2048x64 .f32) (e2 : Vec F S512x64 .f32) (xs : Vec F S2048x1 .f32) : Vec F S2048x1 .f32 :=
  outView.read (Elt F) (outView.writes (Elt F) outView.junk (runLast c i arg2 harg2 arg3 harg3 arg4 harg4 arg5 harg5 hc0 hc1 e1 e2 xs).1)
theorem scratch_covered_last (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : isLast i)
    (e1 : Vec F S2048x64 .f32) (e2 : Vec F S512x64 .f32) (xs : Vec F S2048x1 .f32) (y : S2048x1.Idx) :
    ∃ pc ∈ (runLast c i arg2 harg2 arg3 harg3 arg4 harg4 arg5 harg5 hc0 hc1 e1 e2 xs).2.1, y ∈ pc.1.set :=
  View.cover_of_tiledL (runLast c i arg2 harg2 arg3 harg3 arg4 harg4 arg5 harg5 hc0 hc1 e1 e2 xs).2.1 S2048x1.size (by sl_kernel_rfl) y
def scratchLast (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : isLast i)
    (e1 : Vec F S2048x64 .f32) (e2 : Vec F S512x64 .f32) (xs : Vec F S2048x1 .f32) : Vec F S2048x1 .f32 :=
  scratchView.read (Elt F) (scratchView.writes (Elt F) scratchView.junk (runLast c i arg2 harg2 arg3 harg3 arg4 harg4 arg5 harg5 hc0 hc1 e1 e2 xs).2.1)

/-! ## The windows' blocks -/

-- the buffers' contents when the region is entered
variable (V : (c : Dev nD) → (b : Ref sig .tc) → Buf (Elt F) ((c : Thread nD τ).loc b))

/-- Window `w`'s block at grid point `t`, read off its array as the region finds it. -/
def blockAt (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The e1 window's staging buffer holds the point's e1 block at every point — fetched there (k = 0) or not: between fetches
    the block index does not move, and the body leaves the block in place. -/
theorem found_e1 {c : Dev nD} (dat : Dat τ (Elt F) Unit ℕ (UR sig nD τ) ℕ cfg4 c) (hA : dat.A 0 = V c (Pipeline.arrRef spec4 0))
    (hafter : ∀ t, dat.after 0 t = blockAt V c 0 t) (t : Fin cfg4.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- The same for the e2 window, fetched at every point. -/
theorem found_e2 {c : Dev nD} (dat : Dat τ (Elt F) Unit ℕ (UR sig nD τ) ℕ cfg4 c) (hA : dat.A 1 = V c (Pipeline.arrRef spec4 1))
    (hafter : ∀ t, dat.after 1 t = blockAt V c 1 t) (t : Fin cfg4.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the output block and the scratch hold after each point -/

/-- THE ACCUMULATION, by recursion on the point's number: (the output block, the scratch) after point `n` — the point's case,
    run at the point's buffers and input blocks, the scratch taken from the point before. A point cannot be both first and
    last. -/
def outsAt (c : Dev nD) : (n : ℕ) → n < cfg4.N → Vec F S2048x1 .f32 × Vec F S2048x1 .f32
  | 0, hn =>
    have h0 : (⟨0, hn⟩ : Fin cfg4.N).val % 16 = 0 := Nat.zero_mod _
    have h1 : ¬(⟨0, hn⟩ : Fin cfg4.N).val % 16 = 15 := fun h => by (try dsimp only at h); omega
    (outFirst c (grid4.coords ⟨0, hn⟩) (m_e1 ⟨0, hn⟩) (h_e1 ⟨0, hn⟩) (m_e2 ⟨0, hn⟩) (h_e2 ⟨0, hn⟩) (m_out ⟨0, hn⟩) (h_out ⟨0, hn⟩) scratch (Memref.isWhole_whole _) ((isFirst_iff ⟨0, hn⟩).mpr h0) (fun h => h1 ((isLast_iff ⟨0, hn⟩).mp h)) (blockAt V c 0 ⟨0, hn⟩) (blockAt V c 1 ⟨0, hn⟩),
     scratchFirst c (grid4.coords ⟨0, hn⟩) (m_e1 ⟨0, hn⟩) (h_e1 ⟨0, hn⟩) (m_e2 ⟨0, hn⟩) (h_e2 ⟨0, hn⟩) (m_out ⟨0, hn⟩) (h_out ⟨0, hn⟩) scratch (Memref.isWhole_whole _) ((isFirst_iff ⟨0, hn⟩).mpr h0) (fun h => h1 ((isLast_iff ⟨0, hn⟩).mp h)) (blockAt V c 0 ⟨0, hn⟩) (blockAt V c 1 ⟨0, hn⟩))
  | n + 1, hn =>
    if h0 : (n + 1) % 16 = 0 then
      if h1 : (n + 1) % 16 = 15 then
        False.elim (by omega)
      else
        (outFirst c (grid4.coords ⟨n + 1, hn⟩) (m_e1 ⟨n + 1, hn⟩) (h_e1 ⟨n + 1, hn⟩) (m_e2 ⟨n + 1, hn⟩) (h_e2 ⟨n + 1, hn⟩) (m_out ⟨n + 1, hn⟩) (h_out ⟨n + 1, hn⟩) scratch (Memref.isWhole_whole _) ((isFirst_iff ⟨n + 1, hn⟩).mpr h0) (fun h => h1 ((isLast_iff ⟨n + 1, hn⟩).mp h)) (blockAt V c 0 ⟨n + 1, hn⟩) (blockAt V c 1 ⟨n + 1, hn⟩),
         scratchFirst c (grid4.coords ⟨n + 1, hn⟩) (m_e1 ⟨n + 1, hn⟩) (h_e1 ⟨n + 1, hn⟩) (m_e2 ⟨n + 1, hn⟩) (h_e2 ⟨n + 1, hn⟩) (m_out ⟨n + 1, hn⟩) (h_out ⟨n + 1, hn⟩) scratch (Memref.isWhole_whole _) ((isFirst_iff ⟨n + 1, hn⟩).mpr h0) (fun h => h1 ((isLast_iff ⟨n + 1, hn⟩).mp h)) (blockAt V c 0 ⟨n + 1, hn⟩) (blockAt V c 1 ⟨n + 1, hn⟩))
    else
      if h1 : (n + 1) % 16 = 15 then
        (outLast c (grid4.coords ⟨n + 1, hn⟩) (m_e1 ⟨n + 1, hn⟩) (h_e1 ⟨n + 1, hn⟩) (m_e2 ⟨n + 1, hn⟩) (h_e2 ⟨n + 1, hn⟩) (m_out ⟨n + 1, hn⟩) (h_out ⟨n + 1, hn⟩) scratch (Memref.isWhole_whole _) (fun h => h0 ((isFirst_iff ⟨n + 1, hn⟩).mp h)) ((isLast_iff ⟨n + 1, hn⟩).mpr h1) (blockAt V c 0 ⟨n + 1, hn⟩) (blockAt V c 1 ⟨n + 1, hn⟩) (outsAt c n (Nat.lt_of_succ_lt hn)).2,
         scratchLast c (grid4.coords ⟨n + 1, hn⟩) (m_e1 ⟨n + 1, hn⟩) (h_e1 ⟨n + 1, hn⟩) (m_e2 ⟨n + 1, hn⟩) (h_e2 ⟨n + 1, hn⟩) (m_out ⟨n + 1, hn⟩) (h_out ⟨n + 1, hn⟩) scratch (Memref.isWhole_whole _) (fun h => h0 ((isFirst_iff ⟨n + 1, hn⟩).mp h)) ((isLast_iff ⟨n + 1, hn⟩).mpr h1) (blockAt V c 0 ⟨n + 1, hn⟩) (blockAt V c 1 ⟨n + 1, hn⟩) (outsAt c n (Nat.lt_of_succ_lt hn)).2)
      else
        (outMid c (grid4.coords ⟨n + 1, hn⟩) (m_e1 ⟨n + 1, hn⟩) (h_e1 ⟨n + 1, hn⟩) (m_e2 ⟨n + 1, hn⟩) (h_e2 ⟨n + 1, hn⟩) (m_out ⟨n + 1, hn⟩) (h_out ⟨n + 1, hn⟩) scratch (Memref.isWhole_whole _) (fun h => h0 ((isFirst_iff ⟨n + 1, hn⟩).mp h)) (fun h => h1 ((isLast_iff ⟨n + 1, hn⟩).mp h)) (blockAt V c 0 ⟨n + 1, hn⟩) (blockAt V c 1 ⟨n + 1, hn⟩) (outsAt c n (Nat.lt_of_succ_lt hn)).2,
         scratchMid c (grid4.coords ⟨n + 1, hn⟩) (m_e1 ⟨n + 1, hn⟩) (h_e1 ⟨n + 1, hn⟩) (m_e2 ⟨n + 1, hn⟩) (h_e2 ⟨n + 1, hn⟩) (m_out ⟨n + 1, hn⟩) (h_out ⟨n + 1, hn⟩) scratch (Memref.isWhole_whole _) (fun h => h0 ((isFirst_iff ⟨n + 1, hn⟩).mp h)) (fun h => h1 ((isLast_iff ⟨n + 1, hn⟩).mp h)) (blockAt V c 0 ⟨n + 1, hn⟩) (blockAt V c 1 ⟨n + 1, hn⟩) (outsAt c n (Nat.lt_of_succ_lt hn)).2)

theorem outsAt_first (c : Dev nD) (t : Fin cfg4.N) (h0 : t.val % 16 = 0) (h1 : ¬t.val % 16 = 15) :
    outsAt V c t.val t.isLt =
      (outFirst c (grid4.coords t) (m_e1 t) (h_e1 t) (m_e2 t) (h_e2 t) (m_out t) (h_out t) scratch (Memref.isWhole_whole _) ((isFirst_iff t).mpr h0) (fun h => h1 ((isLast_iff t).mp h)) (blockAt V c 0 t) (blockAt V c 1 t),
       scratchFirst c (grid4.coords t) (m_e1 t) (h_e1 t) (m_e2 t) (h_e2 t) (m_out t) (h_out t) scratch (Memref.isWhole_whole _) ((isFirst_iff t).mpr h0) (fun h => h1 ((isLast_iff t).mp h)) (blockAt V c 0 t) (blockAt V c 1 t)) := by
  obtain ⟨n, hn⟩ := t
  cases n with
  | zero => exact rfl
  | succ n => exact (dif_pos h0).trans ((dif_neg h1).trans rfl)

theorem outsAt_mid (c : Dev nD) (t : Fin cfg4.N) (h0 : ¬t.val % 16 = 0) (h1 : ¬t.val % 16 = 15) :
    outsAt V c t.val t.isLt =
      (outMid c (grid4.coords t) (m_e1 t) (h_e1 t) (m_e2 t) (h_e2 t) (m_out t) (h_out t) scratch (Memref.isWhole_whole _) (fun h => h0 ((isFirst_iff t).mp h)) (fun h => h1 ((isLast_iff t).mp h)) (blockAt V c 0 t) (blockAt V c 1 t) (outsAt V c (t.val - 1) (Nat.lt_of_le_of_lt (Nat.sub_le _ _) t.isLt)).2,
       scratchMid c (grid4.coords t) (m_e1 t) (h_e1 t) (m_e2 t) (h_e2 t) (m_out t) (h_out t) scratch (Memref.isWhole_whole _) (fun h => h0 ((isFirst_iff t).mp h)) (fun h => h1 ((isLast_iff t).mp h)) (blockAt V c 0 t) (blockAt V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg4.N) (h0 : ¬t.val % 16 = 0) (h1 : t.val % 16 = 15) :
    outsAt V c t.val t.isLt =
      (outLast c (grid4.coords t) (m_e1 t) (h_e1 t) (m_e2 t) (h_e2 t) (m_out t) (h_out t) scratch (Memref.isWhole_whole _) (fun h => h0 ((isFirst_iff t).mp h)) ((isLast_iff t).mpr h1) (blockAt V c 0 t) (blockAt V c 1 t) (outsAt V c (t.val - 1) (Nat.lt_of_le_of_lt (Nat.sub_le _ _) t.isLt)).2,
       scratchLast c (grid4.coords t) (m_e1 t) (h_e1 t) (m_e2 t) (h_e2 t) (m_out t) (h_out t) scratch (Memref.isWhole_whole _) (fun h => h0 ((isFirst_iff t).mp h)) ((isLast_iff t).mpr h1) (blockAt V c 0 t) (blockAt V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch -/

/-- Before point `n`: at the start what the launch hands over (the scratch at anything); afterwards the scratch at what point
    `n − 1` left in it, every other scoped buffer unopened, the generator register at some state. -/
def carried (c : Dev nD) : (n : ℕ) → n ≤ cfg4.N → sProp 𝕄
  | 0, _ => Pipeline.ΦA spec4 c
  | n + 1, hn => iprop(iprop(owns (c : Thread nD τ) scratch fullShare ((outsAt V c n hn).2) ∗ Pipeline.scopedRestBut (Ix := Unit) (Name := ℕ) (U := UR sig nD τ) (Lvl := ℕ) (Val := Elt F) spec4 c [cc4_scratch0]) ∗ (∃ r, prngReg c r))

theorem carried_zero (c : Dev nD) (n : ℕ) (h : n ≤ cfg4.N) (hz : n = 0) : carried V c n h = Pipeline.ΦA spec4 c := by
  subst hz; rfl
theorem carried_succ (c : Dev nD) (n : ℕ) (hn : n < cfg4.N) :
    carried V c (n + 1) hn = iprop(iprop(owns (c : Thread nD τ) scratch fullShare ((outsAt V c n hn).2) ∗ Pipeline.scopedRestBut (Ix := Unit) (Name := ℕ) (U := UR sig nD τ) (Lvl := ℕ) (Val := Elt F) spec4 c [cc4_scratch0]) ∗ (∃ r, prngReg c r)) := rfl
theorem carried_pos (c : Dev nD) (n : ℕ) (h : n ≤ cfg4.N) (hz : n ≠ 0) :
    carried V c n h = iprop(iprop(owns (c : Thread nD τ) scratch fullShare ((outsAt V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

def dat (c : Dev nD) : Dat τ (Elt F) Unit ℕ (UR sig nD τ) ℕ cfg4 c where
  A w := V c (Pipeline.arrRef spec4 w)
  after w t := match w with
    | ⟨0, _⟩ => blockAt V c 0 t
    | ⟨1, _⟩ => blockAt V c 1 t
    | ⟨2, _⟩ => (outsAt V c t.val t.isLt).1
  Φ t := carried V c t.val (Nat.le_of_lt_succ t.isLt)
  q _ := fullShare
  owed _ := 0

theorem dat_A (c : Dev nD) (w : Fin cfg4.W) : (dat V c).A w = V c (Pipeline.arrRef spec4 w) := by
  dsimp only [dat]
theorem dat_inv_castSucc (c : Dev nD) (t : Fin cfg4.N) :
    (dat V c).Φ t.castSucc = carried V c t.val (Nat.le_of_lt t.isLt) := by
  dsimp only [dat]; simp only [Fin.coe_castSucc]
theorem dat_after_e1 (c : Dev nD) (t : Fin cfg4.N) : (dat V c).after 0 t = blockAt V c 0 t := by dsimp only [dat]
theorem dat_after_e2 (c : Dev nD) (t : Fin cfg4.N) : (dat V c).after 1 t = blockAt V c 1 t := by dsimp only [dat]
theorem dat_after_out (c : Dev nD) (t : Fin cfg4.N) : (dat V c).after 2 t = (outsAt V c t.val t.isLt).1 := by dsimp only [dat]
theorem dat_before_e1 (c : Dev nD) (t : Fin cfg4.N) (d) : (dat V c).before 0 t d = blockAt V c 0 t :=
  found_e1 V (dat V c) (dat_A V c 0) (dat_after_e1 V c) t d
theorem dat_before_e2 (c : Dev nD) (t : Fin cfg4.N) (d) : (dat V c).before 1 t d = blockAt V c 1 t :=
  found_e2 V (dat V c) (dat_A V c 1) (dat_after_e2 V c) t d

/-! ## The body obligation -/

def bodyPre (c : Dev nD) (t : Fin cfg4.N) : sProp 𝕄 :=
  iprop((dat V c).Φ t.castSucc ∗ (dat V c).owesAt () t.castSucc
    ∗ (∃ d, owns (c : Thread nD τ) (m_e1 t) fullShare ((dat V c).before 0 t d))
    ∗ (∃ d, owns (c : Thread nD τ) (m_e2 t) fullShare ((dat V c).before 1 t d))
    ∗ (∃ d, owns (c : Thread nD τ) (m_out t) fullShare ((dat V c).before 2 t d)))

def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The input buffers hold their blocks; the point's number modulo 16 says which case it is in; the
    invariant hands the body the scratch at what the point before left (at anything, at the very first point) and takes it
    back at this point's contents; an idle output buffer is handed back as found; nothing is owed throughout. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [dat_before_e1, dat_before_e2]
  rw [show (dat V c).owesAt () t.succ = (dat V c).owesAt () t.castSucc from rfl]
  rw [show (dat V c).Φ t.succ = carried V c (t.val + 1) t.isLt from rfl, carried_succ]
  have hN : t.val < 64 := lt_of_lt_of_eq t.isLt (show cfg4.N = 64 from N_4)
  rw [show (dat V c).leavesExact 0 t = owns (c : Thread nD τ) (m_e1 t) fullShare ((dat V c).after 0 t) from by
    unfold Dat.leavesExact; rw [live_e1 t], dat_after_e1]
  rw [show (dat V c).leavesExact 1 t = owns (c : Thread nD τ) (m_e2 t) fullShare ((dat V c).after 1 t) from by
    unfold Dat.leavesExact; rw [live_e2 t], dat_after_e2]
  by_cases h0 : t.val % 16 = 0
  · have h1 : ¬t.val % 16 = 15 := by omega
    rw [Dat.leavesExact_idle (dat V c) 2 t (out_idle_first t ((isFirst_iff t).mpr h0) (fun h => h1 ((isLast_iff t).mp h))) (out_unflushed_first t ((isFirst_iff t).mpr h0) (fun h => h1 ((isLast_iff t).mp h)))]
    rw [outsAt_first V c t h0 h1]
    unfold scratchFirst; (try dsimp only)
    by_cases hz : t.val = 0
    · rw [dat_inv_castSucc V c t, carried_zero V c _ _ hz, rest_eq]
      iintro ⟨⟨⟨HS, Hrest⟩, Hg⟩, Ho, ⟨%d0, H0⟩, ⟨%d1, H1⟩, ⟨%d2, H2⟩⟩
      iapply ((runFirst c (grid4.coords t) _ _ _ _ _ _ _ _ ((isFirst_iff t).mpr h0) (fun h => h1 ((isLast_iff t).mp h)) (blockAt V c 0 t) (blockAt V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scratch_covered_first c _ _ _ _ _ _ _ _ _ _ _ _ _)
          iexact Hrest
        iexact Hg
      isplitl [Ho]; · iexact Ho
      isplitl [H0]; · iexact H0
      isplitl [H1]; · iexact H1
      iexists _; iexact H2
    · rw [dat_inv_castSucc V c t, carried_pos V c _ _ hz]
      iintro ⟨⟨⟨HS, Hrest⟩, Hg⟩, Ho, ⟨%d0, H0⟩, ⟨%d1, H1⟩, ⟨%d2, H2⟩⟩
      iapply ((runFirst c (grid4.coords t) _ _ _ _ _ _ _ _ ((isFirst_iff t).mpr h0) (fun h => h1 ((isLast_iff t).mp h)) (blockAt V c 0 t) (blockAt V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scratch_covered_first c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun e => h0 (by rw [e])
    by_cases h1 : t.val % 16 = 15
    · rw [show (dat V c).leavesExact 2 t = owns (c : Thread nD τ) (m_out t) fullShare ((dat V c).after 2 t) from by
        unfold Dat.leavesExact; rw [out_live_last t (fun h => h0 ((isFirst_iff t).mp h)) ((isLast_iff t).mpr h1)], dat_after_out]
      rw [outsAt_last V c t h0 h1]
      unfold outLast scratchLast; (try dsimp only)
      rw [dat_inv_castSucc V c t, carried_pos V c _ _ hz]
      iintro ⟨⟨⟨HS, Hrest⟩, Hg⟩, Ho, ⟨%d0, H0⟩, ⟨%d1, H1⟩, ⟨%d2, H2⟩⟩
      iapply ((runLast c (grid4.coords t) _ _ _ _ _ _ _ _ (fun h => h0 ((isFirst_iff t).mp h)) ((isLast_iff t).mpr h1) (blockAt V c 0 t) (blockAt V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (scratch_covered_last c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (out_covered_last c _ _ _ _ _ _ _ _ _ _ _ _ _ _)
    · rw [Dat.leavesExact_idle (dat V c) 2 t (out_idle_mid t (fun h => h0 ((isFirst_iff t).mp h)) (fun h => h1 ((isLast_iff t).mp h))) (out_unflushed_mid t (fun h => h0 ((isFirst_iff t).mp h)) (fun h => h1 ((isLast_iff t).mp h)))]
      rw [outsAt_mid V c t h0 h1]
      unfold scratchMid; (try dsimp only)
      rw [dat_inv_castSucc V c t, carried_pos V c _ _ hz]
      iintro ⟨⟨⟨HS, Hrest⟩, Hg⟩, Ho, ⟨%d0, H0⟩, ⟨%d1, H1⟩, ⟨%d2, H2⟩⟩
      iapply ((runMid c (grid4.coords t) _ _ _ _ _ _ _ _ (fun h => h0 ((isFirst_iff t).mp h)) (fun h => h1 ((isLast_iff t).mp h)) (blockAt V c 0 t) (blockAt V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scratch_covered_mid c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W4, bigSep_W4]
  exact sound_body V c t

/-- What the launch hands the region is the invariant before the first point. -/
theorem inv_in (c : Dev nD) : Pipeline.ΦA spec4 c ⊢ (dat V c).Φ 0 := by
  rw [show (dat V c).Φ 0 = carried V c 0 (Nat.zero_le _) from rfl, carried_zero V c 0 _ rfl]
  try exact Idealize.SL.BI.Entails.refl _

/-- After the last point the invariant gives that back: what the scratch holds is forgotten. -/
theorem inv_out (c : Dev nD) : (dat V c).Φ (Fin.last cfg4.N) ⊢ Pipeline.ΦA spec4 c := by
  have hne : (Fin.last cfg4.N).val ≠ 0 := by rw [Fin.val_last]; have : cfg4.N = 64 := N_4; omega
  rw [show (dat V c).Φ (Fin.last cfg4.N) = carried V c (Fin.last cfg4.N).val (Nat.le_of_lt_succ (Fin.last cfg4.N).isLt) from rfl,
    carried_pos V c _ _ hne, rest_eq]
  iintro ⟨⟨HS, Hrest⟩, Hg⟩
  isplitl [HS Hrest]
  · isplitl [HS]
    · iexists _; iexact HS
    iexact Hrest
  iexact Hg

end Cert.Kernel.NegSum4

end
-- ==== Proof.NegSumB5.lean ====
/-
  One negative-sum kernel of the program, as the pipeline runs it:  neg[r] = Σ_j exp(⟨e1[r], e2[j]⟩ · s)  for the 8192 rows of
  e1 against the 8192 rows of e2, on a 4 × 16 grid. Point (a, k) holds rows 2048·a … of e1 and rows 512·k … of e2; the partial
  sums over a column tile are added into a [2048, 1] scratch column that lives across the sixteen points of a row of the grid:
  zeroed when k = 0, added to at every k, and copied to the output block when k = 15. The output block is idle (neither stored
  nor written back) at the fifteen other points, and the e1 block is fetched only when k = 0.

  So a grid point is in one of three cases — first (k = 0), middle, last (k = 15) — decided from the point's number modulo 16.
  This module states, at any contents V of the buffers when the region is entered: the windows' blocks, the body's run in each
  case, what the scratch and the output hold after each point (by recursion on the point, the scratch read from the point
  before), the invariant that carries the scratch, the pipeline's proof data and the body obligation.
-/
import proofs.«131157_j87900800680713_1_alg».proof.Proof.Gen.Kernel.Launch
import proofs.«131157_j87900800680713_1_alg».proof.Proof.Gen.Kernel.Skeleton
import proofs.«131157_j87900800680713_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.NegSum5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## Which case a point is in -/

/-- The body's first branch: the column-tile coordinate k is 0 (as the body computes it from the grid coordinates). -/
abbrev isFirst (i : grid5.Coords) : Prop := (Scalar.cmpi .ne (Scalar.extui (Scalar.cmpi .eq (BitVec.ofNat 32 (i 1).val) 0#32)) 0#32) = 1#1
/-- The body's second branch: k is 15, the last column tile. -/
abbrev isLast (i : grid5.Coords) : Prop := k5_cond2 i = 1#1
/-- Point t has k = t mod 16: it is first exactly when 16 divides t, -/
theorem isFirst_iff : ∀ t : Fin cfg5.N, isFirst (grid5.coords t) ↔ t.val % 16 = 0 :=
  (by decide +kernel : ∀ t : Fin grid5.N, isFirst (grid5.coords t) ↔ t.val % 16 = 0)
/-- and last exactly when t ≡ 15 (mod 16). -/
theorem isLast_iff : ∀ t : Fin cfg5.N, isLast (grid5.coords t) ↔ t.val % 16 = 15 :=
  (by decide +kernel : ∀ t : Fin grid5.N, isLast (grid5.coords t) ↔ t.val % 16 = 15)

/-! ## Where the windows are idle -/

theorem live_e1 : ∀ t : Fin cfg5.N, cfg5.idle 0 (grid5.coords t) = false := by decide +kernel
theorem live_e2 : ∀ t : Fin cfg5.N, cfg5.idle 1 (grid5.coords t) = false := by decide +kernel
/-- At a first point the output block is idle and not written back; -/
theorem out_idle_first : ∀ t : Fin cfg5.N, isFirst (grid5.coords t) → ¬isLast (grid5.coords t) → cfg5.idle 2 (grid5.coords t) = true := by decide +kernel
theorem out_unflushed_first : ∀ t : Fin cfg5.N, isFirst (grid5.coords t) → ¬isLast (grid5.coords t) → (cfg5.win 2).flush t = false := by decide +kernel
/-- the same at a middle point; -/
theorem out_idle_mid : ∀ t : Fin cfg5.N, ¬isFirst (grid5.coords t) → ¬isLast (grid5.coords t) → cfg5.idle 2 (grid5.coords t) = true := by decide +kernel
theorem out_unflushed_mid : ∀ t : Fin cfg5.N, ¬isFirst (grid5.coords t) → ¬isLast (grid5.coords t) → (cfg5.win 2).flush t = false := by decide +kernel
/-- at a last point it is live: the body stores the finished column into it. -/
theorem out_live_last : ∀ t : Fin cfg5.N, ¬isFirst (grid5.coords t) → isLast (grid5.coords t) → cfg5.idle 2 (grid5.coords t) = false := by decide +kernel

/-! ## The buffers the body is called with -/

/-- One staging buffer of the output window, through which its contents are stated. -/
abbrev outView : View sig .tc .vmem S2048x1 .f32 := (Memref.whole cc5_stg2_0 : Memref sig .tc .vmem S2048x1 .f32).view
abbrev m_e1 (t : Fin cfg5.N) : Memref sig .tc .vmem S2048x64 .f32 := win5_0.stage (cfg5.slots t 0)
abbrev h_e1 (t : Fin cfg5.N) : (m_e1 t).IsWhole := hstage5_0 ((cfg5.slots t 0).cast nbuf5_0)
abbrev m_e2 (t : Fin cfg5.N) : Memref sig .tc .vmem S512x64 .f32 := win5_1.stage (cfg5.slots t 1)
abbrev h_e2 (t : Fin cfg5.N) : (m_e2 t).IsWhole := hstage5_1 ((cfg5.slots t 1).cast nbuf5_1)
abbrev m_out (t : Fin cfg5.N) : Memref sig .tc .vmem S2048x1 .f32 := win5_2.stage (cfg5.slots t 2)
abbrev h_out (t : Fin cfg5.N) : (m_out t).IsWhole := hstage5_2 ((cfg5.slots t 2).cast nbuf5_2)
/-- The scratch column: a whole scoped buffer of the kernel's own. -/
abbrev scratch : Memref sig .tc .vmem S2048x1 .f32 := Memref.whole cc5_scratch0
abbrev scratchView : View sig .tc .vmem S2048x1 .f32 := scratch.view

/-- What the launch hands the region besides the windows: the scratch at some contents, every other scoped buffer unopened,
    and the generator register at some state. -/
theorem rest_eq (c : Dev nD) :
    (Pipeline.ΦA spec5 c : sProp 𝕄)
      = iprop(iprop((∃ d, owns (c : Thread nD τ) scratch fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scratch, owns_whole]; try rfl

/-! ## The body's run, case by case

Each run is stated with the lists of pieces the body's stores leave in the output buffer and in the scratch; the lists are
whatever the run finds (they are fixed when the run hands each buffer to the continuation). -/

set_option maxHeartbeats 2000000 in
/-- FIRST point of a row: the scratch is zeroed, then the tile's partial sums are added to it; the output buffer is handed
    back untouched. -/
noncomputable def runFirst (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : isFirst i) (hc1 : ¬isLast i)
    (e1 : Vec F S2048x64 .f32) (e2 : Vec F S512x64 .f32) :
    Σ' (LO : List (View.Piece (Elt F) S2048x1 .f32)), { LS : List (View.Piece (Elt F) S2048x1 .f32) //
      ∀ (xo : Vec F S2048x1 .f32) (E : Set ℕ) (K : PUnit → sProp 𝕄),
        iprop(owns (c : Thread nD τ) arg2 fullShare e1 ∗ owns (c : Thread nD τ) arg3 fullShare e2 ∗ owns (c : Thread nD τ) arg4 fullShare xo
            ∗ (∃ d, owns (c : Thread nD τ) arg5 fullShare d)
            ∗ (iprop(owns (c : Thread nD τ) arg2 fullShare e1 ∗ owns (c : Thread nD τ) arg3 fullShare e2 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc5__neg_sum_kernel i arg2 harg2 arg3 harg3 arg4 harg4 arg5 harg5) K } := by
  refine ⟨[], ?_, fun xo E K => ?run⟩
  case run =>
    simp only [cc5__neg_sum_kernel_eq_skeleton]; unfold cc5__neg_sum_kernel_skel
    unfold owns
    iintro ⟨⟨%f2, %hf2, H2⟩, ⟨%f3, %hf3, H3⟩, ⟨%f4, %hf4, H4⟩, ⟨%d5, %f5, -, H5⟩, Hk⟩
    obtain rfl := harg2.eq_unread hf2; obtain rfl := harg3.eq_unread hf3; obtain rfl := harg4.eq_unread hf4
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

set_option maxHeartbeats 2000000 in
/-- MIDDLE point: the tile's partial sums are added to the scratch as the point before left it (`xs`); the output buffer is
    handed back untouched. -/
noncomputable def runMid (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : ¬isLast i)
    (e1 : Vec F S2048x64 .f32) (e2 : Vec F S512x64 .f32) (xs : Vec F S2048x1 .f32) :
    Σ' (LO : List (View.Piece (Elt F) S2048x1 .f32)), { LS : List (View.Piece (Elt F) S2048x1 .f32) //
      ∀ (xo : Vec F S2048x1 .f32) (E : Set ℕ) (K : PUnit → sProp 𝕄),
        iprop(owns (c : Thread nD τ) arg2 fullShare e1 ∗ owns (c : Thread nD τ) arg3 fullShare e2 ∗ owns (c : Thread nD τ) arg4 fullShare xo
            ∗ owns (c : Thread nD τ) arg5 fullShare xs
            ∗ (iprop(owns (c : Thread nD τ) arg2 fullShare e1 ∗ owns (c : Thread nD τ) arg3 fullShare e2 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc5__neg_sum_kernel i arg2 harg2 arg3 harg3 arg4 harg4 arg5 harg5) K } := by
  refine ⟨[], ?_, fun xo E K => ?run⟩
  case run =>
    simp only [cc5__neg_sum_kernel_eq_skeleton]; unfold cc5__neg_sum_kernel_skel
    unfold owns
    iintro ⟨⟨%f2, %hf2, H2⟩, ⟨%f3, %hf3, H3⟩, ⟨%f4, %hf4, H4⟩, ⟨%f5, %hf5, H5⟩, Hk⟩
    obtain rfl := harg2.eq_unread hf2; obtain rfl := harg3.eq_unread hf3; obtain rfl := harg4.eq_unread hf4; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

set_option maxHeartbeats 2000000 in
/-- LAST point of a row: the tile's partial sums are added to the scratch, and the finished column is stored into the output
    buffer, whatever it held. -/
noncomputable def runLast (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : isLast i)
    (e1 : Vec F S2048x64 .f32) (e2 : Vec F S512x64 .f32) (xs : Vec F S2048x1 .f32) :
    Σ' (LO : List (View.Piece (Elt F) S2048x1 .f32)), { LS : List (View.Piece (Elt F) S2048x1 .f32) //
      ∀ (E : Set ℕ) (K : PUnit → sProp 𝕄),
        iprop(owns (c : Thread nD τ) arg2 fullShare e1 ∗ owns (c : Thread nD τ) arg3 fullShare e2 ∗ (∃ d, owns (c : Thread nD τ) arg4 fullShare d)
            ∗ owns (c : Thread nD τ) arg5 fullShare xs
            ∗ (iprop(owns (c : Thread nD τ) arg2 fullShare e1 ∗ owns (c : Thread nD τ) arg3 fullShare e2
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc5__neg_sum_kernel i arg2 harg2 arg3 harg3 arg4 harg4 arg5 harg5) K } := by
  refine ⟨?_, ?_, fun E K => ?run⟩
  case run =>
    simp only [cc5__neg_sum_kernel_eq_skeleton]; unfold cc5__neg_sum_kernel_skel
    unfold owns
    iintro ⟨⟨%f2, %hf2, H2⟩, ⟨%f3, %hf3, H3⟩, ⟨%d4, %f4, -, H4⟩, ⟨%f5, %hf5, H5⟩, Hk⟩
    obtain rfl := harg2.eq_unread hf2; obtain rfl := harg3.eq_unread hf3; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact H5

/-! ## What each case leaves, as contents -/

/-- A first point stores nothing into the output block: a placeholder nothing reads, the block being neither written back there
    nor read at the next point. -/
def outFirst (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : isFirst i) (hc1 : ¬isLast i)
    (e1 : Vec F S2048x64 .f32) (e2 : Vec F S512x64 .f32) : Vec F S2048x1 .f32 :=
  outView.read (Elt F) (outView.writes (Elt F) outView.junk (runFirst c i arg2 harg2 arg3 harg3 arg4 harg4 arg5 harg5 hc0 hc1 e1 e2).1)
/-- The first point's stores into the scratch cover it, -/
theorem scratch_covered_first (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : isFirst i) (hc1 : ¬isLast i)
    (e1 : Vec F S2048x64 .f32) (e2 : Vec F S512x64 .f32) (y : S2048x1.Idx) :
    ∃ pc ∈ (runFirst c i arg2 harg2 arg3 harg3 arg4 harg4 arg5 harg5 hc0 hc1 e1 e2).2.1, y ∈ pc.1.set :=
  View.cover_of_tiledL (runFirst c i arg2 harg2 arg3 harg3 arg4 harg4 arg5 harg5 hc0 hc1 e1 e2).2.1 S2048x1.size (by sl_kernel_rfl) y
/-- so the scratch after a first point is those stores read back: the tile's partial sums added to zero. -/
def scratchFirst (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : isFirst i) (hc1 : ¬isLast i)
    (e1 : Vec F S2048x64 .f32) (e2 : Vec F S512x64 .f32) : Vec F S2048x1 .f32 :=
  scratchView.read (Elt F) (scratchView.writes (Elt F) scratchView.junk (runFirst c i arg2 harg2 arg3 harg3 arg4 harg4 arg5 harg5 hc0 hc1 e1 e2).2.1)

def outMid (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : ¬isLast i)
    (e1 : Vec F S2048x64 .f32) (e2 : Vec F S512x64 .f32) (xs : Vec F S2048x1 .f32) : Vec F S2048x1 .f32 :=
  outView.read (Elt F) (outView.writes (Elt F) outView.junk (runMid c i arg2 harg2 arg3 harg3 arg4 harg4 arg5 harg5 hc0 hc1 e1 e2 xs).1)
theorem scratch_covered_mid (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : ¬isLast i)
    (e1 : Vec F S2048x64 .f32) (e2 : Vec F S512x64 .f32) (xs : Vec F S2048x1 .f32) (y : S2048x1.Idx) :
    ∃ pc ∈ (runMid c i arg2 harg2 arg3 harg3 arg4 harg4 arg5 harg5 hc0 hc1 e1 e2 xs).2.1, y ∈ pc.1.set :=
  View.cover_of_tiledL (runMid c i arg2 harg2 arg3 harg3 arg4 harg4 arg5 harg5 hc0 hc1 e1 e2 xs).2.1 S2048x1.size (by sl_kernel_rfl) y
/-- The scratch after a middle point: the tile's partial sums added to what the point before left. -/
def scratchMid (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : ¬isLast i)
    (e1 : Vec F S2048x64 .f32) (e2 : Vec F S512x64 .f32) (xs : Vec F S2048x1 .f32) : Vec F S2048x1 .f32 :=
  scratchView.read (Elt F) (scratchView.writes (Elt F) scratchView.junk (runMid c i arg2 harg2 arg3 harg3 arg4 harg4 arg5 harg5 hc0 hc1 e1 e2 xs).2.1)

/-- A last point's store into the output block covers it, -/
theorem out_covered_last (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : isLast i)
    (e1 : Vec F S2048x64 .f32) (e2 : Vec F S512x64 .f32) (xs : Vec F S2048x1 .f32) (y : S2048x1.Idx) :
    ∃ pc ∈ (runLast c i arg2 harg2 arg3 harg3 arg4 harg4 arg5 harg5 hc0 hc1 e1 e2 xs).1, y ∈ pc.1.set :=
  View.cover_of_tiledL (runLast c i arg2 harg2 arg3 harg3 arg4 harg4 arg5 harg5 hc0 hc1 e1 e2 xs).1 S2048x1.size (by sl_kernel_rfl) y
/-- so the output block after a last point is that store read back: the finished column. -/
def outLast (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : isLast i)
    (e1 : Vec F S2048x64 .f32) (e2 : Vec F S512x64 .f32) (xs : Vec F S2048x1 .f32) : Vec F S2048x1 .f32 :=
  outView.read (Elt F) (outView.writes (Elt F) outView.junk (runLast c i arg2 harg2 arg3 harg3 arg4 harg4 arg5 harg5 hc0 hc1 e1 e2 xs).1)
theorem scratch_covered_last (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : isLast i)
    (e1 : Vec F S2048x64 .f32) (e2 : Vec F S512x64 .f32) (xs : Vec F S2048x1 .f32) (y : S2048x1.Idx) :
    ∃ pc ∈ (runLast c i arg2 harg2 arg3 harg3 arg4 harg4 arg5 harg5 hc0 hc1 e1 e2 xs).2.1, y ∈ pc.1.set :=
  View.cover_of_tiledL (runLast c i arg2 harg2 arg3 harg3 arg4 harg4 arg5 harg5 hc0 hc1 e1 e2 xs).2.1 S2048x1.size (by sl_kernel_rfl) y
def scratchLast (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : isLast i)
    (e1 : Vec F S2048x64 .f32) (e2 : Vec F S512x64 .f32) (xs : Vec F S2048x1 .f32) : Vec F S2048x1 .f32 :=
  scratchView.read (Elt F) (scratchView.writes (Elt F) scratchView.junk (runLast c i arg2 harg2 arg3 harg3 arg4 harg4 arg5 harg5 hc0 hc1 e1 e2 xs).2.1)

/-! ## The windows' blocks -/

-- the buffers' contents when the region is entered
variable (V : (c : Dev nD) → (b : Ref sig .tc) → Buf (Elt F) ((c : Thread nD τ).loc b))

/-- Window `w`'s block at grid point `t`, read off its array as the region finds it. -/
def blockAt (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The e1 window's staging buffer holds the point's e1 block at every point — fetched there (k = 0) or not: between fetches
    the block index does not move, and the body leaves the block in place. -/
theorem found_e1 {c : Dev nD} (dat : Dat τ (Elt F) Unit ℕ (UR sig nD τ) ℕ cfg5 c) (hA : dat.A 0 = V c (Pipeline.arrRef spec5 0))
    (hafter : ∀ t, dat.after 0 t = blockAt V c 0 t) (t : Fin cfg5.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- The same for the e2 window, fetched at every point. -/
theorem found_e2 {c : Dev nD} (dat : Dat τ (Elt F) Unit ℕ (UR sig nD τ) ℕ cfg5 c) (hA : dat.A 1 = V c (Pipeline.arrRef spec5 1))
    (hafter : ∀ t, dat.after 1 t = blockAt V c 1 t) (t : Fin cfg5.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the output block and the scratch hold after each point -/

/-- THE ACCUMULATION, by recursion on the point's number: (the output block, the scratch) after point `n` — the point's case,
    run at the point's buffers and input blocks, the scratch taken from the point before. A point cannot be both first and
    last. -/
def outsAt (c : Dev nD) : (n : ℕ) → n < cfg5.N → Vec F S2048x1 .f32 × Vec F S2048x1 .f32
  | 0, hn =>
    have h0 : (⟨0, hn⟩ : Fin cfg5.N).val % 16 = 0 := Nat.zero_mod _
    have h1 : ¬(⟨0, hn⟩ : Fin cfg5.N).val % 16 = 15 := fun h => by (try dsimp only at h); omega
    (outFirst c (grid5.coords ⟨0, hn⟩) (m_e1 ⟨0, hn⟩) (h_e1 ⟨0, hn⟩) (m_e2 ⟨0, hn⟩) (h_e2 ⟨0, hn⟩) (m_out ⟨0, hn⟩) (h_out ⟨0, hn⟩) scratch (Memref.isWhole_whole _) ((isFirst_iff ⟨0, hn⟩).mpr h0) (fun h => h1 ((isLast_iff ⟨0, hn⟩).mp h)) (blockAt V c 0 ⟨0, hn⟩) (blockAt V c 1 ⟨0, hn⟩),
     scratchFirst c (grid5.coords ⟨0, hn⟩) (m_e1 ⟨0, hn⟩) (h_e1 ⟨0, hn⟩) (m_e2 ⟨0, hn⟩) (h_e2 ⟨0, hn⟩) (m_out ⟨0, hn⟩) (h_out ⟨0, hn⟩) scratch (Memref.isWhole_whole _) ((isFirst_iff ⟨0, hn⟩).mpr h0) (fun h => h1 ((isLast_iff ⟨0, hn⟩).mp h)) (blockAt V c 0 ⟨0, hn⟩) (blockAt V c 1 ⟨0, hn⟩))
  | n + 1, hn =>
    if h0 : (n + 1) % 16 = 0 then
      if h1 : (n + 1) % 16 = 15 then
        False.elim (by omega)
      else
        (outFirst c (grid5.coords ⟨n + 1, hn⟩) (m_e1 ⟨n + 1, hn⟩) (h_e1 ⟨n + 1, hn⟩) (m_e2 ⟨n + 1, hn⟩) (h_e2 ⟨n + 1, hn⟩) (m_out ⟨n + 1, hn⟩) (h_out ⟨n + 1, hn⟩) scratch (Memref.isWhole_whole _) ((isFirst_iff ⟨n + 1, hn⟩).mpr h0) (fun h => h1 ((isLast_iff ⟨n + 1, hn⟩).mp h)) (blockAt V c 0 ⟨n + 1, hn⟩) (blockAt V c 1 ⟨n + 1, hn⟩),
         scratchFirst c (grid5.coords ⟨n + 1, hn⟩) (m_e1 ⟨n + 1, hn⟩) (h_e1 ⟨n + 1, hn⟩) (m_e2 ⟨n + 1, hn⟩) (h_e2 ⟨n + 1, hn⟩) (m_out ⟨n + 1, hn⟩) (h_out ⟨n + 1, hn⟩) scratch (Memref.isWhole_whole _) ((isFirst_iff ⟨n + 1, hn⟩).mpr h0) (fun h => h1 ((isLast_iff ⟨n + 1, hn⟩).mp h)) (blockAt V c 0 ⟨n + 1, hn⟩) (blockAt V c 1 ⟨n + 1, hn⟩))
    else
      if h1 : (n + 1) % 16 = 15 then
        (outLast c (grid5.coords ⟨n + 1, hn⟩) (m_e1 ⟨n + 1, hn⟩) (h_e1 ⟨n + 1, hn⟩) (m_e2 ⟨n + 1, hn⟩) (h_e2 ⟨n + 1, hn⟩) (m_out ⟨n + 1, hn⟩) (h_out ⟨n + 1, hn⟩) scratch (Memref.isWhole_whole _) (fun h => h0 ((isFirst_iff ⟨n + 1, hn⟩).mp h)) ((isLast_iff ⟨n + 1, hn⟩).mpr h1) (blockAt V c 0 ⟨n + 1, hn⟩) (blockAt V c 1 ⟨n + 1, hn⟩) (outsAt c n (Nat.lt_of_succ_lt hn)).2,
         scratchLast c (grid5.coords ⟨n + 1, hn⟩) (m_e1 ⟨n + 1, hn⟩) (h_e1 ⟨n + 1, hn⟩) (m_e2 ⟨n + 1, hn⟩) (h_e2 ⟨n + 1, hn⟩) (m_out ⟨n + 1, hn⟩) (h_out ⟨n + 1, hn⟩) scratch (Memref.isWhole_whole _) (fun h => h0 ((isFirst_iff ⟨n + 1, hn⟩).mp h)) ((isLast_iff ⟨n + 1, hn⟩).mpr h1) (blockAt V c 0 ⟨n + 1, hn⟩) (blockAt V c 1 ⟨n + 1, hn⟩) (outsAt c n (Nat.lt_of_succ_lt hn)).2)
      else
        (outMid c (grid5.coords ⟨n + 1, hn⟩) (m_e1 ⟨n + 1, hn⟩) (h_e1 ⟨n + 1, hn⟩) (m_e2 ⟨n + 1, hn⟩) (h_e2 ⟨n + 1, hn⟩) (m_out ⟨n + 1, hn⟩) (h_out ⟨n + 1, hn⟩) scratch (Memref.isWhole_whole _) (fun h => h0 ((isFirst_iff ⟨n + 1, hn⟩).mp h)) (fun h => h1 ((isLast_iff ⟨n + 1, hn⟩).mp h)) (blockAt V c 0 ⟨n + 1, hn⟩) (blockAt V c 1 ⟨n + 1, hn⟩) (outsAt c n (Nat.lt_of_succ_lt hn)).2,
         scratchMid c (grid5.coords ⟨n + 1, hn⟩) (m_e1 ⟨n + 1, hn⟩) (h_e1 ⟨n + 1, hn⟩) (m_e2 ⟨n + 1, hn⟩) (h_e2 ⟨n + 1, hn⟩) (m_out ⟨n + 1, hn⟩) (h_out ⟨n + 1, hn⟩) scratch (Memref.isWhole_whole _) (fun h => h0 ((isFirst_iff ⟨n + 1, hn⟩).mp h)) (fun h => h1 ((isLast_iff ⟨n + 1, hn⟩).mp h)) (blockAt V c 0 ⟨n + 1, hn⟩) (blockAt V c 1 ⟨n + 1, hn⟩) (outsAt c n (Nat.lt_of_succ_lt hn)).2)

theorem outsAt_first (c : Dev nD) (t : Fin cfg5.N) (h0 : t.val % 16 = 0) (h1 : ¬t.val % 16 = 15) :
    outsAt V c t.val t.isLt =
      (outFirst c (grid5.coords t) (m_e1 t) (h_e1 t) (m_e2 t) (h_e2 t) (m_out t) (h_out t) scratch (Memref.isWhole_whole _) ((isFirst_iff t).mpr h0) (fun h => h1 ((isLast_iff t).mp h)) (blockAt V c 0 t) (blockAt V c 1 t),
       scratchFirst c (grid5.coords t) (m_e1 t) (h_e1 t) (m_e2 t) (h_e2 t) (m_out t) (h_out t) scratch (Memref.isWhole_whole _) ((isFirst_iff t).mpr h0) (fun h => h1 ((isLast_iff t).mp h)) (blockAt V c 0 t) (blockAt V c 1 t)) := by
  obtain ⟨n, hn⟩ := t
  cases n with
  | zero => exact rfl
  | succ n => exact (dif_pos h0).trans ((dif_neg h1).trans rfl)

theorem outsAt_mid (c : Dev nD) (t : Fin cfg5.N) (h0 : ¬t.val % 16 = 0) (h1 : ¬t.val % 16 = 15) :
    outsAt V c t.val t.isLt =
      (outMid c (grid5.coords t) (m_e1 t) (h_e1 t) (m_e2 t) (h_e2 t) (m_out t) (h_out t) scratch (Memref.isWhole_whole _) (fun h => h0 ((isFirst_iff t).mp h)) (fun h => h1 ((isLast_iff t).mp h)) (blockAt V c 0 t) (blockAt V c 1 t) (outsAt V c (t.val - 1) (Nat.lt_of_le_of_lt (Nat.sub_le _ _) t.isLt)).2,
       scratchMid c (grid5.coords t) (m_e1 t) (h_e1 t) (m_e2 t) (h_e2 t) (m_out t) (h_out t) scratch (Memref.isWhole_whole _) (fun h => h0 ((isFirst_iff t).mp h)) (fun h => h1 ((isLast_iff t).mp h)) (blockAt V c 0 t) (blockAt V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg5.N) (h0 : ¬t.val % 16 = 0) (h1 : t.val % 16 = 15) :
    outsAt V c t.val t.isLt =
      (outLast c (grid5.coords t) (m_e1 t) (h_e1 t) (m_e2 t) (h_e2 t) (m_out t) (h_out t) scratch (Memref.isWhole_whole _) (fun h => h0 ((isFirst_iff t).mp h)) ((isLast_iff t).mpr h1) (blockAt V c 0 t) (blockAt V c 1 t) (outsAt V c (t.val - 1) (Nat.lt_of_le_of_lt (Nat.sub_le _ _) t.isLt)).2,
       scratchLast c (grid5.coords t) (m_e1 t) (h_e1 t) (m_e2 t) (h_e2 t) (m_out t) (h_out t) scratch (Memref.isWhole_whole _) (fun h => h0 ((isFirst_iff t).mp h)) ((isLast_iff t).mpr h1) (blockAt V c 0 t) (blockAt V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch -/

/-- Before point `n`: at the start what the launch hands over (the scratch at anything); afterwards the scratch at what point
    `n − 1` left in it, every other scoped buffer unopened, the generator register at some state. -/
def carried (c : Dev nD) : (n : ℕ) → n ≤ cfg5.N → sProp 𝕄
  | 0, _ => Pipeline.ΦA spec5 c
  | n + 1, hn => iprop(iprop(owns (c : Thread nD τ) scratch fullShare ((outsAt V c n hn).2) ∗ Pipeline.scopedRestBut (Ix := Unit) (Name := ℕ) (U := UR sig nD τ) (Lvl := ℕ) (Val := Elt F) spec5 c [cc5_scratch0]) ∗ (∃ r, prngReg c r))

theorem carried_zero (c : Dev nD) (n : ℕ) (h : n ≤ cfg5.N) (hz : n = 0) : carried V c n h = Pipeline.ΦA spec5 c := by
  subst hz; rfl
theorem carried_succ (c : Dev nD) (n : ℕ) (hn : n < cfg5.N) :
    carried V c (n + 1) hn = iprop(iprop(owns (c : Thread nD τ) scratch fullShare ((outsAt V c n hn).2) ∗ Pipeline.scopedRestBut (Ix := Unit) (Name := ℕ) (U := UR sig nD τ) (Lvl := ℕ) (Val := Elt F) spec5 c [cc5_scratch0]) ∗ (∃ r, prngReg c r)) := rfl
theorem carried_pos (c : Dev nD) (n : ℕ) (h : n ≤ cfg5.N) (hz : n ≠ 0) :
    carried V c n h = iprop(iprop(owns (c : Thread nD τ) scratch fullShare ((outsAt V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The pipeline's proof data -/

def dat (c : Dev nD) : Dat τ (Elt F) Unit ℕ (UR sig nD τ) ℕ cfg5 c where
  A w := V c (Pipeline.arrRef spec5 w)
  after w t := match w with
    | ⟨0, _⟩ => blockAt V c 0 t
    | ⟨1, _⟩ => blockAt V c 1 t
    | ⟨2, _⟩ => (outsAt V c t.val t.isLt).1
  Φ t := carried V c t.val (Nat.le_of_lt_succ t.isLt)
  q _ := fullShare
  owed _ := 0

theorem dat_A (c : Dev nD) (w : Fin cfg5.W) : (dat V c).A w = V c (Pipeline.arrRef spec5 w) := by
  dsimp only [dat]
theorem dat_inv_castSucc (c : Dev nD) (t : Fin cfg5.N) :
    (dat V c).Φ t.castSucc = carried V c t.val (Nat.le_of_lt t.isLt) := by
  dsimp only [dat]; simp only [Fin.coe_castSucc]
theorem dat_after_e1 (c : Dev nD) (t : Fin cfg5.N) : (dat V c).after 0 t = blockAt V c 0 t := by dsimp only [dat]
theorem dat_after_e2 (c : Dev nD) (t : Fin cfg5.N) : (dat V c).after 1 t = blockAt V c 1 t := by dsimp only [dat]
theorem dat_after_out (c : Dev nD) (t : Fin cfg5.N) : (dat V c).after 2 t = (outsAt V c t.val t.isLt).1 := by dsimp only [dat]
theorem dat_before_e1 (c : Dev nD) (t : Fin cfg5.N) (d) : (dat V c).before 0 t d = blockAt V c 0 t :=
  found_e1 V (dat V c) (dat_A V c 0) (dat_after_e1 V c) t d
theorem dat_before_e2 (c : Dev nD) (t : Fin cfg5.N) (d) : (dat V c).before 1 t d = blockAt V c 1 t :=
  found_e2 V (dat V c) (dat_A V c 1) (dat_after_e2 V c) t d

/-! ## The body obligation -/

def bodyPre (c : Dev nD) (t : Fin cfg5.N) : sProp 𝕄 :=
  iprop((dat V c).Φ t.castSucc ∗ (dat V c).owesAt () t.castSucc
    ∗ (∃ d, owns (c : Thread nD τ) (m_e1 t) fullShare ((dat V c).before 0 t d))
    ∗ (∃ d, owns (c : Thread nD τ) (m_e2 t) fullShare ((dat V c).before 1 t d))
    ∗ (∃ d, owns (c : Thread nD τ) (m_out t) fullShare ((dat V c).before 2 t d)))

def bodyPost (c : Dev nD) (t : Fin cfg5.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The input buffers hold their blocks; the point's number modulo 16 says which case it is in; the
    invariant hands the body the scratch at what the point before left (at anything, at the very first point) and takes it
    back at this point's contents; an idle output buffer is handed back as found; nothing is owed throughout. -/
theorem sound_body (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [dat_before_e1, dat_before_e2]
  rw [show (dat V c).owesAt () t.succ = (dat V c).owesAt () t.castSucc from rfl]
  rw [show (dat V c).Φ t.succ = carried V c (t.val + 1) t.isLt from rfl, carried_succ]
  have hN : t.val < 64 := lt_of_lt_of_eq t.isLt (show cfg5.N = 64 from N_5)
  rw [show (dat V c).leavesExact 0 t = owns (c : Thread nD τ) (m_e1 t) fullShare ((dat V c).after 0 t) from by
    unfold Dat.leavesExact; rw [live_e1 t], dat_after_e1]
  rw [show (dat V c).leavesExact 1 t = owns (c : Thread nD τ) (m_e2 t) fullShare ((dat V c).after 1 t) from by
    unfold Dat.leavesExact; rw [live_e2 t], dat_after_e2]
  by_cases h0 : t.val % 16 = 0
  · have h1 : ¬t.val % 16 = 15 := by omega
    rw [Dat.leavesExact_idle (dat V c) 2 t (out_idle_first t ((isFirst_iff t).mpr h0) (fun h => h1 ((isLast_iff t).mp h))) (out_unflushed_first t ((isFirst_iff t).mpr h0) (fun h => h1 ((isLast_iff t).mp h)))]
    rw [outsAt_first V c t h0 h1]
    unfold scratchFirst; (try dsimp only)
    by_cases hz : t.val = 0
    · rw [dat_inv_castSucc V c t, carried_zero V c _ _ hz, rest_eq]
      iintro ⟨⟨⟨HS, Hrest⟩, Hg⟩, Ho, ⟨%d0, H0⟩, ⟨%d1, H1⟩, ⟨%d2, H2⟩⟩
      iapply ((runFirst c (grid5.coords t) _ _ _ _ _ _ _ _ ((isFirst_iff t).mpr h0) (fun h => h1 ((isLast_iff t).mp h)) (blockAt V c 0 t) (blockAt V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scratch_covered_first c _ _ _ _ _ _ _ _ _ _ _ _ _)
          iexact Hrest
        iexact Hg
      isplitl [Ho]; · iexact Ho
      isplitl [H0]; · iexact H0
      isplitl [H1]; · iexact H1
      iexists _; iexact H2
    · rw [dat_inv_castSucc V c t, carried_pos V c _ _ hz]
      iintro ⟨⟨⟨HS, Hrest⟩, Hg⟩, Ho, ⟨%d0, H0⟩, ⟨%d1, H1⟩, ⟨%d2, H2⟩⟩
      iapply ((runFirst c (grid5.coords t) _ _ _ _ _ _ _ _ ((isFirst_iff t).mpr h0) (fun h => h1 ((isLast_iff t).mp h)) (blockAt V c 0 t) (blockAt V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scratch_covered_first c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun e => h0 (by rw [e])
    by_cases h1 : t.val % 16 = 15
    · rw [show (dat V c).leavesExact 2 t = owns (c : Thread nD τ) (m_out t) fullShare ((dat V c).after 2 t) from by
        unfold Dat.leavesExact; rw [out_live_last t (fun h => h0 ((isFirst_iff t).mp h)) ((isLast_iff t).mpr h1)], dat_after_out]
      rw [outsAt_last V c t h0 h1]
      unfold outLast scratchLast; (try dsimp only)
      rw [dat_inv_castSucc V c t, carried_pos V c _ _ hz]
      iintro ⟨⟨⟨HS, Hrest⟩, Hg⟩, Ho, ⟨%d0, H0⟩, ⟨%d1, H1⟩, ⟨%d2, H2⟩⟩
      iapply ((runLast c (grid5.coords t) _ _ _ _ _ _ _ _ (fun h => h0 ((isFirst_iff t).mp h)) ((isLast_iff t).mpr h1) (blockAt V c 0 t) (blockAt V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (scratch_covered_last c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (out_covered_last c _ _ _ _ _ _ _ _ _ _ _ _ _ _)
    · rw [Dat.leavesExact_idle (dat V c) 2 t (out_idle_mid t (fun h => h0 ((isFirst_iff t).mp h)) (fun h => h1 ((isLast_iff t).mp h))) (out_unflushed_mid t (fun h => h0 ((isFirst_iff t).mp h)) (fun h => h1 ((isLast_iff t).mp h)))]
      rw [outsAt_mid V c t h0 h1]
      unfold scratchMid; (try dsimp only)
      rw [dat_inv_castSucc V c t, carried_pos V c _ _ hz]
      iintro ⟨⟨⟨HS, Hrest⟩, Hg⟩, Ho, ⟨%d0, H0⟩, ⟨%d1, H1⟩, ⟨%d2, H2⟩⟩
      iapply ((runMid c (grid5.coords t) _ _ _ _ _ _ _ _ (fun h => h0 ((isFirst_iff t).mp h)) (fun h => h1 ((isLast_iff t).mp h)) (blockAt V c 0 t) (blockAt V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scratch_covered_mid c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W5, bigSep_W5]
  exact sound_body V c t

/-- What the launch hands the region is the invariant before the first point. -/
theorem inv_in (c : Dev nD) : Pipeline.ΦA spec5 c ⊢ (dat V c).Φ 0 := by
  rw [show (dat V c).Φ 0 = carried V c 0 (Nat.zero_le _) from rfl, carried_zero V c 0 _ rfl]
  try exact Idealize.SL.BI.Entails.refl _

/-- After the last point the invariant gives that back: what the scratch holds is forgotten. -/
theorem inv_out (c : Dev nD) : (dat V c).Φ (Fin.last cfg5.N) ⊢ Pipeline.ΦA spec5 c := by
  have hne : (Fin.last cfg5.N).val ≠ 0 := by rw [Fin.val_last]; have : cfg5.N = 64 := N_5; omega
  rw [show (dat V c).Φ (Fin.last cfg5.N) = carried V c (Fin.last cfg5.N).val (Nat.le_of_lt_succ (Fin.last cfg5.N).isLt) from rfl,
    carried_pos V c _ _ hne, rest_eq]
  iintro ⟨⟨HS, Hrest⟩, Hg⟩
  isplitl [HS Hrest]
  · isplitl [HS]
    · iexists _; iexact HS
    iexact Hrest
  iexact Hg

end Cert.Kernel.NegSum5

end
-- ==== Proof.WholeB.lean ====
/-
  The whole program as the launch runs it: stretches of host operations and six kernel regions, in order. Between two items
  every unscoped buffer of a core holds definite contents — the launch contents, then each host stretch's operations applied,
  then, after a region, that region's output array replaced by what its write-backs leave (`outs`) and everything else as it
  was. Each region is a segment entered at the contents before it and left at the contents after it; the host side of the run
  is the generated conditional frame. No host operation and no region writes an argument array, so all eight end as launched.
-/
import proofs.«131157_j87900800680713_1_alg».proof.Proof.Gen.Kernel.Regions
import proofs.«131157_j87900800680713_1_alg».proof.Proof.PerturbB0
import proofs.«131157_j87900800680713_1_alg».proof.Proof.PerturbB1
import proofs.«131157_j87900800680713_1_alg».proof.Proof.PerturbB2
import proofs.«131157_j87900800680713_1_alg».proof.Proof.PerturbB3
import proofs.«131157_j87900800680713_1_alg».proof.Proof.NegSumB4
import proofs.«131157_j87900800680713_1_alg».proof.Proof.NegSumB5

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (outs : Gen.Outs (F := F))

/-- No core owes another anything: no level is assigned. -/
abbrev noLevels : GSem nD τ sig → Finset Unit := fun _ => ∅
abbrev noLevel : GSem nD τ sig → Unit → ℕ := fun _ _ => 0

/-- What rides beside the buffers through every item: the core's generator register at some state and its dues, at nothing. -/
abbrev rides (c : Dev nD) : sProp 𝕄 := iprop((∃ r, prngReg c r) ∗ ∃ W, owes (c : Thread nD τ) (0 : CellTallies nD τ sig Unit) W)

/-- The contents region 0 is entered with, read at a TensorCore reference. -/
abbrev entry0 : (c : Dev nD) → (b : Ref sig .tc) → Buf (Elt F) ((c : Thread nD τ).loc b) := fun c b => Gen.V3 m c b
abbrev entry1 : (c : Dev nD) → (b : Ref sig .tc) → Buf (Elt F) ((c : Thread nD τ).loc b) := fun c b => Gen.V5 m outs c b
abbrev entry2 : (c : Dev nD) → (b : Ref sig .tc) → Buf (Elt F) ((c : Thread nD τ).loc b) := fun c b => Gen.V7 m outs c b
abbrev entry3 : (c : Dev nD) → (b : Ref sig .tc) → Buf (Elt F) ((c : Thread nD τ).loc b) := fun c b => Gen.V9 m outs c b
abbrev entry4 : (c : Dev nD) → (b : Ref sig .tc) → Buf (Elt F) ((c : Thread nD τ).loc b) := fun c b => Gen.V21 m outs c b
abbrev entry5 : (c : Dev nD) → (b : Ref sig .tc) → Buf (Elt F) ((c : Thread nD τ).loc b) := fun c b => Gen.V23 m outs c b

/-- Every pipeline's proof data, each at the contents its region is entered with. -/
def pdats : (p : Fin 6) → (c : Dev nD) → Dat τ (Elt F) Unit ℕ (UR sig nD τ) ℕ (cfgs p) c
  | ⟨0, _⟩ => fun c => Perturb0.dat (entry0 m) c
  | ⟨1, _⟩ => fun c => Perturb1.dat (entry1 m outs) c
  | ⟨2, _⟩ => fun c => Perturb2.dat (entry2 m outs) c
  | ⟨3, _⟩ => fun c => Perturb3.dat (entry3 m outs) c
  | ⟨4, _⟩ => fun c => NegSum4.dat (entry4 m outs) c
  | ⟨5, _⟩ => fun c => NegSum5.dat (entry5 m outs) c

/-- What region 0 leaves in each of its arrays is what the buffers hold at the next boundary: an input array is as it was
    entered, the output array is what `outs` names there. -/
theorem exit_arrays0 (hO : ∀ c, outs 4 main_v53 c = (Perturb0.dat (entry0 m) c).arrAt 2 cfg0.N) (c : Dev nD) :
    ∀ w : Fin cfg0.W, (Perturb0.dat (entry0 m) c).arrAt w cfg0.N = Gen.V4 m outs c (Pipeline.arrRef spec0 w)
  | ⟨0, _⟩ => (((Perturb0.dat (entry0 m) c).arrAt_in 0 rfl _).trans (Perturb0.dat_A (entry0 m) c 0)).trans (Gen.V4_of m outs c _ (by decide)).symm
  | ⟨1, _⟩ => (((Perturb0.dat (entry0 m) c).arrAt_in 1 rfl _).trans (Perturb0.dat_A (entry0 m) c 1)).trans (Gen.V4_of m outs c _ (by decide)).symm
  | ⟨2, _⟩ => (hO c).symm.trans (Function.update_self (f := Gen.V3 m c) (a := (Proc.devRef .tc main_v53 : DevRef τ sig)) (v := outs 4 main_v53 c)).symm

/-- Every other buffer is as the region found it. -/
theorem exit_rest0 (c : Dev nD) : ∀ b, b ∉ Finset.univ.image (Pipeline.arrRef spec0) → Gen.V4 m outs c b = Gen.V3 m c b :=
  fun b hb => Gen.V4_of m outs c b (fun h => hb (by
    rw [List.mem_singleton] at h; subst h
    exact Finset.mem_image.mpr ⟨2, Finset.mem_univ _, rfl⟩))

set_option backward.isDefEq.respectTransparency.types false in
/-- REGION 0 as a segment of the program: entered with every unscoped buffer at the contents the boundary before it names,
    left with them at the next boundary's. Its three arrays are split out of the unscoped buffers and put back; the generator
    register and the scoped buffers go into the kernel's invariant and come back; nothing is owed; the kernel has no semaphore
    of its own. -/
def reg0 (hO : ∀ c, outs 4 main_v53 c = (Perturb0.dat (entry0 m) c).arrAt 2 cfg0.N) :
    Pipeline.RegionSeg (pcfgs (F := F)) Gen.adm (pdats m outs) () defs₀ Variants.none noLevels noLevel 0 where
  win := launch0.win.to₀
  block_pos := launch0.block_pos
  stage_whole := launch0.stage_whole
  K := PEmpty
  osem k := k.elim
  ho := Pipeline.OwnSemFacts.none _
  hbody c := (Perturb0.body_obligation (entry0 m) c).loose
  hwaits := Pipeline.hwaits_of_owed_zero _ _ _ _ noLevels noLevel 0 fun _ _ => rfl
  pre c := iprop(StableHlo.held (c : Thread nD τ) (Pipeline.ucRefs τ sig) (Gen.V3 m c) ∗ rides c)
  post c := iprop(StableHlo.held (c : Thread nD τ) (Pipeline.ucRefs τ sig) (Gen.V4 m outs c) ∗ rides c)
  X c := iprop(∃ r, prngReg c r)
  Y c := iprop(∃ r, prngReg c r)
  Z c := Pipeline.unscopedRest (Ix := Unit) (Name := ℕ) (U := UR sig nD τ) (Lvl := ℕ) spec0 c ((entry0 m) c)
  hentry c := by
    rw [Pipeline.ownSems0_none]
    have hsplit := Pipeline.arrays_of_unscopedBufs (p := 0) (pcfgs (F := F)) Gen.adm (pdats m outs) launch0.win launch0.arr_whole c
      ((pdats m outs 0 c).share_full fun _ => rfl) ((entry0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m outs) ((pdats m outs 0 c).share_full fun _ => rfl)
      ((entry0 m) c) (fun b => Gen.V4 m outs c b) ((pdats m outs 0 c).arrAt · cfg0.N) (exit_arrays0 m outs hO c) (exit_rest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What region 1 leaves in each of its arrays is what the buffers hold at the next boundary: an input array is as it was
    entered, the output array is what `outs` names there. -/
theorem exit_arrays1 (hO : ∀ c, outs 6 main_v69 c = (Perturb1.dat (entry1 m outs) c).arrAt 2 cfg1.N) (c : Dev nD) :
    ∀ w : Fin cfg1.W, (Perturb1.dat (entry1 m outs) c).arrAt w cfg1.N = Gen.V6 m outs c (Pipeline.arrRef spec1 w)
  | ⟨0, _⟩ => (((Perturb1.dat (entry1 m outs) c).arrAt_in 0 rfl _).trans (Perturb1.dat_A (entry1 m outs) c 0)).trans (Gen.V6_of m outs c _ (by decide)).symm
  | ⟨1, _⟩ => (((Perturb1.dat (entry1 m outs) c).arrAt_in 1 rfl _).trans (Perturb1.dat_A (entry1 m outs) c 1)).trans (Gen.V6_of m outs c _ (by decide)).symm
  | ⟨2, _⟩ => (hO c).symm.trans (Function.update_self (f := Gen.V5 m outs c) (a := (Proc.devRef .tc main_v69 : DevRef τ sig)) (v := outs 6 main_v69 c)).symm

/-- Every other buffer is as the region found it. -/
theorem exit_rest1 (c : Dev nD) : ∀ b, b ∉ Finset.univ.image (Pipeline.arrRef spec1) → Gen.V6 m outs c b = Gen.V5 m outs c b :=
  fun b hb => Gen.V6_of m outs c b (fun h => hb (by
    rw [List.mem_singleton] at h; subst h
    exact Finset.mem_image.mpr ⟨2, Finset.mem_univ _, rfl⟩))

set_option backward.isDefEq.respectTransparency.types false in
/-- REGION 1 as a segment of the program: entered with every unscoped buffer at the contents the boundary before it names,
    left with them at the next boundary's. Its three arrays are split out of the unscoped buffers and put back; the generator
    register and the scoped buffers go into the kernel's invariant and come back; nothing is owed; the kernel has no semaphore
    of its own. -/
def reg1 (hO : ∀ c, outs 6 main_v69 c = (Perturb1.dat (entry1 m outs) c).arrAt 2 cfg1.N) :
    Pipeline.RegionSeg (pcfgs (F := F)) Gen.adm (pdats m outs) () defs₀ Variants.none noLevels noLevel 1 where
  win := launch1.win.to₀
  block_pos := launch1.block_pos
  stage_whole := launch1.stage_whole
  K := PEmpty
  osem k := k.elim
  ho := Pipeline.OwnSemFacts.none _
  hbody c := (Perturb1.body_obligation (entry1 m outs) c).loose
  hwaits := Pipeline.hwaits_of_owed_zero _ _ _ _ noLevels noLevel 1 fun _ _ => rfl
  pre c := iprop(StableHlo.held (c : Thread nD τ) (Pipeline.ucRefs τ sig) (Gen.V5 m outs c) ∗ rides c)
  post c := iprop(StableHlo.held (c : Thread nD τ) (Pipeline.ucRefs τ sig) (Gen.V6 m outs c) ∗ rides c)
  X c := iprop(∃ r, prngReg c r)
  Y c := iprop(∃ r, prngReg c r)
  Z c := Pipeline.unscopedRest (Ix := Unit) (Name := ℕ) (U := UR sig nD τ) (Lvl := ℕ) spec1 c ((entry1 m outs) c)
  hentry c := by
    rw [Pipeline.ownSems0_none]
    have hsplit := Pipeline.arrays_of_unscopedBufs (p := 1) (pcfgs (F := F)) Gen.adm (pdats m outs) launch1.win launch1.arr_whole c
      ((pdats m outs 1 c).share_full fun _ => rfl) ((entry1 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m outs) ((pdats m outs 1 c).share_full fun _ => rfl)
      ((entry1 m outs) c) (fun b => Gen.V6 m outs c b) ((pdats m outs 1 c).arrAt · cfg1.N) (exit_arrays1 m outs hO c) (exit_rest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What region 2 leaves in each of its arrays is what the buffers hold at the next boundary: an input array is as it was
    entered, the output array is what `outs` names there. -/
theorem exit_arrays2 (hO : ∀ c, outs 8 main_v101 c = (Perturb2.dat (entry2 m outs) c).arrAt 2 cfg2.N) (c : Dev nD) :
    ∀ w : Fin cfg2.W, (Perturb2.dat (entry2 m outs) c).arrAt w cfg2.N = Gen.V8 m outs c (Pipeline.arrRef spec2 w)
  | ⟨0, _⟩ => (((Perturb2.dat (entry2 m outs) c).arrAt_in 0 rfl _).trans (Perturb2.dat_A (entry2 m outs) c 0)).trans (Gen.V8_of m outs c _ (by decide)).symm
  | ⟨1, _⟩ => (((Perturb2.dat (entry2 m outs) c).arrAt_in 1 rfl _).trans (Perturb2.dat_A (entry2 m outs) c 1)).trans (Gen.V8_of m outs c _ (by decide)).symm
  | ⟨2, _⟩ => (hO c).symm.trans (Function.update_self (f := Gen.V7 m outs c) (a := (Proc.devRef .tc main_v101 : DevRef τ sig)) (v := outs 8 main_v101 c)).symm

/-- Every other buffer is as the region found it. -/
theorem exit_rest2 (c : Dev nD) : ∀ b, b ∉ Finset.univ.image (Pipeline.arrRef spec2) → Gen.V8 m outs c b = Gen.V7 m outs c b :=
  fun b hb => Gen.V8_of m outs c b (fun h => hb (by
    rw [List.mem_singleton] at h; subst h
    exact Finset.mem_image.mpr ⟨2, Finset.mem_univ _, rfl⟩))

set_option backward.isDefEq.respectTransparency.types false in
/-- REGION 2 as a segment of the program: entered with every unscoped buffer at the contents the boundary before it names,
    left with them at the next boundary's. Its three arrays are split out of the unscoped buffers and put back; the generator
    register and the scoped buffers go into the kernel's invariant and come back; nothing is owed; the kernel has no semaphore
    of its own. -/
def reg2 (hO : ∀ c, outs 8 main_v101 c = (Perturb2.dat (entry2 m outs) c).arrAt 2 cfg2.N) :
    Pipeline.RegionSeg (pcfgs (F := F)) Gen.adm (pdats m outs) () defs₀ Variants.none noLevels noLevel 2 where
  win := launch2.win.to₀
  block_pos := launch2.block_pos
  stage_whole := launch2.stage_whole
  K := PEmpty
  osem k := k.elim
  ho := Pipeline.OwnSemFacts.none _
  hbody c := (Perturb2.body_obligation (entry2 m outs) c).loose
  hwaits := Pipeline.hwaits_of_owed_zero _ _ _ _ noLevels noLevel 2 fun _ _ => rfl
  pre c := iprop(StableHlo.held (c : Thread nD τ) (Pipeline.ucRefs τ sig) (Gen.V7 m outs c) ∗ rides c)
  post c := iprop(StableHlo.held (c : Thread nD τ) (Pipeline.ucRefs τ sig) (Gen.V8 m outs c) ∗ rides c)
  X c := iprop(∃ r, prngReg c r)
  Y c := iprop(∃ r, prngReg c r)
  Z c := Pipeline.unscopedRest (Ix := Unit) (Name := ℕ) (U := UR sig nD τ) (Lvl := ℕ) spec2 c ((entry2 m outs) c)
  hentry c := by
    rw [Pipeline.ownSems0_none]
    have hsplit := Pipeline.arrays_of_unscopedBufs (p := 2) (pcfgs (F := F)) Gen.adm (pdats m outs) launch2.win launch2.arr_whole c
      ((pdats m outs 2 c).share_full fun _ => rfl) ((entry2 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m outs) ((pdats m outs 2 c).share_full fun _ => rfl)
      ((entry2 m outs) c) (fun b => Gen.V8 m outs c b) ((pdats m outs 2 c).arrAt · cfg2.N) (exit_arrays2 m outs hO c) (exit_rest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What region 3 leaves in each of its arrays is what the buffers hold at the next boundary: an input array is as it was
    entered, the output array is what `outs` names there. -/
theorem exit_arrays3 (hO : ∀ c, outs 10 main_v117 c = (Perturb3.dat (entry3 m outs) c).arrAt 2 cfg3.N) (c : Dev nD) :
    ∀ w : Fin cfg3.W, (Perturb3.dat (entry3 m outs) c).arrAt w cfg3.N = Gen.V10 m outs c (Pipeline.arrRef spec3 w)
  | ⟨0, _⟩ => (((Perturb3.dat (entry3 m outs) c).arrAt_in 0 rfl _).trans (Perturb3.dat_A (entry3 m outs) c 0)).trans (Gen.V10_of m outs c _ (by decide)).symm
  | ⟨1, _⟩ => (((Perturb3.dat (entry3 m outs) c).arrAt_in 1 rfl _).trans (Perturb3.dat_A (entry3 m outs) c 1)).trans (Gen.V10_of m outs c _ (by decide)).symm
  | ⟨2, _⟩ => (hO c).symm.trans (Function.update_self (f := Gen.V9 m outs c) (a := (Proc.devRef .tc main_v117 : DevRef τ sig)) (v := outs 10 main_v117 c)).symm

/-- Every other buffer is as the region found it. -/
theorem exit_rest3 (c : Dev nD) : ∀ b, b ∉ Finset.univ.image (Pipeline.arrRef spec3) → Gen.V10 m outs c b = Gen.V9 m outs c b :=
  fun b hb => Gen.V10_of m outs c b (fun h => hb (by
    rw [List.mem_singleton] at h; subst h
    exact Finset.mem_image.mpr ⟨2, Finset.mem_univ _, rfl⟩))

set_option backward.isDefEq.respectTransparency.types false in
/-- REGION 3 as a segment of the program: entered with every unscoped buffer at the contents the boundary before it names,
    left with them at the next boundary's. Its three arrays are split out of the unscoped buffers and put back; the generator
    register and the scoped buffers go into the kernel's invariant and come back; nothing is owed; the kernel has no semaphore
    of its own. -/
def reg3 (hO : ∀ c, outs 10 main_v117 c = (Perturb3.dat (entry3 m outs) c).arrAt 2 cfg3.N) :
    Pipeline.RegionSeg (pcfgs (F := F)) Gen.adm (pdats m outs) () defs₀ Variants.none noLevels noLevel 3 where
  win := launch3.win.to₀
  block_pos := launch3.block_pos
  stage_whole := launch3.stage_whole
  K := PEmpty
  osem k := k.elim
  ho := Pipeline.OwnSemFacts.none _
  hbody c := (Perturb3.body_obligation (entry3 m outs) c).loose
  hwaits := Pipeline.hwaits_of_owed_zero _ _ _ _ noLevels noLevel 3 fun _ _ => rfl
  pre c := iprop(StableHlo.held (c : Thread nD τ) (Pipeline.ucRefs τ sig) (Gen.V9 m outs c) ∗ rides c)
  post c := iprop(StableHlo.held (c : Thread nD τ) (Pipeline.ucRefs τ sig) (Gen.V10 m outs c) ∗ rides c)
  X c := iprop(∃ r, prngReg c r)
  Y c := iprop(∃ r, prngReg c r)
  Z c := Pipeline.unscopedRest (Ix := Unit) (Name := ℕ) (U := UR sig nD τ) (Lvl := ℕ) spec3 c ((entry3 m outs) c)
  hentry c := by
    rw [Pipeline.ownSems0_none]
    have hsplit := Pipeline.arrays_of_unscopedBufs (p := 3) (pcfgs (F := F)) Gen.adm (pdats m outs) launch3.win launch3.arr_whole c
      ((pdats m outs 3 c).share_full fun _ => rfl) ((entry3 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m outs) ((pdats m outs 3 c).share_full fun _ => rfl)
      ((entry3 m outs) c) (fun b => Gen.V10 m outs c b) ((pdats m outs 3 c).arrAt · cfg3.N) (exit_arrays3 m outs hO c) (exit_rest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What region 4 leaves in each of its arrays is what the buffers hold at the next boundary: an input array is as it was
    entered, the output array is what `outs` names there. -/
theorem exit_arrays4 (hO : ∀ c, outs 22 main_v239 c = (NegSum4.dat (entry4 m outs) c).arrAt 2 cfg4.N) (c : Dev nD) :
    ∀ w : Fin cfg4.W, (NegSum4.dat (entry4 m outs) c).arrAt w cfg4.N = Gen.V22 m outs c (Pipeline.arrRef spec4 w)
  | ⟨0, _⟩ => (((NegSum4.dat (entry4 m outs) c).arrAt_in 0 rfl _).trans (NegSum4.dat_A (entry4 m outs) c 0)).trans (Gen.V22_of m outs c _ (by decide)).symm
  | ⟨1, _⟩ => (((NegSum4.dat (entry4 m outs) c).arrAt_in 1 rfl _).trans (NegSum4.dat_A (entry4 m outs) c 1)).trans (Gen.V22_of m outs c _ (by decide)).symm
  | ⟨2, _⟩ => (hO c).symm.trans (Function.update_self (f := Gen.V21 m outs c) (a := (Proc.devRef .tc main_v239 : DevRef τ sig)) (v := outs 22 main_v239 c)).symm

/-- Every other buffer is as the region found it. -/
theorem exit_rest4 (c : Dev nD) : ∀ b, b ∉ Finset.univ.image (Pipeline.arrRef spec4) → Gen.V22 m outs c b = Gen.V21 m outs c b :=
  fun b hb => Gen.V22_of m outs c b (fun h => hb (by
    rw [List.mem_singleton] at h; subst h
    exact Finset.mem_image.mpr ⟨2, Finset.mem_univ _, rfl⟩))

set_option backward.isDefEq.respectTransparency.types false in
/-- REGION 4 as a segment of the program: entered with every unscoped buffer at the contents the boundary before it names,
    left with them at the next boundary's. Its three arrays are split out of the unscoped buffers and put back; the generator
    register and the scoped buffers go into the kernel's invariant and come back; nothing is owed; the kernel has no semaphore
    of its own. -/
def reg4 (hO : ∀ c, outs 22 main_v239 c = (NegSum4.dat (entry4 m outs) c).arrAt 2 cfg4.N) :
    Pipeline.RegionSeg (pcfgs (F := F)) Gen.adm (pdats m outs) () defs₀ Variants.none noLevels noLevel 4 where
  win := launch4.win.to₀
  block_pos := launch4.block_pos
  stage_whole := launch4.stage_whole
  K := PEmpty
  osem k := k.elim
  ho := Pipeline.OwnSemFacts.none _
  hbody c := (NegSum4.body_obligation (entry4 m outs) c).loose
  hwaits := Pipeline.hwaits_of_owed_zero _ _ _ _ noLevels noLevel 4 fun _ _ => rfl
  pre c := iprop(StableHlo.held (c : Thread nD τ) (Pipeline.ucRefs τ sig) (Gen.V21 m outs c) ∗ rides c)
  post c := iprop(StableHlo.held (c : Thread nD τ) (Pipeline.ucRefs τ sig) (Gen.V22 m outs c) ∗ rides c)
  X c := iprop(∃ r, prngReg c r)
  Y c := iprop(∃ r, prngReg c r)
  Z c := Pipeline.unscopedRest (Ix := Unit) (Name := ℕ) (U := UR sig nD τ) (Lvl := ℕ) spec4 c ((entry4 m outs) c)
  hentry c := by
    rw [Pipeline.ownSems0_none]
    have hsplit := Pipeline.arrays_of_unscopedBufs (p := 4) (pcfgs (F := F)) Gen.adm (pdats m outs) launch4.win launch4.arr_whole c
      ((pdats m outs 4 c).share_full fun _ => rfl) ((entry4 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (show (pdats m outs 4 c).Φ (Fin.last _) ⊢ Pipeline.ΦA spec4 c from NegSum4.inv_out (entry4 m outs) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m outs) ((pdats m outs 4 c).share_full fun _ => rfl)
      ((entry4 m outs) c) (fun b => Gen.V22 m outs c b) ((pdats m outs 4 c).arrAt · cfg4.N) (exit_arrays4 m outs hO c) (exit_rest4 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What region 5 leaves in each of its arrays is what the buffers hold at the next boundary: an input array is as it was
    entered, the output array is what `outs` names there. -/
theorem exit_arrays5 (hO : ∀ c, outs 24 main_v255 c = (NegSum5.dat (entry5 m outs) c).arrAt 2 cfg5.N) (c : Dev nD) :
    ∀ w : Fin cfg5.W, (NegSum5.dat (entry5 m outs) c).arrAt w cfg5.N = Gen.V24 m outs c (Pipeline.arrRef spec5 w)
  | ⟨0, _⟩ => (((NegSum5.dat (entry5 m outs) c).arrAt_in 0 rfl _).trans (NegSum5.dat_A (entry5 m outs) c 0)).trans (Gen.V24_of m outs c _ (by decide)).symm
  | ⟨1, _⟩ => (((NegSum5.dat (entry5 m outs) c).arrAt_in 1 rfl _).trans (NegSum5.dat_A (entry5 m outs) c 1)).trans (Gen.V24_of m outs c _ (by decide)).symm
  | ⟨2, _⟩ => (hO c).symm.trans (Function.update_self (f := Gen.V23 m outs c) (a := (Proc.devRef .tc main_v255 : DevRef τ sig)) (v := outs 24 main_v255 c)).symm

/-- Every other buffer is as the region found it. -/
theorem exit_rest5 (c : Dev nD) : ∀ b, b ∉ Finset.univ.image (Pipeline.arrRef spec5) → Gen.V24 m outs c b = Gen.V23 m outs c b :=
  fun b hb => Gen.V24_of m outs c b (fun h => hb (by
    rw [List.mem_singleton] at h; subst h
    exact Finset.mem_image.mpr ⟨2, Finset.mem_univ _, rfl⟩))

set_option backward.isDefEq.respectTransparency.types false in
/-- REGION 5 as a segment of the program: entered with every unscoped buffer at the contents the boundary before it names,
    left with them at the next boundary's. Its three arrays are split out of the unscoped buffers and put back; the generator
    register and the scoped buffers go into the kernel's invariant and come back; nothing is owed; the kernel has no semaphore
    of its own. -/
def reg5 (hO : ∀ c, outs 24 main_v255 c = (NegSum5.dat (entry5 m outs) c).arrAt 2 cfg5.N) :
    Pipeline.RegionSeg (pcfgs (F := F)) Gen.adm (pdats m outs) () defs₀ Variants.none noLevels noLevel 5 where
  win := launch5.win.to₀
  block_pos := launch5.block_pos
  stage_whole := launch5.stage_whole
  K := PEmpty
  osem k := k.elim
  ho := Pipeline.OwnSemFacts.none _
  hbody c := (NegSum5.body_obligation (entry5 m outs) c).loose
  hwaits := Pipeline.hwaits_of_owed_zero _ _ _ _ noLevels noLevel 5 fun _ _ => rfl
  pre c := iprop(StableHlo.held (c : Thread nD τ) (Pipeline.ucRefs τ sig) (Gen.V23 m outs c) ∗ rides c)
  post c := iprop(StableHlo.held (c : Thread nD τ) (Pipeline.ucRefs τ sig) (Gen.V24 m outs c) ∗ rides c)
  X c := iprop(∃ r, prngReg c r)
  Y c := iprop(∃ r, prngReg c r)
  Z c := Pipeline.unscopedRest (Ix := Unit) (Name := ℕ) (U := UR sig nD τ) (Lvl := ℕ) spec5 c ((entry5 m outs) c)
  hentry c := by
    rw [Pipeline.ownSems0_none]
    have hsplit := Pipeline.arrays_of_unscopedBufs (p := 5) (pcfgs (F := F)) Gen.adm (pdats m outs) launch5.win launch5.arr_whole c
      ((pdats m outs 5 c).share_full fun _ => rfl) ((entry5 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 5 c).Φ 0 = Pipeline.ΦA spec5 c from rfl]; unfold Pipeline.ΦA
    iintro ⟨Hp, -, Hr⟩
    isplitl [Hr]; · iexact Hr
    iexact Hp
  hout c := by
    rw [Pipeline.ownSems0_none]
    refine (show (pdats m outs 5 c).Φ (Fin.last _) ⊢ Pipeline.ΦA spec5 c from NegSum5.inv_out (entry5 m outs) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m outs) ((pdats m outs 5 c).share_full fun _ => rfl)
      ((entry5 m outs) c) (fun b => Gen.V24 m outs c b) ((pdats m outs 5 c).arrAt · cfg5.N) (exit_arrays5 m outs hO c) (exit_rest5 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## A definite choice of what the regions leave

`outs` is read at six places only: after region K, at region K's output array. It is built in six stages; stage K + 1 adds
region K's final output array, computed from the contents region K is entered with — which mention only the earlier stages. -/

/-- Region 0's output array after its last write-back, at the contents the first 0 regions leave. -/
def final0 (c : Dev nD) : Buf (Elt F) ((c : Thread nD τ).loc main_v53) :=
  (Perturb0.dat (entry0 m) c).arrAt 2 cfg0.N
/-- The contents after the first 1 regions. -/
def stage1 : Gen.Outs (F := F) := fun J r c =>
  if h : J = 4 ∧ r = main_v53 then h.2 ▸ final0 m c else Gen.V3 m c r

/-- Region 1's output array after its last write-back, at the contents the first 1 regions leave. -/
def final1 (c : Dev nD) : Buf (Elt F) ((c : Thread nD τ).loc main_v69) :=
  (Perturb1.dat (entry1 m (stage1 m)) c).arrAt 2 cfg1.N
/-- The contents after the first 2 regions. -/
def stage2 : Gen.Outs (F := F) := fun J r c =>
  if h : J = 6 ∧ r = main_v69 then h.2 ▸ final1 m c else stage1 m J r c

/-- Region 2's output array after its last write-back, at the contents the first 2 regions leave. -/
def final2 (c : Dev nD) : Buf (Elt F) ((c : Thread nD τ).loc main_v101) :=
  (Perturb2.dat (entry2 m (stage2 m)) c).arrAt 2 cfg2.N
/-- The contents after the first 3 regions. -/
def stage3 : Gen.Outs (F := F) := fun J r c =>
  if h : J = 8 ∧ r = main_v101 then h.2 ▸ final2 m c else stage2 m J r c

/-- Region 3's output array after its last write-back, at the contents the first 3 regions leave. -/
def final3 (c : Dev nD) : Buf (Elt F) ((c : Thread nD τ).loc main_v117) :=
  (Perturb3.dat (entry3 m (stage3 m)) c).arrAt 2 cfg3.N
/-- The contents after the first 4 regions. -/
def stage4 : Gen.Outs (F := F) := fun J r c =>
  if h : J = 10 ∧ r = main_v117 then h.2 ▸ final3 m c else stage3 m J r c

/-- Region 4's output array after its last write-back, at the contents the first 4 regions leave. -/
def final4 (c : Dev nD) : Buf (Elt F) ((c : Thread nD τ).loc main_v239) :=
  (NegSum4.dat (entry4 m (stage4 m)) c).arrAt 2 cfg4.N
/-- The contents after the first 5 regions. -/
def stage5 : Gen.Outs (F := F) := fun J r c =>
  if h : J = 22 ∧ r = main_v239 then h.2 ▸ final4 m c else stage4 m J r c

/-- Region 5's output array after its last write-back, at the contents the first 5 regions leave. -/
def final5 (c : Dev nD) : Buf (Elt F) ((c : Thread nD τ).loc main_v255) :=
  (NegSum5.dat (entry5 m (stage5 m)) c).arrAt 2 cfg5.N
/-- The contents after the first 6 regions. -/
def stage6 : Gen.Outs (F := F) := fun J r c =>
  if h : J = 24 ∧ r = main_v255 then h.2 ▸ final5 m c else stage5 m J r c

/-- What the regions leave, all six. -/
def left : Gen.Outs (F := F) := stage6 m

/-- Region 1 is entered with contents that read `left` only at (4, main_v53): the later stages do not matter. -/
theorem entry1_eq : entry1 m (left m) = entry1 m (stage1 m) := by
  have e : ∀ J r c, J ≤ 4 → left m J r c = stage1 m J r c := fun J r c hJ => by
    unfold left stage6 stage5 stage4 stage3 stage2
    rw [dif_neg (fun h => by omega)]; rw [dif_neg (fun h => by omega)]; rw [dif_neg (fun h => by omega)]; rw [dif_neg (fun h => by omega)]; rw [dif_neg (fun h => by omega)]
  funext c b
  simp only [entry1, Gen.V5, Gen.V4, e 4 main_v53 c (by omega)]

/-- Region 2 is entered with contents that read `left` only at (4, main_v53), (6, main_v69): the later stages do not matter. -/
theorem entry2_eq : entry2 m (left m) = entry2 m (stage2 m) := by
  have e : ∀ J r c, J ≤ 6 → left m J r c = stage2 m J r c := fun J r c hJ => by
    unfold left stage6 stage5 stage4 stage3
    rw [dif_neg (fun h => by omega)]; rw [dif_neg (fun h => by omega)]; rw [dif_neg (fun h => by omega)]; rw [dif_neg (fun h => by omega)]
  funext c b
  simp only [entry2, Gen.V7, Gen.V6, Gen.V5, Gen.V4, e 4 main_v53 c (by omega), e 6 main_v69 c (by omega)]

/-- Region 3 is entered with contents that read `left` only at (4, main_v53), (6, main_v69), (8, main_v101): the later stages do not matter. -/
theorem entry3_eq : entry3 m (left m) = entry3 m (stage3 m) := by
  have e : ∀ J r c, J ≤ 8 → left m J r c = stage3 m J r c := fun J r c hJ => by
    unfold left stage6 stage5 stage4
    rw [dif_neg (fun h => by omega)]; rw [dif_neg (fun h => by omega)]; rw [dif_neg (fun h => by omega)]
  funext c b
  simp only [entry3, Gen.V9, Gen.V8, Gen.V7, Gen.V6, Gen.V5, Gen.V4, e 4 main_v53 c (by omega), e 6 main_v69 c (by omega), e 8 main_v101 c (by omega)]

/-- Region 4 is entered with contents that read `left` only at (4, main_v53), (6, main_v69), (8, main_v101), (10, main_v117): the later stages do not matter. -/
theorem entry4_eq : entry4 m (left m) = entry4 m (stage4 m) := by
  have e : ∀ J r c, J ≤ 10 → left m J r c = stage4 m J r c := fun J r c hJ => by
    unfold left stage6 stage5
    rw [dif_neg (fun h => by omega)]; rw [dif_neg (fun h => by omega)]
  funext c b
  simp only [entry4, Gen.V21, Gen.V20, Gen.V19, Gen.V18, Gen.V17, Gen.V16, Gen.V15, Gen.V14, Gen.V13, Gen.V12, Gen.V11, Gen.V10, Gen.V9, Gen.V8, Gen.V7, Gen.V6, Gen.V5, Gen.V4, e 4 main_v53 c (by omega), e 6 main_v69 c (by omega), e 8 main_v101 c (by omega), e 10 main_v117 c (by omega)]

/-- Region 5 is entered with contents that read `left` only at (4, main_v53), (6, main_v69), (8, main_v101), (10, main_v117), (22, main_v239): the later stages do not matter. -/
theorem entry5_eq : entry5 m (left m) = entry5 m (stage5 m) := by
  have e : ∀ J r c, J ≤ 22 → left m J r c = stage5 m J r c := fun J r c hJ => by
    unfold left stage6
    rw [dif_neg (fun h => by omega)]
  funext c b
  simp only [entry5, Gen.V23, Gen.V22, Gen.V21, Gen.V20, Gen.V19, Gen.V18, Gen.V17, Gen.V16, Gen.V15, Gen.V14, Gen.V13, Gen.V12, Gen.V11, Gen.V10, Gen.V9, Gen.V8, Gen.V7, Gen.V6, Gen.V5, Gen.V4, e 4 main_v53 c (by omega), e 6 main_v69 c (by omega), e 8 main_v101 c (by omega), e 10 main_v117 c (by omega), e 22 main_v239 c (by omega)]

theorem left_at0 (c : Dev nD) : left m 4 main_v53 c = (Perturb0.dat (entry0 m) c).arrAt 2 cfg0.N := by

  unfold left stage6 stage5 stage4 stage3 stage2 stage1
  rw [dif_neg (fun h => by omega)]; rw [dif_neg (fun h => by omega)]; rw [dif_neg (fun h => by omega)]; rw [dif_neg (fun h => by omega)]; rw [dif_neg (fun h => by omega)]; rw [dif_pos ⟨rfl, rfl⟩]
  rfl

theorem left_at1 (c : Dev nD) : left m 6 main_v69 c = (Perturb1.dat (entry1 m (left m)) c).arrAt 2 cfg1.N := by
  rw [entry1_eq]
  unfold left stage6 stage5 stage4 stage3 stage2
  rw [dif_neg (fun h => by omega)]; rw [dif_neg (fun h => by omega)]; rw [dif_neg (fun h => by omega)]; rw [dif_neg (fun h => by omega)]; rw [dif_pos ⟨rfl, rfl⟩]
  rfl

theorem left_at2 (c : Dev nD) : left m 8 main_v101 c = (Perturb2.dat (entry2 m (left m)) c).arrAt 2 cfg2.N := by
  rw [entry2_eq]
  unfold left stage6 stage5 stage4 stage3
  rw [dif_neg (fun h => by omega)]; rw [dif_neg (fun h => by omega)]; rw [dif_neg (fun h => by omega)]; rw [dif_pos ⟨rfl, rfl⟩]
  rfl

theorem left_at3 (c : Dev nD) : left m 10 main_v117 c = (Perturb3.dat (entry3 m (left m)) c).arrAt 2 cfg3.N := by
  rw [entry3_eq]
  unfold left stage6 stage5 stage4
  rw [dif_neg (fun h => by omega)]; rw [dif_neg (fun h => by omega)]; rw [dif_pos ⟨rfl, rfl⟩]
  rfl

theorem left_at4 (c : Dev nD) : left m 22 main_v239 c = (NegSum4.dat (entry4 m (left m)) c).arrAt 2 cfg4.N := by
  rw [entry4_eq]
  unfold left stage6 stage5
  rw [dif_neg (fun h => by omega)]; rw [dif_pos ⟨rfl, rfl⟩]
  rfl

theorem left_at5 (c : Dev nD) : left m 24 main_v255 c = (NegSum5.dat (entry5 m (left m)) c).arrAt 2 cfg5.N := by
  rw [entry5_eq]
  unfold left stage6
  rw [dif_pos ⟨rfl, rfl⟩]
  rfl

/-! ## The frame -/

variable (ρ : Dev nD → PrngReg)

set_option backward.isDefEq.respectTransparency.types false in
/-- From any memory with zero counters every weakly fair execution of the program terminates, nothing faulting, and every
    final memory holds the eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.frame_cond m (Ix := Unit) (U := UR sig nD τ) (Lvl := ℕ) emb₁ () Variants.none noLevels noLevel (fun _ _ => rfl) ρ (left m)
    (pdats m (left m)) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => rides c)
    (by
      refine Pipeline.initEach noLevels noLevel fun c => ?_
      iintro ⟨⟨-, HO, -, Hp, -⟩, -⟩
      imodintro
      isplitl [Hp]; · iexists _; iexact Hp
      iexists ∅; iexact HO)
    (fun c => by iintro ⟨-, HO⟩; iexact HO)
    (reg0 m (left m) (left_at0 m)) (fun c => .rfl) (fun c => .rfl)
    (reg1 m (left m) (left_at1 m)) (fun c => .rfl) (fun c => .rfl)
    (reg2 m (left m) (left_at2 m)) (fun c => .rfl) (fun c => .rfl)
    (reg3 m (left m) (left_at3 m)) (fun c => .rfl) (fun c => .rfl)
    (reg4 m (left m) (left_at4 m)) (fun c => .rfl) (fun c => .rfl)
    (reg5 m (left m) (left_at5 m)) (fun c => .rfl) (fun c => .rfl)

end Cert.Kernel.Whole

end
-- ==== Proof.PerturbI0.lean ====
/-
  One perturbation kernel of the program, as the pipeline runs it: the update  out = x + n̂ · sign(x) · ε  on a [90000, 64]
  array, ten blocks of 9000 rows, one block per grid point. Each row of the noise block is divided by its Euclidean length
  (clamped below), so a block of the result depends only on the same block of x and of the noise: nothing is carried from one
  grid point to the next, and the three windows' blocks tile their arrays.

  This module states, at any contents V of the buffers when the region is entered: what each window's block is at a point,
  what the body leaves in the output window's staging buffer (its one store, whole), the body's run on whole staging buffers,
  the pipeline's proof data, and the body obligation at every point.
-/
import proofs.«131157_j87900800680713_1_alg».proof.Proof.Gen.KernelIdeal.Launch
import proofs.«131157_j87900800680713_1_alg».proof.Proof.Gen.KernelIdeal.Skeleton
import proofs.«131157_j87900800680713_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Perturb0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at grid point `t`: rows 9000·t … 9000·t + 8999 of its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's staging buffer holds x's block at every point, for any proof data over `V` whose body leaves that block
    in place: the window is an input, never idle, its blocks tile the array. -/
theorem found_x {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The same for the noise window. -/
theorem found_nz {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output window's buffer -/

/-- The one rectangle the body loads and stores through: the whole [9000, 64] block. -/
abbrev whole : Rect S9000x64 := Rect.unit (s := S9000x64) ![0, 0] S9000x64.size inb_S9000x64_S9000x64_0_0

/-- The output block after the body, from the x block and the noise block: the body's single store, of the update
    x + n̂ · sign(x) · ε computed from the two loaded blocks. -/
def stored (x nz : Vec F S9000x64 .f32) : Vec F S9000x64 .f32 :=
  View.canon [⟨whole, k0_pay1 (View.ld nz whole) (View.ld x whole)⟩]

/-- That store covers the block. -/
theorem stored_covers (p : Vec F S9000x64 .f32) (y : S9000x64.Idx) :
    ∃ pc ∈ ([⟨whole, p⟩] : List (View.Piece (Elt F) S9000x64 .f32)), y ∈ pc.1.set :=
  View.cover_of_tiled [⟨whole, p⟩] S9000x64.size (by rfl) y

/-! ## The body's run -/

set_option maxHeartbeats 1000000 in
/-- The body on whole staging buffers — x's holding `x`, the noise's holding `nz`, the output's holding anything — runs to its
    end leaving the inputs as they were and the output's buffer at `stored x nz`. -/
theorem body_run (c : Dev nD) (E : Set ℕ) (i : grid0.Coords)
    (arg1 : Memref sig .tc .vmem S9000x64 .f32) (harg1 : arg1.IsWhole) (arg2 : Memref sig .tc .vmem S9000x64 .f32) (harg2 : arg2.IsWhole)
    (arg3 : Memref sig .tc .vmem S9000x64 .f32) (harg3 : arg3.IsWhole)
    (x nz : Vec F S9000x64 .f32) (K : PUnit → sProp 𝕄) :
    iprop(owns (c : Thread nD τ) arg1 fullShare x ∗ owns (c : Thread nD τ) arg2 fullShare nz ∗ (∃ d, owns (c : Thread nD τ) arg3 fullShare d)
        ∗ (iprop(owns (c : Thread nD τ) arg1 fullShare x ∗ owns (c : Thread nD τ) arg2 fullShare nz
            ∗ owns (c : Thread nD τ) arg3 fullShare (stored x nz)) -∗ K ⟨⟩))
      ⊢ wp frame (wpE (defs₀ (F := F)) Variants.none c none) E (cc0__perturb_kernel i arg1 harg1 arg2 harg2 arg3 harg3) K := by
  simp only [cc0__perturb_kernel_eq_skeleton]; unfold cc0__perturb_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_covers _)

/-! ## The pipeline's proof data -/

/-- On core `c`: the arrays as the region finds them; after the body at point `t` each input's buffer still at its block and
    the output's at `stored` of the two input blocks; the invariant is the scoped rest and the generator register, untouched;
    nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => stored (blockAt V c 0 t) (blockAt V c 1 t)
  Φ _ := Pipeline.ΦA spec0 c
  q _ := fullShare
  owed _ := 0

theorem dat_A (c : Dev nD) (w : Fin cfg0.W) : (dat V c).A w = V c (Pipeline.arrRef spec0 w) := by
  dsimp only [dat]

theorem dat_after_x (c : Dev nD) (t : Fin cfg0.N) : (dat V c).after 0 t = blockAt V c 0 t := by dsimp only [dat]
theorem dat_after_nz (c : Dev nD) (t : Fin cfg0.N) : (dat V c).after 1 t = blockAt V c 1 t := by dsimp only [dat]
theorem dat_after_out (c : Dev nD) (t : Fin cfg0.N) :
    (dat V c).after 2 t = stored (blockAt V c 0 t) (blockAt V c 1 t) := by dsimp only [dat]

theorem dat_before_x (c : Dev nD) (t : Fin cfg0.N) (d) : (dat V c).before 0 t d = blockAt V c 0 t :=
  found_x V (dat V c) (dat_A V c 0) (dat_after_x V c) t d
theorem dat_before_nz (c : Dev nD) (t : Fin cfg0.N) (d) : (dat V c).before 1 t d = blockAt V c 1 t :=
  found_nz V (dat V c) (dat_A V c 1) (dat_after_nz V c) t d

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' buffers hold their blocks, so `body_run` applies; the invariant and what the core
    owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [dat_before_x, dat_before_nz]
  rw [show (dat V c).Φ t.succ = (dat V c).Φ t.castSucc from rfl,
    show (dat V c).owesAt () t.succ = (dat V c).owesAt () t.castSucc from rfl,
    dat_after_x, dat_after_nz, dat_after_out]
  iintro ⟨HΦ, Ho, ⟨%d0, H0⟩, ⟨%d1, H1⟩, ⟨%d2, H2⟩⟩
  iapply (body_run c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Perturb0

end
-- ==== Proof.PerturbI1.lean ====
/-
  One perturbation kernel of the program, as the pipeline runs it: the update  out = x + n̂ · sign(x) · ε  on a [90000, 64]
  array, ten blocks of 9000 rows, one block per grid point. Each row of the noise block is divided by its Euclidean length
  (clamped below), so a block of the result depends only on the same block of x and of the noise: nothing is carried from one
  grid point to the next, and the three windows' blocks tile their arrays.

  This module states, at any contents V of the buffers when the region is entered: what each window's block is at a point,
  what the body leaves in the output window's staging buffer (its one store, whole), the body's run on whole staging buffers,
  the pipeline's proof data, and the body obligation at every point.
-/
import proofs.«131157_j87900800680713_1_alg».proof.Proof.Gen.KernelIdeal.Launch
import proofs.«131157_j87900800680713_1_alg».proof.Proof.Gen.KernelIdeal.Skeleton
import proofs.«131157_j87900800680713_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Perturb1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at grid point `t`: rows 9000·t … 9000·t + 8999 of its array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x window's staging buffer holds x's block at every point, for any proof data over `V` whose body leaves that block
    in place: the window is an input, never idle, its blocks tile the array. -/
theorem found_x {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The same for the noise window. -/
theorem found_nz {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output window's buffer -/

/-- The one rectangle the body loads and stores through: the whole [9000, 64] block. -/
abbrev whole : Rect S9000x64 := Rect.unit (s := S9000x64) ![0, 0] S9000x64.size inb_S9000x64_S9000x64_0_0

/-- The output block after the body, from the x block and the noise block: the body's single store, of the update
    x + n̂ · sign(x) · ε computed from the two loaded blocks. -/
def stored (x nz : Vec F S9000x64 .f32) : Vec F S9000x64 .f32 :=
  View.canon [⟨whole, k1_pay1 (View.ld nz whole) (View.ld x whole)⟩]

/-- That store covers the block. -/
theorem stored_covers (p : Vec F S9000x64 .f32) (y : S9000x64.Idx) :
    ∃ pc ∈ ([⟨whole, p⟩] : List (View.Piece (Elt F) S9000x64 .f32)), y ∈ pc.1.set :=
  View.cover_of_tiled [⟨whole, p⟩] S9000x64.size (by rfl) y

/-! ## The body's run -/

set_option maxHeartbeats 1000000 in
/-- The body on whole staging buffers — x's holding `x`, the noise's holding `nz`, the output's holding anything — runs to its
    end leaving the inputs as they were and the output's buffer at `stored x nz`. -/
theorem body_run (c : Dev nD) (E : Set ℕ) (i : grid1.Coords)
    (arg1 : Memref sig .tc .vmem S9000x64 .f32) (harg1 : arg1.IsWhole) (arg2 : Memref sig .tc .vmem S9000x64 .f32) (harg2 : arg2.IsWhole)
    (arg3 : Memref sig .tc .vmem S9000x64 .f32) (harg3 : arg3.IsWhole)
    (x nz : Vec F S9000x64 .f32) (K : PUnit → sProp 𝕄) :
    iprop(owns (c : Thread nD τ) arg1 fullShare x ∗ owns (c : Thread nD τ) arg2 fullShare nz ∗ (∃ d, owns (c : Thread nD τ) arg3 fullShare d)
        ∗ (iprop(owns (c : Thread nD τ) arg1 fullShare x ∗ owns (c : Thread nD τ) arg2 fullShare nz
            ∗ owns (c : Thread nD τ) arg3 fullShare (stored x nz)) -∗ K ⟨⟩))
      ⊢ wp frame (wpE (defs₀ (F := F)) Variants.none c none) E (cc1__perturb_kernel i arg1 harg1 arg2 harg2 arg3 harg3) K := by
  simp only [cc1__perturb_kernel_eq_skeleton]; unfold cc1__perturb_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_covers _)

/-! ## The pipeline's proof data -/

/-- On core `c`: the arrays as the region finds them; after the body at point `t` each input's buffer still at its block and
    the output's at `stored` of the two input blocks; the invariant is the scoped rest and the generator register, untouched;
    nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => stored (blockAt V c 0 t) (blockAt V c 1 t)
  Φ _ := Pipeline.ΦA spec1 c
  q _ := fullShare
  owed _ := 0

theorem dat_A (c : Dev nD) (w : Fin cfg1.W) : (dat V c).A w = V c (Pipeline.arrRef spec1 w) := by
  dsimp only [dat]

theorem dat_after_x (c : Dev nD) (t : Fin cfg1.N) : (dat V c).after 0 t = blockAt V c 0 t := by dsimp only [dat]
theorem dat_after_nz (c : Dev nD) (t : Fin cfg1.N) : (dat V c).after 1 t = blockAt V c 1 t := by dsimp only [dat]
theorem dat_after_out (c : Dev nD) (t : Fin cfg1.N) :
    (dat V c).after 2 t = stored (blockAt V c 0 t) (blockAt V c 1 t) := by dsimp only [dat]

theorem dat_before_x (c : Dev nD) (t : Fin cfg1.N) (d) : (dat V c).before 0 t d = blockAt V c 0 t :=
  found_x V (dat V c) (dat_A V c 0) (dat_after_x V c) t d
theorem dat_before_nz (c : Dev nD) (t : Fin cfg1.N) (d) : (dat V c).before 1 t d = blockAt V c 1 t :=
  found_nz V (dat V c) (dat_A V c 1) (dat_after_nz V c) t d

/-! ## The body obligation -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' buffers hold their blocks, so `body_run` applies; the invariant and what the core
    owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [dat_before_x, dat_before_nz]
  rw [show (dat V c).Φ t.succ = (dat V c).Φ t.castSucc from rfl,
    show (dat V c).owesAt () t.succ = (dat V c).owesAt () t.castSucc from rfl,
    dat_after_x, dat_after_nz, dat_after_out]
  iintro ⟨HΦ, Ho, ⟨%d0, H0⟩, ⟨%d1, H1⟩, ⟨%d2, H2⟩⟩
  iapply (body_run c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Perturb1

end
-- ==== Proof.PerturbI2.lean ====
/-
  One perturbation kernel of the program, as the pipeline runs it: the update  out = x + n̂ · sign(x) · ε  on a [90000, 64]
  array, ten blocks of 9000 rows, one block per grid point. Each row of the noise block is divided by its Euclidean length
  (clamped below), so a block of the result depends only on the same block of x and of the noise: nothing is carried from one
  grid point to the next, and the three windows' blocks tile their arrays.

  This module states, at any contents V of the buffers when the region is entered: what each window's block is at a point,
  what the body leaves in the output window's staging buffer (its one store, whole), the body's run on whole staging buffers,
  the pipeline's proof data, and the body obligation at every point.
-/
import proofs.«131157_j87900800680713_1_alg».proof.Proof.Gen.KernelIdeal.Launch
import proofs.«131157_j87900800680713_1_alg».proof.Proof.Gen.KernelIdeal.Skeleton
import proofs.«131157_j87900800680713_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Perturb2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at grid point `t`: rows 9000·t … 9000·t + 8999 of its array as the region finds it. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The x window's staging buffer holds x's block at every point, for any proof data over `V` whose body leaves that block
    in place: the window is an input, never idle, its blocks tile the array. -/
theorem found_x {c : Dev nD} (dat : Dat τ (Elt F) Unit ℕ (UR sig nD τ) ℕ cfg2 c) (hA : dat.A 0 = V c (Pipeline.arrRef spec2 0))
    (hafter : ∀ t, dat.after 0 t = blockAt V c 0 t) (t : Fin cfg2.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The same for the noise window. -/
theorem found_nz {c : Dev nD} (dat : Dat τ (Elt F) Unit ℕ (UR sig nD τ) ℕ cfg2 c) (hA : dat.A 1 = V c (Pipeline.arrRef spec2 1))
    (hafter : ∀ t, dat.after 1 t = blockAt V c 1 t) (t : Fin cfg2.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output window's buffer -/

/-- The one rectangle the body loads and stores through: the whole [9000, 64] block. -/
abbrev whole : Rect S9000x64 := Rect.unit (s := S9000x64) ![0, 0] S9000x64.size inb_S9000x64_S9000x64_0_0

/-- The output block after the body, from the x block and the noise block: the body's single store, of the update
    x + n̂ · sign(x) · ε computed from the two loaded blocks. -/
def stored (x nz : Vec F S9000x64 .f32) : Vec F S9000x64 .f32 :=
  View.canon [⟨whole, k2_pay1 (View.ld nz whole) (View.ld x whole)⟩]

/-- That store covers the block. -/
theorem stored_covers (p : Vec F S9000x64 .f32) (y : S9000x64.Idx) :
    ∃ pc ∈ ([⟨whole, p⟩] : List (View.Piece (Elt F) S9000x64 .f32)), y ∈ pc.1.set :=
  View.cover_of_tiled [⟨whole, p⟩] S9000x64.size (by rfl) y

/-! ## The body's run -/

set_option maxHeartbeats 1000000 in
/-- The body on whole staging buffers — x's holding `x`, the noise's holding `nz`, the output's holding anything — runs to its
    end leaving the inputs as they were and the output's buffer at `stored x nz`. -/
theorem body_run (c : Dev nD) (E : Set ℕ) (i : grid2.Coords)
    (arg1 : Memref sig .tc .vmem S9000x64 .f32) (harg1 : arg1.IsWhole) (arg2 : Memref sig .tc .vmem S9000x64 .f32) (harg2 : arg2.IsWhole)
    (arg3 : Memref sig .tc .vmem S9000x64 .f32) (harg3 : arg3.IsWhole)
    (x nz : Vec F S9000x64 .f32) (K : PUnit → sProp 𝕄) :
    iprop(owns (c : Thread nD τ) arg1 fullShare x ∗ owns (c : Thread nD τ) arg2 fullShare nz ∗ (∃ d, owns (c : Thread nD τ) arg3 fullShare d)
        ∗ (iprop(owns (c : Thread nD τ) arg1 fullShare x ∗ owns (c : Thread nD τ) arg2 fullShare nz
            ∗ owns (c : Thread nD τ) arg3 fullShare (stored x nz)) -∗ K ⟨⟩))
      ⊢ wp frame (wpE (defs₀ (F := F)) Variants.none c none) E (cc2__perturb_kernel i arg1 harg1 arg2 harg2 arg3 harg3) K := by
  simp only [cc2__perturb_kernel_eq_skeleton]; unfold cc2__perturb_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_covers _)

/-! ## The pipeline's proof data -/

/-- On core `c`: the arrays as the region finds them; after the body at point `t` each input's buffer still at its block and
    the output's at `stored` of the two input blocks; the invariant is the scoped rest and the generator register, untouched;
    nothing owed; full shares. -/
def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => stored (blockAt V c 0 t) (blockAt V c 1 t)
  Φ _ := Pipeline.ΦA spec2 c
  q _ := fullShare
  owed _ := 0

theorem dat_A (c : Dev nD) (w : Fin cfg2.W) : (dat V c).A w = V c (Pipeline.arrRef spec2 w) := by
  dsimp only [dat]

theorem dat_after_x (c : Dev nD) (t : Fin cfg2.N) : (dat V c).after 0 t = blockAt V c 0 t := by dsimp only [dat]
theorem dat_after_nz (c : Dev nD) (t : Fin cfg2.N) : (dat V c).after 1 t = blockAt V c 1 t := by dsimp only [dat]
theorem dat_after_out (c : Dev nD) (t : Fin cfg2.N) :
    (dat V c).after 2 t = stored (blockAt V c 0 t) (blockAt V c 1 t) := by dsimp only [dat]

theorem dat_before_x (c : Dev nD) (t : Fin cfg2.N) (d) : (dat V c).before 0 t d = blockAt V c 0 t :=
  found_x V (dat V c) (dat_A V c 0) (dat_after_x V c) t d
theorem dat_before_nz (c : Dev nD) (t : Fin cfg2.N) (d) : (dat V c).before 1 t d = blockAt V c 1 t :=
  found_nz V (dat V c) (dat_A V c 1) (dat_after_nz V c) t d

/-! ## The body obligation -/

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

/-- and what it returns. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- The body at any point: the inputs' buffers hold their blocks, so `body_run` applies; the invariant and what the core
    owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [dat_before_x, dat_before_nz]
  rw [show (dat V c).Φ t.succ = (dat V c).Φ t.castSucc from rfl,
    show (dat V c).owesAt () t.succ = (dat V c).owesAt () t.castSucc from rfl,
    dat_after_x, dat_after_nz, dat_after_out]
  iintro ⟨HΦ, Ho, ⟨%d0, H0⟩, ⟨%d1, H1⟩, ⟨%d2, H2⟩⟩
  iapply (body_run c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.Perturb2

end
-- ==== Proof.PerturbI3.lean ====
/-
  One perturbation kernel of the program, as the pipeline runs it: the update  out = x + n̂ · sign(x) · ε  on a [90000, 64]
  array, ten blocks of 9000 rows, one block per grid point. Each row of the noise block is divided by its Euclidean length
  (clamped below), so a block of the result depends only on the same block of x and of the noise: nothing is carried from one
  grid point to the next, and the three windows' blocks tile their arrays.

  This module states, at any contents V of the buffers when the region is entered: what each window's block is at a point,
  what the body leaves in the output window's staging buffer (its one store, whole), the body's run on whole staging buffers,
  the pipeline's proof data, and the body obligation at every point.
-/
import proofs.«131157_j87900800680713_1_alg».proof.Proof.Gen.KernelIdeal.Launch
import proofs.«131157_j87900800680713_1_alg».proof.Proof.Gen.KernelIdeal.Skeleton
import proofs.«131157_j87900800680713_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Perturb3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at grid point `t`: rows 9000·t … 9000·t + 8999 of its array as the region finds it. -/
def blockAt (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The x window's staging buffer holds x's block at every point, for any proof data over `V` whose body leaves that block
    in place: the window is an input, never idle, its blocks tile the array. -/
theorem found_x {c : Dev nD} (dat : Dat τ (Elt F) Unit ℕ (UR sig nD τ) ℕ cfg3 c) (hA : dat.A 0 = V c (Pipeline.arrRef spec3 0))
    (hafter : ∀ t, dat.after 0 t = blockAt V c 0 t) (t : Fin cfg3.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The same for the noise window. -/
theorem found_nz {c : Dev nD} (dat : Dat τ (Elt F) Unit ℕ (UR sig nD τ) ℕ cfg3 c) (hA : dat.A 1 = V c (Pipeline.arrRef spec3 1))
    (hafter : ∀ t, dat.after 1 t = blockAt V c 1 t) (t : Fin cfg3.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output window's buffer -/

/-- The one rectangle the body loads and stores through: the whole [9000, 64] block. -/
abbrev whole : Rect S9000x64 := Rect.unit (s := S9000x64) ![0, 0] S9000x64.size inb_S9000x64_S9000x64_0_0

/-- The output block after the body, from the x block and the noise block: the body's single store, of the update
    x + n̂ · sign(x) · ε computed from the two loaded blocks. -/
def stored (x nz : Vec F S9000x64 .f32) : Vec F S9000x64 .f32 :=
  View.canon [⟨whole, k3_pay1 (View.ld nz whole) (View.ld x whole)⟩]

/-- That store covers the block. -/
theorem stored_covers (p : Vec F S9000x64 .f32) (y : S9000x64.Idx) :
    ∃ pc ∈ ([⟨whole, p⟩] : List (View.Piece (Elt F) S9000x64 .f32)), y ∈ pc.1.set :=
  View.cover_of_tiled [⟨whole, p⟩] S9000x64.size (by rfl) y

/-! ## The body's run -/

set_option maxHeartbeats 1000000 in
/-- The body on whole staging buffers — x's holding `x`, the noise's holding `nz`, the output's holding anything — runs to its
    end leaving the inputs as they were and the output's buffer at `stored x nz`. -/
theorem body_run (c : Dev nD) (E : Set ℕ) (i : grid3.Coords)
    (arg1 : Memref sig .tc .vmem S9000x64 .f32) (harg1 : arg1.IsWhole) (arg2 : Memref sig .tc .vmem S9000x64 .f32) (harg2 : arg2.IsWhole)
    (arg3 : Memref sig .tc .vmem S9000x64 .f32) (harg3 : arg3.IsWhole)
    (x nz : Vec F S9000x64 .f32) (K : PUnit → sProp 𝕄) :
    iprop(owns (c : Thread nD τ) arg1 fullShare x ∗ owns (c : Thread nD τ) arg2 fullShare nz ∗ (∃ d, owns (c : Thread nD τ) arg3 fullShare d)
        ∗ (iprop(owns (c : Thread nD τ) arg1 fullShare x ∗ owns (c : Thread nD τ) arg2 fullShare nz
            ∗ owns (c : Thread nD τ) arg3 fullShare (stored x nz)) -∗ K ⟨⟩))
      ⊢ wp frame (wpE (defs₀ (F := F)) Variants.none c none) E (cc3__perturb_kernel i arg1 harg1 arg2 harg2 arg3 harg3) K := by
  simp only [cc3__perturb_kernel_eq_skeleton]; unfold cc3__perturb_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_covers _)

/-! ## The pipeline's proof data -/

/-- On core `c`: the arrays as the region finds them; after the body at point `t` each input's buffer still at its block and
    the output's at `stored` of the two input blocks; the invariant is the scoped rest and the generator register, untouched;
    nothing owed; full shares. -/
def dat (c : Dev nD) : Dat τ (Elt F) Unit ℕ (UR sig nD τ) ℕ cfg3 c where
  A w := V c (Pipeline.arrRef spec3 w)
  after w t := match w with
    | ⟨0, _⟩ => blockAt V c 0 t
    | ⟨1, _⟩ => blockAt V c 1 t
    | ⟨2, _⟩ => stored (blockAt V c 0 t) (blockAt V c 1 t)
  Φ _ := Pipeline.ΦA spec3 c
  q _ := fullShare
  owed _ := 0

theorem dat_A (c : Dev nD) (w : Fin cfg3.W) : (dat V c).A w = V c (Pipeline.arrRef spec3 w) := by
  dsimp only [dat]

theorem dat_after_x (c : Dev nD) (t : Fin cfg3.N) : (dat V c).after 0 t = blockAt V c 0 t := by dsimp only [dat]
theorem dat_after_nz (c : Dev nD) (t : Fin cfg3.N) : (dat V c).after 1 t = blockAt V c 1 t := by dsimp only [dat]
theorem dat_after_out (c : Dev nD) (t : Fin cfg3.N) :
    (dat V c).after 2 t = stored (blockAt V c 0 t) (blockAt V c 1 t) := by dsimp only [dat]

theorem dat_before_x (c : Dev nD) (t : Fin cfg3.N) (d) : (dat V c).before 0 t d = blockAt V c 0 t :=
  found_x V (dat V c) (dat_A V c 0) (dat_after_x V c) t d
theorem dat_before_nz (c : Dev nD) (t : Fin cfg3.N) (d) : (dat V c).before 1 t d = blockAt V c 1 t :=
  found_nz V (dat V c) (dat_A V c 1) (dat_after_nz V c) t d

/-! ## The body obligation -/

/-- What the body is called with at point `t`, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t))

/-- The body at any point: the inputs' buffers hold their blocks, so `body_run` applies; the invariant and what the core
    owes pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [dat_before_x, dat_before_nz]
  rw [show (dat V c).Φ t.succ = (dat V c).Φ t.castSucc from rfl,
    show (dat V c).owesAt () t.succ = (dat V c).owesAt () t.castSucc from rfl,
    dat_after_x, dat_after_nz, dat_after_out]
  iintro ⟨HΦ, Ho, ⟨%d0, H0⟩, ⟨%d1, H1⟩, ⟨%d2, H2⟩⟩
  iapply (body_run c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W3, bigSep_W3]
  exact sound_body V c t

end Cert.KernelIdeal.Perturb3

end
-- ==== Proof.NegSumI4.lean ====
/-
  One negative-sum kernel of the program, as the pipeline runs it:  neg[r] = Σ_j exp(⟨e1[r], e2[j]⟩ · s)  for the 8192 rows of
  e1 against the 8192 rows of e2, on a 4 × 16 grid. Point (a, k) holds rows 2048·a … of e1 and rows 512·k … of e2; the partial
  sums over a column tile are added into a [2048, 1] scratch column that lives across the sixteen points of a row of the grid:
  zeroed when k = 0, added to at every k, and copied to the output block when k = 15. The output block is idle (neither stored
  nor written back) at the fifteen other points, and the e1 block is fetched only when k = 0.

  So a grid point is in one of three cases — first (k = 0), middle, last (k = 15) — decided from the point's number modulo 16.
  This module states, at any contents V of the buffers when the region is entered: the windows' blocks, the body's run in each
  case, what the scratch and the output hold after each point (by recursion on the point, the scratch read from the point
  before), the invariant that carries the scratch, the pipeline's proof data and the body obligation.
-/
import proofs.«131157_j87900800680713_1_alg».proof.Proof.Gen.KernelIdeal.Launch
import proofs.«131157_j87900800680713_1_alg».proof.Proof.Gen.KernelIdeal.Skeleton
import proofs.«131157_j87900800680713_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.NegSum4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Which case a point is in -/

/-- The body's first branch: the column-tile coordinate k is 0 (as the body computes it from the grid coordinates). -/
abbrev isFirst (i : grid4.Coords) : Prop := (Scalar.cmpi .ne (Scalar.extui (Scalar.cmpi .eq (BitVec.ofNat 32 (i 1).val) 0#32)) 0#32) = 1#1
/-- The body's second branch: k is 15, the last column tile. -/
abbrev isLast (i : grid4.Coords) : Prop := k4_cond2 i = 1#1
/-- Point t has k = t mod 16: it is first exactly when 16 divides t, -/
theorem isFirst_iff : ∀ t : Fin cfg4.N, isFirst (grid4.coords t) ↔ t.val % 16 = 0 :=
  (by decide +kernel : ∀ t : Fin grid4.N, isFirst (grid4.coords t) ↔ t.val % 16 = 0)
/-- and last exactly when t ≡ 15 (mod 16). -/
theorem isLast_iff : ∀ t : Fin cfg4.N, isLast (grid4.coords t) ↔ t.val % 16 = 15 :=
  (by decide +kernel : ∀ t : Fin grid4.N, isLast (grid4.coords t) ↔ t.val % 16 = 15)

/-! ## Where the windows are idle -/

theorem live_e1 : ∀ t : Fin cfg4.N, cfg4.idle 0 (grid4.coords t) = false := by decide +kernel
theorem live_e2 : ∀ t : Fin cfg4.N, cfg4.idle 1 (grid4.coords t) = false := by decide +kernel
/-- At a first point the output block is idle and not written back; -/
theorem out_idle_first : ∀ t : Fin cfg4.N, isFirst (grid4.coords t) → ¬isLast (grid4.coords t) → cfg4.idle 2 (grid4.coords t) = true := by decide +kernel
theorem out_unflushed_first : ∀ t : Fin cfg4.N, isFirst (grid4.coords t) → ¬isLast (grid4.coords t) → (cfg4.win 2).flush t = false := by decide +kernel
/-- the same at a middle point; -/
theorem out_idle_mid : ∀ t : Fin cfg4.N, ¬isFirst (grid4.coords t) → ¬isLast (grid4.coords t) → cfg4.idle 2 (grid4.coords t) = true := by decide +kernel
theorem out_unflushed_mid : ∀ t : Fin cfg4.N, ¬isFirst (grid4.coords t) → ¬isLast (grid4.coords t) → (cfg4.win 2).flush t = false := by decide +kernel
/-- at a last point it is live: the body stores the finished column into it. -/
theorem out_live_last : ∀ t : Fin cfg4.N, ¬isFirst (grid4.coords t) → isLast (grid4.coords t) → cfg4.idle 2 (grid4.coords t) = false := by decide +kernel

/-! ## The buffers the body is called with -/

/-- One staging buffer of the output window, through which its contents are stated. -/
abbrev outView : View sig .tc .vmem S2048x1 .f32 := (Memref.whole cc4_stg2_0 : Memref sig .tc .vmem S2048x1 .f32).view
abbrev m_e1 (t : Fin cfg4.N) : Memref sig .tc .vmem S2048x64 .f32 := win4_0.stage (cfg4.slots t 0)
abbrev h_e1 (t : Fin cfg4.N) : (m_e1 t).IsWhole := hstage4_0 ((cfg4.slots t 0).cast nbuf4_0)
abbrev m_e2 (t : Fin cfg4.N) : Memref sig .tc .vmem S512x64 .f32 := win4_1.stage (cfg4.slots t 1)
abbrev h_e2 (t : Fin cfg4.N) : (m_e2 t).IsWhole := hstage4_1 ((cfg4.slots t 1).cast nbuf4_1)
abbrev m_out (t : Fin cfg4.N) : Memref sig .tc .vmem S2048x1 .f32 := win4_2.stage (cfg4.slots t 2)
abbrev h_out (t : Fin cfg4.N) : (m_out t).IsWhole := hstage4_2 ((cfg4.slots t 2).cast nbuf4_2)
/-- The scratch column: a whole scoped buffer of the kernel's own. -/
abbrev scratch : Memref sig .tc .vmem S2048x1 .f32 := Memref.whole cc4_scratch0
abbrev scratchView : View sig .tc .vmem S2048x1 .f32 := scratch.view

/-- What the launch hands the region besides the windows: the scratch at some contents, every other scoped buffer unopened,
    and the generator register at some state. -/
theorem rest_eq (c : Dev nD) :
    (Pipeline.ΦA spec4 c : sProp 𝕄)
      = iprop(iprop((∃ d, owns (c : Thread nD τ) scratch fullShare d) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scratch, owns_whole]; try rfl

/-! ## The body's run, case by case

Each run is stated with the lists of pieces the body's stores leave in the output buffer and in the scratch; the lists are
whatever the run finds (they are fixed when the run hands each buffer to the continuation). -/

set_option maxHeartbeats 2000000 in
/-- FIRST point of a row: the scratch is zeroed, then the tile's partial sums are added to it; the output buffer is handed
    back untouched. -/
noncomputable def runFirst (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : isFirst i) (hc1 : ¬isLast i)
    (e1 : Vec F S2048x64 .f32) (e2 : Vec F S512x64 .f32) :
    Σ' (LO : List (View.Piece (Elt F) S2048x1 .f32)), { LS : List (View.Piece (Elt F) S2048x1 .f32) //
      ∀ (xo : Vec F S2048x1 .f32) (E : Set ℕ) (K : PUnit → sProp 𝕄),
        iprop(owns (c : Thread nD τ) arg2 fullShare e1 ∗ owns (c : Thread nD τ) arg3 fullShare e2 ∗ owns (c : Thread nD τ) arg4 fullShare xo
            ∗ (∃ d, owns (c : Thread nD τ) arg5 fullShare d)
            ∗ (iprop(owns (c : Thread nD τ) arg2 fullShare e1 ∗ owns (c : Thread nD τ) arg3 fullShare e2 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc4__neg_sum_kernel i arg2 harg2 arg3 harg3 arg4 harg4 arg5 harg5) K } := by
  refine ⟨[], ?_, fun xo E K => ?run⟩
  case run =>
    simp only [cc4__neg_sum_kernel_eq_skeleton]; unfold cc4__neg_sum_kernel_skel
    unfold owns
    iintro ⟨⟨%f2, %hf2, H2⟩, ⟨%f3, %hf3, H3⟩, ⟨%f4, %hf4, H4⟩, ⟨%d5, %f5, -, H5⟩, Hk⟩
    obtain rfl := harg2.eq_unread hf2; obtain rfl := harg3.eq_unread hf3; obtain rfl := harg4.eq_unread hf4
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

set_option maxHeartbeats 2000000 in
/-- MIDDLE point: the tile's partial sums are added to the scratch as the point before left it (`xs`); the output buffer is
    handed back untouched. -/
noncomputable def runMid (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : ¬isLast i)
    (e1 : Vec F S2048x64 .f32) (e2 : Vec F S512x64 .f32) (xs : Vec F S2048x1 .f32) :
    Σ' (LO : List (View.Piece (Elt F) S2048x1 .f32)), { LS : List (View.Piece (Elt F) S2048x1 .f32) //
      ∀ (xo : Vec F S2048x1 .f32) (E : Set ℕ) (K : PUnit → sProp 𝕄),
        iprop(owns (c : Thread nD τ) arg2 fullShare e1 ∗ owns (c : Thread nD τ) arg3 fullShare e2 ∗ owns (c : Thread nD τ) arg4 fullShare xo
            ∗ owns (c : Thread nD τ) arg5 fullShare xs
            ∗ (iprop(owns (c : Thread nD τ) arg2 fullShare e1 ∗ owns (c : Thread nD τ) arg3 fullShare e2 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc4__neg_sum_kernel i arg2 harg2 arg3 harg3 arg4 harg4 arg5 harg5) K } := by
  refine ⟨[], ?_, fun xo E K => ?run⟩
  case run =>
    simp only [cc4__neg_sum_kernel_eq_skeleton]; unfold cc4__neg_sum_kernel_skel
    unfold owns
    iintro ⟨⟨%f2, %hf2, H2⟩, ⟨%f3, %hf3, H3⟩, ⟨%f4, %hf4, H4⟩, ⟨%f5, %hf5, H5⟩, Hk⟩
    obtain rfl := harg2.eq_unread hf2; obtain rfl := harg3.eq_unread hf3; obtain rfl := harg4.eq_unread hf4; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

set_option maxHeartbeats 2000000 in
/-- LAST point of a row: the tile's partial sums are added to the scratch, and the finished column is stored into the output
    buffer, whatever it held. -/
noncomputable def runLast (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : isLast i)
    (e1 : Vec F S2048x64 .f32) (e2 : Vec F S512x64 .f32) (xs : Vec F S2048x1 .f32) :
    Σ' (LO : List (View.Piece (Elt F) S2048x1 .f32)), { LS : List (View.Piece (Elt F) S2048x1 .f32) //
      ∀ (E : Set ℕ) (K : PUnit → sProp 𝕄),
        iprop(owns (c : Thread nD τ) arg2 fullShare e1 ∗ owns (c : Thread nD τ) arg3 fullShare e2 ∗ (∃ d, owns (c : Thread nD τ) arg4 fullShare d)
            ∗ owns (c : Thread nD τ) arg5 fullShare xs
            ∗ (iprop(owns (c : Thread nD τ) arg2 fullShare e1 ∗ owns (c : Thread nD τ) arg3 fullShare e2
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc4__neg_sum_kernel i arg2 harg2 arg3 harg3 arg4 harg4 arg5 harg5) K } := by
  refine ⟨?_, ?_, fun E K => ?run⟩
  case run =>
    simp only [cc4__neg_sum_kernel_eq_skeleton]; unfold cc4__neg_sum_kernel_skel
    unfold owns
    iintro ⟨⟨%f2, %hf2, H2⟩, ⟨%f3, %hf3, H3⟩, ⟨%d4, %f4, -, H4⟩, ⟨%f5, %hf5, H5⟩, Hk⟩
    obtain rfl := harg2.eq_unread hf2; obtain rfl := harg3.eq_unread hf3; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact H5

/-! ## What each case leaves, as contents -/

/-- A first point stores nothing into the output block: a placeholder nothing reads, the block being neither written back there
    nor read at the next point. -/
def outFirst (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : isFirst i) (hc1 : ¬isLast i)
    (e1 : Vec F S2048x64 .f32) (e2 : Vec F S512x64 .f32) : Vec F S2048x1 .f32 :=
  outView.read (Elt F) (outView.writes (Elt F) outView.junk (runFirst c i arg2 harg2 arg3 harg3 arg4 harg4 arg5 harg5 hc0 hc1 e1 e2).1)
/-- The first point's stores into the scratch cover it, -/
theorem scratch_covered_first (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : isFirst i) (hc1 : ¬isLast i)
    (e1 : Vec F S2048x64 .f32) (e2 : Vec F S512x64 .f32) (y : S2048x1.Idx) :
    ∃ pc ∈ (runFirst c i arg2 harg2 arg3 harg3 arg4 harg4 arg5 harg5 hc0 hc1 e1 e2).2.1, y ∈ pc.1.set :=
  View.cover_of_tiledL (runFirst c i arg2 harg2 arg3 harg3 arg4 harg4 arg5 harg5 hc0 hc1 e1 e2).2.1 S2048x1.size (by sl_kernel_rfl) y
/-- so the scratch after a first point is those stores read back: the tile's partial sums added to zero. -/
def scratchFirst (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : isFirst i) (hc1 : ¬isLast i)
    (e1 : Vec F S2048x64 .f32) (e2 : Vec F S512x64 .f32) : Vec F S2048x1 .f32 :=
  scratchView.read (Elt F) (scratchView.writes (Elt F) scratchView.junk (runFirst c i arg2 harg2 arg3 harg3 arg4 harg4 arg5 harg5 hc0 hc1 e1 e2).2.1)

def outMid (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : ¬isLast i)
    (e1 : Vec F S2048x64 .f32) (e2 : Vec F S512x64 .f32) (xs : Vec F S2048x1 .f32) : Vec F S2048x1 .f32 :=
  outView.read (Elt F) (outView.writes (Elt F) outView.junk (runMid c i arg2 harg2 arg3 harg3 arg4 harg4 arg5 harg5 hc0 hc1 e1 e2 xs).1)
theorem scratch_covered_mid (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : ¬isLast i)
    (e1 : Vec F S2048x64 .f32) (e2 : Vec F S512x64 .f32) (xs : Vec F S2048x1 .f32) (y : S2048x1.Idx) :
    ∃ pc ∈ (runMid c i arg2 harg2 arg3 harg3 arg4 harg4 arg5 harg5 hc0 hc1 e1 e2 xs).2.1, y ∈ pc.1.set :=
  View.cover_of_tiledL (runMid c i arg2 harg2 arg3 harg3 arg4 harg4 arg5 harg5 hc0 hc1 e1 e2 xs).2.1 S2048x1.size (by sl_kernel_rfl) y
/-- The scratch after a middle point: the tile's partial sums added to what the point before left. -/
def scratchMid (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : ¬isLast i)
    (e1 : Vec F S2048x64 .f32) (e2 : Vec F S512x64 .f32) (xs : Vec F S2048x1 .f32) : Vec F S2048x1 .f32 :=
  scratchView.read (Elt F) (scratchView.writes (Elt F) scratchView.junk (runMid c i arg2 harg2 arg3 harg3 arg4 harg4 arg5 harg5 hc0 hc1 e1 e2 xs).2.1)

/-- A last point's store into the output block covers it, -/
theorem out_covered_last (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : isLast i)
    (e1 : Vec F S2048x64 .f32) (e2 : Vec F S512x64 .f32) (xs : Vec F S2048x1 .f32) (y : S2048x1.Idx) :
    ∃ pc ∈ (runLast c i arg2 harg2 arg3 harg3 arg4 harg4 arg5 harg5 hc0 hc1 e1 e2 xs).1, y ∈ pc.1.set :=
  View.cover_of_tiledL (runLast c i arg2 harg2 arg3 harg3 arg4 harg4 arg5 harg5 hc0 hc1 e1 e2 xs).1 S2048x1.size (by sl_kernel_rfl) y
/-- so the output block after a last point is that store read back: the finished column. -/
def outLast (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : isLast i)
    (e1 : Vec F S2048x64 .f32) (e2 : Vec F S512x64 .f32) (xs : Vec F S2048x1 .f32) : Vec F S2048x1 .f32 :=
  outView.read (Elt F) (outView.writes (Elt F) outView.junk (runLast c i arg2 harg2 arg3 harg3 arg4 harg4 arg5 harg5 hc0 hc1 e1 e2 xs).1)
theorem scratch_covered_last (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : isLast i)
    (e1 : Vec F S2048x64 .f32) (e2 : Vec F S512x64 .f32) (xs : Vec F S2048x1 .f32) (y : S2048x1.Idx) :
    ∃ pc ∈ (runLast c i arg2 harg2 arg3 harg3 arg4 harg4 arg5 harg5 hc0 hc1 e1 e2 xs).2.1, y ∈ pc.1.set :=
  View.cover_of_tiledL (runLast c i arg2 harg2 arg3 harg3 arg4 harg4 arg5 harg5 hc0 hc1 e1 e2 xs).2.1 S2048x1.size (by sl_kernel_rfl) y
def scratchLast (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : isLast i)
    (e1 : Vec F S2048x64 .f32) (e2 : Vec F S512x64 .f32) (xs : Vec F S2048x1 .f32) : Vec F S2048x1 .f32 :=
  scratchView.read (Elt F) (scratchView.writes (Elt F) scratchView.junk (runLast c i arg2 harg2 arg3 harg3 arg4 harg4 arg5 harg5 hc0 hc1 e1 e2 xs).2.1)

/-! ## The windows' blocks -/

-- the buffers' contents when the region is entered
variable (V : (c : Dev nD) → (b : Ref sig .tc) → Buf (Elt F) ((c : Thread nD τ).loc b))

/-- Window `w`'s block at grid point `t`, read off its array as the region finds it. -/
def blockAt (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The e1 window's staging buffer holds the point's e1 block at every point — fetched there (k = 0) or not: between fetches
    the block index does not move, and the body leaves the block in place. -/
theorem found_e1 {c : Dev nD} (dat : Dat τ (Elt F) Unit ℕ (UR sig nD τ) ℕ cfg4 c) (hA : dat.A 0 = V c (Pipeline.arrRef spec4 0))
    (hafter : ∀ t, dat.after 0 t = blockAt V c 0 t) (t : Fin cfg4.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- The same for the e2 window, fetched at every point. -/
theorem found_e2 {c : Dev nD} (dat : Dat τ (Elt F) Unit ℕ (UR sig nD τ) ℕ cfg4 c) (hA : dat.A 1 = V c (Pipeline.arrRef spec4 1))
    (hafter : ∀ t, dat.after 1 t = blockAt V c 1 t) (t : Fin cfg4.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the output block and the scratch hold after each point -/

/-- THE ACCUMULATION, by recursion on the point's number: (the output block, the scratch) after point `n` — the point's case,
    run at the point's buffers and input blocks, the scratch taken from the point before. A point cannot be both first and
    last. -/
def outsAt (c : Dev nD) : (n : ℕ) → n < cfg4.N → Vec F S2048x1 .f32 × Vec F S2048x1 .f32
  | 0, hn =>
    have h0 : (⟨0, hn⟩ : Fin cfg4.N).val % 16 = 0 := Nat.zero_mod _
    have h1 : ¬(⟨0, hn⟩ : Fin cfg4.N).val % 16 = 15 := fun h => by (try dsimp only at h); omega
    (outFirst c (grid4.coords ⟨0, hn⟩) (m_e1 ⟨0, hn⟩) (h_e1 ⟨0, hn⟩) (m_e2 ⟨0, hn⟩) (h_e2 ⟨0, hn⟩) (m_out ⟨0, hn⟩) (h_out ⟨0, hn⟩) scratch (Memref.isWhole_whole _) ((isFirst_iff ⟨0, hn⟩).mpr h0) (fun h => h1 ((isLast_iff ⟨0, hn⟩).mp h)) (blockAt V c 0 ⟨0, hn⟩) (blockAt V c 1 ⟨0, hn⟩),
     scratchFirst c (grid4.coords ⟨0, hn⟩) (m_e1 ⟨0, hn⟩) (h_e1 ⟨0, hn⟩) (m_e2 ⟨0, hn⟩) (h_e2 ⟨0, hn⟩) (m_out ⟨0, hn⟩) (h_out ⟨0, hn⟩) scratch (Memref.isWhole_whole _) ((isFirst_iff ⟨0, hn⟩).mpr h0) (fun h => h1 ((isLast_iff ⟨0, hn⟩).mp h)) (blockAt V c 0 ⟨0, hn⟩) (blockAt V c 1 ⟨0, hn⟩))
  | n + 1, hn =>
    if h0 : (n + 1) % 16 = 0 then
      if h1 : (n + 1) % 16 = 15 then
        False.elim (by omega)
      else
        (outFirst c (grid4.coords ⟨n + 1, hn⟩) (m_e1 ⟨n + 1, hn⟩) (h_e1 ⟨n + 1, hn⟩) (m_e2 ⟨n + 1, hn⟩) (h_e2 ⟨n + 1, hn⟩) (m_out ⟨n + 1, hn⟩) (h_out ⟨n + 1, hn⟩) scratch (Memref.isWhole_whole _) ((isFirst_iff ⟨n + 1, hn⟩).mpr h0) (fun h => h1 ((isLast_iff ⟨n + 1, hn⟩).mp h)) (blockAt V c 0 ⟨n + 1, hn⟩) (blockAt V c 1 ⟨n + 1, hn⟩),
         scratchFirst c (grid4.coords ⟨n + 1, hn⟩) (m_e1 ⟨n + 1, hn⟩) (h_e1 ⟨n + 1, hn⟩) (m_e2 ⟨n + 1, hn⟩) (h_e2 ⟨n + 1, hn⟩) (m_out ⟨n + 1, hn⟩) (h_out ⟨n + 1, hn⟩) scratch (Memref.isWhole_whole _) ((isFirst_iff ⟨n + 1, hn⟩).mpr h0) (fun h => h1 ((isLast_iff ⟨n + 1, hn⟩).mp h)) (blockAt V c 0 ⟨n + 1, hn⟩) (blockAt V c 1 ⟨n + 1, hn⟩))
    else
      if h1 : (n + 1) % 16 = 15 then
        (outLast c (grid4.coords ⟨n + 1, hn⟩) (m_e1 ⟨n + 1, hn⟩) (h_e1 ⟨n + 1, hn⟩) (m_e2 ⟨n + 1, hn⟩) (h_e2 ⟨n + 1, hn⟩) (m_out ⟨n + 1, hn⟩) (h_out ⟨n + 1, hn⟩) scratch (Memref.isWhole_whole _) (fun h => h0 ((isFirst_iff ⟨n + 1, hn⟩).mp h)) ((isLast_iff ⟨n + 1, hn⟩).mpr h1) (blockAt V c 0 ⟨n + 1, hn⟩) (blockAt V c 1 ⟨n + 1, hn⟩) (outsAt c n (Nat.lt_of_succ_lt hn)).2,
         scratchLast c (grid4.coords ⟨n + 1, hn⟩) (m_e1 ⟨n + 1, hn⟩) (h_e1 ⟨n + 1, hn⟩) (m_e2 ⟨n + 1, hn⟩) (h_e2 ⟨n + 1, hn⟩) (m_out ⟨n + 1, hn⟩) (h_out ⟨n + 1, hn⟩) scratch (Memref.isWhole_whole _) (fun h => h0 ((isFirst_iff ⟨n + 1, hn⟩).mp h)) ((isLast_iff ⟨n + 1, hn⟩).mpr h1) (blockAt V c 0 ⟨n + 1, hn⟩) (blockAt V c 1 ⟨n + 1, hn⟩) (outsAt c n (Nat.lt_of_succ_lt hn)).2)
      else
        (outMid c (grid4.coords ⟨n + 1, hn⟩) (m_e1 ⟨n + 1, hn⟩) (h_e1 ⟨n + 1, hn⟩) (m_e2 ⟨n + 1, hn⟩) (h_e2 ⟨n + 1, hn⟩) (m_out ⟨n + 1, hn⟩) (h_out ⟨n + 1, hn⟩) scratch (Memref.isWhole_whole _) (fun h => h0 ((isFirst_iff ⟨n + 1, hn⟩).mp h)) (fun h => h1 ((isLast_iff ⟨n + 1, hn⟩).mp h)) (blockAt V c 0 ⟨n + 1, hn⟩) (blockAt V c 1 ⟨n + 1, hn⟩) (outsAt c n (Nat.lt_of_succ_lt hn)).2,
         scratchMid c (grid4.coords ⟨n + 1, hn⟩) (m_e1 ⟨n + 1, hn⟩) (h_e1 ⟨n + 1, hn⟩) (m_e2 ⟨n + 1, hn⟩) (h_e2 ⟨n + 1, hn⟩) (m_out ⟨n + 1, hn⟩) (h_out ⟨n + 1, hn⟩) scratch (Memref.isWhole_whole _) (fun h => h0 ((isFirst_iff ⟨n + 1, hn⟩).mp h)) (fun h => h1 ((isLast_iff ⟨n + 1, hn⟩).mp h)) (blockAt V c 0 ⟨n + 1, hn⟩) (blockAt V c 1 ⟨n + 1, hn⟩) (outsAt c n (Nat.lt_of_succ_lt hn)).2)

theorem outsAt_first (c : Dev nD) (t : Fin cfg4.N) (h0 : t.val % 16 = 0) (h1 : ¬t.val % 16 = 15) :
    outsAt V c t.val t.isLt =
      (outFirst c (grid4.coords t) (m_e1 t) (h_e1 t) (m_e2 t) (h_e2 t) (m_out t) (h_out t) scratch (Memref.isWhole_whole _) ((isFirst_iff t).mpr h0) (fun h => h1 ((isLast_iff t).mp h)) (blockAt V c 0 t) (blockAt V c 1 t),
       scratchFirst c (grid4.coords t) (m_e1 t) (h_e1 t) (m_e2 t) (h_e2 t) (m_out t) (h_out t) scratch (Memref.isWhole_whole _) ((isFirst_iff t).mpr h0) (fun h => h1 ((isLast_iff t).mp h)) (blockAt V c 0 t) (blockAt V c 1 t)) := by
  obtain ⟨n, hn⟩ := t
  cases n with
  | zero => exact rfl
  | succ n => exact (dif_pos h0).trans ((dif_neg h1).trans rfl)

theorem outsAt_mid (c : Dev nD) (t : Fin cfg4.N) (h0 : ¬t.val % 16 = 0) (h1 : ¬t.val % 16 = 15) :
    outsAt V c t.val t.isLt =
      (outMid c (grid4.coords t) (m_e1 t) (h_e1 t) (m_e2 t) (h_e2 t) (m_out t) (h_out t) scratch (Memref.isWhole_whole _) (fun h => h0 ((isFirst_iff t).mp h)) (fun h => h1 ((isLast_iff t).mp h)) (blockAt V c 0 t) (blockAt V c 1 t) (outsAt V c (t.val - 1) (Nat.lt_of_le_of_lt (Nat.sub_le _ _) t.isLt)).2,
       scratchMid c (grid4.coords t) (m_e1 t) (h_e1 t) (m_e2 t) (h_e2 t) (m_out t) (h_out t) scratch (Memref.isWhole_whole _) (fun h => h0 ((isFirst_iff t).mp h)) (fun h => h1 ((isLast_iff t).mp h)) (blockAt V c 0 t) (blockAt V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg4.N) (h0 : ¬t.val % 16 = 0) (h1 : t.val % 16 = 15) :
    outsAt V c t.val t.isLt =
      (outLast c (grid4.coords t) (m_e1 t) (h_e1 t) (m_e2 t) (h_e2 t) (m_out t) (h_out t) scratch (Memref.isWhole_whole _) (fun h => h0 ((isFirst_iff t).mp h)) ((isLast_iff t).mpr h1) (blockAt V c 0 t) (blockAt V c 1 t) (outsAt V c (t.val - 1) (Nat.lt_of_le_of_lt (Nat.sub_le _ _) t.isLt)).2,
       scratchLast c (grid4.coords t) (m_e1 t) (h_e1 t) (m_e2 t) (h_e2 t) (m_out t) (h_out t) scratch (Memref.isWhole_whole _) (fun h => h0 ((isFirst_iff t).mp h)) ((isLast_iff t).mpr h1) (blockAt V c 0 t) (blockAt V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch -/

/-- Before point `n`: at the start what the launch hands over (the scratch at anything); afterwards the scratch at what point
    `n − 1` left in it, every other scoped buffer unopened, the generator register at some state. -/
def carried (c : Dev nD) : (n : ℕ) → n ≤ cfg4.N → sProp 𝕄
  | 0, _ => Pipeline.ΦA spec4 c
  | n + 1, hn => iprop(iprop(owns (c : Thread nD τ) scratch fullShare ((outsAt V c n hn).2) ∗ Pipeline.scopedRestBut (Ix := Unit) (Name := ℕ) (U := UR sig nD τ) (Lvl := ℕ) (Val := Elt F) spec4 c [cc4_scratch0]) ∗ (∃ r, prngReg c r))

theorem carried_zero (c : Dev nD) (n : ℕ) (h : n ≤ cfg4.N) (hz : n = 0) : carried V c n h = Pipeline.ΦA spec4 c := by
  subst hz; rfl
theorem carried_succ (c : Dev nD) (n : ℕ) (hn : n < cfg4.N) :
    carried V c (n + 1) hn = iprop(iprop(owns (c : Thread nD τ) scratch fullShare ((outsAt V c n hn).2) ∗ Pipeline.scopedRestBut (Ix := Unit) (Name := ℕ) (U := UR sig nD τ) (Lvl := ℕ) (Val := Elt F) spec4 c [cc4_scratch0]) ∗ (∃ r, prngReg c r)) := rfl
theorem carried_pos (c : Dev nD) (n : ℕ) (h : n ≤ cfg4.N) (hz : n ≠ 0) :
    carried V c n h = iprop(iprop(owns (c : Thread nD τ) scratch fullShare ((outsAt V c (n - 1) (by omega)).2) ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

def dat (c : Dev nD) : Dat τ (Elt F) Unit ℕ (UR sig nD τ) ℕ cfg4 c where
  A w := V c (Pipeline.arrRef spec4 w)
  after w t := match w with
    | ⟨0, _⟩ => blockAt V c 0 t
    | ⟨1, _⟩ => blockAt V c 1 t
    | ⟨2, _⟩ => (outsAt V c t.val t.isLt).1
  Φ t := carried V c t.val (Nat.le_of_lt_succ t.isLt)
  q _ := fullShare
  owed _ := 0

theorem dat_A (c : Dev nD) (w : Fin cfg4.W) : (dat V c).A w = V c (Pipeline.arrRef spec4 w) := by
  dsimp only [dat]
theorem dat_inv_castSucc (c : Dev nD) (t : Fin cfg4.N) :
    (dat V c).Φ t.castSucc = carried V c t.val (Nat.le_of_lt t.isLt) := by
  dsimp only [dat]; simp only [Fin.coe_castSucc]
theorem dat_after_e1 (c : Dev nD) (t : Fin cfg4.N) : (dat V c).after 0 t = blockAt V c 0 t := by dsimp only [dat]
theorem dat_after_e2 (c : Dev nD) (t : Fin cfg4.N) : (dat V c).after 1 t = blockAt V c 1 t := by dsimp only [dat]
theorem dat_after_out (c : Dev nD) (t : Fin cfg4.N) : (dat V c).after 2 t = (outsAt V c t.val t.isLt).1 := by dsimp only [dat]
theorem dat_before_e1 (c : Dev nD) (t : Fin cfg4.N) (d) : (dat V c).before 0 t d = blockAt V c 0 t :=
  found_e1 V (dat V c) (dat_A V c 0) (dat_after_e1 V c) t d
theorem dat_before_e2 (c : Dev nD) (t : Fin cfg4.N) (d) : (dat V c).before 1 t d = blockAt V c 1 t :=
  found_e2 V (dat V c) (dat_A V c 1) (dat_after_e2 V c) t d

/-! ## The body obligation -/

def bodyPre (c : Dev nD) (t : Fin cfg4.N) : sProp 𝕄 :=
  iprop((dat V c).Φ t.castSucc ∗ (dat V c).owesAt () t.castSucc
    ∗ (∃ d, owns (c : Thread nD τ) (m_e1 t) fullShare ((dat V c).before 0 t d))
    ∗ (∃ d, owns (c : Thread nD τ) (m_e2 t) fullShare ((dat V c).before 1 t d))
    ∗ (∃ d, owns (c : Thread nD τ) (m_out t) fullShare ((dat V c).before 2 t d)))

def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The input buffers hold their blocks; the point's number modulo 16 says which case it is in; the
    invariant hands the body the scratch at what the point before left (at anything, at the very first point) and takes it
    back at this point's contents; an idle output buffer is handed back as found; nothing is owed throughout. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [dat_before_e1, dat_before_e2]
  rw [show (dat V c).owesAt () t.succ = (dat V c).owesAt () t.castSucc from rfl]
  rw [show (dat V c).Φ t.succ = carried V c (t.val + 1) t.isLt from rfl, carried_succ]
  have hN : t.val < 64 := lt_of_lt_of_eq t.isLt (show cfg4.N = 64 from N_4)
  rw [show (dat V c).leavesExact 0 t = owns (c : Thread nD τ) (m_e1 t) fullShare ((dat V c).after 0 t) from by
    unfold Dat.leavesExact; rw [live_e1 t], dat_after_e1]
  rw [show (dat V c).leavesExact 1 t = owns (c : Thread nD τ) (m_e2 t) fullShare ((dat V c).after 1 t) from by
    unfold Dat.leavesExact; rw [live_e2 t], dat_after_e2]
  by_cases h0 : t.val % 16 = 0
  · have h1 : ¬t.val % 16 = 15 := by omega
    rw [Dat.leavesExact_idle (dat V c) 2 t (out_idle_first t ((isFirst_iff t).mpr h0) (fun h => h1 ((isLast_iff t).mp h))) (out_unflushed_first t ((isFirst_iff t).mpr h0) (fun h => h1 ((isLast_iff t).mp h)))]
    rw [outsAt_first V c t h0 h1]
    unfold scratchFirst; (try dsimp only)
    by_cases hz : t.val = 0
    · rw [dat_inv_castSucc V c t, carried_zero V c _ _ hz, rest_eq]
      iintro ⟨⟨⟨HS, Hrest⟩, Hg⟩, Ho, ⟨%d0, H0⟩, ⟨%d1, H1⟩, ⟨%d2, H2⟩⟩
      iapply ((runFirst c (grid4.coords t) _ _ _ _ _ _ _ _ ((isFirst_iff t).mpr h0) (fun h => h1 ((isLast_iff t).mp h)) (blockAt V c 0 t) (blockAt V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scratch_covered_first c _ _ _ _ _ _ _ _ _ _ _ _ _)
          iexact Hrest
        iexact Hg
      isplitl [Ho]; · iexact Ho
      isplitl [H0]; · iexact H0
      isplitl [H1]; · iexact H1
      iexists _; iexact H2
    · rw [dat_inv_castSucc V c t, carried_pos V c _ _ hz]
      iintro ⟨⟨⟨HS, Hrest⟩, Hg⟩, Ho, ⟨%d0, H0⟩, ⟨%d1, H1⟩, ⟨%d2, H2⟩⟩
      iapply ((runFirst c (grid4.coords t) _ _ _ _ _ _ _ _ ((isFirst_iff t).mpr h0) (fun h => h1 ((isLast_iff t).mp h)) (blockAt V c 0 t) (blockAt V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scratch_covered_first c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun e => h0 (by rw [e])
    by_cases h1 : t.val % 16 = 15
    · rw [show (dat V c).leavesExact 2 t = owns (c : Thread nD τ) (m_out t) fullShare ((dat V c).after 2 t) from by
        unfold Dat.leavesExact; rw [out_live_last t (fun h => h0 ((isFirst_iff t).mp h)) ((isLast_iff t).mpr h1)], dat_after_out]
      rw [outsAt_last V c t h0 h1]
      unfold outLast scratchLast; (try dsimp only)
      rw [dat_inv_castSucc V c t, carried_pos V c _ _ hz]
      iintro ⟨⟨⟨HS, Hrest⟩, Hg⟩, Ho, ⟨%d0, H0⟩, ⟨%d1, H1⟩, ⟨%d2, H2⟩⟩
      iapply ((runLast c (grid4.coords t) _ _ _ _ _ _ _ _ (fun h => h0 ((isFirst_iff t).mp h)) ((isLast_iff t).mpr h1) (blockAt V c 0 t) (blockAt V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (scratch_covered_last c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (out_covered_last c _ _ _ _ _ _ _ _ _ _ _ _ _ _)
    · rw [Dat.leavesExact_idle (dat V c) 2 t (out_idle_mid t (fun h => h0 ((isFirst_iff t).mp h)) (fun h => h1 ((isLast_iff t).mp h))) (out_unflushed_mid t (fun h => h0 ((isFirst_iff t).mp h)) (fun h => h1 ((isLast_iff t).mp h)))]
      rw [outsAt_mid V c t h0 h1]
      unfold scratchMid; (try dsimp only)
      rw [dat_inv_castSucc V c t, carried_pos V c _ _ hz]
      iintro ⟨⟨⟨HS, Hrest⟩, Hg⟩, Ho, ⟨%d0, H0⟩, ⟨%d1, H1⟩, ⟨%d2, H2⟩⟩
      iapply ((runMid c (grid4.coords t) _ _ _ _ _ _ _ _ (fun h => h0 ((isFirst_iff t).mp h)) (fun h => h1 ((isLast_iff t).mp h)) (blockAt V c 0 t) (blockAt V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scratch_covered_mid c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W4, bigSep_W4]
  exact sound_body V c t

/-- What the launch hands the region is the invariant before the first point. -/
theorem inv_in (c : Dev nD) : Pipeline.ΦA spec4 c ⊢ (dat V c).Φ 0 := by
  rw [show (dat V c).Φ 0 = carried V c 0 (Nat.zero_le _) from rfl, carried_zero V c 0 _ rfl]
  try exact Idealize.SL.BI.Entails.refl _

/-- After the last point the invariant gives that back: what the scratch holds is forgotten. -/
theorem inv_out (c : Dev nD) : (dat V c).Φ (Fin.last cfg4.N) ⊢ Pipeline.ΦA spec4 c := by
  have hne : (Fin.last cfg4.N).val ≠ 0 := by rw [Fin.val_last]; have : cfg4.N = 64 := N_4; omega
  rw [show (dat V c).Φ (Fin.last cfg4.N) = carried V c (Fin.last cfg4.N).val (Nat.le_of_lt_succ (Fin.last cfg4.N).isLt) from rfl,
    carried_pos V c _ _ hne, rest_eq]
  iintro ⟨⟨HS, Hrest⟩, Hg⟩
  isplitl [HS Hrest]
  · isplitl [HS]
    · iexists _; iexact HS
    iexact Hrest
  iexact Hg

end Cert.KernelIdeal.NegSum4

end
-- ==== Proof.NegSumI5.lean ====
/-
  One negative-sum kernel of the program, as the pipeline runs it:  neg[r] = Σ_j exp(⟨e1[r], e2[j]⟩ · s)  for the 8192 rows of
  e1 against the 8192 rows of e2, on a 4 × 16 grid. Point (a, k) holds rows 2048·a … of e1 and rows 512·k … of e2; the partial
  sums over a column tile are added into a [2048, 1] scratch column that lives across the sixteen points of a row of the grid:
  zeroed when k = 0, added to at every k, and copied to the output block when k = 15. The output block is idle (neither stored
  nor written back) at the fifteen other points, and the e1 block is fetched only when k = 0.

  So a grid point is in one of three cases — first (k = 0), middle, last (k = 15) — decided from the point's number modulo 16.
  This module states, at any contents V of the buffers when the region is entered: the windows' blocks, the body's run in each
  case, what the scratch and the output hold after each point (by recursion on the point, the scratch read from the point
  before), the invariant that carries the scratch, the pipeline's proof data and the body obligation.
-/
import proofs.«131157_j87900800680713_1_alg».proof.Proof.Gen.KernelIdeal.Launch
import proofs.«131157_j87900800680713_1_alg».proof.Proof.Gen.KernelIdeal.Skeleton
import proofs.«131157_j87900800680713_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.NegSum5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Which case a point is in -/

/-- The body's first branch: the column-tile coordinate k is 0 (as the body computes it from the grid coordinates). -/
abbrev isFirst (i : grid5.Coords) : Prop := (Scalar.cmpi .ne (Scalar.extui (Scalar.cmpi .eq (BitVec.ofNat 32 (i 1).val) 0#32)) 0#32) = 1#1
/-- The body's second branch: k is 15, the last column tile. -/
abbrev isLast (i : grid5.Coords) : Prop := k5_cond2 i = 1#1
/-- Point t has k = t mod 16: it is first exactly when 16 divides t, -/
theorem isFirst_iff : ∀ t : Fin cfg5.N, isFirst (grid5.coords t) ↔ t.val % 16 = 0 :=
  (by decide +kernel : ∀ t : Fin grid5.N, isFirst (grid5.coords t) ↔ t.val % 16 = 0)
/-- and last exactly when t ≡ 15 (mod 16). -/
theorem isLast_iff : ∀ t : Fin cfg5.N, isLast (grid5.coords t) ↔ t.val % 16 = 15 :=
  (by decide +kernel : ∀ t : Fin grid5.N, isLast (grid5.coords t) ↔ t.val % 16 = 15)

/-! ## Where the windows are idle -/

theorem live_e1 : ∀ t : Fin cfg5.N, cfg5.idle 0 (grid5.coords t) = false := by decide +kernel
theorem live_e2 : ∀ t : Fin cfg5.N, cfg5.idle 1 (grid5.coords t) = false := by decide +kernel
/-- At a first point the output block is idle and not written back; -/
theorem out_idle_first : ∀ t : Fin cfg5.N, isFirst (grid5.coords t) → ¬isLast (grid5.coords t) → cfg5.idle 2 (grid5.coords t) = true := by decide +kernel
theorem out_unflushed_first : ∀ t : Fin cfg5.N, isFirst (grid5.coords t) → ¬isLast (grid5.coords t) → (cfg5.win 2).flush t = false := by decide +kernel
/-- the same at a middle point; -/
theorem out_idle_mid : ∀ t : Fin cfg5.N, ¬isFirst (grid5.coords t) → ¬isLast (grid5.coords t) → cfg5.idle 2 (grid5.coords t) = true := by decide +kernel
theorem out_unflushed_mid : ∀ t : Fin cfg5.N, ¬isFirst (grid5.coords t) → ¬isLast (grid5.coords t) → (cfg5.win 2).flush t = false := by decide +kernel
/-- at a last point it is live: the body stores the finished column into it. -/
theorem out_live_last : ∀ t : Fin cfg5.N, ¬isFirst (grid5.coords t) → isLast (grid5.coords t) → cfg5.idle 2 (grid5.coords t) = false := by decide +kernel

/-! ## The buffers the body is called with -/

/-- One staging buffer of the output window, through which its contents are stated. -/
abbrev outView : View sig .tc .vmem S2048x1 .f32 := (Memref.whole cc5_stg2_0 : Memref sig .tc .vmem S2048x1 .f32).view
abbrev m_e1 (t : Fin cfg5.N) : Memref sig .tc .vmem S2048x64 .f32 := win5_0.stage (cfg5.slots t 0)
abbrev h_e1 (t : Fin cfg5.N) : (m_e1 t).IsWhole := hstage5_0 ((cfg5.slots t 0).cast nbuf5_0)
abbrev m_e2 (t : Fin cfg5.N) : Memref sig .tc .vmem S512x64 .f32 := win5_1.stage (cfg5.slots t 1)
abbrev h_e2 (t : Fin cfg5.N) : (m_e2 t).IsWhole := hstage5_1 ((cfg5.slots t 1).cast nbuf5_1)
abbrev m_out (t : Fin cfg5.N) : Memref sig .tc .vmem S2048x1 .f32 := win5_2.stage (cfg5.slots t 2)
abbrev h_out (t : Fin cfg5.N) : (m_out t).IsWhole := hstage5_2 ((cfg5.slots t 2).cast nbuf5_2)
/-- The scratch column: a whole scoped buffer of the kernel's own. -/
abbrev scratch : Memref sig .tc .vmem S2048x1 .f32 := Memref.whole cc5_scratch0
abbrev scratchView : View sig .tc .vmem S2048x1 .f32 := scratch.view

/-- What the launch hands the region besides the windows: the scratch at some contents, every other scoped buffer unopened,
    and the generator register at some state. -/
theorem rest_eq (c : Dev nD) :
    (Pipeline.ΦA spec5 c : sProp 𝕄)
      = iprop(iprop((∃ d, owns (c : Thread nD τ) scratch fullShare d) ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scratch, owns_whole]; try rfl

/-! ## The body's run, case by case

Each run is stated with the lists of pieces the body's stores leave in the output buffer and in the scratch; the lists are
whatever the run finds (they are fixed when the run hands each buffer to the continuation). -/

set_option maxHeartbeats 2000000 in
/-- FIRST point of a row: the scratch is zeroed, then the tile's partial sums are added to it; the output buffer is handed
    back untouched. -/
noncomputable def runFirst (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : isFirst i) (hc1 : ¬isLast i)
    (e1 : Vec F S2048x64 .f32) (e2 : Vec F S512x64 .f32) :
    Σ' (LO : List (View.Piece (Elt F) S2048x1 .f32)), { LS : List (View.Piece (Elt F) S2048x1 .f32) //
      ∀ (xo : Vec F S2048x1 .f32) (E : Set ℕ) (K : PUnit → sProp 𝕄),
        iprop(owns (c : Thread nD τ) arg2 fullShare e1 ∗ owns (c : Thread nD τ) arg3 fullShare e2 ∗ owns (c : Thread nD τ) arg4 fullShare xo
            ∗ (∃ d, owns (c : Thread nD τ) arg5 fullShare d)
            ∗ (iprop(owns (c : Thread nD τ) arg2 fullShare e1 ∗ owns (c : Thread nD τ) arg3 fullShare e2 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc5__neg_sum_kernel i arg2 harg2 arg3 harg3 arg4 harg4 arg5 harg5) K } := by
  refine ⟨[], ?_, fun xo E K => ?run⟩
  case run =>
    simp only [cc5__neg_sum_kernel_eq_skeleton]; unfold cc5__neg_sum_kernel_skel
    unfold owns
    iintro ⟨⟨%f2, %hf2, H2⟩, ⟨%f3, %hf3, H3⟩, ⟨%f4, %hf4, H4⟩, ⟨%d5, %f5, -, H5⟩, Hk⟩
    obtain rfl := harg2.eq_unread hf2; obtain rfl := harg3.eq_unread hf3; obtain rfl := harg4.eq_unread hf4
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

set_option maxHeartbeats 2000000 in
/-- MIDDLE point: the tile's partial sums are added to the scratch as the point before left it (`xs`); the output buffer is
    handed back untouched. -/
noncomputable def runMid (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : ¬isLast i)
    (e1 : Vec F S2048x64 .f32) (e2 : Vec F S512x64 .f32) (xs : Vec F S2048x1 .f32) :
    Σ' (LO : List (View.Piece (Elt F) S2048x1 .f32)), { LS : List (View.Piece (Elt F) S2048x1 .f32) //
      ∀ (xo : Vec F S2048x1 .f32) (E : Set ℕ) (K : PUnit → sProp 𝕄),
        iprop(owns (c : Thread nD τ) arg2 fullShare e1 ∗ owns (c : Thread nD τ) arg3 fullShare e2 ∗ owns (c : Thread nD τ) arg4 fullShare xo
            ∗ owns (c : Thread nD τ) arg5 fullShare xs
            ∗ (iprop(owns (c : Thread nD τ) arg2 fullShare e1 ∗ owns (c : Thread nD τ) arg3 fullShare e2 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc5__neg_sum_kernel i arg2 harg2 arg3 harg3 arg4 harg4 arg5 harg5) K } := by
  refine ⟨[], ?_, fun xo E K => ?run⟩
  case run =>
    simp only [cc5__neg_sum_kernel_eq_skeleton]; unfold cc5__neg_sum_kernel_skel
    unfold owns
    iintro ⟨⟨%f2, %hf2, H2⟩, ⟨%f3, %hf3, H3⟩, ⟨%f4, %hf4, H4⟩, ⟨%f5, %hf5, H5⟩, Hk⟩
    obtain rfl := harg2.eq_unread hf2; obtain rfl := harg3.eq_unread hf3; obtain rfl := harg4.eq_unread hf4; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact H5

set_option maxHeartbeats 2000000 in
/-- LAST point of a row: the tile's partial sums are added to the scratch, and the finished column is stored into the output
    buffer, whatever it held. -/
noncomputable def runLast (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : isLast i)
    (e1 : Vec F S2048x64 .f32) (e2 : Vec F S512x64 .f32) (xs : Vec F S2048x1 .f32) :
    Σ' (LO : List (View.Piece (Elt F) S2048x1 .f32)), { LS : List (View.Piece (Elt F) S2048x1 .f32) //
      ∀ (E : Set ℕ) (K : PUnit → sProp 𝕄),
        iprop(owns (c : Thread nD τ) arg2 fullShare e1 ∗ owns (c : Thread nD τ) arg3 fullShare e2 ∗ (∃ d, owns (c : Thread nD τ) arg4 fullShare d)
            ∗ owns (c : Thread nD τ) arg5 fullShare xs
            ∗ (iprop(owns (c : Thread nD τ) arg2 fullShare e1 ∗ owns (c : Thread nD τ) arg3 fullShare e2
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc5__neg_sum_kernel i arg2 harg2 arg3 harg3 arg4 harg4 arg5 harg5) K } := by
  refine ⟨?_, ?_, fun E K => ?run⟩
  case run =>
    simp only [cc5__neg_sum_kernel_eq_skeleton]; unfold cc5__neg_sum_kernel_skel
    unfold owns
    iintro ⟨⟨%f2, %hf2, H2⟩, ⟨%f3, %hf3, H3⟩, ⟨%d4, %f4, -, H4⟩, ⟨%f5, %hf5, H5⟩, Hk⟩
    obtain rfl := harg2.eq_unread hf2; obtain rfl := harg3.eq_unread hf3; obtain rfl := harg5.eq_unread hf5
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact H5

/-! ## What each case leaves, as contents -/

/-- A first point stores nothing into the output block: a placeholder nothing reads, the block being neither written back there
    nor read at the next point. -/
def outFirst (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : isFirst i) (hc1 : ¬isLast i)
    (e1 : Vec F S2048x64 .f32) (e2 : Vec F S512x64 .f32) : Vec F S2048x1 .f32 :=
  outView.read (Elt F) (outView.writes (Elt F) outView.junk (runFirst c i arg2 harg2 arg3 harg3 arg4 harg4 arg5 harg5 hc0 hc1 e1 e2).1)
/-- The first point's stores into the scratch cover it, -/
theorem scratch_covered_first (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : isFirst i) (hc1 : ¬isLast i)
    (e1 : Vec F S2048x64 .f32) (e2 : Vec F S512x64 .f32) (y : S2048x1.Idx) :
    ∃ pc ∈ (runFirst c i arg2 harg2 arg3 harg3 arg4 harg4 arg5 harg5 hc0 hc1 e1 e2).2.1, y ∈ pc.1.set :=
  View.cover_of_tiledL (runFirst c i arg2 harg2 arg3 harg3 arg4 harg4 arg5 harg5 hc0 hc1 e1 e2).2.1 S2048x1.size (by sl_kernel_rfl) y
/-- so the scratch after a first point is those stores read back: the tile's partial sums added to zero. -/
def scratchFirst (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : isFirst i) (hc1 : ¬isLast i)
    (e1 : Vec F S2048x64 .f32) (e2 : Vec F S512x64 .f32) : Vec F S2048x1 .f32 :=
  scratchView.read (Elt F) (scratchView.writes (Elt F) scratchView.junk (runFirst c i arg2 harg2 arg3 harg3 arg4 harg4 arg5 harg5 hc0 hc1 e1 e2).2.1)

def outMid (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : ¬isLast i)
    (e1 : Vec F S2048x64 .f32) (e2 : Vec F S512x64 .f32) (xs : Vec F S2048x1 .f32) : Vec F S2048x1 .f32 :=
  outView.read (Elt F) (outView.writes (Elt F) outView.junk (runMid c i arg2 harg2 arg3 harg3 arg4 harg4 arg5 harg5 hc0 hc1 e1 e2 xs).1)
theorem scratch_covered_mid (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : ¬isLast i)
    (e1 : Vec F S2048x64 .f32) (e2 : Vec F S512x64 .f32) (xs : Vec F S2048x1 .f32) (y : S2048x1.Idx) :
    ∃ pc ∈ (runMid c i arg2 harg2 arg3 harg3 arg4 harg4 arg5 harg5 hc0 hc1 e1 e2 xs).2.1, y ∈ pc.1.set :=
  View.cover_of_tiledL (runMid c i arg2 harg2 arg3 harg3 arg4 harg4 arg5 harg5 hc0 hc1 e1 e2 xs).2.1 S2048x1.size (by sl_kernel_rfl) y
/-- The scratch after a middle point: the tile's partial sums added to what the point before left. -/
def scratchMid (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : ¬isLast i)
    (e1 : Vec F S2048x64 .f32) (e2 : Vec F S512x64 .f32) (xs : Vec F S2048x1 .f32) : Vec F S2048x1 .f32 :=
  scratchView.read (Elt F) (scratchView.writes (Elt F) scratchView.junk (runMid c i arg2 harg2 arg3 harg3 arg4 harg4 arg5 harg5 hc0 hc1 e1 e2 xs).2.1)

/-- A last point's store into the output block covers it, -/
theorem out_covered_last (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : isLast i)
    (e1 : Vec F S2048x64 .f32) (e2 : Vec F S512x64 .f32) (xs : Vec F S2048x1 .f32) (y : S2048x1.Idx) :
    ∃ pc ∈ (runLast c i arg2 harg2 arg3 harg3 arg4 harg4 arg5 harg5 hc0 hc1 e1 e2 xs).1, y ∈ pc.1.set :=
  View.cover_of_tiledL (runLast c i arg2 harg2 arg3 harg3 arg4 harg4 arg5 harg5 hc0 hc1 e1 e2 xs).1 S2048x1.size (by sl_kernel_rfl) y
/-- so the output block after a last point is that store read back: the finished column. -/
def outLast (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : isLast i)
    (e1 : Vec F S2048x64 .f32) (e2 : Vec F S512x64 .f32) (xs : Vec F S2048x1 .f32) : Vec F S2048x1 .f32 :=
  outView.read (Elt F) (outView.writes (Elt F) outView.junk (runLast c i arg2 harg2 arg3 harg3 arg4 harg4 arg5 harg5 hc0 hc1 e1 e2 xs).1)
theorem scratch_covered_last (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : isLast i)
    (e1 : Vec F S2048x64 .f32) (e2 : Vec F S512x64 .f32) (xs : Vec F S2048x1 .f32) (y : S2048x1.Idx) :
    ∃ pc ∈ (runLast c i arg2 harg2 arg3 harg3 arg4 harg4 arg5 harg5 hc0 hc1 e1 e2 xs).2.1, y ∈ pc.1.set :=
  View.cover_of_tiledL (runLast c i arg2 harg2 arg3 harg3 arg4 harg4 arg5 harg5 hc0 hc1 e1 e2 xs).2.1 S2048x1.size (by sl_kernel_rfl) y
def scratchLast (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : isLast i)
    (e1 : Vec F S2048x64 .f32) (e2 : Vec F S512x64 .f32) (xs : Vec F S2048x1 .f32) : Vec F S2048x1 .f32 :=
  scratchView.read (Elt F) (scratchView.writes (Elt F) scratchView.junk (runLast c i arg2 harg2 arg3 harg3 arg4 harg4 arg5 harg5 hc0 hc1 e1 e2 xs).2.1)

/-! ## The windows' blocks -/

-- the buffers' contents when the region is entered
variable (V : (c : Dev nD) → (b : Ref sig .tc) → Buf (Elt F) ((c : Thread nD τ).loc b))

/-- Window `w`'s block at grid point `t`, read off its array as the region finds it. -/
def blockAt (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The e1 window's staging buffer holds the point's e1 block at every point — fetched there (k = 0) or not: between fetches
    the block index does not move, and the body leaves the block in place. -/
theorem found_e1 {c : Dev nD} (dat : Dat τ (Elt F) Unit ℕ (UR sig nD τ) ℕ cfg5 c) (hA : dat.A 0 = V c (Pipeline.arrRef spec5 0))
    (hafter : ∀ t, dat.after 0 t = blockAt V c 0 t) (t : Fin cfg5.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- The same for the e2 window, fetched at every point. -/
theorem found_e2 {c : Dev nD} (dat : Dat τ (Elt F) Unit ℕ (UR sig nD τ) ℕ cfg5 c) (hA : dat.A 1 = V c (Pipeline.arrRef spec5 1))
    (hafter : ∀ t, dat.after 1 t = blockAt V c 1 t) (t : Fin cfg5.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the output block and the scratch hold after each point -/

/-- THE ACCUMULATION, by recursion on the point's number: (the output block, the scratch) after point `n` — the point's case,
    run at the point's buffers and input blocks, the scratch taken from the point before. A point cannot be both first and
    last. -/
def outsAt (c : Dev nD) : (n : ℕ) → n < cfg5.N → Vec F S2048x1 .f32 × Vec F S2048x1 .f32
  | 0, hn =>
    have h0 : (⟨0, hn⟩ : Fin cfg5.N).val % 16 = 0 := Nat.zero_mod _
    have h1 : ¬(⟨0, hn⟩ : Fin cfg5.N).val % 16 = 15 := fun h => by (try dsimp only at h); omega
    (outFirst c (grid5.coords ⟨0, hn⟩) (m_e1 ⟨0, hn⟩) (h_e1 ⟨0, hn⟩) (m_e2 ⟨0, hn⟩) (h_e2 ⟨0, hn⟩) (m_out ⟨0, hn⟩) (h_out ⟨0, hn⟩) scratch (Memref.isWhole_whole _) ((isFirst_iff ⟨0, hn⟩).mpr h0) (fun h => h1 ((isLast_iff ⟨0, hn⟩).mp h)) (blockAt V c 0 ⟨0, hn⟩) (blockAt V c 1 ⟨0, hn⟩),
     scratchFirst c (grid5.coords ⟨0, hn⟩) (m_e1 ⟨0, hn⟩) (h_e1 ⟨0, hn⟩) (m_e2 ⟨0, hn⟩) (h_e2 ⟨0, hn⟩) (m_out ⟨0, hn⟩) (h_out ⟨0, hn⟩) scratch (Memref.isWhole_whole _) ((isFirst_iff ⟨0, hn⟩).mpr h0) (fun h => h1 ((isLast_iff ⟨0, hn⟩).mp h)) (blockAt V c 0 ⟨0, hn⟩) (blockAt V c 1 ⟨0, hn⟩))
  | n + 1, hn =>
    if h0 : (n + 1) % 16 = 0 then
      if h1 : (n + 1) % 16 = 15 then
        False.elim (by omega)
      else
        (outFirst c (grid5.coords ⟨n + 1, hn⟩) (m_e1 ⟨n + 1, hn⟩) (h_e1 ⟨n + 1, hn⟩) (m_e2 ⟨n + 1, hn⟩) (h_e2 ⟨n + 1, hn⟩) (m_out ⟨n + 1, hn⟩) (h_out ⟨n + 1, hn⟩) scratch (Memref.isWhole_whole _) ((isFirst_iff ⟨n + 1, hn⟩).mpr h0) (fun h => h1 ((isLast_iff ⟨n + 1, hn⟩).mp h)) (blockAt V c 0 ⟨n + 1, hn⟩) (blockAt V c 1 ⟨n + 1, hn⟩),
         scratchFirst c (grid5.coords ⟨n + 1, hn⟩) (m_e1 ⟨n + 1, hn⟩) (h_e1 ⟨n + 1, hn⟩) (m_e2 ⟨n + 1, hn⟩) (h_e2 ⟨n + 1, hn⟩) (m_out ⟨n + 1, hn⟩) (h_out ⟨n + 1, hn⟩) scratch (Memref.isWhole_whole _) ((isFirst_iff ⟨n + 1, hn⟩).mpr h0) (fun h => h1 ((isLast_iff ⟨n + 1, hn⟩).mp h)) (blockAt V c 0 ⟨n + 1, hn⟩) (blockAt V c 1 ⟨n + 1, hn⟩))
    else
      if h1 : (n + 1) % 16 = 15 then
        (outLast c (grid5.coords ⟨n + 1, hn⟩) (m_e1 ⟨n + 1, hn⟩) (h_e1 ⟨n + 1, hn⟩) (m_e2 ⟨n + 1, hn⟩) (h_e2 ⟨n + 1, hn⟩) (m_out ⟨n + 1, hn⟩) (h_out ⟨n + 1, hn⟩) scratch (Memref.isWhole_whole _) (fun h => h0 ((isFirst_iff ⟨n + 1, hn⟩).mp h)) ((isLast_iff ⟨n + 1, hn⟩).mpr h1) (blockAt V c 0 ⟨n + 1, hn⟩) (blockAt V c 1 ⟨n + 1, hn⟩) (outsAt c n (Nat.lt_of_succ_lt hn)).2,
         scratchLast c (grid5.coords ⟨n + 1, hn⟩) (m_e1 ⟨n + 1, hn⟩) (h_e1 ⟨n + 1, hn⟩) (m_e2 ⟨n + 1, hn⟩) (h_e2 ⟨n + 1, hn⟩) (m_out ⟨n + 1, hn⟩) (h_out ⟨n + 1, hn⟩) scratch (Memref.isWhole_whole _) (fun h => h0 ((isFirst_iff ⟨n + 1, hn⟩).mp h)) ((isLast_iff ⟨n + 1, hn⟩).mpr h1) (blockAt V c 0 ⟨n + 1, hn⟩) (blockAt V c 1 ⟨n + 1, hn⟩) (outsAt c n (Nat.lt_of_succ_lt hn)).2)
      else
        (outMid c (grid5.coords ⟨n + 1, hn⟩) (m_e1 ⟨n + 1, hn⟩) (h_e1 ⟨n + 1, hn⟩) (m_e2 ⟨n + 1, hn⟩) (h_e2 ⟨n + 1, hn⟩) (m_out ⟨n + 1, hn⟩) (h_out ⟨n + 1, hn⟩) scratch (Memref.isWhole_whole _) (fun h => h0 ((isFirst_iff ⟨n + 1, hn⟩).mp h)) (fun h => h1 ((isLast_iff ⟨n + 1, hn⟩).mp h)) (blockAt V c 0 ⟨n + 1, hn⟩) (blockAt V c 1 ⟨n + 1, hn⟩) (outsAt c n (Nat.lt_of_succ_lt hn)).2,
         scratchMid c (grid5.coords ⟨n + 1, hn⟩) (m_e1 ⟨n + 1, hn⟩) (h_e1 ⟨n + 1, hn⟩) (m_e2 ⟨n + 1, hn⟩) (h_e2 ⟨n + 1, hn⟩) (m_out ⟨n + 1, hn⟩) (h_out ⟨n + 1, hn⟩) scratch (Memref.isWhole_whole _) (fun h => h0 ((isFirst_iff ⟨n + 1, hn⟩).mp h)) (fun h => h1 ((isLast_iff ⟨n + 1, hn⟩).mp h)) (blockAt V c 0 ⟨n + 1, hn⟩) (blockAt V c 1 ⟨n + 1, hn⟩) (outsAt c n (Nat.lt_of_succ_lt hn)).2)

theorem outsAt_first (c : Dev nD) (t : Fin cfg5.N) (h0 : t.val % 16 = 0) (h1 : ¬t.val % 16 = 15) :
    outsAt V c t.val t.isLt =
      (outFirst c (grid5.coords t) (m_e1 t) (h_e1 t) (m_e2 t) (h_e2 t) (m_out t) (h_out t) scratch (Memref.isWhole_whole _) ((isFirst_iff t).mpr h0) (fun h => h1 ((isLast_iff t).mp h)) (blockAt V c 0 t) (blockAt V c 1 t),
       scratchFirst c (grid5.coords t) (m_e1 t) (h_e1 t) (m_e2 t) (h_e2 t) (m_out t) (h_out t) scratch (Memref.isWhole_whole _) ((isFirst_iff t).mpr h0) (fun h => h1 ((isLast_iff t).mp h)) (blockAt V c 0 t) (blockAt V c 1 t)) := by
  obtain ⟨n, hn⟩ := t
  cases n with
  | zero => exact rfl
  | succ n => exact (dif_pos h0).trans ((dif_neg h1).trans rfl)

theorem outsAt_mid (c : Dev nD) (t : Fin cfg5.N) (h0 : ¬t.val % 16 = 0) (h1 : ¬t.val % 16 = 15) :
    outsAt V c t.val t.isLt =
      (outMid c (grid5.coords t) (m_e1 t) (h_e1 t) (m_e2 t) (h_e2 t) (m_out t) (h_out t) scratch (Memref.isWhole_whole _) (fun h => h0 ((isFirst_iff t).mp h)) (fun h => h1 ((isLast_iff t).mp h)) (blockAt V c 0 t) (blockAt V c 1 t) (outsAt V c (t.val - 1) (Nat.lt_of_le_of_lt (Nat.sub_le _ _) t.isLt)).2,
       scratchMid c (grid5.coords t) (m_e1 t) (h_e1 t) (m_e2 t) (h_e2 t) (m_out t) (h_out t) scratch (Memref.isWhole_whole _) (fun h => h0 ((isFirst_iff t).mp h)) (fun h => h1 ((isLast_iff t).mp h)) (blockAt V c 0 t) (blockAt V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg5.N) (h0 : ¬t.val % 16 = 0) (h1 : t.val % 16 = 15) :
    outsAt V c t.val t.isLt =
      (outLast c (grid5.coords t) (m_e1 t) (h_e1 t) (m_e2 t) (h_e2 t) (m_out t) (h_out t) scratch (Memref.isWhole_whole _) (fun h => h0 ((isFirst_iff t).mp h)) ((isLast_iff t).mpr h1) (blockAt V c 0 t) (blockAt V c 1 t) (outsAt V c (t.val - 1) (Nat.lt_of_le_of_lt (Nat.sub_le _ _) t.isLt)).2,
       scratchLast c (grid5.coords t) (m_e1 t) (h_e1 t) (m_e2 t) (h_e2 t) (m_out t) (h_out t) scratch (Memref.isWhole_whole _) (fun h => h0 ((isFirst_iff t).mp h)) ((isLast_iff t).mpr h1) (blockAt V c 0 t) (blockAt V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch -/

/-- Before point `n`: at the start what the launch hands over (the scratch at anything); afterwards the scratch at what point
    `n − 1` left in it, every other scoped buffer unopened, the generator register at some state. -/
def carried (c : Dev nD) : (n : ℕ) → n ≤ cfg5.N → sProp 𝕄
  | 0, _ => Pipeline.ΦA spec5 c
  | n + 1, hn => iprop(iprop(owns (c : Thread nD τ) scratch fullShare ((outsAt V c n hn).2) ∗ Pipeline.scopedRestBut (Ix := Unit) (Name := ℕ) (U := UR sig nD τ) (Lvl := ℕ) (Val := Elt F) spec5 c [cc5_scratch0]) ∗ (∃ r, prngReg c r))

theorem carried_zero (c : Dev nD) (n : ℕ) (h : n ≤ cfg5.N) (hz : n = 0) : carried V c n h = Pipeline.ΦA spec5 c := by
  subst hz; rfl
theorem carried_succ (c : Dev nD) (n : ℕ) (hn : n < cfg5.N) :
    carried V c (n + 1) hn = iprop(iprop(owns (c : Thread nD τ) scratch fullShare ((outsAt V c n hn).2) ∗ Pipeline.scopedRestBut (Ix := Unit) (Name := ℕ) (U := UR sig nD τ) (Lvl := ℕ) (Val := Elt F) spec5 c [cc5_scratch0]) ∗ (∃ r, prngReg c r)) := rfl
theorem carried_pos (c : Dev nD) (n : ℕ) (h : n ≤ cfg5.N) (hz : n ≠ 0) :
    carried V c n h = iprop(iprop(owns (c : Thread nD τ) scratch fullShare ((outsAt V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hz
  | succ n => rfl

/-! ## The pipeline's proof data -/

def dat (c : Dev nD) : Dat τ (Elt F) Unit ℕ (UR sig nD τ) ℕ cfg5 c where
  A w := V c (Pipeline.arrRef spec5 w)
  after w t := match w with
    | ⟨0, _⟩ => blockAt V c 0 t
    | ⟨1, _⟩ => blockAt V c 1 t
    | ⟨2, _⟩ => (outsAt V c t.val t.isLt).1
  Φ t := carried V c t.val (Nat.le_of_lt_succ t.isLt)
  q _ := fullShare
  owed _ := 0

theorem dat_A (c : Dev nD) (w : Fin cfg5.W) : (dat V c).A w = V c (Pipeline.arrRef spec5 w) := by
  dsimp only [dat]
theorem dat_inv_castSucc (c : Dev nD) (t : Fin cfg5.N) :
    (dat V c).Φ t.castSucc = carried V c t.val (Nat.le_of_lt t.isLt) := by
  dsimp only [dat]; simp only [Fin.coe_castSucc]
theorem dat_after_e1 (c : Dev nD) (t : Fin cfg5.N) : (dat V c).after 0 t = blockAt V c 0 t := by dsimp only [dat]
theorem dat_after_e2 (c : Dev nD) (t : Fin cfg5.N) : (dat V c).after 1 t = blockAt V c 1 t := by dsimp only [dat]
theorem dat_after_out (c : Dev nD) (t : Fin cfg5.N) : (dat V c).after 2 t = (outsAt V c t.val t.isLt).1 := by dsimp only [dat]
theorem dat_before_e1 (c : Dev nD) (t : Fin cfg5.N) (d) : (dat V c).before 0 t d = blockAt V c 0 t :=
  found_e1 V (dat V c) (dat_A V c 0) (dat_after_e1 V c) t d
theorem dat_before_e2 (c : Dev nD) (t : Fin cfg5.N) (d) : (dat V c).before 1 t d = blockAt V c 1 t :=
  found_e2 V (dat V c) (dat_A V c 1) (dat_after_e2 V c) t d

/-! ## The body obligation -/

def bodyPre (c : Dev nD) (t : Fin cfg5.N) : sProp 𝕄 :=
  iprop((dat V c).Φ t.castSucc ∗ (dat V c).owesAt () t.castSucc
    ∗ (∃ d, owns (c : Thread nD τ) (m_e1 t) fullShare ((dat V c).before 0 t d))
    ∗ (∃ d, owns (c : Thread nD τ) (m_e2 t) fullShare ((dat V c).before 1 t d))
    ∗ (∃ d, owns (c : Thread nD τ) (m_out t) fullShare ((dat V c).before 2 t d)))

def bodyPost (c : Dev nD) (t : Fin cfg5.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The input buffers hold their blocks; the point's number modulo 16 says which case it is in; the
    invariant hands the body the scratch at what the point before left (at anything, at the very first point) and takes it
    back at this point's contents; an idle output buffer is handed back as found; nothing is owed throughout. -/
theorem sound_body (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [dat_before_e1, dat_before_e2]
  rw [show (dat V c).owesAt () t.succ = (dat V c).owesAt () t.castSucc from rfl]
  rw [show (dat V c).Φ t.succ = carried V c (t.val + 1) t.isLt from rfl, carried_succ]
  have hN : t.val < 64 := lt_of_lt_of_eq t.isLt (show cfg5.N = 64 from N_5)
  rw [show (dat V c).leavesExact 0 t = owns (c : Thread nD τ) (m_e1 t) fullShare ((dat V c).after 0 t) from by
    unfold Dat.leavesExact; rw [live_e1 t], dat_after_e1]
  rw [show (dat V c).leavesExact 1 t = owns (c : Thread nD τ) (m_e2 t) fullShare ((dat V c).after 1 t) from by
    unfold Dat.leavesExact; rw [live_e2 t], dat_after_e2]
  by_cases h0 : t.val % 16 = 0
  · have h1 : ¬t.val % 16 = 15 := by omega
    rw [Dat.leavesExact_idle (dat V c) 2 t (out_idle_first t ((isFirst_iff t).mpr h0) (fun h => h1 ((isLast_iff t).mp h))) (out_unflushed_first t ((isFirst_iff t).mpr h0) (fun h => h1 ((isLast_iff t).mp h)))]
    rw [outsAt_first V c t h0 h1]
    unfold scratchFirst; (try dsimp only)
    by_cases hz : t.val = 0
    · rw [dat_inv_castSucc V c t, carried_zero V c _ _ hz, rest_eq]
      iintro ⟨⟨⟨HS, Hrest⟩, Hg⟩, Ho, ⟨%d0, H0⟩, ⟨%d1, H1⟩, ⟨%d2, H2⟩⟩
      iapply ((runFirst c (grid5.coords t) _ _ _ _ _ _ _ _ ((isFirst_iff t).mpr h0) (fun h => h1 ((isLast_iff t).mp h)) (blockAt V c 0 t) (blockAt V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scratch_covered_first c _ _ _ _ _ _ _ _ _ _ _ _ _)
          iexact Hrest
        iexact Hg
      isplitl [Ho]; · iexact Ho
      isplitl [H0]; · iexact H0
      isplitl [H1]; · iexact H1
      iexists _; iexact H2
    · rw [dat_inv_castSucc V c t, carried_pos V c _ _ hz]
      iintro ⟨⟨⟨HS, Hrest⟩, Hg⟩, Ho, ⟨%d0, H0⟩, ⟨%d1, H1⟩, ⟨%d2, H2⟩⟩
      iapply ((runFirst c (grid5.coords t) _ _ _ _ _ _ _ _ ((isFirst_iff t).mpr h0) (fun h => h1 ((isLast_iff t).mp h)) (blockAt V c 0 t) (blockAt V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scratch_covered_first c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun e => h0 (by rw [e])
    by_cases h1 : t.val % 16 = 15
    · rw [show (dat V c).leavesExact 2 t = owns (c : Thread nD τ) (m_out t) fullShare ((dat V c).after 2 t) from by
        unfold Dat.leavesExact; rw [out_live_last t (fun h => h0 ((isFirst_iff t).mp h)) ((isLast_iff t).mpr h1)], dat_after_out]
      rw [outsAt_last V c t h0 h1]
      unfold outLast scratchLast; (try dsimp only)
      rw [dat_inv_castSucc V c t, carried_pos V c _ _ hz]
      iintro ⟨⟨⟨HS, Hrest⟩, Hg⟩, Ho, ⟨%d0, H0⟩, ⟨%d1, H1⟩, ⟨%d2, H2⟩⟩
      iapply ((runLast c (grid5.coords t) _ _ _ _ _ _ _ _ (fun h => h0 ((isFirst_iff t).mp h)) ((isLast_iff t).mpr h1) (blockAt V c 0 t) (blockAt V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hrest Hg]
      · isplitl [HS Hrest]
        · isplitl [HS]
          · unfold owns; iexists _; isplitr
            swap; · iexact HS
            ipureintro; exact View.read_writes_of_cover _ _ _ _ _ (scratch_covered_last c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (out_covered_last c _ _ _ _ _ _ _ _ _ _ _ _ _ _)
    · rw [Dat.leavesExact_idle (dat V c) 2 t (out_idle_mid t (fun h => h0 ((isFirst_iff t).mp h)) (fun h => h1 ((isLast_iff t).mp h))) (out_unflushed_mid t (fun h => h0 ((isFirst_iff t).mp h)) (fun h => h1 ((isLast_iff t).mp h)))]
      rw [outsAt_mid V c t h0 h1]
      unfold scratchMid; (try dsimp only)
      rw [dat_inv_castSucc V c t, carried_pos V c _ _ hz]
      iintro ⟨⟨⟨HS, Hrest⟩, Hg⟩, Ho, ⟨%d0, H0⟩, ⟨%d1, H1⟩, ⟨%d2, H2⟩⟩
      iapply ((runMid c (grid5.coords t) _ _ _ _ _ _ _ _ (fun h => h0 ((isFirst_iff t).mp h)) (fun h => h1 ((isLast_iff t).mp h)) (blockAt V c 0 t) (blockAt V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS Hrest Hg]
      · isplitl [HS Hrest]
        · isplitl [HS]
          · unfold owns; iexists _; isplitr
            swap; · iexact HS
            ipureintro; exact View.read_writes_of_cover _ _ _ _ _ (scratch_covered_mid c _ _ _ _ _ _ _ _ _ _ _ _ _ _)
          iexact Hrest
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W5, bigSep_W5]
  exact sound_body V c t

/-- What the launch hands the region is the invariant before the first point. -/
theorem inv_in (c : Dev nD) : Pipeline.ΦA spec5 c ⊢ (dat V c).Φ 0 := by
  rw [show (dat V c).Φ 0 = carried V c 0 (Nat.zero_le _) from rfl, carried_zero V c 0 _ rfl]
  try exact Idealize.SL.BI.Entails.refl _

/-- After the last point the invariant gives that back: what the scratch holds is forgotten. -/
theorem inv_out (c : Dev nD) : (dat V c).Φ (Fin.last cfg5.N) ⊢ Pipeline.ΦA spec5 c := by
  have hne : (Fin.last cfg5.N).val ≠ 0 := by rw [Fin.val_last]; have : cfg5.N = 64 := N_5; omega
  rw [show (dat V c).Φ (Fin.last cfg5.N) = carried V c (Fin.last cfg5.N).val (Nat.le_of_lt_succ (Fin.last cfg5.N).isLt) from rfl,
    carried_pos V c _ _ hne, rest_eq]
  iintro ⟨⟨HS, Hrest⟩, Hg⟩
  isplitl [HS Hrest]
  · isplitl [HS]
    · iexists _; iexact HS
    iexact Hrest
  iexact Hg

end Cert.KernelIdeal.NegSum5

end
-- ==== Proof.WholeI.lean ====
/-
  The whole program as the launch runs it: stretches of host operations and six kernel regions, in order. Between two items
  every unscoped buffer of a core holds definite contents — the launch contents, then each host stretch's operations applied,
  then, after a region, that region's output array replaced by what its write-backs leave (`outs`) and everything else as it
  was. Each region is a segment entered at the contents before it and left at the contents after it; the host side of the run
  is the generated conditional frame. No host operation and no region writes an argument array, so all eight end as launched.
-/
import proofs.«131157_j87900800680713_1_alg».proof.Proof.Gen.KernelIdeal.Regions
import proofs.«131157_j87900800680713_1_alg».proof.Proof.PerturbI0
import proofs.«131157_j87900800680713_1_alg».proof.Proof.PerturbI1
import proofs.«131157_j87900800680713_1_alg».proof.Proof.PerturbI2
import proofs.«131157_j87900800680713_1_alg».proof.Proof.PerturbI3
import proofs.«131157_j87900800680713_1_alg».proof.Proof.NegSumI4
import proofs.«131157_j87900800680713_1_alg».proof.Proof.NegSumI5

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (outs : Gen.Outs (F := F))

/-- No core owes another anything: no level is assigned. -/
abbrev noLevels : GSem nD τ sig → Finset Unit := fun _ => ∅
abbrev noLevel : GSem nD τ sig → Unit → ℕ := fun _ _ => 0

/-- What rides beside the buffers through every item: the core's generator register at some state and its dues, at nothing. -/
abbrev rides (c : Dev nD) : sProp 𝕄 := iprop((∃ r, prngReg c r) ∗ ∃ W, owes (c : Thread nD τ) (0 : CellTallies nD τ sig Unit) W)

/-- The contents region 0 is entered with, read at a TensorCore reference. -/
abbrev entry0 : (c : Dev nD) → (b : Ref sig .tc) → Buf (Elt F) ((c : Thread nD τ).loc b) := fun c b => Gen.V3 m c b
abbrev entry1 : (c : Dev nD) → (b : Ref sig .tc) → Buf (Elt F) ((c : Thread nD τ).loc b) := fun c b => Gen.V5 m outs c b
abbrev entry2 : (c : Dev nD) → (b : Ref sig .tc) → Buf (Elt F) ((c : Thread nD τ).loc b) := fun c b => Gen.V7 m outs c b
abbrev entry3 : (c : Dev nD) → (b : Ref sig .tc) → Buf (Elt F) ((c : Thread nD τ).loc b) := fun c b => Gen.V9 m outs c b
abbrev entry4 : (c : Dev nD) → (b : Ref sig .tc) → Buf (Elt F) ((c : Thread nD τ).loc b) := fun c b => Gen.V21 m outs c b
abbrev entry5 : (c : Dev nD) → (b : Ref sig .tc) → Buf (Elt F) ((c : Thread nD τ).loc b) := fun c b => Gen.V23 m outs c b

/-- Every pipeline's proof data, each at the contents its region is entered with. -/
def pdats : (p : Fin 6) → (c : Dev nD) → Dat τ (Elt F) Unit ℕ (UR sig nD τ) ℕ (cfgs p) c
  | ⟨0, _⟩ => fun c => Perturb0.dat (entry0 m) c
  | ⟨1, _⟩ => fun c => Perturb1.dat (entry1 m outs) c
  | ⟨2, _⟩ => fun c => Perturb2.dat (entry2 m outs) c
  | ⟨3, _⟩ => fun c => Perturb3.dat (entry3 m outs) c
  | ⟨4, _⟩ => fun c => NegSum4.dat (entry4 m outs) c
  | ⟨5, _⟩ => fun c => NegSum5.dat (entry5 m outs) c

/-- What region 0 leaves in each of its arrays is what the buffers hold at the next boundary: an input array is as it was
    entered, the output array is what `outs` names there. -/
theorem exit_arrays0 (hO : ∀ c, outs 4 main_v53 c = (Perturb0.dat (entry0 m) c).arrAt 2 cfg0.N) (c : Dev nD) :
    ∀ w : Fin cfg0.W, (Perturb0.dat (entry0 m) c).arrAt w cfg0.N = Gen.V4 m outs c (Pipeline.arrRef spec0 w)
  | ⟨0, _⟩ => (((Perturb0.dat (entry0 m) c).arrAt_in 0 rfl _).trans (Perturb0.dat_A (entry0 m) c 0)).trans (Gen.V4_of m outs c _ (by decide)).symm
  | ⟨1, _⟩ => (((Perturb0.dat (entry0 m) c).arrAt_in 1 rfl _).trans (Perturb0.dat_A (entry0 m) c 1)).trans (Gen.V4_of m outs c _ (by decide)).symm
  | ⟨2, _⟩ => (hO c).symm.trans (Function.update_self (f := Gen.V3 m c) (a := (Proc.devRef .tc main_v53 : DevRef τ sig)) (v := outs 4 main_v53 c)).symm

/-- Every other buffer is as the region found it. -/
theorem exit_rest0 (c : Dev nD) : ∀ b, b ∉ Finset.univ.image (Pipeline.arrRef spec0) → Gen.V4 m outs c b = Gen.V3 m c b :=
  fun b hb => Gen.V4_of m outs c b (fun h => hb (by
    rw [List.mem_singleton] at h; subst h
    exact Finset.mem_image.mpr ⟨2, Finset.mem_univ _, rfl⟩))

set_option backward.isDefEq.respectTransparency.types false in
/-- REGION 0 as a segment of the program: entered with every unscoped buffer at the contents the boundary before it names,
    left with them at the next boundary's. Its three arrays are split out of the unscoped buffers and put back; the generator
    register and the scoped buffers go into the kernel's invariant and come back; nothing is owed; the kernel has no semaphore
    of its own. -/
def reg0 (hO : ∀ c, outs 4 main_v53 c = (Perturb0.dat (entry0 m) c).arrAt 2 cfg0.N) :
    Pipeline.RegionSeg (pcfgs (F := F)) Gen.adm (pdats m outs) () defs₀ Variants.none noLevels noLevel 0 where
  win := launch0.win.to₀
  block_pos := launch0.block_pos
  stage_whole := launch0.stage_whole
  K := PEmpty
  osem k := k.elim
  ho := Pipeline.OwnSemFacts.none _
  hbody c := (Perturb0.body_obligation (entry0 m) c).loose
  hwaits := Pipeline.hwaits_of_owed_zero _ _ _ _ noLevels noLevel 0 fun _ _ => rfl
  pre c := iprop(StableHlo.held (c : Thread nD τ) (Pipeline.ucRefs τ sig) (Gen.V3 m c) ∗ rides c)
  post c := iprop(StableHlo.held (c : Thread nD τ) (Pipeline.ucRefs τ sig) (Gen.V4 m outs c) ∗ rides c)
  X c := iprop(∃ r, prngReg c r)
  Y c := iprop(∃ r, prngReg c r)
  Z c := Pipeline.unscopedRest (Ix := Unit) (Name := ℕ) (U := UR sig nD τ) (Lvl := ℕ) spec0 c ((entry0 m) c)
  hentry c := by
    rw [Pipeline.ownSems0_none]
    have hsplit := Pipeline.arrays_of_unscopedBufs (p := 0) (pcfgs (F := F)) Gen.adm (pdats m outs) launch0.win launch0.arr_whole c
      ((pdats m outs 0 c).share_full fun _ => rfl) ((entry0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m outs) ((pdats m outs 0 c).share_full fun _ => rfl)
      ((entry0 m) c) (fun b => Gen.V4 m outs c b) ((pdats m outs 0 c).arrAt · cfg0.N) (exit_arrays0 m outs hO c) (exit_rest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What region 1 leaves in each of its arrays is what the buffers hold at the next boundary: an input array is as it was
    entered, the output array is what `outs` names there. -/
theorem exit_arrays1 (hO : ∀ c, outs 6 main_v69 c = (Perturb1.dat (entry1 m outs) c).arrAt 2 cfg1.N) (c : Dev nD) :
    ∀ w : Fin cfg1.W, (Perturb1.dat (entry1 m outs) c).arrAt w cfg1.N = Gen.V6 m outs c (Pipeline.arrRef spec1 w)
  | ⟨0, _⟩ => (((Perturb1.dat (entry1 m outs) c).arrAt_in 0 rfl _).trans (Perturb1.dat_A (entry1 m outs) c 0)).trans (Gen.V6_of m outs c _ (by decide)).symm
  | ⟨1, _⟩ => (((Perturb1.dat (entry1 m outs) c).arrAt_in 1 rfl _).trans (Perturb1.dat_A (entry1 m outs) c 1)).trans (Gen.V6_of m outs c _ (by decide)).symm
  | ⟨2, _⟩ => (hO c).symm.trans (Function.update_self (f := Gen.V5 m outs c) (a := (Proc.devRef .tc main_v69 : DevRef τ sig)) (v := outs 6 main_v69 c)).symm

/-- Every other buffer is as the region found it. -/
theorem exit_rest1 (c : Dev nD) : ∀ b, b ∉ Finset.univ.image (Pipeline.arrRef spec1) → Gen.V6 m outs c b = Gen.V5 m outs c b :=
  fun b hb => Gen.V6_of m outs c b (fun h => hb (by
    rw [List.mem_singleton] at h; subst h
    exact Finset.mem_image.mpr ⟨2, Finset.mem_univ _, rfl⟩))

set_option backward.isDefEq.respectTransparency.types false in
/-- REGION 1 as a segment of the program: entered with every unscoped buffer at the contents the boundary before it names,
    left with them at the next boundary's. Its three arrays are split out of the unscoped buffers and put back; the generator
    register and the scoped buffers go into the kernel's invariant and come back; nothing is owed; the kernel has no semaphore
    of its own. -/
def reg1 (hO : ∀ c, outs 6 main_v69 c = (Perturb1.dat (entry1 m outs) c).arrAt 2 cfg1.N) :
    Pipeline.RegionSeg (pcfgs (F := F)) Gen.adm (pdats m outs) () defs₀ Variants.none noLevels noLevel 1 where
  win := launch1.win.to₀
  block_pos := launch1.block_pos
  stage_whole := launch1.stage_whole
  K := PEmpty
  osem k := k.elim
  ho := Pipeline.OwnSemFacts.none _
  hbody c := (Perturb1.body_obligation (entry1 m outs) c).loose
  hwaits := Pipeline.hwaits_of_owed_zero _ _ _ _ noLevels noLevel 1 fun _ _ => rfl
  pre c := iprop(StableHlo.held (c : Thread nD τ) (Pipeline.ucRefs τ sig) (Gen.V5 m outs c) ∗ rides c)
  post c := iprop(StableHlo.held (c : Thread nD τ) (Pipeline.ucRefs τ sig) (Gen.V6 m outs c) ∗ rides c)
  X c := iprop(∃ r, prngReg c r)
  Y c := iprop(∃ r, prngReg c r)
  Z c := Pipeline.unscopedRest (Ix := Unit) (Name := ℕ) (U := UR sig nD τ) (Lvl := ℕ) spec1 c ((entry1 m outs) c)
  hentry c := by
    rw [Pipeline.ownSems0_none]
    have hsplit := Pipeline.arrays_of_unscopedBufs (p := 1) (pcfgs (F := F)) Gen.adm (pdats m outs) launch1.win launch1.arr_whole c
      ((pdats m outs 1 c).share_full fun _ => rfl) ((entry1 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m outs) ((pdats m outs 1 c).share_full fun _ => rfl)
      ((entry1 m outs) c) (fun b => Gen.V6 m outs c b) ((pdats m outs 1 c).arrAt · cfg1.N) (exit_arrays1 m outs hO c) (exit_rest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What region 2 leaves in each of its arrays is what the buffers hold at the next boundary: an input array is as it was
    entered, the output array is what `outs` names there. -/
theorem exit_arrays2 (hO : ∀ c, outs 8 main_v101 c = (Perturb2.dat (entry2 m outs) c).arrAt 2 cfg2.N) (c : Dev nD) :
    ∀ w : Fin cfg2.W, (Perturb2.dat (entry2 m outs) c).arrAt w cfg2.N = Gen.V8 m outs c (Pipeline.arrRef spec2 w)
  | ⟨0, _⟩ => (((Perturb2.dat (entry2 m outs) c).arrAt_in 0 rfl _).trans (Perturb2.dat_A (entry2 m outs) c 0)).trans (Gen.V8_of m outs c _ (by decide)).symm
  | ⟨1, _⟩ => (((Perturb2.dat (entry2 m outs) c).arrAt_in 1 rfl _).trans (Perturb2.dat_A (entry2 m outs) c 1)).trans (Gen.V8_of m outs c _ (by decide)).symm
  | ⟨2, _⟩ => (hO c).symm.trans (Function.update_self (f := Gen.V7 m outs c) (a := (Proc.devRef .tc main_v101 : DevRef τ sig)) (v := outs 8 main_v101 c)).symm

/-- Every other buffer is as the region found it. -/
theorem exit_rest2 (c : Dev nD) : ∀ b, b ∉ Finset.univ.image (Pipeline.arrRef spec2) → Gen.V8 m outs c b = Gen.V7 m outs c b :=
  fun b hb => Gen.V8_of m outs c b (fun h => hb (by
    rw [List.mem_singleton] at h; subst h
    exact Finset.mem_image.mpr ⟨2, Finset.mem_univ _, rfl⟩))

set_option backward.isDefEq.respectTransparency.types false in
/-- REGION 2 as a segment of the program: entered with every unscoped buffer at the contents the boundary before it names,
    left with them at the next boundary's. Its three arrays are split out of the unscoped buffers and put back; the generator
    register and the scoped buffers go into the kernel's invariant and come back; nothing is owed; the kernel has no semaphore
    of its own. -/
def reg2 (hO : ∀ c, outs 8 main_v101 c = (Perturb2.dat (entry2 m outs) c).arrAt 2 cfg2.N) :
    Pipeline.RegionSeg (pcfgs (F := F)) Gen.adm (pdats m outs) () defs₀ Variants.none noLevels noLevel 2 where
  win := launch2.win.to₀
  block_pos := launch2.block_pos
  stage_whole := launch2.stage_whole
  K := PEmpty
  osem k := k.elim
  ho := Pipeline.OwnSemFacts.none _
  hbody c := (Perturb2.body_obligation (entry2 m outs) c).loose
  hwaits := Pipeline.hwaits_of_owed_zero _ _ _ _ noLevels noLevel 2 fun _ _ => rfl
  pre c := iprop(StableHlo.held (c : Thread nD τ) (Pipeline.ucRefs τ sig) (Gen.V7 m outs c) ∗ rides c)
  post c := iprop(StableHlo.held (c : Thread nD τ) (Pipeline.ucRefs τ sig) (Gen.V8 m outs c) ∗ rides c)
  X c := iprop(∃ r, prngReg c r)
  Y c := iprop(∃ r, prngReg c r)
  Z c := Pipeline.unscopedRest (Ix := Unit) (Name := ℕ) (U := UR sig nD τ) (Lvl := ℕ) spec2 c ((entry2 m outs) c)
  hentry c := by
    rw [Pipeline.ownSems0_none]
    have hsplit := Pipeline.arrays_of_unscopedBufs (p := 2) (pcfgs (F := F)) Gen.adm (pdats m outs) launch2.win launch2.arr_whole c
      ((pdats m outs 2 c).share_full fun _ => rfl) ((entry2 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m outs) ((pdats m outs 2 c).share_full fun _ => rfl)
      ((entry2 m outs) c) (fun b => Gen.V8 m outs c b) ((pdats m outs 2 c).arrAt · cfg2.N) (exit_arrays2 m outs hO c) (exit_rest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What region 3 leaves in each of its arrays is what the buffers hold at the next boundary: an input array is as it was
    entered, the output array is what `outs` names there. -/
theorem exit_arrays3 (hO : ∀ c, outs 10 main_v117 c = (Perturb3.dat (entry3 m outs) c).arrAt 2 cfg3.N) (c : Dev nD) :
    ∀ w : Fin cfg3.W, (Perturb3.dat (entry3 m outs) c).arrAt w cfg3.N = Gen.V10 m outs c (Pipeline.arrRef spec3 w)
  | ⟨0, _⟩ => (((Perturb3.dat (entry3 m outs) c).arrAt_in 0 rfl _).trans (Perturb3.dat_A (entry3 m outs) c 0)).trans (Gen.V10_of m outs c _ (by decide)).symm
  | ⟨1, _⟩ => (((Perturb3.dat (entry3 m outs) c).arrAt_in 1 rfl _).trans (Perturb3.dat_A (entry3 m outs) c 1)).trans (Gen.V10_of m outs c _ (by decide)).symm
  | ⟨2, _⟩ => (hO c).symm.trans (Function.update_self (f := Gen.V9 m outs c) (a := (Proc.devRef .tc main_v117 : DevRef τ sig)) (v := outs 10 main_v117 c)).symm

/-- Every other buffer is as the region found it. -/
theorem exit_rest3 (c : Dev nD) : ∀ b, b ∉ Finset.univ.image (Pipeline.arrRef spec3) → Gen.V10 m outs c b = Gen.V9 m outs c b :=
  fun b hb => Gen.V10_of m outs c b (fun h => hb (by
    rw [List.mem_singleton] at h; subst h
    exact Finset.mem_image.mpr ⟨2, Finset.mem_univ _, rfl⟩))

set_option backward.isDefEq.respectTransparency.types false in
/-- REGION 3 as a segment of the program: entered with every unscoped buffer at the contents the boundary before it names,
    left with them at the next boundary's. Its three arrays are split out of the unscoped buffers and put back; the generator
    register and the scoped buffers go into the kernel's invariant and come back; nothing is owed; the kernel has no semaphore
    of its own. -/
def reg3 (hO : ∀ c, outs 10 main_v117 c = (Perturb3.dat (entry3 m outs) c).arrAt 2 cfg3.N) :
    Pipeline.RegionSeg (pcfgs (F := F)) Gen.adm (pdats m outs) () defs₀ Variants.none noLevels noLevel 3 where
  win := launch3.win.to₀
  block_pos := launch3.block_pos
  stage_whole := launch3.stage_whole
  K := PEmpty
  osem k := k.elim
  ho := Pipeline.OwnSemFacts.none _
  hbody c := (Perturb3.body_obligation (entry3 m outs) c).loose
  hwaits := Pipeline.hwaits_of_owed_zero _ _ _ _ noLevels noLevel 3 fun _ _ => rfl
  pre c := iprop(StableHlo.held (c : Thread nD τ) (Pipeline.ucRefs τ sig) (Gen.V9 m outs c) ∗ rides c)
  post c := iprop(StableHlo.held (c : Thread nD τ) (Pipeline.ucRefs τ sig) (Gen.V10 m outs c) ∗ rides c)
  X c := iprop(∃ r, prngReg c r)
  Y c := iprop(∃ r, prngReg c r)
  Z c := Pipeline.unscopedRest (Ix := Unit) (Name := ℕ) (U := UR sig nD τ) (Lvl := ℕ) spec3 c ((entry3 m outs) c)
  hentry c := by
    rw [Pipeline.ownSems0_none]
    have hsplit := Pipeline.arrays_of_unscopedBufs (p := 3) (pcfgs (F := F)) Gen.adm (pdats m outs) launch3.win launch3.arr_whole c
      ((pdats m outs 3 c).share_full fun _ => rfl) ((entry3 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := UR sig nD τ) (Lvl := ℕ)
      launch3.win launch3.arr_whole c (pdats m outs) ((pdats m outs 3 c).share_full fun _ => rfl)
      ((entry3 m outs) c) (fun b => Gen.V10 m outs c b) ((pdats m outs 3 c).arrAt · cfg3.N) (exit_arrays3 m outs hO c) (exit_rest3 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What region 4 leaves in each of its arrays is what the buffers hold at the next boundary: an input array is as it was
    entered, the output array is what `outs` names there. -/
theorem exit_arrays4 (hO : ∀ c, outs 22 main_v239 c = (NegSum4.dat (entry4 m outs) c).arrAt 2 cfg4.N) (c : Dev nD) :
    ∀ w : Fin cfg4.W, (NegSum4.dat (entry4 m outs) c).arrAt w cfg4.N = Gen.V22 m outs c (Pipeline.arrRef spec4 w)
  | ⟨0, _⟩ => (((NegSum4.dat (entry4 m outs) c).arrAt_in 0 rfl _).trans (NegSum4.dat_A (entry4 m outs) c 0)).trans (Gen.V22_of m outs c _ (by decide)).symm
  | ⟨1, _⟩ => (((NegSum4.dat (entry4 m outs) c).arrAt_in 1 rfl _).trans (NegSum4.dat_A (entry4 m outs) c 1)).trans (Gen.V22_of m outs c _ (by decide)).symm
  | ⟨2, _⟩ => (hO c).symm.trans (Function.update_self (f := Gen.V21 m outs c) (a := (Proc.devRef .tc main_v239 : DevRef τ sig)) (v := outs 22 main_v239 c)).symm

/-- Every other buffer is as the region found it. -/
theorem exit_rest4 (c : Dev nD) : ∀ b, b ∉ Finset.univ.image (Pipeline.arrRef spec4) → Gen.V22 m outs c b = Gen.V21 m outs c b :=
  fun b hb => Gen.V22_of m outs c b (fun h => hb (by
    rw [List.mem_singleton] at h; subst h
    exact Finset.mem_image.mpr ⟨2, Finset.mem_univ _, rfl⟩))

set_option backward.isDefEq.respectTransparency.types false in
/-- REGION 4 as a segment of the program: entered with every unscoped buffer at the contents the boundary before it names,
    left with them at the next boundary's. Its three arrays are split out of the unscoped buffers and put back; the generator
    register and the scoped buffers go into the kernel's invariant and come back; nothing is owed; the kernel has no semaphore
    of its own. -/
def reg4 (hO : ∀ c, outs 22 main_v239 c = (NegSum4.dat (entry4 m outs) c).arrAt 2 cfg4.N) :
    Pipeline.RegionSeg (pcfgs (F := F)) Gen.adm (pdats m outs) () defs₀ Variants.none noLevels noLevel 4 where
  win := launch4.win.to₀
  block_pos := launch4.block_pos
  stage_whole := launch4.stage_whole
  K := PEmpty
  osem k := k.elim
  ho := Pipeline.OwnSemFacts.none _
  hbody c := (NegSum4.body_obligation (entry4 m outs) c).loose
  hwaits := Pipeline.hwaits_of_owed_zero _ _ _ _ noLevels noLevel 4 fun _ _ => rfl
  pre c := iprop(StableHlo.held (c : Thread nD τ) (Pipeline.ucRefs τ sig) (Gen.V21 m outs c) ∗ rides c)
  post c := iprop(StableHlo.held (c : Thread nD τ) (Pipeline.ucRefs τ sig) (Gen.V22 m outs c) ∗ rides c)
  X c := iprop(∃ r, prngReg c r)
  Y c := iprop(∃ r, prngReg c r)
  Z c := Pipeline.unscopedRest (Ix := Unit) (Name := ℕ) (U := UR sig nD τ) (Lvl := ℕ) spec4 c ((entry4 m outs) c)
  hentry c := by
    rw [Pipeline.ownSems0_none]
    have hsplit := Pipeline.arrays_of_unscopedBufs (p := 4) (pcfgs (F := F)) Gen.adm (pdats m outs) launch4.win launch4.arr_whole c
      ((pdats m outs 4 c).share_full fun _ => rfl) ((entry4 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (show (pdats m outs 4 c).Φ (Fin.last _) ⊢ Pipeline.ΦA spec4 c from NegSum4.inv_out (entry4 m outs) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := UR sig nD τ) (Lvl := ℕ)
      launch4.win launch4.arr_whole c (pdats m outs) ((pdats m outs 4 c).share_full fun _ => rfl)
      ((entry4 m outs) c) (fun b => Gen.V22 m outs c b) ((pdats m outs 4 c).arrAt · cfg4.N) (exit_arrays4 m outs hO c) (exit_rest4 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What region 5 leaves in each of its arrays is what the buffers hold at the next boundary: an input array is as it was
    entered, the output array is what `outs` names there. -/
theorem exit_arrays5 (hO : ∀ c, outs 24 main_v255 c = (NegSum5.dat (entry5 m outs) c).arrAt 2 cfg5.N) (c : Dev nD) :
    ∀ w : Fin cfg5.W, (NegSum5.dat (entry5 m outs) c).arrAt w cfg5.N = Gen.V24 m outs c (Pipeline.arrRef spec5 w)
  | ⟨0, _⟩ => (((NegSum5.dat (entry5 m outs) c).arrAt_in 0 rfl _).trans (NegSum5.dat_A (entry5 m outs) c 0)).trans (Gen.V24_of m outs c _ (by decide)).symm
  | ⟨1, _⟩ => (((NegSum5.dat (entry5 m outs) c).arrAt_in 1 rfl _).trans (NegSum5.dat_A (entry5 m outs) c 1)).trans (Gen.V24_of m outs c _ (by decide)).symm
  | ⟨2, _⟩ => (hO c).symm.trans (Function.update_self (f := Gen.V23 m outs c) (a := (Proc.devRef .tc main_v255 : DevRef τ sig)) (v := outs 24 main_v255 c)).symm

/-- Every other buffer is as the region found it. -/
theorem exit_rest5 (c : Dev nD) : ∀ b, b ∉ Finset.univ.image (Pipeline.arrRef spec5) → Gen.V24 m outs c b = Gen.V23 m outs c b :=
  fun b hb => Gen.V24_of m outs c b (fun h => hb (by
    rw [List.mem_singleton] at h; subst h
    exact Finset.mem_image.mpr ⟨2, Finset.mem_univ _, rfl⟩))

set_option backward.isDefEq.respectTransparency.types false in
/-- REGION 5 as a segment of the program: entered with every unscoped buffer at the contents the boundary before it names,
    left with them at the next boundary's. Its three arrays are split out of the unscoped buffers and put back; the generator
    register and the scoped buffers go into the kernel's invariant and come back; nothing is owed; the kernel has no semaphore
    of its own. -/
def reg5 (hO : ∀ c, outs 24 main_v255 c = (NegSum5.dat (entry5 m outs) c).arrAt 2 cfg5.N) :
    Pipeline.RegionSeg (pcfgs (F := F)) Gen.adm (pdats m outs) () defs₀ Variants.none noLevels noLevel 5 where
  win := launch5.win.to₀
  block_pos := launch5.block_pos
  stage_whole := launch5.stage_whole
  K := PEmpty
  osem k := k.elim
  ho := Pipeline.OwnSemFacts.none _
  hbody c := (NegSum5.body_obligation (entry5 m outs) c).loose
  hwaits := Pipeline.hwaits_of_owed_zero _ _ _ _ noLevels noLevel 5 fun _ _ => rfl
  pre c := iprop(StableHlo.held (c : Thread nD τ) (Pipeline.ucRefs τ sig) (Gen.V23 m outs c) ∗ rides c)
  post c := iprop(StableHlo.held (c : Thread nD τ) (Pipeline.ucRefs τ sig) (Gen.V24 m outs c) ∗ rides c)
  X c := iprop(∃ r, prngReg c r)
  Y c := iprop(∃ r, prngReg c r)
  Z c := Pipeline.unscopedRest (Ix := Unit) (Name := ℕ) (U := UR sig nD τ) (Lvl := ℕ) spec5 c ((entry5 m outs) c)
  hentry c := by
    rw [Pipeline.ownSems0_none]
    have hsplit := Pipeline.arrays_of_unscopedBufs (p := 5) (pcfgs (F := F)) Gen.adm (pdats m outs) launch5.win launch5.arr_whole c
      ((pdats m outs 5 c).share_full fun _ => rfl) ((entry5 m outs) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 5 c).Φ 0 = Pipeline.ΦA spec5 c from rfl]; unfold Pipeline.ΦA
    iintro ⟨Hp, -, Hr⟩
    isplitl [Hr]; · iexact Hr
    iexact Hp
  hout c := by
    rw [Pipeline.ownSems0_none]
    refine (show (pdats m outs 5 c).Φ (Fin.last _) ⊢ Pipeline.ΦA spec5 c from NegSum5.inv_out (entry5 m outs) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := UR sig nD τ) (Lvl := ℕ)
      launch5.win launch5.arr_whole c (pdats m outs) ((pdats m outs 5 c).share_full fun _ => rfl)
      ((entry5 m outs) c) (fun b => Gen.V24 m outs c b) ((pdats m outs 5 c).arrAt · cfg5.N) (exit_arrays5 m outs hO c) (exit_rest5 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## A definite choice of what the regions leave

`outs` is read at six places only: after region K, at region K's output array. It is built in six stages; stage K + 1 adds
region K's final output array, computed from the contents region K is entered with — which mention only the earlier stages. -/

/-- Region 0's output array after its last write-back, at the contents the first 0 regions leave. -/
def final0 (c : Dev nD) : Buf (Elt F) ((c : Thread nD τ).loc main_v53) :=
  (Perturb0.dat (entry0 m) c).arrAt 2 cfg0.N
/-- The contents after the first 1 regions. -/
def stage1 : Gen.Outs (F := F) := fun J r c =>
  if h : J = 4 ∧ r = main_v53 then h.2 ▸ final0 m c else Gen.V3 m c r

/-- Region 1's output array after its last write-back, at the contents the first 1 regions leave. -/
def final1 (c : Dev nD) : Buf (Elt F) ((c : Thread nD τ).loc main_v69) :=
  (Perturb1.dat (entry1 m (stage1 m)) c).arrAt 2 cfg1.N
/-- The contents after the first 2 regions. -/
def stage2 : Gen.Outs (F := F) := fun J r c =>
  if h : J = 6 ∧ r = main_v69 then h.2 ▸ final1 m c else stage1 m J r c

/-- Region 2's output array after its last write-back, at the contents the first 2 regions leave. -/
def final2 (c : Dev nD) : Buf (Elt F) ((c : Thread nD τ).loc main_v101) :=
  (Perturb2.dat (entry2 m (stage2 m)) c).arrAt 2 cfg2.N
/-- The contents after the first 3 regions. -/
def stage3 : Gen.Outs (F := F) := fun J r c =>
  if h : J = 8 ∧ r = main_v101 then h.2 ▸ final2 m c else stage2 m J r c

/-- Region 3's output array after its last write-back, at the contents the first 3 regions leave. -/
def final3 (c : Dev nD) : Buf (Elt F) ((c : Thread nD τ).loc main_v117) :=
  (Perturb3.dat (entry3 m (stage3 m)) c).arrAt 2 cfg3.N
/-- The contents after the first 4 regions. -/
def stage4 : Gen.Outs (F := F) := fun J r c =>
  if h : J = 10 ∧ r = main_v117 then h.2 ▸ final3 m c else stage3 m J r c

/-- Region 4's output array after its last write-back, at the contents the first 4 regions leave. -/
def final4 (c : Dev nD) : Buf (Elt F) ((c : Thread nD τ).loc main_v239) :=
  (NegSum4.dat (entry4 m (stage4 m)) c).arrAt 2 cfg4.N
/-- The contents after the first 5 regions. -/
def stage5 : Gen.Outs (F := F) := fun J r c =>
  if h : J = 22 ∧ r = main_v239 then h.2 ▸ final4 m c else stage4 m J r c

/-- Region 5's output array after its last write-back, at the contents the first 5 regions leave. -/
def final5 (c : Dev nD) : Buf (Elt F) ((c : Thread nD τ).loc main_v255) :=
  (NegSum5.dat (entry5 m (stage5 m)) c).arrAt 2 cfg5.N
/-- The contents after the first 6 regions. -/
def stage6 : Gen.Outs (F := F) := fun J r c =>
  if h : J = 24 ∧ r = main_v255 then h.2 ▸ final5 m c else stage5 m J r c

/-- What the regions leave, all six. -/
def left : Gen.Outs (F := F) := stage6 m

/-- Region 1 is entered with contents that read `left` only at (4, main_v53): the later stages do not matter. -/
theorem entry1_eq : entry1 m (left m) = entry1 m (stage1 m) := by
  have e : ∀ J r c, J ≤ 4 → left m J r c = stage1 m J r c := fun J r c hJ => by
    unfold left stage6 stage5 stage4 stage3 stage2
    rw [dif_neg (fun h => by omega)]; rw [dif_neg (fun h => by omega)]; rw [dif_neg (fun h => by omega)]; rw [dif_neg (fun h => by omega)]; rw [dif_neg (fun h => by omega)]
  funext c b
  simp only [entry1, Gen.V5, Gen.V4, e 4 main_v53 c (by omega)]

/-- Region 2 is entered with contents that read `left` only at (4, main_v53), (6, main_v69): the later stages do not matter. -/
theorem entry2_eq : entry2 m (left m) = entry2 m (stage2 m) := by
  have e : ∀ J r c, J ≤ 6 → left m J r c = stage2 m J r c := fun J r c hJ => by
    unfold left stage6 stage5 stage4 stage3
    rw [dif_neg (fun h => by omega)]; rw [dif_neg (fun h => by omega)]; rw [dif_neg (fun h => by omega)]; rw [dif_neg (fun h => by omega)]
  funext c b
  simp only [entry2, Gen.V7, Gen.V6, Gen.V5, Gen.V4, e 4 main_v53 c (by omega), e 6 main_v69 c (by omega)]

/-- Region 3 is entered with contents that read `left` only at (4, main_v53), (6, main_v69), (8, main_v101): the later stages do not matter. -/
theorem entry3_eq : entry3 m (left m) = entry3 m (stage3 m) := by
  have e : ∀ J r c, J ≤ 8 → left m J r c = stage3 m J r c := fun J r c hJ => by
    unfold left stage6 stage5 stage4
    rw [dif_neg (fun h => by omega)]; rw [dif_neg (fun h => by omega)]; rw [dif_neg (fun h => by omega)]
  funext c b
  simp only [entry3, Gen.V9, Gen.V8, Gen.V7, Gen.V6, Gen.V5, Gen.V4, e 4 main_v53 c (by omega), e 6 main_v69 c (by omega), e 8 main_v101 c (by omega)]

/-- Region 4 is entered with contents that read `left` only at (4, main_v53), (6, main_v69), (8, main_v101), (10, main_v117): the later stages do not matter. -/
theorem entry4_eq : entry4 m (left m) = entry4 m (stage4 m) := by
  have e : ∀ J r c, J ≤ 10 → left m J r c = stage4 m J r c := fun J r c hJ => by
    unfold left stage6 stage5
    rw [dif_neg (fun h => by omega)]; rw [dif_neg (fun h => by omega)]
  funext c b
  simp only [entry4, Gen.V21, Gen.V20, Gen.V19, Gen.V18, Gen.V17, Gen.V16, Gen.V15, Gen.V14, Gen.V13, Gen.V12, Gen.V11, Gen.V10, Gen.V9, Gen.V8, Gen.V7, Gen.V6, Gen.V5, Gen.V4, e 4 main_v53 c (by omega), e 6 main_v69 c (by omega), e 8 main_v101 c (by omega), e 10 main_v117 c (by omega)]

/-- Region 5 is entered with contents that read `left` only at (4, main_v53), (6, main_v69), (8, main_v101), (10, main_v117), (22, main_v239): the later stages do not matter. -/
theorem entry5_eq : entry5 m (left m) = entry5 m (stage5 m) := by
  have e : ∀ J r c, J ≤ 22 → left m J r c = stage5 m J r c := fun J r c hJ => by
    unfold left stage6
    rw [dif_neg (fun h => by omega)]
  funext c b
  simp only [entry5, Gen.V23, Gen.V22, Gen.V21, Gen.V20, Gen.V19, Gen.V18, Gen.V17, Gen.V16, Gen.V15, Gen.V14, Gen.V13, Gen.V12, Gen.V11, Gen.V10, Gen.V9, Gen.V8, Gen.V7, Gen.V6, Gen.V5, Gen.V4, e 4 main_v53 c (by omega), e 6 main_v69 c (by omega), e 8 main_v101 c (by omega), e 10 main_v117 c (by omega), e 22 main_v239 c (by omega)]

theorem left_at0 (c : Dev nD) : left m 4 main_v53 c = (Perturb0.dat (entry0 m) c).arrAt 2 cfg0.N := by

  unfold left stage6 stage5 stage4 stage3 stage2 stage1
  rw [dif_neg (fun h => by omega)]; rw [dif_neg (fun h => by omega)]; rw [dif_neg (fun h => by omega)]; rw [dif_neg (fun h => by omega)]; rw [dif_neg (fun h => by omega)]; rw [dif_pos ⟨rfl, rfl⟩]
  rfl

theorem left_at1 (c : Dev nD) : left m 6 main_v69 c = (Perturb1.dat (entry1 m (left m)) c).arrAt 2 cfg1.N := by
  rw [entry1_eq]
  unfold left stage6 stage5 stage4 stage3 stage2
  rw [dif_neg (fun h => by omega)]; rw [dif_neg (fun h => by omega)]; rw [dif_neg (fun h => by omega)]; rw [dif_neg (fun h => by omega)]; rw [dif_pos ⟨rfl, rfl⟩]
  rfl

theorem left_at2 (c : Dev nD) : left m 8 main_v101 c = (Perturb2.dat (entry2 m (left m)) c).arrAt 2 cfg2.N := by
  rw [entry2_eq]
  unfold left stage6 stage5 stage4 stage3
  rw [dif_neg (fun h => by omega)]; rw [dif_neg (fun h => by omega)]; rw [dif_neg (fun h => by omega)]; rw [dif_pos ⟨rfl, rfl⟩]
  rfl

theorem left_at3 (c : Dev nD) : left m 10 main_v117 c = (Perturb3.dat (entry3 m (left m)) c).arrAt 2 cfg3.N := by
  rw [entry3_eq]
  unfold left stage6 stage5 stage4
  rw [dif_neg (fun h => by omega)]; rw [dif_neg (fun h => by omega)]; rw [dif_pos ⟨rfl, rfl⟩]
  rfl

theorem left_at4 (c : Dev nD) : left m 22 main_v239 c = (NegSum4.dat (entry4 m (left m)) c).arrAt 2 cfg4.N := by
  rw [entry4_eq]
  unfold left stage6 stage5
  rw [dif_neg (fun h => by omega)]; rw [dif_pos ⟨rfl, rfl⟩]
  rfl

theorem left_at5 (c : Dev nD) : left m 24 main_v255 c = (NegSum5.dat (entry5 m (left m)) c).arrAt 2 cfg5.N := by
  rw [entry5_eq]
  unfold left stage6
  rw [dif_pos ⟨rfl, rfl⟩]
  rfl

/-! ## The frame -/

variable (ρ : Dev nD → PrngReg)

set_option backward.isDefEq.respectTransparency.types false in
/-- From any memory with zero counters every weakly fair execution of the program terminates, nothing faulting, and every
    final memory holds the eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Gen.frame_cond m (Ix := Unit) (U := UR sig nD τ) (Lvl := ℕ) emb₁ () Variants.none noLevels noLevel (fun _ _ => rfl) ρ (left m)
    (pdats m (left m)) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => rides c)
    (by
      refine Pipeline.initEach noLevels noLevel fun c => ?_
      iintro ⟨⟨-, HO, -, Hp, -⟩, -⟩
      imodintro
      isplitl [Hp]; · iexists _; iexact Hp
      iexists ∅; iexact HO)
    (fun c => by iintro ⟨-, HO⟩; iexact HO)
    (reg0 m (left m) (left_at0 m)) (fun c => .rfl) (fun c => .rfl)
    (reg1 m (left m) (left_at1 m)) (fun c => .rfl) (fun c => .rfl)
    (reg2 m (left m) (left_at2 m)) (fun c => .rfl) (fun c => .rfl)
    (reg3 m (left m) (left_at3 m)) (fun c => .rfl) (fun c => .rfl)
    (reg4 m (left m) (left_at4 m)) (fun c => .rfl) (fun c => .rfl)
    (reg5 m (left m) (left_at5 m)) (fun c => .rfl) (fun c => .rfl)

end Cert.KernelIdeal.Whole

end
-- ==== Proof.RefFrame.lean ====
/-
  The reference is a host program with no kernel launch: a straight line of 447 array operations. After its run every buffer
  holds the fold of the operations' results over the launch contents. No operation writes an argument array, so the fold read
  at an argument is the launch contents: the reference's frame.
-/
import proofs.«131157_j87900800680713_1_alg».proof.Defs
import proofs.«131157_j87900800680713_1_alg».proof.Proof.Gen.ReferenceIdeal
import proofs.«131157_j87900800680713_1_alg».proof.Proof.Gen.Pre_finite_inputs
import proofs.«131157_j87900800680713_1_alg».proof.Proof.RefOps

noncomputable section

open Idealize.ShloMosaic Idealize.ShloMosaic.TcCoe Idealize.SL.Sem Idealize.ShloMosaic.StableHlo

namespace Cert.Proof.Parts

open Cert.ReferenceIdeal Cert.ReferenceIdeal.Gen Cert.ReferenceIdeal.ValueP

/-- Every weakly fair execution of the reference terminates without a fault, and every buffer ends at the fold of the 447
    operations over what the memory held at launch. -/
theorem reference_fold (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = after (ops (F := Ideal)) (launchContents m d) (Proc.devRef .tc b) :=
  run_seq scopedRefs_eq scopedSems_eq defs main (fun _ => ops) main_eq (fun _ => ops_sub) m ρ

set_option maxRecDepth 8192 in
set_option maxHeartbeats 100000000 in
/-- Each of the eight arguments is written by no operation. -/
theorem reference_keeps (m : (ℓ : Loc nD τ sig) → Buf (Elt Ideal) ℓ) (c : Dev nD) :
    after (ops (F := Ideal)) (launchContents m c) (Proc.devRef .tc main_arg0) = m ((c.tc : Thread nD τ).loc main_arg0)
    ∧ after (ops (F := Ideal)) (launchContents m c) (Proc.devRef .tc main_arg1) = m ((c.tc : Thread nD τ).loc main_arg1)
    ∧ after (ops (F := Ideal)) (launchContents m c) (Proc.devRef .tc main_arg2) = m ((c.tc : Thread nD τ).loc main_arg2)
    ∧ after (ops (F := Ideal)) (launchContents m c) (Proc.devRef .tc main_arg3) = m ((c.tc : Thread nD τ).loc main_arg3)
    ∧ after (ops (F := Ideal)) (launchContents m c) (Proc.devRef .tc main_arg4) = m ((c.tc : Thread nD τ).loc main_arg4)
    ∧ after (ops (F := Ideal)) (launchContents m c) (Proc.devRef .tc main_arg5) = m ((c.tc : Thread nD τ).loc main_arg5)
    ∧ after (ops (F := Ideal)) (launchContents m c) (Proc.devRef .tc main_arg6) = m ((c.tc : Thread nD τ).loc main_arg6)
    ∧ after (ops (F := Ideal)) (launchContents m c) (Proc.devRef .tc main_arg7) = m ((c.tc : Thread nD τ).loc main_arg7) :=
  ⟨by after_results_simp <;> rfl, by after_results_simp <;> rfl, by after_results_simp <;> rfl, by after_results_simp <;> rfl,
   by after_results_simp <;> rfl, by after_results_simp <;> rfl, by after_results_simp <;> rfl, by after_results_simp <;> rfl⟩

/-- Every weakly fair execution of the reference terminates without a fault and leaves its eight arguments unchanged. -/
theorem frame_reference : Cert.frame_ReferenceIdeal := fun m ρ _ =>
  (θ_run Cert.ReferenceIdeal.defs _ _).mono (fun _ h c =>
    ⟨(h c main_arg0).trans (reference_keeps m c).1, (h c main_arg1).trans (reference_keeps m c).2.1,
     (h c main_arg2).trans (reference_keeps m c).2.2.1, (h c main_arg3).trans (reference_keeps m c).2.2.2.1,
     (h c main_arg4).trans (reference_keeps m c).2.2.2.2.1, (h c main_arg5).trans (reference_keeps m c).2.2.2.2.2.1,
     (h c main_arg6).trans (reference_keeps m c).2.2.2.2.2.2.1, (h c main_arg7).trans (reference_keeps m c).2.2.2.2.2.2.2⟩)
    (reference_fold m ρ)

end Cert.Proof.Parts

end
-- ==== Proof.ValueRunI.lean ====
/-
  The idealized kernel program's run with its RESULT named: besides leaving the eight arguments as launched, the run ends with
  the result buffer (the four stacked losses) holding what the last boundary's contents say — the launch contents pushed through
  every host stretch, each region's output array replaced by what that region's write-backs leave.
-/
import proofs.«131157_j87900800680713_1_alg».proof.Proof.WholeI

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting; the result
    buffer ends at the last boundary's contents there, and the eight arguments end as launched. -/
theorem result_run : θ_run defs (onTc (τ := τ) (main (F := F))) ⟨m, fun _ => 0, ρ⟩ (fun r => ∀ c : Dev nD,
      r.2.mem ((c.tc : Thread nD τ).loc main_v272) = Gen.V25 m (left m) c (Proc.devRef .tc main_v272)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) Gen.adm (pdats m (left m)) () cellOf_inj emb₁ defs₀ Variants.none noLevels noLevel m ρ main
    (Gen.segs m (left m) Variants.none noLevels noLevel (fun _ c => rides c) () (pdats m (left m)) (reg0 m (left m) (left_at0 m)) (reg1 m (left m) (left_at1 m)) (reg2 m (left m) (left_at2 m)) (reg3 m (left m) (left_at3 m)) (reg4 m (left m) (left_at4 m)) (reg5 m (left m) (left_at5 m)))
    (fun c Q => by
      rewrite [main_chain c, Pipeline.Seg.run_eq_chain,
        show ((Gen.segs m (left m) Variants.none noLevels noLevel (fun _ c => rides c) () (pdats m (left m)) (reg0 m (left m) (left_at0 m)) (reg1 m (left m) (left_at1 m)) (reg2 m (left m) (left_at2 m)) (reg3 m (left m) (left_at3 m)) (reg4 m (left m) (left_at4 m)) (reg5 m (left m) (left_at5 m))) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          StableHlo.seq hostOps4_3,
          StableHlo.seq hostOps4_4,
          StableHlo.seq hostOps4_5,
          StableHlo.seq hostOps4_6,
          StableHlo.seq hostOps4_7,
          StableHlo.seq hostOps4_8,
          StableHlo.seq hostOps4_9,
          StableHlo.seq hostOps4_10,
          Prog.lift (.customCall (Pipeline.entry 4) ()),
          StableHlo.seq hostOps5,
          Prog.lift (.customCall (Pipeline.entry 5) ()),
          StableHlo.seq hostOps6 ] from rfl]
      exact .rfl)
    (fun c => by simp only [Gen.segs, Pipeline.Seg.pipes_host, Pipeline.Seg.pipes_region, Pipeline.Seg.pipes_nil]; decide)
    0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ rides c))
    (Tₙ := fun c => StableHlo.held (c : Thread nD τ) (Pipeline.ucRefs τ sig) (Gen.V25 m (left m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl,
      sep_mono .rfl (by iintro ⟨-, HO⟩; iexact HO)⟩)
    (hinit := ?_)
    (QY := fun c s => s.mem ((c.tc : Thread nD τ).loc main_v272) = Gen.V25 m (left m) c (Proc.devRef .tc main_v272)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7))
    (hfin := fun c s' => ?_) (hQ := fun _ h => h)
  · -- the launch: the unscoped buffers at the launch contents, the generator register and the dues beside them
    refine Pipeline.initEach noLevels noLevel fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result and each argument read off the last boundary's contents
    unfold StableHlo.held
    iintro ⟨Hh, HSI⟩
    ihave Hr := (pointsTo_read_all (Pipeline.ucRefs τ sig) (fun b => ((c : Thread nD τ).1, b)) (Gen.V25 m (left m) c) s') $$ [Hh HSI]
    · isplitl [Hh] <;> iassumption
    icases Hr with ⟨%h, HSI⟩
    imodintro
    isplitr
    · ipureintro
      exact ⟨h (Proc.devRef .tc main_v272) (Finset.mem_filter.mpr ⟨StableHlo.devRef_mem_tcRefs main_v272, by decide⟩),
        (h (Proc.devRef .tc main_arg0) (Finset.mem_filter.mpr ⟨StableHlo.devRef_mem_tcRefs main_arg0, by decide⟩)).trans (Gen.V25_main_arg0 m (left m) c),
        (h (Proc.devRef .tc main_arg1) (Finset.mem_filter.mpr ⟨StableHlo.devRef_mem_tcRefs main_arg1, by decide⟩)).trans (Gen.V25_main_arg1 m (left m) c),
        (h (Proc.devRef .tc main_arg2) (Finset.mem_filter.mpr ⟨StableHlo.devRef_mem_tcRefs main_arg2, by decide⟩)).trans (Gen.V25_main_arg2 m (left m) c),
        (h (Proc.devRef .tc main_arg3) (Finset.mem_filter.mpr ⟨StableHlo.devRef_mem_tcRefs main_arg3, by decide⟩)).trans (Gen.V25_main_arg3 m (left m) c),
        (h (Proc.devRef .tc main_arg4) (Finset.mem_filter.mpr ⟨StableHlo.devRef_mem_tcRefs main_arg4, by decide⟩)).trans (Gen.V25_main_arg4 m (left m) c),
        (h (Proc.devRef .tc main_arg5) (Finset.mem_filter.mpr ⟨StableHlo.devRef_mem_tcRefs main_arg5, by decide⟩)).trans (Gen.V25_main_arg5 m (left m) c),
        (h (Proc.devRef .tc main_arg6) (Finset.mem_filter.mpr ⟨StableHlo.devRef_mem_tcRefs main_arg6, by decide⟩)).trans (Gen.V25_main_arg6 m (left m) c),
        (h (Proc.devRef .tc main_arg7) (Finset.mem_filter.mpr ⟨StableHlo.devRef_mem_tcRefs main_arg7, by decide⟩)).trans (Gen.V25_main_arg7 m (left m) c)⟩
    · iexact HSI

end Cert.KernelIdeal.Whole

end
-- ==== Proof.HostSpell.lean ====
/-
  The two computations the kernels take over from the host, as the reference spells them in host operations on whole arrays,
  over the extended reals.

  One perturbation step:  x + (nz / max(‖nz‖₂ per row, 1e-12)) · sign(x) · 0.2  on [90000, 64] arrays, the row length taken as
  the square root of the row's sum of squares, kept as a [90000, 1] column and broadcast back along the row.

  One negative sum:  neg[r] = Σ_j exp(⟨e1[r], e2[j]⟩ / 0.2)  for [8192, 64] arrays e1, e2: all 8192 × 8192 scores at once, divided
  by the temperature, exponentiated, summed along each row.

  (0.2 and 1e-12 stand for the floats nearest them, as both programs print them.)
-/
import proofs.«131157_j87900800680713_1_alg».proof.Proof.Gen.ReferenceIdeal
import Idealize.ShloMosaic.PureOps.Ideal

noncomputable section

namespace Cert.Proof.Parts

open Cert.ReferenceIdeal Cert.ReferenceIdeal.Gen Idealize.ShloMosaic

/-- One perturbation step on whole arrays, in the reference's operations. -/
def perturbHost (x nz : FVec Ideal S90000x64 .f32) : FVec Ideal S90000x64 .f32 :=
  addf x
    (mulf
      (mulf
        (Host.divf nz
          (broadcastInDim S90000x64 ![0, 1] bcast_S90000x1_S90000x64_0_1
            (maximumf
              (Host.sqrt
                (broadcastInDim S90000x1 ![0] bcast_S90000_S90000x1_0
                  (Host.reduceAdd (mulf nz nz) (constant (F := Ideal) S_ .f32 0x00000000#32) reducesTo_S90000x64_S90000_d1 h_S_)))
              (broadcastInDim S90000x1 ![] bcast_S_S90000x1 (constant (F := Ideal) S_ .f32 0x2B8CBCCC#32)))))
        (Host.sign x))
      (broadcastInDim S90000x64 ![] bcast_S_S90000x64 (constant (F := Ideal) S_ .f32 0x3E4CCCCD#32)))

/-- One negative sum on whole arrays, in the reference's operations. -/
def negHost (e1 e2 : FVec Ideal S8192x64 .f32) : FVec Ideal S8192 .f32 :=
  Host.reduceAdd
    (Host.exp
      (Host.divf (Host.dotGeneral dot_S8192x64_S8192x64_S8192x8192_1_1_0_0_n_n none e1 e2)
        (broadcastInDim S8192x8192 ![] bcast_S_S8192x8192 (constant (F := Ideal) S_ .f32 0x3E4CCCCD#32))))
    (constant (F := Ideal) S_ .f32 0x00000000#32) reducesTo_S8192x8192_S8192_d1 h_S_

end Cert.Proof.Parts

end
-- ==== Proof.LibKeepdims.lean ====
/-
  Row-wise reductions with kept dimensions, read at an entry.

  For an [a, b] matrix: a sum or a maximum along axis 1 at row p is the sum, or the fold of `max` from the initial
  value, over the b entries of row p — for a lane reduction inside a kernel body and for a host reduction alike; the
  reduced [a] vector cast to an [a, 1] column reads at (p, 0) the vector at p; and an [a, 1] column broadcast to [a, b]
  reads at (p, c) the column at (p, 0). Together these read `reduce(keepdims=True)` followed by a broadcast back.
-/
import Idealize.ShloMosaic.PureOps.Ideal.Laws
import Idealize.ShloMosaic.Lib.Pipeline.Value
import Idealize.ShloMosaic.Lib.ValueIdx

noncomputable section

namespace Cert.LibKeepdims

open Idealize.ShloMosaic Idealize.ShloMosaic.ValueIdx

variable {α : Type}

/-- An [a] vector cast to an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The reduced index p of a reduction along axis 1 with coordinate k put back is (p, k). -/
theorem lift_row {a b : ℕ} (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext c; apply Fin.ext
  match c with
  | ⟨0, _⟩ => rfl
  | ⟨1, _⟩ => rfl

/-- A lane sum along axis 1, at row p: the sum of the row. -/
theorem multiReduction_add_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A lane maximum along axis 1, at row p: the fold of `max` from the accumulator's value over the row. -/
theorem multiReduction_max_row {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => Finset.fold max (Ideal.ofBits φ acc) f (Finset.univ : Finset (Fin b)))
      (funext fun k => congrArg src (lift_row h p k)))

/-- The host's sum along axis 1, at row p: the initial value plus the sum of the row. -/
theorem hostReduceAdd_row {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-- The host's maximum along axis 1, at row p: the fold of `max` from the initial value over the row. -/
theorem hostReduce_max_row {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => Finset.fold max (init (Shape.Idx.first hu)) f (Finset.univ : Finset (Fin b)))
      (funext fun k => congrArg x (lift_row h p k)))

end Cert.LibKeepdims

end
-- ==== Proof.LibSageRow.lean ====
/-
  One output row of a normalised two-operand linear layer, over the extended reals.

  A graph-convolution layer sends a node's aggregated neighbour features `a` and its own features `h` to
  `a · Wl + b + h · Wr`, then divides the row by its Euclidean length, the length clamped below by a small
  positive `eps`. Over the extended reals addition is commutative and associative with no side condition, so the
  three summands may be added in any order; and dividing by a nonzero `n` is multiplying by `1 / n`, at the
  infinities too, because the quotient is by definition the product with the inverse whenever the divisor is not zero.
-/
import Idealize.ShloMosaic.PureOps.Ideal
import Idealize.ShloMosaic.PureOps.Ideal.Laws
import Idealize.ShloMosaic.Lib.IdealHost

noncomputable section

namespace Cert.LibSageRow

open Idealize.ShloMosaic

variable {K M : Nat}

/-- Entry `c` of the row before normalisation: the aggregated features through the left weights, plus the bias,
    plus the node's own features through the right weights. -/
def affine (a h : Fin K → EReal) (wl wr : Fin K → Fin M → EReal) (b : Fin M → EReal) (c : Fin M) : EReal :=
  (∑ k, a k * wl k c + b c) + ∑ k, h k * wr k c

/-- Entry `c` of the row `z` divided by its Euclidean length, the length clamped below by `eps`. -/
def unit (z : Fin M → EReal) (eps : EReal) (c : Fin M) : EReal :=
  Ideal.div (z c) (max (Ideal.sqrt (∑ c', z c' * z c')) eps)

/-- Adding the bias last, after both products, gives the same entry. -/
theorem affine_bias_last (a h : Fin K → EReal) (wl wr : Fin K → Fin M → EReal) (b : Fin M → EReal) (c : Fin M) :
    (∑ k, a k * wl k c + ∑ k, h k * wr k c) + b c = affine a h wl wr b c := by
  unfold affine; exact add_right_comm _ _ _

/-- Multiplying by the reciprocal of a nonzero number is dividing by it, for every extended real `s`. -/
theorem mul_one_div {s n : EReal} (hn : n ≠ 0) : s * Ideal.div 1 n = Ideal.div s n := by
  unfold Ideal.div; rw [if_neg hn, if_neg hn, one_mul]

/-- A count clamped below by one is never zero. -/
theorem max_one_ne_zero (c : EReal) : max c 1 ≠ 0 :=
  ne_of_gt (lt_of_lt_of_le zero_lt_one (le_max_right c 1))

end Cert.LibSageRow

end
-- ==== Proof.LibPlainDot.lean ====
/-
  A plain matrix product's contraction sum, re-indexed by the contracted coordinate.

  For a dot of an [n, K] operand with a [K, M] operand into [n, M] that contracts the left operand's axis 1 with the
  right operand's axis 0 and has no batch axes, the sum over the contraction index of left(row i, k) * right(k, column i)
  is the sum over k : Fin K of L (i 0, k) * R (k, i 1): what both a kernel's matrix unit and a host dot_general
  compute at an output index over the extended reals.
-/
import Idealize.ShloMosaic.PureOps.Ideal.Laws
import Idealize.ShloMosaic.Lib.ValueIdx

namespace Cert.LibPlainDot

open Idealize.ShloMosaic Idealize.ShloMosaic.ValueIdx

variable {n K M : Nat}

/-- The dimension numbers of a plain product: contract axis 1 with axis 0, keep axis 0 and axis 1, no batch axes. -/
structure IsPlain (d : DotDims ⟨2, ![n, K]⟩ ⟨2, ![K, M]⟩ ⟨2, ![n, M]⟩) : Prop where
  lc : d.lhsContracting = [1]
  rc : d.rhsContracting = [0]
  ln : d.lhsNonContracting = [0]
  rn : d.rhsNonContracting = [1]
  lb : d.lhsBatch = []
  rb : d.rhsBatch = []

/-- The contraction sum of a plain product at output index `i` is the sum over the contracted coordinate. -/
theorem sum_contr {α : Type} [AddCommMonoid α] (d : DotDims ⟨2, ![n, K]⟩ ⟨2, ![K, M]⟩ ⟨2, ![n, M]⟩) (hd : IsPlain d)
    (f : (⟨2, ![n, K]⟩ : Shape).Idx → (⟨2, ![K, M]⟩ : Shape).Idx → α) (i : (⟨2, ![n, M]⟩ : Shape).Idx) :
    ∑ q : d.contr.Idx, f (d.lhsIdx i q) (d.rhsIdx i q) = ∑ k : Fin K, f (ix2 (i 0) k) (ix2 k (i 1)) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![K, M]⟩ ⟨2, ![n, M]⟩ := ⟨[1], [0], [0], [1], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 k (i 1) := funext fun a => Fin.ext (by
    match a with
    | ⟨0, _⟩ => exact (d.rhsIdx_val_of_single rfl i _).trans hk
    | ⟨1, _⟩ =>
      show (d.rhsIdx i _ 1).val = (i 1).val
      unfold DotDims.rhsIdx
      rw [dif_neg (show ¬(1 : Fin (⟨2, ![K, M]⟩ : Shape).rank) ∈ d.rhsBatch from List.not_mem_nil),
        dif_pos (show (1 : Fin (⟨2, ![K, M]⟩ : Shape).rank) ∈ d.rhsNonContracting from List.mem_singleton.mpr rfl)]
      rfl)
  rw [el, er]
  try rfl

end Cert.LibPlainDot
-- ==== Proof.LibDotApply.lean ====
/-
  A plain matrix product read at an entry, over the extended reals.

  For an [n, K] operand and a [K, M] operand contracted over K with no batch axes, the kernel's matrix-unit product
  into a zero accumulator and the host's dot_general both read, at entry (p, c), the sum over k : Fin K of
  L (p, k) * R (k, c): there is no rounding and no order of accumulation left in either.
-/
import proofs.«131157_j87900800680713_1_alg».proof.Proof.LibPlainDot
import Idealize.ShloMosaic.PureOps.Ideal.Laws
import Idealize.ShloMosaic.Lib.ValueIdx

noncomputable section

namespace Cert.LibDotApply

open Idealize.ShloMosaic Idealize.ShloMosaic.ValueIdx Cert.LibPlainDot

variable {n K M : Nat} {φ₁ φ₂ : FTy}

/-- A kernel's matrix-unit product of plain dimension numbers into a zero accumulator, at entry (p, c). -/
theorem matmul_zero_apply (d : DotDims ⟨2, ![n, K]⟩ ⟨2, ![K, M]⟩ ⟨2, ![n, M]⟩) (hd : IsPlain d) (prec : Option ContractPrecision)
    (lhs : FVec Ideal ⟨2, ![n, K]⟩ φ₁) (rhs : FVec Ideal ⟨2, ![K, M]⟩ φ₂) (p : Fin n) (c : Fin M) :
    FloatOps.matmul d prec lhs rhs (constant ⟨2, ![n, M]⟩ .f32 0x00000000#32) (ix2 p c)
      = ∑ k : Fin K, lhs (ix2 p k) * rhs (ix2 k c) :=
  (Ideal.matmul_constant_zero_apply d prec lhs rhs (ix2 p c)).trans
    (sum_contr d hd (fun a b => lhs a * rhs b) (ix2 p c))

/-- The host's dot_general of plain dimension numbers, at entry (p, c). -/
theorem dotGeneral_apply (d : DotDims ⟨2, ![n, K]⟩ ⟨2, ![K, M]⟩ ⟨2, ![n, M]⟩) (hd : IsPlain d) (prec : Option ContractPrecision)
    (sched : HostSchedule) (lhs : FVec Ideal ⟨2, ![n, K]⟩ φ₁) (rhs : FVec Ideal ⟨2, ![K, M]⟩ φ₂) (p : Fin n) (c : Fin M) :
    FloatOps.dotGeneral d prec sched lhs rhs (ix2 p c) = ∑ k : Fin K, lhs (ix2 p k) * rhs (ix2 k c) :=
  (Ideal.dotGeneral_apply d prec sched lhs rhs (ix2 p c)).trans
    (sum_contr d hd (fun a b => lhs a * rhs b) (ix2 p c))

end Cert.LibDotApply

end
-- ==== Proof.LibNormRows.lean ====
/-
  Two readings at an entry, over the extended reals, of what a dense normalised layer's kernel body computes on a block.

  A block of rows, each divided by its own Euclidean length clamped below: spelt as square, sum along the lanes, cast the
  sums to a column, take the root, clamp below by a broadcast scalar, broadcast the column back over the lanes and
  divide. At (p, c) this is entry c of row p divided by the clamped length of row p — `LibSageRow.unit`.

  Two plain matrix products into zero accumulators, added, plus a one-row bias broadcast over the rows: at (p, c) the
  sum over k of the first left operand's row p against the first right operand's column c, the same for the second
  pair, and the bias at c — `LibSageRow.affine`, whose bias is added between the two products (the two orders agree
  because addition of extended reals is commutative and associative).
  Generic in the block's extents.
-/
import proofs.«131157_j87900800680713_1_alg».proof.Proof.LibDotApply
import proofs.«131157_j87900800680713_1_alg».proof.Proof.LibKeepdims
import proofs.«131157_j87900800680713_1_alg».proof.Proof.LibSageRow
import Idealize.ShloMosaic.Lib.ValueLayout
import Idealize.ShloMosaic.Lib.Pipeline.Value
import Idealize.ShloMosaic.Lib.ValueIdx

noncomputable section

namespace Cert.LibNormRows

open Idealize.ShloMosaic Idealize.ShloMosaic.ValueIdx
open Cert.LibSageRow Cert.LibKeepdims Cert.LibDotApply Cert.LibPlainDot

/-- A block whose rows are each divided by their own length, as a body spells it: square, sum along the lanes, cast
    the sums to a column, take the root, clamp below, broadcast the column back and divide. At (p, c) this is the
    normalised row p at c. -/
theorem unit_apply {a b : ℕ} (z : FVec Ideal ⟨2, ![a, b]⟩ .f32)
    (hr : (⟨2, ![a, b]⟩ : Shape).Reduces [1] ⟨1, ![a]⟩) (hφ : FKind.Formats .f32)
    (hacc : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (e : Ideal .f32) (p : Fin a) (c : Fin b) :
    divf z (broadcastTo ⟨2, ![a, b]⟩ (maximumf (sqrt (shapeCast ⟨2, ![a, 1]⟩
        (multiReduction .add [1] ⟨1, ![a]⟩ (mulf z z) 0x00000000#32 hr hφ hacc) hc)) (broadcast ⟨2, ![a, 1]⟩ e)) hb) (ix2 p c)
      = unit (fun c' => z (ix2 p c')) e c := by
  show Ideal.div (z (ix2 p c)) (broadcastTo ⟨2, ![a, b]⟩ _ hb (ix2 p c)) = _
  rw [broadcastTo_a1_ab_apply]
  show Ideal.div (z (ix2 p c)) (max (Ideal.sqrt (shapeCast ⟨2, ![a, 1]⟩ _ hc (ix2 p (0 : Fin 1)))) e) = _
  rw [shapeCast_a_a1_apply, multiReduction_add_row]
  rfl

/-- Two plain products into zero accumulators, added, plus a bias row broadcast over the rows: at (p, c) the affine
    row of `LibSageRow`, whose bias is added before the second product. -/
theorem affine_apply {n K M : ℕ} {φ₁ φ₂ : FTy} (d : DotDims ⟨2, ![n, K]⟩ ⟨2, ![K, M]⟩ ⟨2, ![n, M]⟩) (hd : IsPlain d)
    (a h : FVec Ideal ⟨2, ![n, K]⟩ φ₁) (wl wr : FVec Ideal ⟨2, ![K, M]⟩ φ₂) (brow : FVec Ideal ⟨2, ![1, M]⟩ .f32)
    (hb : (⟨2, ![1, M]⟩ : Shape).Broadcasts ⟨2, ![n, M]⟩) (p : Fin n) (c : Fin M) :
    addf (addf (matmul d none a wl (constant ⟨2, ![n, M]⟩ .f32 0x00000000#32))
        (matmul d none h wr (constant ⟨2, ![n, M]⟩ .f32 0x00000000#32))) (broadcastTo ⟨2, ![n, M]⟩ brow hb) (ix2 p c)
      = affine (fun k => a (ix2 p k)) (fun k => h (ix2 p k)) (fun k c => wl (ix2 k c)) (fun k c => wr (ix2 k c))
          (fun c => brow (ix2 (0 : Fin 1) c)) c := by
  show (matmul d none a wl (constant ⟨2, ![n, M]⟩ .f32 0x00000000#32) (ix2 p c)
      + matmul d none h wr (constant ⟨2, ![n, M]⟩ .f32 0x00000000#32) (ix2 p c))
      + broadcastTo ⟨2, ![n, M]⟩ brow hb (ix2 p c) = _
  exact (congrArg₂ (· + ·) (congrArg₂ (· + ·) (matmul_zero_apply d hd none a wl p c) (matmul_zero_apply d hd none h wr p c))
    (broadcastTo_1b_ab_apply brow hb p c)).trans
    (affine_bias_last (fun k => a (ix2 p k)) (fun k => h (ix2 p k)) (fun k c => wl (ix2 k c)) (fun k c => wr (ix2 k c))
      (fun c => brow (ix2 (0 : Fin 1) c)) c)

end Cert.LibNormRows

end
-- ==== Proof.PerturbValI0.lean ====
/-
  The value of one perturbation kernel of the program: after its ten grid points the output array holds, entry by entry,
  the reference's perturbation step of the two input arrays,

      out[r, q] = x[r, q] + (nz[r, q] / max(sqrt(Σ_k nz[r, k]²), ε)) · sign(x[r, q]) · 0.2 .

  Both programs compute this entry by the same operations on the extended reals, so no finiteness is asked. The kernel
  divides each row of its noise block by the row's clamped Euclidean length, the reference each row of the whole noise
  array; row p of block t is row 9000·t + p of the array, so the two rows are the same 64 numbers. The kernel spells the
  sign as a select on |x| > 0 between ±1 (chosen by x < 0) and x itself; on every extended real this is the order's sign:
  −1, 0 or 1. The host's sum starts from the literal zero, the kernel's lane sum from its neutral element: the same sum.
  The clamp ε and the step 0.2 are the same float words in both programs and are never evaluated.

  Then from blocks to the array: what grid point t writes back is block t of that one whole-array function, and the ten
  blocks cover the 90000 rows (row r is in block r / 9000).
-/
import proofs.«131157_j87900800680713_1_alg».proof.Proof.PerturbI0
import proofs.«131157_j87900800680713_1_alg».proof.Proof.HostSpell
import proofs.«131157_j87900800680713_1_alg».proof.Proof.LibKeepdims
import proofs.«131157_j87900800680713_1_alg».proof.Proof.LibSageRow
import proofs.«131157_j87900800680713_1_alg».proof.Proof.LibNormRows
import Idealize.ShloMosaic.PureOps.Ideal.Laws
import Idealize.ShloMosaic.Lib.IdealHost
import Idealize.ShloMosaic.Lib.ValueIdx
import Idealize.ShloMosaic.Lib.Pipeline.Value

set_option maxRecDepth 16384

noncomputable section

namespace Cert.KernelIdeal.Perturb0

open Cert.KernelIdeal Cert.KernelIdeal.Gen
open Idealize.ShloMosaic Idealize.ShloMosaic.TcCoe Idealize.ShloMosaic.ValueIdx
open Idealize.SL.Sem
open Idealize.ShloMosaic.Pipeline (Dat)
open Cert.LibSageRow (unit)
open Cert.Proof.Parts (perturbHost)

/-! ## One entry of the update -/

/-- Entry q of one row of the update, from the row of x and the row of the noise: x plus the normalised noise times the
    sign of x times the step. The clamp and the step are the two float words both programs print. -/
def upd (xrow nzrow : Fin 64 → EReal) (q : Fin 64) : EReal :=
  xrow q + unit nzrow (Ideal.ofBits .f32 0x2B8CBCCC#32) q * Ideal.sign (xrow q) * Ideal.ofBits .f32 0x3E4CCCCD#32

/-! ## The kernel's stored value at an entry -/

/-- The body's stored value at (p, q) of its block is the update of row p of the x block and row p of the noise block:
    the two casts of a block to its own shape are the identity, the normalised noise is read by the row lemma, and the
    select spelling of the sign is the order's sign. -/
theorem pay_apply (nzb xb : Vec Ideal S9000x64 .f32) (p : Fin 9000) (q : Fin 64) :
    k0_pay1 (F := Ideal) nzb xb (ix2 p q) = upd (fun k => xb (ix2 p k)) (fun k => nzb (ix2 p k)) q := by
  unfold k0_pay1
  simp only [shapeCast_self]
  unfold upd
  refine congrArg₂ (· + ·) rfl (congrArg₂ (· * ·) (congrArg₂ (· * ·) ?_ ?_) rfl)
  · exact Cert.LibNormRows.unit_apply nzb _ _ _ _ _ _ p q
  · exact Ideal.jnp_sign_eq_sign_f32 (xb (ix2 p q))

/-! ## The reference's step at an entry -/

/-- An [a, 1] column broadcast along the lanes by the host reads, at (p, c), the column at (p, 0). -/
theorem broadcastInDim_a1_ab_apply {α : Type} {a b : ℕ}
    (h : (⟨2, ![a, 1]⟩ : Shape).BroadcastsInDim ⟨2, ![a, b]⟩ ![0, 1]) (v : (⟨2, ![a, 1]⟩ : Shape).Idx → α)
    (p : Fin a) (c : Fin b) : broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- An [a] vector set as an [a, 1] column by the host reads, at (p, u), the vector at p. -/
theorem broadcastInDim_a_a1_apply {α : Type} {a : ℕ}
    (h : (⟨1, ![a]⟩ : Shape).BroadcastsInDim ⟨2, ![a, 1]⟩ ![0]) (v : (⟨1, ![a]⟩ : Shape).Idx → α)
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- The host's rows divided by their clamped Euclidean length, as the reference spells it: square, sum along axis 1 from
    the literal zero, set the sums as a column, take the root, clamp below by a broadcast literal, broadcast the column
    back along the lanes and divide. At (p, c) this is the normalised row p at c: the sum from zero is the sum. -/
theorem host_unit_apply {a b : ℕ} (z : FVec Ideal ⟨2, ![a, b]⟩ .f32)
    (h' : (⟨2, ![a, b]⟩ : Shape).ReducesTo [1] ⟨1, ![a]⟩) (hu : 0 < (⟨0, ![]⟩ : Shape).numel)
    (h1 : (⟨1, ![a]⟩ : Shape).BroadcastsInDim ⟨2, ![a, 1]⟩ ![0])
    (h0 : (⟨0, ![]⟩ : Shape).BroadcastsInDim ⟨2, ![a, 1]⟩ ![])
    (h2 : (⟨2, ![a, 1]⟩ : Shape).BroadcastsInDim ⟨2, ![a, b]⟩ ![0, 1])
    (e : BitVec FTy.f32.bits) (p : Fin a) (c : Fin b) :
    Host.divf z (broadcastInDim ⟨2, ![a, b]⟩ ![0, 1] h2
        (maximumf
          (Host.sqrt (broadcastInDim ⟨2, ![a, 1]⟩ ![0] h1
            (Host.reduceAdd (mulf z z) (constant (F := Ideal) ⟨0, ![]⟩ .f32 0x00000000#32) h' hu)))
          (broadcastInDim ⟨2, ![a, 1]⟩ ![] h0 (constant (F := Ideal) ⟨0, ![]⟩ .f32 e)))) (ix2 p c)
      = unit (fun c' => z (ix2 p c')) (Ideal.ofBits .f32 e) c := by
  show Ideal.div (z (ix2 p c)) (broadcastInDim (s := ⟨2, ![a, 1]⟩) ⟨2, ![a, b]⟩ ![0, 1] h2 _ (ix2 p c)) = _
  rw [broadcastInDim_a1_ab_apply]
  show Ideal.div (z (ix2 p c))
      (max (Ideal.sqrt (broadcastInDim (s := ⟨1, ![a]⟩) ⟨2, ![a, 1]⟩ ![0] h1 _ (ix2 p (0 : Fin 1))))
        (broadcastInDim (s := ⟨0, ![]⟩) ⟨2, ![a, 1]⟩ ![] h0 _ (ix2 p (0 : Fin 1)))) = _
  rw [broadcastInDim_a_a1_apply, broadcastInDim_scalar_apply]
  show Ideal.div (z (ix2 p c))
      (max (Ideal.sqrt (Ideal.hostReduceAdd h' (mulf z z) (Ideal.ofBits .f32 0x00000000#32) (ix1 p))) (Ideal.ofBits .f32 e)) = _
  rw [Cert.LibKeepdims.hostReduceAdd_row h' ⟨h'.1, Nat.one_pos, h'.2⟩, Ideal.ofBits_zero_f32, zero_add]
  rfl

/-- The reference's step at (r, q) is the update of row r of x and row r of the noise. -/
theorem host_apply (x nz : FVec Ideal Cert.ReferenceIdeal.S90000x64 .f32) (r : Fin 90000) (q : Fin 64) :
    perturbHost x nz (ix2 r q) = upd (fun k => x (ix2 r k)) (fun k => nz (ix2 r k)) q := by
  unfold Cert.Proof.Parts.perturbHost upd
  refine congrArg₂ (· + ·) rfl (congrArg₂ (· * ·) (congrArg₂ (· * ·) ?_ rfl) ?_)
  · exact host_unit_apply nz _ _ _ _ _ _ r q
  · exact broadcastInDim_scalar_apply _ _ _

/-! ## The two agree where the rows agree -/

/-- If row p of the x block is row r of the x array, and the same for the noise, the body's stored value at (p, q) is
    the reference's step at (r, q). -/
theorem pay_eq_host (xb nzb : Vec Ideal S9000x64 .f32) (x nz : FVec Ideal S90000x64 .f32) (p : Fin 9000) (r : Fin 90000)
    (q : Fin 64) (hx : ∀ k : Fin 64, xb (ix2 p k) = x (ix2 r k)) (hnz : ∀ k : Fin 64, nzb (ix2 p k) = nz (ix2 r k)) :
    k0_pay1 (F := Ideal) nzb xb (ix2 p q) = perturbHost x nz (ix2 r q) :=
  (pay_apply nzb xb p q).trans
    ((congrArg₂ (fun a b => upd a b q) (funext hx) (funext hnz)).trans (host_apply x nz r q).symm)

/-! ## From blocks to the array -/

theorem hz : (![0, 0] : Fin 2 → Nat) = fun _ => 0 := funext fun a => by fin_cases a <;> rfl

/-- The three windows' index maps, decided over the ten points: block t along the rows, block 0 along the lanes. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row p of block t is a row of the array. -/
theorem row_lt (t : Fin cfg0.N) (p : Fin 9000) : t.val * 9000 + p.val < 90000 := by
  have h : t.val < 10 := lt_of_lt_of_eq t.isLt N_0
  have hp := p.isLt
  omega

/-- Entry (p, k) of the x window's block t is entry (9000·t + p, k) of its array; -/
theorem emb_x (t : Fin cfg0.N) (p : Fin 9000) (k : Fin 64) :
    ((cfg0.win 0).blk t).view.emb (ix2 p k) = ix2 (⟨t.val * 9000 + p.val, row_lt t p⟩ : Fin 90000) k := by
  obtain ⟨e0, e1, -⟩ := idx_facts t
  funext a; apply Fin.ext
  match a with
  | ⟨0, _⟩ => show win0_0.index t (0 : Fin 2) * 9000 + 1 * p.val = t.val * 9000 + p.val; omega
  | ⟨1, _⟩ => show win0_0.index t (1 : Fin 2) * 64 + 1 * k.val = k.val; omega

/-- the same for the noise window, -/
theorem emb_nz (t : Fin cfg0.N) (p : Fin 9000) (k : Fin 64) :
    ((cfg0.win 1).blk t).view.emb (ix2 p k) = ix2 (⟨t.val * 9000 + p.val, row_lt t p⟩ : Fin 90000) k := by
  obtain ⟨-, -, e0, e1, -⟩ := idx_facts t
  funext a; apply Fin.ext
  match a with
  | ⟨0, _⟩ => show win0_1.index t (0 : Fin 2) * 9000 + 1 * p.val = t.val * 9000 + p.val; omega
  | ⟨1, _⟩ => show win0_1.index t (1 : Fin 2) * 64 + 1 * k.val = k.val; omega

/-- and for the output window. -/
theorem emb_out (t : Fin cfg0.N) (p : Fin 9000) (k : Fin 64) :
    ((cfg0.win 2).blk t).view.emb (ix2 p k) = ix2 (⟨t.val * 9000 + p.val, row_lt t p⟩ : Fin 90000) k := by
  obtain ⟨-, -, -, -, e0, e1⟩ := idx_facts t
  funext a; apply Fin.ext
  match a with
  | ⟨0, _⟩ => show win0_2.index t (0 : Fin 2) * 9000 + 1 * p.val = t.val * 9000 + p.val; omega
  | ⟨1, _⟩ => show win0_2.index t (1 : Fin 2) * 64 + 1 * k.val = k.val; omega

-- the buffers' contents when the region is entered, over the extended reals
variable (V : (c : Dev nD) → (b : Ref sig .tc) → Buf (Elt Ideal) ((c : Thread nD τ).loc b))

/-- What point t writes back is block t of the reference's step of the two whole input arrays: the body's one store
    covers its block, each input block is its array read through the same rows, and the entries agree row by row. -/
theorem flushed_eq (c : Dev nD) (t : Fin cfg0.N) :
    (dat (F := Ideal) V c).flushed 2 t
      = ((cfg0.win 2).blk t).view.read (Elt Ideal)
          (perturbHost (V c (Pipeline.arrRef spec0 0)) (V c (Pipeline.arrRef spec0 1))) := by
  show (cfg0.win 2).cut (grid0.coords t) ((dat V c).after 2 t) = _
  rw [dat_after_out]
  unfold stored
  rw [View.canon_unit_zero hz]
  simp only [View.ld_unit_zero (S := S9000x64) hz]
  funext j
  obtain ⟨p, q, rfl⟩ : ∃ (p : Fin 9000) (q : Fin 64), j = ix2 p q := ⟨j 0, j 1, eq_ix2 j⟩
  show k0_pay1 (F := Ideal) (blockAt V c 1 t) (blockAt V c 0 t) (ix2 p q)
      = perturbHost (V c (Pipeline.arrRef spec0 0)) (V c (Pipeline.arrRef spec0 1)) (((cfg0.win 2).blk t).view.emb (ix2 p q))
  rw [emb_out t p q]
  refine pay_eq_host _ _ _ _ p _ q (fun k => ?_) (fun k => ?_)
  · exact congrArg (V c (Pipeline.arrRef spec0 0)) (emb_x t p k)
  · exact congrArg (V c (Pipeline.arrRef spec0 1)) (emb_nz t p k)

/-- An index of the array is in point t's block iff each coordinate is in the block's range on its axis. -/
theorem mem_blk (t : Fin cfg0.N) (i : S90000x64.Idx) :
    i ∈ ((cfg0.win 2).blk t).view.set ↔ ∀ a : Fin 2, win0_2.index t a * S9000x64.size a ≤ (i a).val ∧ (i a).val < win0_2.index t a * S9000x64.size a + S9000x64.size a := by
  show i ∈ ((View.whole main_v53).slice (win0_2.rect t)).set ↔ _
  rw [View.set_slice_whole, Rect.mem_set_unit]
  exact Iff.rfl

/-- The ten blocks cover the array: row r is in block r / 9000. -/
theorem cover (i : S90000x64.Idx) : ∃ t : Fin cfg0.N, (cfg0.win 2).flush t = true ∧ i ∈ ((cfg0.win 2).blk t).view.set := by
  have hi0 : (i 0).val < 90000 := (i 0).isLt
  have hi1 : (i 1).val < 64 := (i 1).isLt
  have hN : cfg0.N = 10 := N_0
  let t : Fin cfg0.N := ⟨(i 0).val / 9000, by rw [hN]; omega⟩
  obtain ⟨-, -, -, -, e0, e1⟩ := idx_facts t
  have ht : t.val = (i 0).val / 9000 := rfl
  refine ⟨t, flush0_2 t, ?_⟩
  rw [mem_blk]
  intro a
  match a with
  | ⟨0, _⟩ => show win0_2.index t (0 : Fin 2) * 9000 ≤ (i 0).val ∧ (i 0).val < win0_2.index t (0 : Fin 2) * 9000 + 9000; omega
  | ⟨1, _⟩ => show win0_2.index t (1 : Fin 2) * 64 ≤ (i 1).val ∧ (i 1).val < win0_2.index t (1 : Fin 2) * 64 + 64; omega

/-- After the ten points the output array holds the reference's step of the two input arrays as the region found them. -/
theorem final_eq (c : Dev nD) :
    (dat (F := Ideal) V c).arrAt 2 cfg0.N
      = perturbHost (V c (Pipeline.arrRef spec0 0)) (V c (Pipeline.arrRef spec0 1)) :=
  (dat (F := Ideal) V c).arrAt_eq_of_cover 2 _ (fun t _ => flushed_eq V c t) cover

end Cert.KernelIdeal.Perturb0

end
-- ==== Proof.PerturbValI1.lean ====
/-
  The value of one perturbation kernel of the program: after its ten grid points the output array holds, entry by entry,
  the reference's perturbation step of the two input arrays,

      out[r, q] = x[r, q] + (nz[r, q] / max(sqrt(Σ_k nz[r, k]²), ε)) · sign(x[r, q]) · 0.2 .

  Both programs compute this entry by the same operations on the extended reals, so no finiteness is asked. The kernel
  divides each row of its noise block by the row's clamped Euclidean length, the reference each row of the whole noise
  array; row p of block t is row 9000·t + p of the array, so the two rows are the same 64 numbers. The kernel spells the
  sign as a select on |x| > 0 between ±1 (chosen by x < 0) and x itself; on every extended real this is the order's sign:
  −1, 0 or 1. The host's sum starts from the literal zero, the kernel's lane sum from its neutral element: the same sum.
  The clamp ε and the step 0.2 are the same float words in both programs and are never evaluated.

  Then from blocks to the array: what grid point t writes back is block t of that one whole-array function, and the ten
  blocks cover the 90000 rows (row r is in block r / 9000).
-/
import proofs.«131157_j87900800680713_1_alg».proof.Proof.PerturbI1
import proofs.«131157_j87900800680713_1_alg».proof.Proof.HostSpell
import proofs.«131157_j87900800680713_1_alg».proof.Proof.LibKeepdims
import proofs.«131157_j87900800680713_1_alg».proof.Proof.LibSageRow
import proofs.«131157_j87900800680713_1_alg».proof.Proof.LibNormRows
import Idealize.ShloMosaic.PureOps.Ideal.Laws
import Idealize.ShloMosaic.Lib.IdealHost
import Idealize.ShloMosaic.Lib.ValueIdx
import Idealize.ShloMosaic.Lib.Pipeline.Value

set_option maxRecDepth 16384

noncomputable section

namespace Cert.KernelIdeal.Perturb1

open Cert.KernelIdeal Cert.KernelIdeal.Gen
open Idealize.ShloMosaic Idealize.ShloMosaic.TcCoe Idealize.ShloMosaic.ValueIdx
open Idealize.SL.Sem
open Idealize.ShloMosaic.Pipeline (Dat)
open Cert.LibSageRow (unit)
open Cert.Proof.Parts (perturbHost)

/-! ## One entry of the update -/

/-- Entry q of one row of the update, from the row of x and the row of the noise: x plus the normalised noise times the
    sign of x times the step. The clamp and the step are the two float words both programs print. -/
def upd (xrow nzrow : Fin 64 → EReal) (q : Fin 64) : EReal :=
  xrow q + unit nzrow (Ideal.ofBits .f32 0x2B8CBCCC#32) q * Ideal.sign (xrow q) * Ideal.ofBits .f32 0x3E4CCCCD#32

/-! ## The kernel's stored value at an entry -/

/-- The body's stored value at (p, q) of its block is the update of row p of the x block and row p of the noise block:
    the two casts of a block to its own shape are the identity, the normalised noise is read by the row lemma, and the
    select spelling of the sign is the order's sign. -/
theorem pay_apply (nzb xb : Vec Ideal S9000x64 .f32) (p : Fin 9000) (q : Fin 64) :
    k1_pay1 (F := Ideal) nzb xb (ix2 p q) = upd (fun k => xb (ix2 p k)) (fun k => nzb (ix2 p k)) q := by
  unfold k1_pay1
  simp only [shapeCast_self]
  unfold upd
  refine congrArg₂ (· + ·) rfl (congrArg₂ (· * ·) (congrArg₂ (· * ·) ?_ ?_) rfl)
  · exact Cert.LibNormRows.unit_apply nzb _ _ _ _ _ _ p q
  · exact Ideal.jnp_sign_eq_sign_f32 (xb (ix2 p q))

/-! ## The reference's step at an entry -/

/-- An [a, 1] column broadcast along the lanes by the host reads, at (p, c), the column at (p, 0). -/
theorem broadcastInDim_a1_ab_apply {α : Type} {a b : ℕ}
    (h : (⟨2, ![a, 1]⟩ : Shape).BroadcastsInDim ⟨2, ![a, b]⟩ ![0, 1]) (v : (⟨2, ![a, 1]⟩ : Shape).Idx → α)
    (p : Fin a) (c : Fin b) : broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- An [a] vector set as an [a, 1] column by the host reads, at (p, u), the vector at p. -/
theorem broadcastInDim_a_a1_apply {α : Type} {a : ℕ}
    (h : (⟨1, ![a]⟩ : Shape).BroadcastsInDim ⟨2, ![a, 1]⟩ ![0]) (v : (⟨1, ![a]⟩ : Shape).Idx → α)
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- The host's rows divided by their clamped Euclidean length, as the reference spells it: square, sum along axis 1 from
    the literal zero, set the sums as a column, take the root, clamp below by a broadcast literal, broadcast the column
    back along the lanes and divide. At (p, c) this is the normalised row p at c: the sum from zero is the sum. -/
theorem host_unit_apply {a b : ℕ} (z : FVec Ideal ⟨2, ![a, b]⟩ .f32)
    (h' : (⟨2, ![a, b]⟩ : Shape).ReducesTo [1] ⟨1, ![a]⟩) (hu : 0 < (⟨0, ![]⟩ : Shape).numel)
    (h1 : (⟨1, ![a]⟩ : Shape).BroadcastsInDim ⟨2, ![a, 1]⟩ ![0])
    (h0 : (⟨0, ![]⟩ : Shape).BroadcastsInDim ⟨2, ![a, 1]⟩ ![])
    (h2 : (⟨2, ![a, 1]⟩ : Shape).BroadcastsInDim ⟨2, ![a, b]⟩ ![0, 1])
    (e : BitVec FTy.f32.bits) (p : Fin a) (c : Fin b) :
    Host.divf z (broadcastInDim ⟨2, ![a, b]⟩ ![0, 1] h2
        (maximumf
          (Host.sqrt (broadcastInDim ⟨2, ![a, 1]⟩ ![0] h1
            (Host.reduceAdd (mulf z z) (constant (F := Ideal) ⟨0, ![]⟩ .f32 0x00000000#32) h' hu)))
          (broadcastInDim ⟨2, ![a, 1]⟩ ![] h0 (constant (F := Ideal) ⟨0, ![]⟩ .f32 e)))) (ix2 p c)
      = unit (fun c' => z (ix2 p c')) (Ideal.ofBits .f32 e) c := by
  show Ideal.div (z (ix2 p c)) (broadcastInDim (s := ⟨2, ![a, 1]⟩) ⟨2, ![a, b]⟩ ![0, 1] h2 _ (ix2 p c)) = _
  rw [broadcastInDim_a1_ab_apply]
  show Ideal.div (z (ix2 p c))
      (max (Ideal.sqrt (broadcastInDim (s := ⟨1, ![a]⟩) ⟨2, ![a, 1]⟩ ![0] h1 _ (ix2 p (0 : Fin 1))))
        (broadcastInDim (s := ⟨0, ![]⟩) ⟨2, ![a, 1]⟩ ![] h0 _ (ix2 p (0 : Fin 1)))) = _
  rw [broadcastInDim_a_a1_apply, broadcastInDim_scalar_apply]
  show Ideal.div (z (ix2 p c))
      (max (Ideal.sqrt (Ideal.hostReduceAdd h' (mulf z z) (Ideal.ofBits .f32 0x00000000#32) (ix1 p))) (Ideal.ofBits .f32 e)) = _
  rw [Cert.LibKeepdims.hostReduceAdd_row h' ⟨h'.1, Nat.one_pos, h'.2⟩, Ideal.ofBits_zero_f32, zero_add]
  rfl

/-- The reference's step at (r, q) is the update of row r of x and row r of the noise. -/
theorem host_apply (x nz : FVec Ideal Cert.ReferenceIdeal.S90000x64 .f32) (r : Fin 90000) (q : Fin 64) :
    perturbHost x nz (ix2 r q) = upd (fun k => x (ix2 r k)) (fun k => nz (ix2 r k)) q := by
  unfold Cert.Proof.Parts.perturbHost upd
  refine congrArg₂ (· + ·) rfl (congrArg₂ (· * ·) (congrArg₂ (· * ·) ?_ rfl) ?_)
  · exact host_unit_apply nz _ _ _ _ _ _ r q
  · exact broadcastInDim_scalar_apply _ _ _

/-! ## The two agree where the rows agree -/

/-- If row p of the x block is row r of the x array, and the same for the noise, the body's stored value at (p, q) is
    the reference's step at (r, q). -/
theorem pay_eq_host (xb nzb : Vec Ideal S9000x64 .f32) (x nz : FVec Ideal S90000x64 .f32) (p : Fin 9000) (r : Fin 90000)
    (q : Fin 64) (hx : ∀ k : Fin 64, xb (ix2 p k) = x (ix2 r k)) (hnz : ∀ k : Fin 64, nzb (ix2 p k) = nz (ix2 r k)) :
    k1_pay1 (F := Ideal) nzb xb (ix2 p q) = perturbHost x nz (ix2 r q) :=
  (pay_apply nzb xb p q).trans
    ((congrArg₂ (fun a b => upd a b q) (funext hx) (funext hnz)).trans (host_apply x nz r q).symm)

/-! ## From blocks to the array -/

theorem hz : (![0, 0] : Fin 2 → Nat) = fun _ => 0 := funext fun a => by fin_cases a <;> rfl

/-- The three windows' index maps, decided over the ten points: block t along the rows, block 0 along the lanes. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Row p of block t is a row of the array. -/
theorem row_lt (t : Fin cfg1.N) (p : Fin 9000) : t.val * 9000 + p.val < 90000 := by
  have h : t.val < 10 := lt_of_lt_of_eq t.isLt N_1
  have hp := p.isLt
  omega

/-- Entry (p, k) of the x window's block t is entry (9000·t + p, k) of its array; -/
theorem emb_x (t : Fin cfg1.N) (p : Fin 9000) (k : Fin 64) :
    ((cfg1.win 0).blk t).view.emb (ix2 p k) = ix2 (⟨t.val * 9000 + p.val, row_lt t p⟩ : Fin 90000) k := by
  obtain ⟨e0, e1, -⟩ := idx_facts t
  funext a; apply Fin.ext
  match a with
  | ⟨0, _⟩ => show win1_0.index t (0 : Fin 2) * 9000 + 1 * p.val = t.val * 9000 + p.val; omega
  | ⟨1, _⟩ => show win1_0.index t (1 : Fin 2) * 64 + 1 * k.val = k.val; omega

/-- the same for the noise window, -/
theorem emb_nz (t : Fin cfg1.N) (p : Fin 9000) (k : Fin 64) :
    ((cfg1.win 1).blk t).view.emb (ix2 p k) = ix2 (⟨t.val * 9000 + p.val, row_lt t p⟩ : Fin 90000) k := by
  obtain ⟨-, -, e0, e1, -⟩ := idx_facts t
  funext a; apply Fin.ext
  match a with
  | ⟨0, _⟩ => show win1_1.index t (0 : Fin 2) * 9000 + 1 * p.val = t.val * 9000 + p.val; omega
  | ⟨1, _⟩ => show win1_1.index t (1 : Fin 2) * 64 + 1 * k.val = k.val; omega

/-- and for the output window. -/
theorem emb_out (t : Fin cfg1.N) (p : Fin 9000) (k : Fin 64) :
    ((cfg1.win 2).blk t).view.emb (ix2 p k) = ix2 (⟨t.val * 9000 + p.val, row_lt t p⟩ : Fin 90000) k := by
  obtain ⟨-, -, -, -, e0, e1⟩ := idx_facts t
  funext a; apply Fin.ext
  match a with
  | ⟨0, _⟩ => show win1_2.index t (0 : Fin 2) * 9000 + 1 * p.val = t.val * 9000 + p.val; omega
  | ⟨1, _⟩ => show win1_2.index t (1 : Fin 2) * 64 + 1 * k.val = k.val; omega

-- the buffers' contents when the region is entered, over the extended reals
variable (V : (c : Dev nD) → (b : Ref sig .tc) → Buf (Elt Ideal) ((c : Thread nD τ).loc b))

/-- What point t writes back is block t of the reference's step of the two whole input arrays: the body's one store
    covers its block, each input block is its array read through the same rows, and the entries agree row by row. -/
theorem flushed_eq (c : Dev nD) (t : Fin cfg1.N) :
    (dat (F := Ideal) V c).flushed 2 t
      = ((cfg1.win 2).blk t).view.read (Elt Ideal)
          (perturbHost (V c (Pipeline.arrRef spec1 0)) (V c (Pipeline.arrRef spec1 1))) := by
  show (cfg1.win 2).cut (grid1.coords t) ((dat V c).after 2 t) = _
  rw [dat_after_out]
  unfold stored
  rw [View.canon_unit_zero hz]
  simp only [View.ld_unit_zero (S := S9000x64) hz]
  funext j
  obtain ⟨p, q, rfl⟩ : ∃ (p : Fin 9000) (q : Fin 64), j = ix2 p q := ⟨j 0, j 1, eq_ix2 j⟩
  show k1_pay1 (F := Ideal) (blockAt V c 1 t) (blockAt V c 0 t) (ix2 p q)
      = perturbHost (V c (Pipeline.arrRef spec1 0)) (V c (Pipeline.arrRef spec1 1)) (((cfg1.win 2).blk t).view.emb (ix2 p q))
  rw [emb_out t p q]
  refine pay_eq_host _ _ _ _ p _ q (fun k => ?_) (fun k => ?_)
  · exact congrArg (V c (Pipeline.arrRef spec1 0)) (emb_x t p k)
  · exact congrArg (V c (Pipeline.arrRef spec1 1)) (emb_nz t p k)

/-- An index of the array is in point t's block iff each coordinate is in the block's range on its axis. -/
theorem mem_blk (t : Fin cfg1.N) (i : S90000x64.Idx) :
    i ∈ ((cfg1.win 2).blk t).view.set ↔ ∀ a : Fin 2, win1_2.index t a * S9000x64.size a ≤ (i a).val ∧ (i a).val < win1_2.index t a * S9000x64.size a + S9000x64.size a := by
  show i ∈ ((View.whole main_v53).slice (win1_2.rect t)).set ↔ _
  rw [View.set_slice_whole, Rect.mem_set_unit]
  exact Iff.rfl

/-- The ten blocks cover the array: row r is in block r / 9000. -/
theorem cover (i : S90000x64.Idx) : ∃ t : Fin cfg1.N, (cfg1.win 2).flush t = true ∧ i ∈ ((cfg1.win 2).blk t).view.set := by
  have hi0 : (i 0).val < 90000 := (i 0).isLt
  have hi1 : (i 1).val < 64 := (i 1).isLt
  have hN : cfg1.N = 10 := N_1
  let t : Fin cfg1.N := ⟨(i 0).val / 9000, by rw [hN]; omega⟩
  obtain ⟨-, -, -, -, e0, e1⟩ := idx_facts t
  have ht : t.val = (i 0).val / 9000 := rfl
  refine ⟨t, flush1_2 t, ?_⟩
  rw [mem_blk]
  intro a
  match a with
  | ⟨0, _⟩ => show win1_2.index t (0 : Fin 2) * 9000 ≤ (i 0).val ∧ (i 0).val < win1_2.index t (0 : Fin 2) * 9000 + 9000; omega
  | ⟨1, _⟩ => show win1_2.index t (1 : Fin 2) * 64 ≤ (i 1).val ∧ (i 1).val < win1_2.index t (1 : Fin 2) * 64 + 64; omega

/-- After the ten points the output array holds the reference's step of the two input arrays as the region found them. -/
theorem final_eq (c : Dev nD) :
    (dat (F := Ideal) V c).arrAt 2 cfg1.N
      = perturbHost (V c (Pipeline.arrRef spec1 0)) (V c (Pipeline.arrRef spec1 1)) :=
  (dat (F := Ideal) V c).arrAt_eq_of_cover 2 _ (fun t _ => flushed_eq V c t) cover

end Cert.KernelIdeal.Perturb1

end
-- ==== Proof.PerturbValI2.lean ====
/-
  The value of one perturbation kernel of the program: after its ten grid points the output array holds, entry by entry,
  the reference's perturbation step of the two input arrays,

      out[r, q] = x[r, q] + (nz[r, q] / max(sqrt(Σ_k nz[r, k]²), ε)) · sign(x[r, q]) · 0.2 .

  Both programs compute this entry by the same operations on the extended reals, so no finiteness is asked. The kernel
  divides each row of its noise block by the row's clamped Euclidean length, the reference each row of the whole noise
  array; row p of block t is row 9000·t + p of the array, so the two rows are the same 64 numbers. The kernel spells the
  sign as a select on |x| > 0 between ±1 (chosen by x < 0) and x itself; on every extended real this is the order's sign:
  −1, 0 or 1. The host's sum starts from the literal zero, the kernel's lane sum from its neutral element: the same sum.
  The clamp ε and the step 0.2 are the same float words in both programs and are never evaluated.

  Then from blocks to the array: what grid point t writes back is block t of that one whole-array function, and the ten
  blocks cover the 90000 rows (row r is in block r / 9000).
-/
import proofs.«131157_j87900800680713_1_alg».proof.Proof.PerturbI2
import proofs.«131157_j87900800680713_1_alg».proof.Proof.HostSpell
import proofs.«131157_j87900800680713_1_alg».proof.Proof.LibKeepdims
import proofs.«131157_j87900800680713_1_alg».proof.Proof.LibSageRow
import proofs.«131157_j87900800680713_1_alg».proof.Proof.LibNormRows
import Idealize.ShloMosaic.PureOps.Ideal.Laws
import Idealize.ShloMosaic.Lib.IdealHost
import Idealize.ShloMosaic.Lib.ValueIdx
import Idealize.ShloMosaic.Lib.Pipeline.Value

set_option maxRecDepth 16384

noncomputable section

namespace Cert.KernelIdeal.Perturb2

open Cert.KernelIdeal Cert.KernelIdeal.Gen
open Idealize.ShloMosaic Idealize.ShloMosaic.TcCoe Idealize.ShloMosaic.ValueIdx
open Idealize.SL.Sem
open Idealize.ShloMosaic.Pipeline (Dat)
open Cert.LibSageRow (unit)
open Cert.Proof.Parts (perturbHost)

/-! ## One entry of the update -/

/-- Entry q of one row of the update, from the row of x and the row of the noise: x plus the normalised noise times the
    sign of x times the step. The clamp and the step are the two float words both programs print. -/
def upd (xrow nzrow : Fin 64 → EReal) (q : Fin 64) : EReal :=
  xrow q + unit nzrow (Ideal.ofBits .f32 0x2B8CBCCC#32) q * Ideal.sign (xrow q) * Ideal.ofBits .f32 0x3E4CCCCD#32

/-! ## The kernel's stored value at an entry -/

/-- The body's stored value at (p, q) of its block is the update of row p of the x block and row p of the noise block:
    the two casts of a block to its own shape are the identity, the normalised noise is read by the row lemma, and the
    select spelling of the sign is the order's sign. -/
theorem pay_apply (nzb xb : Vec Ideal S9000x64 .f32) (p : Fin 9000) (q : Fin 64) :
    k2_pay1 (F := Ideal) nzb xb (ix2 p q) = upd (fun k => xb (ix2 p k)) (fun k => nzb (ix2 p k)) q := by
  unfold k2_pay1
  simp only [shapeCast_self]
  unfold upd
  refine congrArg₂ (· + ·) rfl (congrArg₂ (· * ·) (congrArg₂ (· * ·) ?_ ?_) rfl)
  · exact Cert.LibNormRows.unit_apply nzb _ _ _ _ _ _ p q
  · exact Ideal.jnp_sign_eq_sign_f32 (xb (ix2 p q))

/-! ## The reference's step at an entry -/

/-- An [a, 1] column broadcast along the lanes by the host reads, at (p, c), the column at (p, 0). -/
theorem broadcastInDim_a1_ab_apply {α : Type} {a b : ℕ}
    (h : (⟨2, ![a, 1]⟩ : Shape).BroadcastsInDim ⟨2, ![a, b]⟩ ![0, 1]) (v : (⟨2, ![a, 1]⟩ : Shape).Idx → α)
    (p : Fin a) (c : Fin b) : broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- An [a] vector set as an [a, 1] column by the host reads, at (p, u), the vector at p. -/
theorem broadcastInDim_a_a1_apply {α : Type} {a : ℕ}
    (h : (⟨1, ![a]⟩ : Shape).BroadcastsInDim ⟨2, ![a, 1]⟩ ![0]) (v : (⟨1, ![a]⟩ : Shape).Idx → α)
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- The host's rows divided by their clamped Euclidean length, as the reference spells it: square, sum along axis 1 from
    the literal zero, set the sums as a column, take the root, clamp below by a broadcast literal, broadcast the column
    back along the lanes and divide. At (p, c) this is the normalised row p at c: the sum from zero is the sum. -/
theorem host_unit_apply {a b : ℕ} (z : FVec Ideal ⟨2, ![a, b]⟩ .f32)
    (h' : (⟨2, ![a, b]⟩ : Shape).ReducesTo [1] ⟨1, ![a]⟩) (hu : 0 < (⟨0, ![]⟩ : Shape).numel)
    (h1 : (⟨1, ![a]⟩ : Shape).BroadcastsInDim ⟨2, ![a, 1]⟩ ![0])
    (h0 : (⟨0, ![]⟩ : Shape).BroadcastsInDim ⟨2, ![a, 1]⟩ ![])
    (h2 : (⟨2, ![a, 1]⟩ : Shape).BroadcastsInDim ⟨2, ![a, b]⟩ ![0, 1])
    (e : BitVec FTy.f32.bits) (p : Fin a) (c : Fin b) :
    Host.divf z (broadcastInDim ⟨2, ![a, b]⟩ ![0, 1] h2
        (maximumf
          (Host.sqrt (broadcastInDim ⟨2, ![a, 1]⟩ ![0] h1
            (Host.reduceAdd (mulf z z) (constant (F := Ideal) ⟨0, ![]⟩ .f32 0x00000000#32) h' hu)))
          (broadcastInDim ⟨2, ![a, 1]⟩ ![] h0 (constant (F := Ideal) ⟨0, ![]⟩ .f32 e)))) (ix2 p c)
      = unit (fun c' => z (ix2 p c')) (Ideal.ofBits .f32 e) c := by
  show Ideal.div (z (ix2 p c)) (broadcastInDim (s := ⟨2, ![a, 1]⟩) ⟨2, ![a, b]⟩ ![0, 1] h2 _ (ix2 p c)) = _
  rw [broadcastInDim_a1_ab_apply]
  show Ideal.div (z (ix2 p c))
      (max (Ideal.sqrt (broadcastInDim (s := ⟨1, ![a]⟩) ⟨2, ![a, 1]⟩ ![0] h1 _ (ix2 p (0 : Fin 1))))
        (broadcastInDim (s := ⟨0, ![]⟩) ⟨2, ![a, 1]⟩ ![] h0 _ (ix2 p (0 : Fin 1)))) = _
  rw [broadcastInDim_a_a1_apply, broadcastInDim_scalar_apply]
  show Ideal.div (z (ix2 p c))
      (max (Ideal.sqrt (Ideal.hostReduceAdd h' (mulf z z) (Ideal.ofBits .f32 0x00000000#32) (ix1 p))) (Ideal.ofBits .f32 e)) = _
  rw [Cert.LibKeepdims.hostReduceAdd_row h' ⟨h'.1, Nat.one_pos, h'.2⟩, Ideal.ofBits_zero_f32, zero_add]
  rfl

/-- The reference's step at (r, q) is the update of row r of x and row r of the noise. -/
theorem host_apply (x nz : FVec Ideal Cert.ReferenceIdeal.S90000x64 .f32) (r : Fin 90000) (q : Fin 64) :
    perturbHost x nz (ix2 r q) = upd (fun k => x (ix2 r k)) (fun k => nz (ix2 r k)) q := by
  unfold Cert.Proof.Parts.perturbHost upd
  refine congrArg₂ (· + ·) rfl (congrArg₂ (· * ·) (congrArg₂ (· * ·) ?_ rfl) ?_)
  · exact host_unit_apply nz _ _ _ _ _ _ r q
  · exact broadcastInDim_scalar_apply _ _ _

/-! ## The two agree where the rows agree -/

/-- If row p of the x block is row r of the x array, and the same for the noise, the body's stored value at (p, q) is
    the reference's step at (r, q). -/
theorem pay_eq_host (xb nzb : Vec Ideal S9000x64 .f32) (x nz : FVec Ideal S90000x64 .f32) (p : Fin 9000) (r : Fin 90000)
    (q : Fin 64) (hx : ∀ k : Fin 64, xb (ix2 p k) = x (ix2 r k)) (hnz : ∀ k : Fin 64, nzb (ix2 p k) = nz (ix2 r k)) :
    k2_pay1 (F := Ideal) nzb xb (ix2 p q) = perturbHost x nz (ix2 r q) :=
  (pay_apply nzb xb p q).trans
    ((congrArg₂ (fun a b => upd a b q) (funext hx) (funext hnz)).trans (host_apply x nz r q).symm)

/-! ## From blocks to the array -/

theorem hz : (![0, 0] : Fin 2 → Nat) = fun _ => 0 := funext fun a => by fin_cases a <;> rfl

/-- The three windows' index maps, decided over the ten points: block t along the rows, block 0 along the lanes. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Row p of block t is a row of the array. -/
theorem row_lt (t : Fin cfg2.N) (p : Fin 9000) : t.val * 9000 + p.val < 90000 := by
  have h : t.val < 10 := lt_of_lt_of_eq t.isLt N_2
  have hp := p.isLt
  omega

/-- Entry (p, k) of the x window's block t is entry (9000·t + p, k) of its array; -/
theorem emb_x (t : Fin cfg2.N) (p : Fin 9000) (k : Fin 64) :
    ((cfg2.win 0).blk t).view.emb (ix2 p k) = ix2 (⟨t.val * 9000 + p.val, row_lt t p⟩ : Fin 90000) k := by
  obtain ⟨e0, e1, -⟩ := idx_facts t
  funext a; apply Fin.ext
  match a with
  | ⟨0, _⟩ => show win2_0.index t (0 : Fin 2) * 9000 + 1 * p.val = t.val * 9000 + p.val; omega
  | ⟨1, _⟩ => show win2_0.index t (1 : Fin 2) * 64 + 1 * k.val = k.val; omega

/-- the same for the noise window, -/
theorem emb_nz (t : Fin cfg2.N) (p : Fin 9000) (k : Fin 64) :
    ((cfg2.win 1).blk t).view.emb (ix2 p k) = ix2 (⟨t.val * 9000 + p.val, row_lt t p⟩ : Fin 90000) k := by
  obtain ⟨-, -, e0, e1, -⟩ := idx_facts t
  funext a; apply Fin.ext
  match a with
  | ⟨0, _⟩ => show win2_1.index t (0 : Fin 2) * 9000 + 1 * p.val = t.val * 9000 + p.val; omega
  | ⟨1, _⟩ => show win2_1.index t (1 : Fin 2) * 64 + 1 * k.val = k.val; omega

/-- and for the output window. -/
theorem emb_out (t : Fin cfg2.N) (p : Fin 9000) (k : Fin 64) :
    ((cfg2.win 2).blk t).view.emb (ix2 p k) = ix2 (⟨t.val * 9000 + p.val, row_lt t p⟩ : Fin 90000) k := by
  obtain ⟨-, -, -, -, e0, e1⟩ := idx_facts t
  funext a; apply Fin.ext
  match a with
  | ⟨0, _⟩ => show win2_2.index t (0 : Fin 2) * 9000 + 1 * p.val = t.val * 9000 + p.val; omega
  | ⟨1, _⟩ => show win2_2.index t (1 : Fin 2) * 64 + 1 * k.val = k.val; omega

-- the buffers' contents when the region is entered, over the extended reals
variable (V : (c : Dev nD) → (b : Ref sig .tc) → Buf (Elt Ideal) ((c : Thread nD τ).loc b))

/-- What point t writes back is block t of the reference's step of the two whole input arrays: the body's one store
    covers its block, each input block is its array read through the same rows, and the entries agree row by row. -/
theorem flushed_eq (c : Dev nD) (t : Fin cfg2.N) :
    (dat (F := Ideal) V c).flushed 2 t
      = ((cfg2.win 2).blk t).view.read (Elt Ideal)
          (perturbHost (V c (Pipeline.arrRef spec2 0)) (V c (Pipeline.arrRef spec2 1))) := by
  show (cfg2.win 2).cut (grid2.coords t) ((dat V c).after 2 t) = _
  rw [dat_after_out]
  unfold stored
  rw [View.canon_unit_zero hz]
  simp only [View.ld_unit_zero (S := S9000x64) hz]
  funext j
  obtain ⟨p, q, rfl⟩ : ∃ (p : Fin 9000) (q : Fin 64), j = ix2 p q := ⟨j 0, j 1, eq_ix2 j⟩
  show k2_pay1 (F := Ideal) (blockAt V c 1 t) (blockAt V c 0 t) (ix2 p q)
      = perturbHost (V c (Pipeline.arrRef spec2 0)) (V c (Pipeline.arrRef spec2 1)) (((cfg2.win 2).blk t).view.emb (ix2 p q))
  rw [emb_out t p q]
  refine pay_eq_host _ _ _ _ p _ q (fun k => ?_) (fun k => ?_)
  · exact congrArg (V c (Pipeline.arrRef spec2 0)) (emb_x t p k)
  · exact congrArg (V c (Pipeline.arrRef spec2 1)) (emb_nz t p k)

/-- An index of the array is in point t's block iff each coordinate is in the block's range on its axis. -/
theorem mem_blk (t : Fin cfg2.N) (i : S90000x64.Idx) :
    i ∈ ((cfg2.win 2).blk t).view.set ↔ ∀ a : Fin 2, win2_2.index t a * S9000x64.size a ≤ (i a).val ∧ (i a).val < win2_2.index t a * S9000x64.size a + S9000x64.size a := by
  show i ∈ ((View.whole main_v53).slice (win2_2.rect t)).set ↔ _
  rw [View.set_slice_whole, Rect.mem_set_unit]
  exact Iff.rfl

/-- The ten blocks cover the array: row r is in block r / 9000. -/
theorem cover (i : S90000x64.Idx) : ∃ t : Fin cfg2.N, (cfg2.win 2).flush t = true ∧ i ∈ ((cfg2.win 2).blk t).view.set := by
  have hi0 : (i 0).val < 90000 := (i 0).isLt
  have hi1 : (i 1).val < 64 := (i 1).isLt
  have hN : cfg2.N = 10 := N_2
  let t : Fin cfg2.N := ⟨(i 0).val / 9000, by rw [hN]; omega⟩
  obtain ⟨-, -, -, -, e0, e1⟩ := idx_facts t
  have ht : t.val = (i 0).val / 9000 := rfl
  refine ⟨t, flush2_2 t, ?_⟩
  rw [mem_blk]
  intro a
  match a with
  | ⟨0, _⟩ => show win2_2.index t (0 : Fin 2) * 9000 ≤ (i 0).val ∧ (i 0).val < win2_2.index t (0 : Fin 2) * 9000 + 9000; omega
  | ⟨1, _⟩ => show win2_2.index t (1 : Fin 2) * 64 ≤ (i 1).val ∧ (i 1).val < win2_2.index t (1 : Fin 2) * 64 + 64; omega

/-- After the ten points the output array holds the reference's step of the two input arrays as the region found them. -/
theorem final_eq (c : Dev nD) :
    (dat (F := Ideal) V c).arrAt 2 cfg2.N
      = perturbHost (V c (Pipeline.arrRef spec2 0)) (V c (Pipeline.arrRef spec2 1)) :=
  (dat (F := Ideal) V c).arrAt_eq_of_cover 2 _ (fun t _ => flushed_eq V c t) cover

end Cert.KernelIdeal.Perturb2

end
-- ==== Proof.PerturbValI3.lean ====
/-
  The value of one perturbation kernel of the program: after its ten grid points the output array holds, entry by entry,
  the reference's perturbation step of the two input arrays,

      out[r, q] = x[r, q] + (nz[r, q] / max(sqrt(Σ_k nz[r, k]²), ε)) · sign(x[r, q]) · 0.2 .

  Both programs compute this entry by the same operations on the extended reals, so no finiteness is asked. The kernel
  divides each row of its noise block by the row's clamped Euclidean length, the reference each row of the whole noise
  array; row p of block t is row 9000·t + p of the array, so the two rows are the same 64 numbers. The kernel spells the
  sign as a select on |x| > 0 between ±1 (chosen by x < 0) and x itself; on every extended real this is the order's sign:
  −1, 0 or 1. The host's sum starts from the literal zero, the kernel's lane sum from its neutral element: the same sum.
  The clamp ε and the step 0.2 are the same float words in both programs and are never evaluated.

  Then from blocks to the array: what grid point t writes back is block t of that one whole-array function, and the ten
  blocks cover the 90000 rows (row r is in block r / 9000).
-/
import proofs.«131157_j87900800680713_1_alg».proof.Proof.PerturbI3
import proofs.«131157_j87900800680713_1_alg».proof.Proof.HostSpell
import proofs.«131157_j87900800680713_1_alg».proof.Proof.LibKeepdims
import proofs.«131157_j87900800680713_1_alg».proof.Proof.LibSageRow
import proofs.«131157_j87900800680713_1_alg».proof.Proof.LibNormRows
import Idealize.ShloMosaic.PureOps.Ideal.Laws
import Idealize.ShloMosaic.Lib.IdealHost
import Idealize.ShloMosaic.Lib.ValueIdx
import Idealize.ShloMosaic.Lib.Pipeline.Value

set_option maxRecDepth 16384

noncomputable section

namespace Cert.KernelIdeal.Perturb3

open Cert.KernelIdeal Cert.KernelIdeal.Gen
open Idealize.ShloMosaic Idealize.ShloMosaic.TcCoe Idealize.ShloMosaic.ValueIdx
open Idealize.SL.Sem
open Idealize.ShloMosaic.Pipeline (Dat)
open Cert.LibSageRow (unit)
open Cert.Proof.Parts (perturbHost)

/-! ## One entry of the update -/

/-- Entry q of one row of the update, from the row of x and the row of the noise: x plus the normalised noise times the
    sign of x times the step. The clamp and the step are the two float words both programs print. -/
def upd (xrow nzrow : Fin 64 → EReal) (q : Fin 64) : EReal :=
  xrow q + unit nzrow (Ideal.ofBits .f32 0x2B8CBCCC#32) q * Ideal.sign (xrow q) * Ideal.ofBits .f32 0x3E4CCCCD#32

/-! ## The kernel's stored value at an entry -/

/-- The body's stored value at (p, q) of its block is the update of row p of the x block and row p of the noise block:
    the two casts of a block to its own shape are the identity, the normalised noise is read by the row lemma, and the
    select spelling of the sign is the order's sign. -/
theorem pay_apply (nzb xb : Vec Ideal S9000x64 .f32) (p : Fin 9000) (q : Fin 64) :
    k3_pay1 (F := Ideal) nzb xb (ix2 p q) = upd (fun k => xb (ix2 p k)) (fun k => nzb (ix2 p k)) q := by
  unfold k3_pay1
  simp only [shapeCast_self]
  unfold upd
  refine congrArg₂ (· + ·) rfl (congrArg₂ (· * ·) (congrArg₂ (· * ·) ?_ ?_) rfl)
  · exact Cert.LibNormRows.unit_apply nzb _ _ _ _ _ _ p q
  · exact Ideal.jnp_sign_eq_sign_f32 (xb (ix2 p q))

/-! ## The reference's step at an entry -/

/-- An [a, 1] column broadcast along the lanes by the host reads, at (p, c), the column at (p, 0). -/
theorem broadcastInDim_a1_ab_apply {α : Type} {a b : ℕ}
    (h : (⟨2, ![a, 1]⟩ : Shape).BroadcastsInDim ⟨2, ![a, b]⟩ ![0, 1]) (v : (⟨2, ![a, 1]⟩ : Shape).Idx → α)
    (p : Fin a) (c : Fin b) : broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- An [a] vector set as an [a, 1] column by the host reads, at (p, u), the vector at p. -/
theorem broadcastInDim_a_a1_apply {α : Type} {a : ℕ}
    (h : (⟨1, ![a]⟩ : Shape).BroadcastsInDim ⟨2, ![a, 1]⟩ ![0]) (v : (⟨1, ![a]⟩ : Shape).Idx → α)
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- The host's rows divided by their clamped Euclidean length, as the reference spells it: square, sum along axis 1 from
    the literal zero, set the sums as a column, take the root, clamp below by a broadcast literal, broadcast the column
    back along the lanes and divide. At (p, c) this is the normalised row p at c: the sum from zero is the sum. -/
theorem host_unit_apply {a b : ℕ} (z : FVec Ideal ⟨2, ![a, b]⟩ .f32)
    (h' : (⟨2, ![a, b]⟩ : Shape).ReducesTo [1] ⟨1, ![a]⟩) (hu : 0 < (⟨0, ![]⟩ : Shape).numel)
    (h1 : (⟨1, ![a]⟩ : Shape).BroadcastsInDim ⟨2, ![a, 1]⟩ ![0])
    (h0 : (⟨0, ![]⟩ : Shape).BroadcastsInDim ⟨2, ![a, 1]⟩ ![])
    (h2 : (⟨2, ![a, 1]⟩ : Shape).BroadcastsInDim ⟨2, ![a, b]⟩ ![0, 1])
    (e : BitVec FTy.f32.bits) (p : Fin a) (c : Fin b) :
    Host.divf z (broadcastInDim ⟨2, ![a, b]⟩ ![0, 1] h2
        (maximumf
          (Host.sqrt (broadcastInDim ⟨2, ![a, 1]⟩ ![0] h1
            (Host.reduceAdd (mulf z z) (constant (F := Ideal) ⟨0, ![]⟩ .f32 0x00000000#32) h' hu)))
          (broadcastInDim ⟨2, ![a, 1]⟩ ![] h0 (constant (F := Ideal) ⟨0, ![]⟩ .f32 e)))) (ix2 p c)
      = unit (fun c' => z (ix2 p c')) (Ideal.ofBits .f32 e) c := by
  show Ideal.div (z (ix2 p c)) (broadcastInDim (s := ⟨2, ![a, 1]⟩) ⟨2, ![a, b]⟩ ![0, 1] h2 _ (ix2 p c)) = _
  rw [broadcastInDim_a1_ab_apply]
  show Ideal.div (z (ix2 p c))
      (max (Ideal.sqrt (broadcastInDim (s := ⟨1, ![a]⟩) ⟨2, ![a, 1]⟩ ![0] h1 _ (ix2 p (0 : Fin 1))))
        (broadcastInDim (s := ⟨0, ![]⟩) ⟨2, ![a, 1]⟩ ![] h0 _ (ix2 p (0 : Fin 1)))) = _
  rw [broadcastInDim_a_a1_apply, broadcastInDim_scalar_apply]
  show Ideal.div (z (ix2 p c))
      (max (Ideal.sqrt (Ideal.hostReduceAdd h' (mulf z z) (Ideal.ofBits .f32 0x00000000#32) (ix1 p))) (Ideal.ofBits .f32 e)) = _
  rw [Cert.LibKeepdims.hostReduceAdd_row h' ⟨h'.1, Nat.one_pos, h'.2⟩, Ideal.ofBits_zero_f32, zero_add]
  rfl

/-- The reference's step at (r, q) is the update of row r of x and row r of the noise. -/
theorem host_apply (x nz : FVec Ideal Cert.ReferenceIdeal.S90000x64 .f32) (r : Fin 90000) (q : Fin 64) :
    perturbHost x nz (ix2 r q) = upd (fun k => x (ix2 r k)) (fun k => nz (ix2 r k)) q := by
  unfold Cert.Proof.Parts.perturbHost upd
  refine congrArg₂ (· + ·) rfl (congrArg₂ (· * ·) (congrArg₂ (· * ·) ?_ rfl) ?_)
  · exact host_unit_apply nz _ _ _ _ _ _ r q
  · exact broadcastInDim_scalar_apply _ _ _

/-! ## The two agree where the rows agree -/

/-- If row p of the x block is row r of the x array, and the same for the noise, the body's stored value at (p, q) is
    the reference's step at (r, q). -/
theorem pay_eq_host (xb nzb : Vec Ideal S9000x64 .f32) (x nz : FVec Ideal S90000x64 .f32) (p : Fin 9000) (r : Fin 90000)
    (q : Fin 64) (hx : ∀ k : Fin 64, xb (ix2 p k) = x (ix2 r k)) (hnz : ∀ k : Fin 64, nzb (ix2 p k) = nz (ix2 r k)) :
    k3_pay1 (F := Ideal) nzb xb (ix2 p q) = perturbHost x nz (ix2 r q) :=
  (pay_apply nzb xb p q).trans
    ((congrArg₂ (fun a b => upd a b q) (funext hx) (funext hnz)).trans (host_apply x nz r q).symm)

/-! ## From blocks to the array -/

theorem hz : (![0, 0] : Fin 2 → Nat) = fun _ => 0 := funext fun a => by fin_cases a <;> rfl

/-- The three windows' index maps, decided over the ten points: block t along the rows, block 0 along the lanes. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- Row p of block t is a row of the array. -/
theorem row_lt (t : Fin cfg3.N) (p : Fin 9000) : t.val * 9000 + p.val < 90000 := by
  have h : t.val < 10 := lt_of_lt_of_eq t.isLt N_3
  have hp := p.isLt
  omega

/-- Entry (p, k) of the x window's block t is entry (9000·t + p, k) of its array; -/
theorem emb_x (t : Fin cfg3.N) (p : Fin 9000) (k : Fin 64) :
    ((cfg3.win 0).blk t).view.emb (ix2 p k) = ix2 (⟨t.val * 9000 + p.val, row_lt t p⟩ : Fin 90000) k := by
  obtain ⟨e0, e1, -⟩ := idx_facts t
  funext a; apply Fin.ext
  match a with
  | ⟨0, _⟩ => show win3_0.index t (0 : Fin 2) * 9000 + 1 * p.val = t.val * 9000 + p.val; omega
  | ⟨1, _⟩ => show win3_0.index t (1 : Fin 2) * 64 + 1 * k.val = k.val; omega

/-- the same for the noise window, -/
theorem emb_nz (t : Fin cfg3.N) (p : Fin 9000) (k : Fin 64) :
    ((cfg3.win 1).blk t).view.emb (ix2 p k) = ix2 (⟨t.val * 9000 + p.val, row_lt t p⟩ : Fin 90000) k := by
  obtain ⟨-, -, e0, e1, -⟩ := idx_facts t
  funext a; apply Fin.ext
  match a with
  | ⟨0, _⟩ => show win3_1.index t (0 : Fin 2) * 9000 + 1 * p.val = t.val * 9000 + p.val; omega
  | ⟨1, _⟩ => show win3_1.index t (1 : Fin 2) * 64 + 1 * k.val = k.val; omega

/-- and for the output window. -/
theorem emb_out (t : Fin cfg3.N) (p : Fin 9000) (k : Fin 64) :
    ((cfg3.win 2).blk t).view.emb (ix2 p k) = ix2 (⟨t.val * 9000 + p.val, row_lt t p⟩ : Fin 90000) k := by
  obtain ⟨-, -, -, -, e0, e1⟩ := idx_facts t
  funext a; apply Fin.ext
  match a with
  | ⟨0, _⟩ => show win3_2.index t (0 : Fin 2) * 9000 + 1 * p.val = t.val * 9000 + p.val; omega
  | ⟨1, _⟩ => show win3_2.index t (1 : Fin 2) * 64 + 1 * k.val = k.val; omega

-- the buffers' contents when the region is entered, over the extended reals
variable (V : (c : Dev nD) → (b : Ref sig .tc) → Buf (Elt Ideal) ((c : Thread nD τ).loc b))

/-- What point t writes back is block t of the reference's step of the two whole input arrays: the body's one store
    covers its block, each input block is its array read through the same rows, and the entries agree row by row. -/
theorem flushed_eq (c : Dev nD) (t : Fin cfg3.N) :
    (dat (F := Ideal) V c).flushed 2 t
      = ((cfg3.win 2).blk t).view.read (Elt Ideal)
          (perturbHost (V c (Pipeline.arrRef spec3 0)) (V c (Pipeline.arrRef spec3 1))) := by
  show (cfg3.win 2).cut (grid3.coords t) ((dat V c).after 2 t) = _
  rw [dat_after_out]
  unfold stored
  rw [View.canon_unit_zero hz]
  simp only [View.ld_unit_zero (S := S9000x64) hz]
  funext j
  obtain ⟨p, q, rfl⟩ : ∃ (p : Fin 9000) (q : Fin 64), j = ix2 p q := ⟨j 0, j 1, eq_ix2 j⟩
  show k3_pay1 (F := Ideal) (blockAt V c 1 t) (blockAt V c 0 t) (ix2 p q)
      = perturbHost (V c (Pipeline.arrRef spec3 0)) (V c (Pipeline.arrRef spec3 1)) (((cfg3.win 2).blk t).view.emb (ix2 p q))
  rw [emb_out t p q]
  refine pay_eq_host _ _ _ _ p _ q (fun k => ?_) (fun k => ?_)
  · exact congrArg (V c (Pipeline.arrRef spec3 0)) (emb_x t p k)
  · exact congrArg (V c (Pipeline.arrRef spec3 1)) (emb_nz t p k)

/-- An index of the array is in point t's block iff each coordinate is in the block's range on its axis. -/
theorem mem_blk (t : Fin cfg3.N) (i : S90000x64.Idx) :
    i ∈ ((cfg3.win 2).blk t).view.set ↔ ∀ a : Fin 2, win3_2.index t a * S9000x64.size a ≤ (i a).val ∧ (i a).val < win3_2.index t a * S9000x64.size a + S9000x64.size a := by
  show i ∈ ((View.whole main_v53).slice (win3_2.rect t)).set ↔ _
  rw [View.set_slice_whole, Rect.mem_set_unit]
  exact Iff.rfl

/-- The ten blocks cover the array: row r is in block r / 9000. -/
theorem cover (i : S90000x64.Idx) : ∃ t : Fin cfg3.N, (cfg3.win 2).flush t = true ∧ i ∈ ((cfg3.win 2).blk t).view.set := by
  have hi0 : (i 0).val < 90000 := (i 0).isLt
  have hi1 : (i 1).val < 64 := (i 1).isLt
  have hN : cfg3.N = 10 := N_3
  let t : Fin cfg3.N := ⟨(i 0).val / 9000, by rw [hN]; omega⟩
  obtain ⟨-, -, -, -, e0, e1⟩ := idx_facts t
  have ht : t.val = (i 0).val / 9000 := rfl
  refine ⟨t, flush3_2 t, ?_⟩
  rw [mem_blk]
  intro a
  match a with
  | ⟨0, _⟩ => show win3_2.index t (0 : Fin 2) * 9000 ≤ (i 0).val ∧ (i 0).val < win3_2.index t (0 : Fin 2) * 9000 + 9000; omega
  | ⟨1, _⟩ => show win3_2.index t (1 : Fin 2) * 64 ≤ (i 1).val ∧ (i 1).val < win3_2.index t (1 : Fin 2) * 64 + 64; omega

/-- After the ten points the output array holds the reference's step of the two input arrays as the region found them. -/
theorem final_eq (c : Dev nD) :
    (dat (F := Ideal) V c).arrAt 2 cfg3.N
      = perturbHost (V c (Pipeline.arrRef spec3 0)) (V c (Pipeline.arrRef spec3 1)) :=
  (dat (F := Ideal) V c).arrAt_eq_of_cover 2 _ (fun t _ => flushed_eq V c t) cover

end Cert.KernelIdeal.Perturb3

end
-- ==== Proof.LibDotLast.lean ====
/-
  Matrix products whose two operands are both contracted on their LAST axis, read at an entry.

  Rank 2: an [n, K] operand and an [M, K] operand into [n, M] (the right operand "transposed"): entry (p, c) is the
  sum over k of L (p, k) * R (c, k). Rank 3, batched on the leading axis: [B, n, K] and [B, M, K] into [B, n, M]:
  entry (b, p, c) is the sum over k of L (b, p, k) * R (b, c, k). In both, the sum over the dimension numbers'
  contraction index is re-indexed by the one contracted coordinate; the other coordinates of the two operand indices
  are read off the output index. Over the extended reals a kernel's matrix unit into a zero accumulator and the host's
  dot_general are both this sum: nothing is left of rounding or of the order of accumulation.
-/
import Idealize.ShloMosaic.PureOps.Ideal.Laws
import Idealize.ShloMosaic.Lib.ValueIdx

noncomputable section

namespace Cert.LibDotLast

open Idealize.ShloMosaic Idealize.ShloMosaic.ValueIdx

section Rank2

variable {n K M : Nat}

/-- Dimension numbers of a rank-2 product contracting both last axes, no batch axis. -/
structure IsLast2 (d : DotDims ⟨2, ![n, K]⟩ ⟨2, ![M, K]⟩ ⟨2, ![n, M]⟩) : Prop where
  lc : d.lhsContracting = [1]
  rc : d.rhsContracting = [1]
  ln : d.lhsNonContracting = [0]
  rn : d.rhsNonContracting = [0]
  lb : d.lhsBatch = []
  rb : d.rhsBatch = []

/-- The contraction sum at output index i is the sum over the contracted coordinate k of (i 0, k) against (i 1, k). -/
theorem sum_contr2 {α : Type} [AddCommMonoid α] (d : DotDims ⟨2, ![n, K]⟩ ⟨2, ![M, K]⟩ ⟨2, ![n, M]⟩) (hd : IsLast2 d)
    (f : (⟨2, ![n, K]⟩ : Shape).Idx → (⟨2, ![M, K]⟩ : Shape).Idx → α) (i : (⟨2, ![n, M]⟩ : Shape).Idx) :
    ∑ q : d.contr.Idx, f (d.lhsIdx i q) (d.rhsIdx i q) = ∑ k : Fin K, f (ix2 (i 0) k) (ix2 (i 1) k) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨2, ![n, K]⟩ ⟨2, ![M, K]⟩ ⟨2, ![n, M]⟩ := ⟨[1], [1], [0], [0], [], [], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix2 (i 0) k := funext fun a => Fin.ext (by
    match a with
    | ⟨0, _⟩ =>
      show (d.lhsIdx i _ 0).val = (i 0).val
      unfold DotDims.lhsIdx
      rw [dif_neg (show ¬(0 : Fin (⟨2, ![n, K]⟩ : Shape).rank) ∈ d.lhsBatch from List.not_mem_nil),
        dif_pos (show (0 : Fin (⟨2, ![n, K]⟩ : Shape).rank) ∈ d.lhsNonContracting from List.mem_singleton.mpr rfl)]
      rfl
    | ⟨1, _⟩ => exact (d.lhsIdx_val_of_single rfl i _).trans hk)
  have er : d.rhsIdx i ((contrEquiv1 d K rfl rfl).symm k) = ix2 (i 1) k := funext fun a => Fin.ext (by
    match a with
    | ⟨0, _⟩ =>
      show (d.rhsIdx i _ 0).val = (i 1).val
      unfold DotDims.rhsIdx
      rw [dif_neg (show ¬(0 : Fin (⟨2, ![M, K]⟩ : Shape).rank) ∈ d.rhsBatch from List.not_mem_nil),
        dif_pos (show (0 : Fin (⟨2, ![M, K]⟩ : Shape).rank) ∈ d.rhsNonContracting from List.mem_singleton.mpr rfl)]
      rfl
    | ⟨1, _⟩ => exact (d.rhsIdx_val_of_single rfl i _).trans hk)
  rw [el, er]
  try rfl

variable {φ₁ φ₂ : FTy}

/-- A kernel's matrix-unit product with such dimension numbers into a zero accumulator, at entry (p, c). -/
theorem matmul_zero_apply (d : DotDims ⟨2, ![n, K]⟩ ⟨2, ![M, K]⟩ ⟨2, ![n, M]⟩) (hd : IsLast2 d) (prec : Option ContractPrecision)
    (lhs : FVec Ideal ⟨2, ![n, K]⟩ φ₁) (rhs : FVec Ideal ⟨2, ![M, K]⟩ φ₂) (p : Fin n) (c : Fin M) :
    FloatOps.matmul d prec lhs rhs (constant ⟨2, ![n, M]⟩ .f32 0x00000000#32) (ix2 p c)
      = ∑ k : Fin K, lhs (ix2 p k) * rhs (ix2 c k) :=
  (Ideal.matmul_constant_zero_apply d prec lhs rhs (ix2 p c)).trans
    (sum_contr2 d hd (fun a b => lhs a * rhs b) (ix2 p c))

end Rank2

section Rank3

variable {B n K M : Nat}

/-- Dimension numbers of a rank-3 product batched on axis 0 and contracting both last axes. -/
structure IsLast3 (d : DotDims ⟨3, ![B, n, K]⟩ ⟨3, ![B, M, K]⟩ ⟨3, ![B, n, M]⟩) : Prop where
  lc : d.lhsContracting = [2]
  rc : d.rhsContracting = [2]
  ln : d.lhsNonContracting = [1]
  rn : d.rhsNonContracting = [1]
  lb : d.lhsBatch = [0]
  rb : d.rhsBatch = [0]

/-- The contraction sum at output index i is the sum over k of (i 0, i 1, k) against (i 0, i 2, k). -/
theorem sum_contr3 {α : Type} [AddCommMonoid α] (d : DotDims ⟨3, ![B, n, K]⟩ ⟨3, ![B, M, K]⟩ ⟨3, ![B, n, M]⟩) (hd : IsLast3 d)
    (f : (⟨3, ![B, n, K]⟩ : Shape).Idx → (⟨3, ![B, M, K]⟩ : Shape).Idx → α) (i : (⟨3, ![B, n, M]⟩ : Shape).Idx) :
    ∑ q : d.contr.Idx, f (d.lhsIdx i q) (d.rhsIdx i q) = ∑ k : Fin K, f (ix3 (i 0) (i 1) k) (ix3 (i 0) (i 2) k) := by
  obtain ⟨lc, rc, ln, rn, lb, rb, wf⟩ := d
  obtain ⟨h1, h2, h3, h4, h5, h6⟩ := hd
  simp only at h1 h2 h3 h4 h5 h6
  subst h1 h2 h3 h4 h5 h6
  let d : DotDims ⟨3, ![B, n, K]⟩ ⟨3, ![B, M, K]⟩ ⟨3, ![B, n, M]⟩ := ⟨[2], [2], [1], [1], [0], [0], wf⟩
  show ∑ q : d.contr.Idx, f (d.lhsIdx i q) (d.rhsIdx i q) = _
  rw [← Equiv.sum_comp (contrEquiv1 d K rfl rfl).symm]
  refine Finset.sum_congr rfl fun k _ => ?_
  have hk := contrEquiv1_symm_val d K rfl rfl k
  have el : d.lhsIdx i ((contrEquiv1 d K rfl rfl).symm k) = ix3 (i 0) (i 1) k := funext fun a => Fin.ext (by
    match a with
    | ⟨0, _⟩ =>
      show (d.lhsIdx i _ 0).val = (i 0).val
      unfold DotDims.lhsIdx
      rw [dif_pos (show (0 : Fin (⟨3, ![B, n, K]⟩ : Shape).rank) ∈ d.lhsBatch from List.mem_singleton.mpr rfl)]
      rfl
    | ⟨1, _⟩ =>
      show (d.lhsIdx i _ 1).val = (i 1).val
      unfold DotDims.lhsIdx
      rw [dif_neg (show ¬(1 : Fin (⟨3, ![B, n, K]⟩ : Shape).rank) ∈ d.lhsBatch from fun h => Nat.one_ne_zero (congrArg Fin.val (List.mem_singleton.mp h))),
        dif_pos (show (1 : Fin (⟨3, ![B, n, K]⟩ : Shape).rank) ∈ d.lhsNonContracting from List.mem_singleton.mpr rfl)]
      rfl
    | ⟨2, _⟩ => exact (d.lhsIdx_val_of_single rfl i _).trans hk)
  have er : d.rhsIdx i ((contrEquiv1 d K rfl rfl).symm k) = ix3 (i 0) (i 2) k := funext fun a => Fin.ext (by
    match a with
    | ⟨0, _⟩ =>
      show (d.rhsIdx i _ 0).val = (i 0).val
      unfold DotDims.rhsIdx
      rw [dif_pos (show (0 : Fin (⟨3, ![B, M, K]⟩ : Shape).rank) ∈ d.rhsBatch from List.mem_singleton.mpr rfl)]
      rfl
    | ⟨1, _⟩ =>
      show (d.rhsIdx i _ 1).val = (i 2).val
      unfold DotDims.rhsIdx
      rw [dif_neg (show ¬(1 : Fin (⟨3, ![B, M, K]⟩ : Shape).rank) ∈ d.rhsBatch from fun h => Nat.one_ne_zero (congrArg Fin.val (List.mem_singleton.mp h))),
        dif_pos (show (1 : Fin (⟨3, ![B, M, K]⟩ : Shape).rank) ∈ d.rhsNonContracting from List.mem_singleton.mpr rfl)]
      rfl
    | ⟨2, _⟩ => exact (d.rhsIdx_val_of_single rfl i _).trans hk)
  rw [el, er]
  try rfl

variable {φ₁ φ₂ : FTy}

/-- The host's dot_general with such dimension numbers, at entry (b, p, c). -/
theorem dotGeneral_apply (d : DotDims ⟨3, ![B, n, K]⟩ ⟨3, ![B, M, K]⟩ ⟨3, ![B, n, M]⟩) (hd : IsLast3 d) (prec : Option ContractPrecision)
    (sched : HostSchedule) (lhs : FVec Ideal ⟨3, ![B, n, K]⟩ φ₁) (rhs : FVec Ideal ⟨3, ![B, M, K]⟩ φ₂)
    (b : Fin B) (p : Fin n) (c : Fin M) :
    FloatOps.dotGeneral d prec sched lhs rhs (ix3 b p c) = ∑ k : Fin K, lhs (ix3 b p k) * rhs (ix3 b c k) :=
  (Ideal.dotGeneral_apply d prec sched lhs rhs (ix3 b p c)).trans
    (sum_contr3 d hd (fun a b => lhs a * rhs b) (ix3 b p c))

end Rank3

end Cert.LibDotLast

end
-- ==== Proof.LibBlockSumN.lean ====
/-
  A sum over `b · n` indices, taken in `b` blocks of `n`.

  In any additive commutative monoid, a sum over the indices `0 … b·n − 1` is the sum over the blocks
  `t = 0 … b − 1` of the sums over the positions `j = 0 … n − 1` inside the block, the index being `t · n + j`:
  the map `(t, j) ↦ t · n + j` is a bijection from pairs to indices, and a sum over pairs is an iterated sum.
  Nothing here needs the summands to be finite, so it holds for extended reals: it is the law that joins a
  contraction accumulated block by block with the whole contraction.
-/
import Idealize.ShloMosaic.Lib.ValueIdx

namespace Cert.BlockSumN

open scoped BigOperators

/-- Position `j` of block `t` is an index below `b · n`. -/
theorem blk_lt {b n : Nat} (t : Fin b) (j : Fin n) : t.val * n + j.val < b * n := by
  have h1 : t.val * n + n ≤ b * n := by
    have : (t.val + 1) * n ≤ b * n := Nat.mul_le_mul_right n t.isLt
    simpa [Nat.succ_mul] using this
  have := j.isLt
  omega

/-- A sum over `b · n` indices is the sum over the `b` blocks of the sums over the `n` positions in a block. -/
theorem sum_blocks {α : Type} [AddCommMonoid α] (b n : Nat) (f : Fin (b * n) → α) :
    ∑ k : Fin (b * n), f k = ∑ t : Fin b, ∑ j : Fin n, f ⟨t.val * n + j.val, blk_lt t j⟩ := by
  rw [← Equiv.sum_comp finProdFinEquiv f, Fintype.sum_prod_type]
  refine Finset.sum_congr rfl fun t _ => Finset.sum_congr rfl fun j _ => ?_
  congr 1
  apply Fin.ext
  show j.val + n * t.val = t.val * n + j.val
  rw [Nat.mul_comm, Nat.add_comm]

/-- The same over `Fin K` with `K = b · n` given as an equation (for a literal `K`). -/
theorem sum_blocks_of_eq {α : Type} [AddCommMonoid α] {K : Nat} (b n : Nat) (hK : K = b * n) (f : Fin K → α) :
    ∑ k : Fin K, f k = ∑ t : Fin b, ∑ j : Fin n, f ⟨t.val * n + j.val, hK ▸ blk_lt t j⟩ := by
  subst hK
  exact sum_blocks b n f

end Cert.BlockSumN
-- ==== Proof.NegSumValI4.lean ====
/-
  The value of one negative-sum region of the kernel program, over the extended reals:  neg[r] = Σ_j exp(⟨e1[r], e2[j]⟩ · s)
  for the 8192 rows of e1 against the 8192 rows of e2, s the inverse temperature.

  The region runs on a 4 × 16 grid. Point t = 16·a + k holds rows 2048·a … of e1 and rows 512·k … of e2 and adds, to a
  [2048, 1] scratch column, each row's sum over the tile's 512 rows of e2 of exp(⟨e1 row, e2 row⟩ · s); the scratch is zeroed
  at k = 0 and copied to the output block at k = 15. So after point 16·a + k the scratch holds, at row p, the sum over the
  column tiles 0 … k of the tile sums of row 2048·a + p (induction on the point); at k = 15 that is the row's sum over all
  8192 = 16 · 512 rows of e2; the four blocks written back at the points 16·a + 15 cover the [8192, 1] output.

  The reference computes all 8192 × 8192 scores at once, divides them by the temperature c, exponentiates and sums along
  each row, from zero. On every extended real dividing by c is multiplying by 1 / c = s, addition is commutative and
  associative and 0 + x = x: entry r of both sides is the same sum, with no finiteness asked of the inputs.
-/
import proofs.«131157_j87900800680713_1_alg».proof.Proof.NegSumI4
import proofs.«131157_j87900800680713_1_alg».proof.Proof.HostSpell
import proofs.«131157_j87900800680713_1_alg».proof.Proof.LibKeepdims
import proofs.«131157_j87900800680713_1_alg».proof.Proof.LibDotLast
import proofs.«131157_j87900800680713_1_alg».proof.Proof.LibBlockSumN
import Idealize.ShloMosaic.Lib.Pipeline.Value
import Idealize.ShloMosaic.Lib.ValueIdx
import Idealize.ShloMosaic.Lib.Tactic
import Idealize.ShloMosaic.PureOps.Ideal.Laws
import Idealize.ShloMosaic.PureOps.IdealRules

set_option maxRecDepth 16384

noncomputable section

namespace Cert.KernelIdeal.NegSumVal4

open Cert.KernelIdeal Cert.KernelIdeal.Gen Cert.KernelIdeal.NegSum4
open Idealize.ShloMosaic Idealize.ShloMosaic.TcCoe Idealize.ShloMosaic.Tactic Idealize.ShloMosaic.ValueIdx
open Idealize.SL.Sem
open Idealize.ShloMosaic.Pipeline (Dat Cfg Window)

/-! ## What each case's stores leave, as the body's arithmetic

Every store of the body writes the whole [2048, 1] column, and every load reads a whole buffer; so what the scratch (or the
output block) holds after a point is the payload of the last store into it, over the blocks and the scratch as the point found
them. At a first point the scratch is first zeroed and the sum then added to that zero column. -/

section Pieces
variable {F : FTy → Type} [FloatOps F] [Named F]

theorem hz : (![0, 0] : Fin 2 → Nat) = fun _ => 0 := funext fun a => by fin_cases a <;> rfl

/-- A middle point leaves in the scratch the tile's partial sums added to what it held. -/
theorem scratchMid_eq (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : ¬isLast i)
    (e1 : Vec F S2048x64 .f32) (e2 : Vec F S512x64 .f32) (xs : Vec F S2048x1 .f32) :
    scratchMid c i arg2 harg2 arg3 harg3 arg4 harg4 arg5 harg5 hc0 hc1 e1 e2 xs = k4_pay2 e1 e2 xs := by
  unfold scratchMid
  rw [View.read_writes_eq_canon _ _ _ (scratch_covered_mid c i arg2 harg2 arg3 harg3 arg4 harg4 arg5 harg5 hc0 hc1 e1 e2 xs)]
  unfold runMid
  dsimp only
  sl_unfold_words
  rw [View.canon_unit_zero hz]
  simp only [View.readAt_eq_ld, harg2.read_unread, harg3.read_unread, harg5.read_unread, View.ld_unit_zero (S := S2048x64) hz, View.ld_unit_zero (S := S512x64) hz, View.ld_unit_zero (S := S2048x1) hz]

/-- A last point leaves the same in the scratch, -/
theorem scratchLast_eq (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : isLast i)
    (e1 : Vec F S2048x64 .f32) (e2 : Vec F S512x64 .f32) (xs : Vec F S2048x1 .f32) :
    scratchLast c i arg2 harg2 arg3 harg3 arg4 harg4 arg5 harg5 hc0 hc1 e1 e2 xs = k4_pay2 e1 e2 xs := by
  unfold scratchLast
  rw [View.read_writes_eq_canon _ _ _ (scratch_covered_last c i arg2 harg2 arg3 harg3 arg4 harg4 arg5 harg5 hc0 hc1 e1 e2 xs)]
  unfold runLast
  dsimp only
  sl_unfold_words
  rw [View.canon_unit_zero hz]
  simp only [View.readAt_eq_ld, harg2.read_unread, harg3.read_unread, harg5.read_unread, View.ld_unit_zero (S := S2048x64) hz, View.ld_unit_zero (S := S512x64) hz, View.ld_unit_zero (S := S2048x1) hz]

/-- and copies it to the output block: the scratch read back after the store. -/
theorem outLast_eq (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : isLast i)
    (e1 : Vec F S2048x64 .f32) (e2 : Vec F S512x64 .f32) (xs : Vec F S2048x1 .f32) :
    outLast c i arg2 harg2 arg3 harg3 arg4 harg4 arg5 harg5 hc0 hc1 e1 e2 xs = k4_pay2 e1 e2 xs := by
  unfold outLast
  rw [View.read_writes_eq_canon _ _ _ (out_covered_last c i arg2 harg2 arg3 harg3 arg4 harg4 arg5 harg5 hc0 hc1 e1 e2 xs)]
  unfold runLast
  dsimp only
  sl_unfold_words
  rw [View.canon_unit_zero hz, View.readCov_unit_zero (S := S2048x1) _ hz]
  simp only [View.readAt_eq_ld, harg2.read_unread, harg3.read_unread, harg5.read_unread, View.ld_unit_zero (S := S2048x64) hz, View.ld_unit_zero (S := S512x64) hz, View.ld_unit_zero (S := S2048x1) hz]

/-- A first point leaves in the scratch the tile's partial sums added to the zero column it has just stored there. -/
theorem scratchFirst_eq (c : Dev nD) (i : grid4.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : isFirst i) (hc1 : ¬isLast i)
    (e1 : Vec F S2048x64 .f32) (e2 : Vec F S512x64 .f32) :
    scratchFirst c i arg2 harg2 arg3 harg3 arg4 harg4 arg5 harg5 hc0 hc1 e1 e2 = k4_pay2 e1 e2 (k4_pay1 (F := F)) := by
  unfold scratchFirst
  rw [View.read_writes_eq_canon _ _ _ (scratch_covered_first c i arg2 harg2 arg3 harg3 arg4 harg4 arg5 harg5 hc0 hc1 e1 e2)]
  unfold runFirst
  dsimp only
  sl_unfold_words
  rw [View.canon_cons_unit_zero (S := S2048x1) hz, View.readCov_unit_zero (S := S2048x1) _ hz]
  simp only [View.readAt_eq_ld, harg2.read_unread, harg3.read_unread, View.ld_unit_zero (S := S2048x64) hz, View.ld_unit_zero (S := S512x64) hz, View.ld_unit_zero (S := S2048x1) hz]

end Pieces

/-! ## The mathematics, over whole arrays

For arrays e1, e2 of 8192 rows of 64 extended reals: the term of row r against row j is exp(⟨e1[r], e2[j]⟩ · s), s the
inverse temperature; a row's tile sum over column tile k is the sum of its terms against rows 512·k … 512·k + 511 of e2; the
row's negative sum is the sum of its terms against all 8192 rows. -/

section Spec

/-- The inverse temperature, as a rational. -/
abbrev invT : EReal := ((67108864 / 13421773 : ℝ) : EReal)

/-- exp(⟨e1[r], e2[j]⟩ · s). -/
def term (E1 E2 : S8192x64.Idx → EReal) (r j : Fin 8192) : EReal :=
  Ideal.exp ((∑ k : Fin 64, E1 (ix2 r k) * E2 (ix2 j k)) * invT)

/-- Row r's sum over column tile k (zero past the sixteenth tile, where there is no row of e2). -/
def tile (E1 E2 : S8192x64.Idx → EReal) (r : Fin 8192) (k : ℕ) : EReal :=
  ∑ j : Fin 512, if h : k * 512 + j.val < 8192 then term E1 E2 r ⟨k * 512 + j.val, h⟩ else 0

theorem tile_eq (E1 E2 : S8192x64.Idx → EReal) (r : Fin 8192) (k : ℕ) (hk : k < 16) :
    tile E1 E2 r k = ∑ j : Fin 512, term E1 E2 r ⟨k * 512 + j.val, by have := j.isLt; omega⟩ :=
  Finset.sum_congr rfl fun j _ => dif_pos _

/-- The sixteen tile sums of a row add up to its sum over all of e2's rows: 8192 = 16 · 512. -/
theorem sum_tiles (E1 E2 : S8192x64.Idx → EReal) (r : Fin 8192) :
    ∑ k ∈ Finset.range 16, tile E1 E2 r k = ∑ j : Fin 8192, term E1 E2 r j := by
  rw [Finset.sum_range (fun k => tile E1 E2 r k), Cert.BlockSumN.sum_blocks_of_eq 16 512 (by norm_num) (term E1 E2 r)]
  exact Finset.sum_congr rfl fun t _ => tile_eq E1 E2 r t.val t.isLt

/-- The kernel's named inverse temperature denotes that rational. -/
theorem inv_temp_eq : Named.named (F := Ideal) κ "inv_temp" (φ := .f32) 0x40A00000#32 = invT :=
  IdealRules.named_const.ideal_named_scalar _ _ _ _ rfl

theorem matmul_last2 : Cert.LibDotLast.IsLast2 dot_S2048x64_S512x64_S2048x512_1_1_0_0_n_n := ⟨rfl, rfl, rfl, rfl, rfl, rfl⟩

/-- The zero column is zero. -/
theorem pay1_apply (p : Fin 2048) (u : Fin 1) : k4_pay1 (F := Ideal) (ix2 p u) = 0 := by
  unfold k4_pay1
  exact (congrFun (shapeCast_self _ _) _).trans Ideal.ofBits_zero_f32

/-- THE BODY'S ARITHMETIC at row p of the column: what the scratch held there, plus the sum over the tile's 512 rows j of
    exp(⟨e1 block row p, e2 block row j⟩ · s). The cast to bf16 is the identity on extended reals; the product contracts both
    last axes into a zero accumulator; the lane sum of row p is kept as a column. -/
theorem pay2_apply (v3 : FVec Ideal S2048x64 .f32) (v6 : FVec Ideal S512x64 .f32) (v13 : FVec Ideal S2048x1 .f32) (p : Fin 2048) (u : Fin 1) :
    k4_pay2 (F := Ideal) v3 v6 v13 (ix2 p u)
      = v13 (ix2 p u) + ∑ j : Fin 512, Ideal.exp ((∑ k : Fin 64, v3 (ix2 p k) * v6 (ix2 j k)) * invT) := by
  unfold k4_pay2
  refine (congrFun (shapeCast_self _ _) _).trans ?_
  refine (addf_apply _ _ _).trans (congrArg (v13 (ix2 p u) + ·) ?_)
  refine (Cert.LibKeepdims.shapeCast_a_a1_apply _ _ p u).trans ?_
  refine (Cert.LibKeepdims.multiReduction_add_row _ _ _ _ _ p).trans ?_
  refine Finset.sum_congr rfl fun j _ => ?_
  refine congrArg Ideal.exp ?_
  refine (mulf_apply _ _ _).trans ?_
  refine congrArg₂ (· * ·) ?_ inv_temp_eq
  refine (Cert.LibDotLast.matmul_zero_apply _ matmul_last2 none _ _ p j).trans ?_
  refine Finset.sum_congr rfl fun k _ => ?_
  simp only [truncf_apply, shapeCast_self]

end Spec

/-! ## The blocks the body reads, and the scratch point by point -/

section Blocks
variable {F : FTy → Type} [FloatOps F] [Named F]
variable (V : (c : Dev nD) → (b : Ref sig .tc) → Buf (Elt F) ((c : Thread nD τ).loc b))

/-- The printed index maps over the grid: at point t = 16·a + k the e1 and the output windows are at block a = t / 16, the e2
    window at block k = t % 16. -/
theorem idx_facts : ∀ t : Fin cfg4.N, win4_0.index t (0 : Fin 2) = t.val / 16 ∧ win4_0.index t (1 : Fin 2) = 0
    ∧ win4_1.index t (0 : Fin 2) = t.val % 16 ∧ win4_1.index t (1 : Fin 2) = 0
    ∧ win4_2.index t (0 : Fin 2) = t.val / 16 ∧ win4_2.index t (1 : Fin 2) = 0 :=
  (by decide +kernel : ∀ t : Fin grid4.N, _)

/-- Row p of point t's e1 block is row 2048·(t / 16) + p of e1. -/
theorem e1_block (c : Dev nD) (t : Fin cfg4.N) (p : Fin 2048) (k : Fin 64) (r : Fin 8192) (hr : r.val = 2048 * (t.val / 16) + p.val) :
    (blockAt V c 0 t : Vec F S2048x64 .f32) (ix2 p k)
      = (V c (Pipeline.arrRef spec4 0) : S8192x64.Idx → Elt F .f32) (ix2 r k) := by
  obtain ⟨e0, e1, -, -, -, -⟩ := idx_facts t
  unfold blockAt
  rw [View.read_apply]
  show V c (Pipeline.arrRef spec4 0) (((cfg4.win 0).blk t).view.emb (ix2 p k)) = V c (Pipeline.arrRef spec4 0) (ix2 r k)
  congr 1
  funext a
  apply Fin.ext
  match a with
  | ⟨0, _⟩ => show win4_0.index t (0 : Fin 2) * 2048 + 1 * p.val = r.val; omega
  | ⟨1, _⟩ => show win4_0.index t (1 : Fin 2) * 64 + 1 * k.val = k.val; omega

/-- Row j of point t's e2 block is row 512·(t % 16) + j of e2. -/
theorem e2_block (c : Dev nD) (t : Fin cfg4.N) (j : Fin 512) (k : Fin 64) (r : Fin 8192) (hr : r.val = 512 * (t.val % 16) + j.val) :
    (blockAt V c 1 t : Vec F S512x64 .f32) (ix2 j k)
      = (V c (Pipeline.arrRef spec4 1) : S8192x64.Idx → Elt F .f32) (ix2 r k) := by
  obtain ⟨-, -, e0, e1, -, -⟩ := idx_facts t
  unfold blockAt
  rw [View.read_apply]
  show V c (Pipeline.arrRef spec4 1) (((cfg4.win 1).blk t).view.emb (ix2 j k)) = V c (Pipeline.arrRef spec4 1) (ix2 r k)
  congr 1
  funext a
  apply Fin.ext
  match a with
  | ⟨0, _⟩ => show win4_1.index t (0 : Fin 2) * 512 + 1 * j.val = r.val; omega
  | ⟨1, _⟩ => show win4_1.index t (1 : Fin 2) * 64 + 1 * k.val = k.val; omega

end Blocks

section Invariant
variable (V : (c : Dev nD) → (b : Ref sig .tc) → Buf (Elt Ideal) ((c : Thread nD τ).loc b))

/-- The two arrays as the region finds them. -/
abbrev E1 (c : Dev nD) : S8192x64.Idx → EReal := V c (Pipeline.arrRef spec4 0)
abbrev E2 (c : Dev nD) : S8192x64.Idx → EReal := V c (Pipeline.arrRef spec4 1)

/-- The body's arithmetic at point t, over the point's blocks: at row p of the column, what the scratch held there plus the
    tile sum, over column tile t % 16, of row 2048·(t / 16) + p. -/
theorem pay2_at (c : Dev nD) (t : Fin cfg4.N) (xs : Vec Ideal S2048x1 .f32) (p : Fin 2048) (r : Fin 8192)
    (hr : r.val = 2048 * (t.val / 16) + p.val) :
    k4_pay2 (F := Ideal) (blockAt V c 0 t) (blockAt V c 1 t) xs (ix2 p (0 : Fin 1))
      = xs (ix2 p (0 : Fin 1)) + tile (E1 V c) (E2 V c) r (t.val % 16) := by
  refine (pay2_apply (blockAt V c 0 t) (blockAt V c 1 t) xs p 0).trans ?_
  rw [tile_eq _ _ _ _ (Nat.mod_lt _ (by norm_num))]
  refine congrArg (xs (ix2 p (0 : Fin 1)) + ·) (Finset.sum_congr rfl fun j _ => ?_)
  unfold term
  refine congrArg (fun x => Ideal.exp (x * invT)) (Finset.sum_congr rfl fun k _ => ?_)
  exact congrArg₂ (· * ·) (e1_block V c t p k r hr)
    (e2_block V c t j k ⟨t.val % 16 * 512 + j.val, by have := j.isLt; omega⟩ (by show t.val % 16 * 512 + j.val = 512 * (t.val % 16) + j.val; omega))

/-- A first point leaves in the scratch, at row p, zero plus the row's first tile sum. -/
theorem scratch_first (c : Dev nD) (t : Fin cfg4.N) (h0 : t.val % 16 = 0) (p : Fin 2048) (r : Fin 8192)
    (hr : r.val = 2048 * (t.val / 16) + p.val) :
    (outsAt V c t.val t.isLt).2 (ix2 p (0 : Fin 1)) = 0 + tile (E1 V c) (E2 V c) r 0 := by
  have h1 : ¬t.val % 16 = 15 := by omega
  rw [outsAt_first V c t h0 h1]
  dsimp only
  refine (congrFun (scratchFirst_eq (F := Ideal) c (grid4.coords t) (m_e1 t) (h_e1 t) (m_e2 t) (h_e2 t) (m_out t) (h_out t) scratch (Memref.isWhole_whole _) _ _ (blockAt V c 0 t) (blockAt V c 1 t)) (ix2 p (0 : Fin 1))).trans ?_
  refine (pay2_at V c t _ p r hr).trans ?_
  rw [pay1_apply, h0]

/-- Every other point adds, at row p, the row's tile sum over the point's column tile to what the point before left. -/
theorem scratch_step (c : Dev nD) (t : Fin cfg4.N) (h0 : ¬t.val % 16 = 0) (p : Fin 2048) (r : Fin 8192)
    (hr : r.val = 2048 * (t.val / 16) + p.val) :
    (outsAt V c t.val t.isLt).2 (ix2 p (0 : Fin 1))
      = (outsAt V c (t.val - 1) (Nat.lt_of_le_of_lt (Nat.sub_le _ _) t.isLt)).2 (ix2 p (0 : Fin 1)) + tile (E1 V c) (E2 V c) r (t.val % 16) := by
  by_cases h1 : t.val % 16 = 15
  · rw [outsAt_last V c t h0 h1]
    dsimp only
    refine (congrFun (scratchLast_eq (F := Ideal) c (grid4.coords t) (m_e1 t) (h_e1 t) (m_e2 t) (h_e2 t) (m_out t) (h_out t) scratch (Memref.isWhole_whole _) _ _ (blockAt V c 0 t) (blockAt V c 1 t) _) (ix2 p (0 : Fin 1))).trans ?_
    exact pay2_at V c t _ p r hr
  · rw [outsAt_mid V c t h0 h1]
    dsimp only
    refine (congrFun (scratchMid_eq (F := Ideal) c (grid4.coords t) (m_e1 t) (h_e1 t) (m_e2 t) (h_e2 t) (m_out t) (h_out t) scratch (Memref.isWhole_whole _) _ _ (blockAt V c 0 t) (blockAt V c 1 t) _) (ix2 p (0 : Fin 1))).trans ?_
    exact pay2_at V c t _ p r hr

/-- THE ACCUMULATION: after point n = 16·a + k the scratch holds, at row p, the sum of the tile sums of row 2048·a + p over the
    column tiles 0 … k. By induction on the point: a first point starts the sum from zero, every other adds its tile. -/
theorem scratch_eq (c : Dev nD) : ∀ (n : ℕ) (hn : n < cfg4.N) (p : Fin 2048) (r : Fin 8192), r.val = 2048 * (n / 16) + p.val →
    (outsAt V c n hn).2 (ix2 p (0 : Fin 1)) = ∑ k ∈ Finset.range (n % 16 + 1), tile (E1 V c) (E2 V c) r k := by
  intro n
  induction n with
  | zero =>
    intro hn p r hr
    refine (scratch_first V c ⟨0, hn⟩ (Nat.zero_mod _) p r hr).trans ?_
    rw [zero_add, Nat.zero_mod, Finset.sum_range_one]
  | succ n ih =>
    intro hn p r hr
    by_cases h0 : (n + 1) % 16 = 0
    · refine (scratch_first V c ⟨n + 1, hn⟩ h0 p r hr).trans ?_
      rw [zero_add, h0, Finset.sum_range_one]
    · refine (scratch_step V c ⟨n + 1, hn⟩ h0 p r hr).trans ?_
      show (outsAt V c n _).2 _ + _ = _
      rw [ih _ p r (by omega)]
      have e : (n + 1) % 16 = n % 16 + 1 := by omega
      rw [e, Finset.sum_range_succ _ (n % 16 + 1)]

/-- At a last point the output block is the scratch: at row p, the row's sum over all 8192 rows of e2. -/
theorem out_last (c : Dev nD) (t : Fin cfg4.N) (h15 : t.val % 16 = 15) (p : Fin 2048) (r : Fin 8192)
    (hr : r.val = 2048 * (t.val / 16) + p.val) :
    (outsAt V c t.val t.isLt).1 (ix2 p (0 : Fin 1)) = ∑ j : Fin 8192, term (E1 V c) (E2 V c) r j := by
  have h0 : ¬t.val % 16 = 0 := by omega
  have e : (outsAt V c t.val t.isLt).1 = (outsAt V c t.val t.isLt).2 := by
    rw [outsAt_last V c t h0 h15]
    dsimp only
    exact (outLast_eq (F := Ideal) c (grid4.coords t) (m_e1 t) (h_e1 t) (m_e2 t) (h_e2 t) (m_out t) (h_out t) scratch (Memref.isWhole_whole _) _ _ (blockAt V c 0 t) (blockAt V c 1 t) _).trans (scratchLast_eq (F := Ideal) c (grid4.coords t) (m_e1 t) (h_e1 t) (m_e2 t) (h_e2 t) (m_out t) (h_out t) scratch (Memref.isWhole_whole _) _ _ (blockAt V c 0 t) (blockAt V c 1 t) _).symm
  rw [e, scratch_eq V c t.val t.isLt p r hr, h15]
  exact sum_tiles _ _ r

end Invariant

/-! ## From blocks to the array, and the reference -/

section Final
variable (V : (c : Dev nD) → (b : Ref sig .tc) → Buf (Elt Ideal) ((c : Thread nD τ).loc b))

/-- The negative sums as a column: entry (r, 0) is row r's sum over all of e2's rows. -/
def negCol (E1 E2 : S8192x64.Idx → EReal) : S8192x1.Idx → EReal :=
  fun i => ∑ j : Fin 8192, term E1 E2 ⟨(i 0).val, idx2_lt0 i⟩ j

/-- WHAT A LAST POINT WRITES BACK is its block of that column: block a of the output holds rows 2048·a … of it. -/
theorem flushed_eq (c : Dev nD) (t : Fin cfg4.N) (hf : (cfg4.win 2).flush t = true) :
    (dat V c).flushed 2 t = ((cfg4.win 2).blk t).view.read (Elt Ideal) (negCol (E1 V c) (E2 V c)) := by
  have h15 : t.val % 16 = 15 := (flush4_2 t).mp hf
  have hN : t.val < 64 := lt_of_lt_of_eq t.isLt (show cfg4.N = 64 from N_4)
  obtain ⟨-, -, -, -, i0, i1⟩ := idx_facts t
  show (cfg4.win 2).cut (grid4.coords t) ((dat V c).after 2 t) = _
  rw [dat_after_out]
  funext y
  obtain ⟨p, u, rfl⟩ : ∃ (p : Fin 2048) (u : Fin 1), y = ix2 p u := ⟨y 0, y 1, eq_ix2 y⟩
  obtain rfl : u = 0 := Fin.ext (by omega)
  rw [View.read_apply]
  show (outsAt V c t.val t.isLt).1 (ix2 p (0 : Fin 1)) = negCol (E1 V c) (E2 V c) (((cfg4.win 2).blk t).view.emb (ix2 p (0 : Fin 1)))
  refine (out_last V c t h15 p ⟨2048 * (t.val / 16) + p.val, by have := p.isLt; omega⟩ rfl).trans ?_
  unfold negCol
  refine Finset.sum_congr rfl fun j _ => congrArg (fun r => term _ _ r j) (Fin.ext ?_)
  show 2048 * (t.val / 16) + p.val = win4_2.index t (0 : Fin 2) * 2048 + 1 * p.val
  omega

/-- Every row of the [8192, 1] output is in the block of the last point of its row of the grid. -/
theorem covered (i : S8192x1.Idx) : ∃ t : Fin cfg4.N, (cfg4.win 2).flush t = true ∧ i ∈ ((cfg4.win 2).blk t).view.set := by
  have hi0 : (i 0).val < 8192 := idx2_lt0 i
  have hi1 : (i 1).val < 1 := idx2_lt1 i
  have hN : cfg4.N = 64 := N_4
  obtain ⟨t, ht⟩ : ∃ t : Fin cfg4.N, t.val = 16 * ((i 0).val / 2048) + 15 := ⟨⟨_, by rw [hN]; omega⟩, rfl⟩
  obtain ⟨-, -, -, -, e0, e1⟩ := idx_facts t
  refine ⟨t, (flush4_2 t).mpr (by omega), ?_⟩
  show i ∈ ((View.whole main_v239).slice (win4_2.rect t)).set
  rw [View.set_slice_whole, Rect.mem_set_unit]
  intro a
  match a with
  | ⟨0, _⟩ =>
    show win4_2.index t (0 : Fin 2) * 2048 ≤ (i 0).val ∧ (i 0).val < win4_2.index t (0 : Fin 2) * 2048 + 2048
    omega
  | ⟨1, _⟩ =>
    show win4_2.index t (1 : Fin 2) * 1 ≤ (i 1).val ∧ (i 1).val < win4_2.index t (1 : Fin 2) * 1 + 1
    omega

/-- So the output array ends holding the column of negative sums. -/
theorem arr_eq (c : Dev nD) : (dat V c).arrAt 2 cfg4.N = negCol (E1 V c) (E2 V c) :=
  (dat V c).arrAt_eq_of_cover 2 (negCol (E1 V c) (E2 V c)) (flushed_eq V c) covered

/-- The reference's temperature denotes the rational 13421773 / 67108864, the reciprocal of the inverse temperature. -/
theorem temp_eq : Ideal.ofBits .f32 0x3E4CCCCD#32 = ((13421773 / 67108864 : ℝ) : EReal) := by
  simp [Ideal.ofBits, Ideal.ieee, -EReal.coe_mul]; norm_num

theorem host_last2 : Cert.LibDotLast.IsLast2 Cert.ReferenceIdeal.dot_S8192x64_S8192x64_S8192x8192_1_1_0_0_n_n :=
  ⟨rfl, rfl, rfl, rfl, rfl, rfl⟩

/-- THE REFERENCE at row r: zero plus the sum over all rows j of e2 of exp(⟨e1[r], e2[j]⟩ / c); dividing by the temperature c is
    multiplying by its reciprocal on every extended real. -/
theorem negHost_apply (e1 e2 : FVec Ideal S8192x64 .f32) (r : Fin 8192) :
    Cert.Proof.Parts.negHost e1 e2 (ix1 r) = ∑ j : Fin 8192, term e1 e2 r j := by
  unfold Cert.Proof.Parts.negHost
  refine (Cert.LibKeepdims.hostReduceAdd_row _ (by decide) _ _ r).trans ?_
  refine (congrArg (· + _) Ideal.ofBits_zero_f32).trans ((zero_add _).trans ?_)
  refine Finset.sum_congr rfl fun j _ => ?_
  show Ideal.exp (Ideal.div (FloatOps.dotGeneral Cert.ReferenceIdeal.dot_S8192x64_S8192x64_S8192x8192_1_1_0_0_n_n none .single e1 e2 (ix2 r j)) (Ideal.ofBits .f32 0x3E4CCCCD#32)) = term e1 e2 r j
  rw [temp_eq, Ideal.div_coe (by norm_num), Ideal.dotGeneral_apply,
    Cert.LibDotLast.sum_contr2 _ host_last2 (fun a b => e1 a * e2 b) (ix2 r j)]
  unfold term
  refine congrArg (fun s : ℝ => Ideal.exp ((∑ k : Fin 64, e1 (ix2 r k) * e2 (ix2 j k)) * (s : EReal))) ?_
  norm_num

/-- An [a, 1] column read as an [a] vector reads, at r, the column at (r, 0). -/
theorem shapeCast_col (x : S8192x1.Idx → EReal) (r : Fin 8192) :
    shapeCast S8192 x shapeCasts_S8192x1_S8192 (ix1 r) = x (ix2 r (0 : Fin 1)) :=
  shapeCast_apply x shapeCasts_S8192x1_S8192 (ix1 r) (ix2 r (0 : Fin 1)) (by
    rw [Shape.rowMajor_val_two, Shape.rowMajor_val_one]
    show r.val * 1 + 0 = r.val
    omega)

/-- THE REGION'S RESULT: the output array, read as an [8192] vector, is the reference's negative sum of the two arrays the
    region finds. Entry r of both is the sum over the 8192 rows j of e2 of exp(⟨e1[r], e2[j]⟩ · s). -/
theorem final_eq (c : Dev nD) :
    shapeCast S8192 ((dat (F := Ideal) V c).arrAt 2 cfg4.N : S8192x1.Idx → EReal) shapeCasts_S8192x1_S8192
      = Cert.Proof.Parts.negHost (V c (Pipeline.arrRef spec4 0)) (V c (Pipeline.arrRef spec4 1)) := by
  funext i
  obtain ⟨r, rfl⟩ : ∃ r : Fin 8192, i = ix1 r := ⟨i 0, eq_ix1 i⟩
  refine (shapeCast_col _ r).trans ?_
  rw [arr_eq V c]
  exact (negHost_apply _ _ r).symm

end Final

end Cert.KernelIdeal.NegSumVal4

end
-- ==== Proof.NegSumValI5.lean ====
/-
  The value of one negative-sum region of the kernel program, over the extended reals:  neg[r] = Σ_j exp(⟨e1[r], e2[j]⟩ · s)
  for the 8192 rows of e1 against the 8192 rows of e2, s the inverse temperature.

  The region runs on a 4 × 16 grid. Point t = 16·a + k holds rows 2048·a … of e1 and rows 512·k … of e2 and adds, to a
  [2048, 1] scratch column, each row's sum over the tile's 512 rows of e2 of exp(⟨e1 row, e2 row⟩ · s); the scratch is zeroed
  at k = 0 and copied to the output block at k = 15. So after point 16·a + k the scratch holds, at row p, the sum over the
  column tiles 0 … k of the tile sums of row 2048·a + p (induction on the point); at k = 15 that is the row's sum over all
  8192 = 16 · 512 rows of e2; the four blocks written back at the points 16·a + 15 cover the [8192, 1] output.

  The reference computes all 8192 × 8192 scores at once, divides them by the temperature c, exponentiates and sums along
  each row, from zero. On every extended real dividing by c is multiplying by 1 / c = s, addition is commutative and
  associative and 0 + x = x: entry r of both sides is the same sum, with no finiteness asked of the inputs.
-/
import proofs.«131157_j87900800680713_1_alg».proof.Proof.NegSumI5
import proofs.«131157_j87900800680713_1_alg».proof.Proof.HostSpell
import proofs.«131157_j87900800680713_1_alg».proof.Proof.LibKeepdims
import proofs.«131157_j87900800680713_1_alg».proof.Proof.LibDotLast
import proofs.«131157_j87900800680713_1_alg».proof.Proof.LibBlockSumN
import Idealize.ShloMosaic.Lib.Pipeline.Value
import Idealize.ShloMosaic.Lib.ValueIdx
import Idealize.ShloMosaic.Lib.Tactic
import Idealize.ShloMosaic.PureOps.Ideal.Laws
import Idealize.ShloMosaic.PureOps.IdealRules

set_option maxRecDepth 16384

noncomputable section

namespace Cert.KernelIdeal.NegSumVal5

open Cert.KernelIdeal Cert.KernelIdeal.Gen Cert.KernelIdeal.NegSum5
open Idealize.ShloMosaic Idealize.ShloMosaic.TcCoe Idealize.ShloMosaic.Tactic Idealize.ShloMosaic.ValueIdx
open Idealize.SL.Sem
open Idealize.ShloMosaic.Pipeline (Dat Cfg Window)

/-! ## What each case's stores leave, as the body's arithmetic

Every store of the body writes the whole [2048, 1] column, and every load reads a whole buffer; so what the scratch (or the
output block) holds after a point is the payload of the last store into it, over the blocks and the scratch as the point found
them. At a first point the scratch is first zeroed and the sum then added to that zero column. -/

section Pieces
variable {F : FTy → Type} [FloatOps F] [Named F]

theorem hz : (![0, 0] : Fin 2 → Nat) = fun _ => 0 := funext fun a => by fin_cases a <;> rfl

/-- A middle point leaves in the scratch the tile's partial sums added to what it held. -/
theorem scratchMid_eq (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : ¬isLast i)
    (e1 : Vec F S2048x64 .f32) (e2 : Vec F S512x64 .f32) (xs : Vec F S2048x1 .f32) :
    scratchMid c i arg2 harg2 arg3 harg3 arg4 harg4 arg5 harg5 hc0 hc1 e1 e2 xs = k5_pay2 e1 e2 xs := by
  unfold scratchMid
  rw [View.read_writes_eq_canon _ _ _ (scratch_covered_mid c i arg2 harg2 arg3 harg3 arg4 harg4 arg5 harg5 hc0 hc1 e1 e2 xs)]
  unfold runMid
  dsimp only
  sl_unfold_words
  rw [View.canon_unit_zero hz]
  simp only [View.readAt_eq_ld, harg2.read_unread, harg3.read_unread, harg5.read_unread, View.ld_unit_zero (S := S2048x64) hz, View.ld_unit_zero (S := S512x64) hz, View.ld_unit_zero (S := S2048x1) hz]

/-- A last point leaves the same in the scratch, -/
theorem scratchLast_eq (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : isLast i)
    (e1 : Vec F S2048x64 .f32) (e2 : Vec F S512x64 .f32) (xs : Vec F S2048x1 .f32) :
    scratchLast c i arg2 harg2 arg3 harg3 arg4 harg4 arg5 harg5 hc0 hc1 e1 e2 xs = k5_pay2 e1 e2 xs := by
  unfold scratchLast
  rw [View.read_writes_eq_canon _ _ _ (scratch_covered_last c i arg2 harg2 arg3 harg3 arg4 harg4 arg5 harg5 hc0 hc1 e1 e2 xs)]
  unfold runLast
  dsimp only
  sl_unfold_words
  rw [View.canon_unit_zero hz]
  simp only [View.readAt_eq_ld, harg2.read_unread, harg3.read_unread, harg5.read_unread, View.ld_unit_zero (S := S2048x64) hz, View.ld_unit_zero (S := S512x64) hz, View.ld_unit_zero (S := S2048x1) hz]

/-- and copies it to the output block: the scratch read back after the store. -/
theorem outLast_eq (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : ¬isFirst i) (hc1 : isLast i)
    (e1 : Vec F S2048x64 .f32) (e2 : Vec F S512x64 .f32) (xs : Vec F S2048x1 .f32) :
    outLast c i arg2 harg2 arg3 harg3 arg4 harg4 arg5 harg5 hc0 hc1 e1 e2 xs = k5_pay2 e1 e2 xs := by
  unfold outLast
  rw [View.read_writes_eq_canon _ _ _ (out_covered_last c i arg2 harg2 arg3 harg3 arg4 harg4 arg5 harg5 hc0 hc1 e1 e2 xs)]
  unfold runLast
  dsimp only
  sl_unfold_words
  rw [View.canon_unit_zero hz, View.readCov_unit_zero (S := S2048x1) _ hz]
  simp only [View.readAt_eq_ld, harg2.read_unread, harg3.read_unread, harg5.read_unread, View.ld_unit_zero (S := S2048x64) hz, View.ld_unit_zero (S := S512x64) hz, View.ld_unit_zero (S := S2048x1) hz]

/-- A first point leaves in the scratch the tile's partial sums added to the zero column it has just stored there. -/
theorem scratchFirst_eq (c : Dev nD) (i : grid5.Coords) (arg2 : Memref sig .tc .vmem S2048x64 .f32) (harg2 : arg2.IsWhole) (arg3 : Memref sig .tc .vmem S512x64 .f32) (harg3 : arg3.IsWhole) (arg4 : Memref sig .tc .vmem S2048x1 .f32) (harg4 : arg4.IsWhole) (arg5 : Memref sig .tc .vmem S2048x1 .f32) (harg5 : arg5.IsWhole) (hc0 : isFirst i) (hc1 : ¬isLast i)
    (e1 : Vec F S2048x64 .f32) (e2 : Vec F S512x64 .f32) :
    scratchFirst c i arg2 harg2 arg3 harg3 arg4 harg4 arg5 harg5 hc0 hc1 e1 e2 = k5_pay2 e1 e2 (k5_pay1 (F := F)) := by
  unfold scratchFirst
  rw [View.read_writes_eq_canon _ _ _ (scratch_covered_first c i arg2 harg2 arg3 harg3 arg4 harg4 arg5 harg5 hc0 hc1 e1 e2)]
  unfold runFirst
  dsimp only
  sl_unfold_words
  rw [View.canon_cons_unit_zero (S := S2048x1) hz, View.readCov_unit_zero (S := S2048x1) _ hz]
  simp only [View.readAt_eq_ld, harg2.read_unread, harg3.read_unread, View.ld_unit_zero (S := S2048x64) hz, View.ld_unit_zero (S := S512x64) hz, View.ld_unit_zero (S := S2048x1) hz]

end Pieces

/-! ## The mathematics, over whole arrays

For arrays e1, e2 of 8192 rows of 64 extended reals: the term of row r against row j is exp(⟨e1[r], e2[j]⟩ · s), s the
inverse temperature; a row's tile sum over column tile k is the sum of its terms against rows 512·k … 512·k + 511 of e2; the
row's negative sum is the sum of its terms against all 8192 rows. -/

section Spec

/-- The inverse temperature, as a rational. -/
abbrev invT : EReal := ((67108864 / 13421773 : ℝ) : EReal)

/-- exp(⟨e1[r], e2[j]⟩ · s). -/
def term (E1 E2 : S8192x64.Idx → EReal) (r j : Fin 8192) : EReal :=
  Ideal.exp ((∑ k : Fin 64, E1 (ix2 r k) * E2 (ix2 j k)) * invT)

/-- Row r's sum over column tile k (zero past the sixteenth tile, where there is no row of e2). -/
def tile (E1 E2 : S8192x64.Idx → EReal) (r : Fin 8192) (k : ℕ) : EReal :=
  ∑ j : Fin 512, if h : k * 512 + j.val < 8192 then term E1 E2 r ⟨k * 512 + j.val, h⟩ else 0

theorem tile_eq (E1 E2 : S8192x64.Idx → EReal) (r : Fin 8192) (k : ℕ) (hk : k < 16) :
    tile E1 E2 r k = ∑ j : Fin 512, term E1 E2 r ⟨k * 512 + j.val, by have := j.isLt; omega⟩ :=
  Finset.sum_congr rfl fun j _ => dif_pos _

/-- The sixteen tile sums of a row add up to its sum over all of e2's rows: 8192 = 16 · 512. -/
theorem sum_tiles (E1 E2 : S8192x64.Idx → EReal) (r : Fin 8192) :
    ∑ k ∈ Finset.range 16, tile E1 E2 r k = ∑ j : Fin 8192, term E1 E2 r j := by
  rw [Finset.sum_range (fun k => tile E1 E2 r k), Cert.BlockSumN.sum_blocks_of_eq 16 512 (by norm_num) (term E1 E2 r)]
  exact Finset.sum_congr rfl fun t _ => tile_eq E1 E2 r t.val t.isLt

/-- The kernel's named inverse temperature denotes that rational. -/
theorem inv_temp_eq : Named.named (F := Ideal) κ "inv_temp" (φ := .f32) 0x40A00000#32 = invT :=
  IdealRules.named_const.ideal_named_scalar _ _ _ _ rfl

theorem matmul_last2 : Cert.LibDotLast.IsLast2 dot_S2048x64_S512x64_S2048x512_1_1_0_0_n_n := ⟨rfl, rfl, rfl, rfl, rfl, rfl⟩

/-- The zero column is zero. -/
theorem pay1_apply (p : Fin 2048) (u : Fin 1) : k5_pay1 (F := Ideal) (ix2 p u) = 0 := by
  unfold k5_pay1
  exact (congrFun (shapeCast_self _ _) _).trans Ideal.ofBits_zero_f32

/-- THE BODY'S ARITHMETIC at row p of the column: what the scratch held there, plus the sum over the tile's 512 rows j of
    exp(⟨e1 block row p, e2 block row j⟩ · s). The cast to bf16 is the identity on extended reals; the product contracts both
    last axes into a zero accumulator; the lane sum of row p is kept as a column. -/
theorem pay2_apply (v3 : FVec Ideal S2048x64 .f32) (v6 : FVec Ideal S512x64 .f32) (v13 : FVec Ideal S2048x1 .f32) (p : Fin 2048) (u : Fin 1) :
    k5_pay2 (F := Ideal) v3 v6 v13 (ix2 p u)
      = v13 (ix2 p u) + ∑ j : Fin 512, Ideal.exp ((∑ k : Fin 64, v3 (ix2 p k) * v6 (ix2 j k)) * invT) := by
  unfold k5_pay2
  refine (congrFun (shapeCast_self _ _) _).trans ?_
  refine (addf_apply _ _ _).trans (congrArg (v13 (ix2 p u) + ·) ?_)
  refine (Cert.LibKeepdims.shapeCast_a_a1_apply _ _ p u).trans ?_
  refine (Cert.LibKeepdims.multiReduction_add_row _ _ _ _ _ p).trans ?_
  refine Finset.sum_congr rfl fun j _ => ?_
  refine congrArg Ideal.exp ?_
  refine (mulf_apply _ _ _).trans ?_
  refine congrArg₂ (· * ·) ?_ inv_temp_eq
  refine (Cert.LibDotLast.matmul_zero_apply _ matmul_last2 none _ _ p j).trans ?_
  refine Finset.sum_congr rfl fun k _ => ?_
  simp only [truncf_apply, shapeCast_self]

end Spec

/-! ## The blocks the body reads, and the scratch point by point -/

section Blocks
variable {F : FTy → Type} [FloatOps F] [Named F]
variable (V : (c : Dev nD) → (b : Ref sig .tc) → Buf (Elt F) ((c : Thread nD τ).loc b))

/-- The printed index maps over the grid: at point t = 16·a + k the e1 and the output windows are at block a = t / 16, the e2
    window at block k = t % 16. -/
theorem idx_facts : ∀ t : Fin cfg5.N, win5_0.index t (0 : Fin 2) = t.val / 16 ∧ win5_0.index t (1 : Fin 2) = 0
    ∧ win5_1.index t (0 : Fin 2) = t.val % 16 ∧ win5_1.index t (1 : Fin 2) = 0
    ∧ win5_2.index t (0 : Fin 2) = t.val / 16 ∧ win5_2.index t (1 : Fin 2) = 0 :=
  (by decide +kernel : ∀ t : Fin grid5.N, _)

/-- Row p of point t's e1 block is row 2048·(t / 16) + p of e1. -/
theorem e1_block (c : Dev nD) (t : Fin cfg5.N) (p : Fin 2048) (k : Fin 64) (r : Fin 8192) (hr : r.val = 2048 * (t.val / 16) + p.val) :
    (blockAt V c 0 t : Vec F S2048x64 .f32) (ix2 p k)
      = (V c (Pipeline.arrRef spec5 0) : S8192x64.Idx → Elt F .f32) (ix2 r k) := by
  obtain ⟨e0, e1, -, -, -, -⟩ := idx_facts t
  unfold blockAt
  rw [View.read_apply]
  show V c (Pipeline.arrRef spec5 0) (((cfg5.win 0).blk t).view.emb (ix2 p k)) = V c (Pipeline.arrRef spec5 0) (ix2 r k)
  congr 1
  funext a
  apply Fin.ext
  match a with
  | ⟨0, _⟩ => show win5_0.index t (0 : Fin 2) * 2048 + 1 * p.val = r.val; omega
  | ⟨1, _⟩ => show win5_0.index t (1 : Fin 2) * 64 + 1 * k.val = k.val; omega

/-- Row j of point t's e2 block is row 512·(t % 16) + j of e2. -/
theorem e2_block (c : Dev nD) (t : Fin cfg5.N) (j : Fin 512) (k : Fin 64) (r : Fin 8192) (hr : r.val = 512 * (t.val % 16) + j.val) :
    (blockAt V c 1 t : Vec F S512x64 .f32) (ix2 j k)
      = (V c (Pipeline.arrRef spec5 1) : S8192x64.Idx → Elt F .f32) (ix2 r k) := by
  obtain ⟨-, -, e0, e1, -, -⟩ := idx_facts t
  unfold blockAt
  rw [View.read_apply]
  show V c (Pipeline.arrRef spec5 1) (((cfg5.win 1).blk t).view.emb (ix2 j k)) = V c (Pipeline.arrRef spec5 1) (ix2 r k)
  congr 1
  funext a
  apply Fin.ext
  match a with
  | ⟨0, _⟩ => show win5_1.index t (0 : Fin 2) * 512 + 1 * j.val = r.val; omega
  | ⟨1, _⟩ => show win5_1.index t (1 : Fin 2) * 64 + 1 * k.val = k.val; omega

end Blocks

section Invariant
variable (V : (c : Dev nD) → (b : Ref sig .tc) → Buf (Elt Ideal) ((c : Thread nD τ).loc b))

/-- The two arrays as the region finds them. -/
abbrev E1 (c : Dev nD) : S8192x64.Idx → EReal := V c (Pipeline.arrRef spec5 0)
abbrev E2 (c : Dev nD) : S8192x64.Idx → EReal := V c (Pipeline.arrRef spec5 1)

/-- The body's arithmetic at point t, over the point's blocks: at row p of the column, what the scratch held there plus the
    tile sum, over column tile t % 16, of row 2048·(t / 16) + p. -/
theorem pay2_at (c : Dev nD) (t : Fin cfg5.N) (xs : Vec Ideal S2048x1 .f32) (p : Fin 2048) (r : Fin 8192)
    (hr : r.val = 2048 * (t.val / 16) + p.val) :
    k5_pay2 (F := Ideal) (blockAt V c 0 t) (blockAt V c 1 t) xs (ix2 p (0 : Fin 1))
      = xs (ix2 p (0 : Fin 1)) + tile (E1 V c) (E2 V c) r (t.val % 16) := by
  refine (pay2_apply (blockAt V c 0 t) (blockAt V c 1 t) xs p 0).trans ?_
  rw [tile_eq _ _ _ _ (Nat.mod_lt _ (by norm_num))]
  refine congrArg (xs (ix2 p (0 : Fin 1)) + ·) (Finset.sum_congr rfl fun j _ => ?_)
  unfold term
  refine congrArg (fun x => Ideal.exp (x * invT)) (Finset.sum_congr rfl fun k _ => ?_)
  exact congrArg₂ (· * ·) (e1_block V c t p k r hr)
    (e2_block V c t j k ⟨t.val % 16 * 512 + j.val, by have := j.isLt; omega⟩ (by show t.val % 16 * 512 + j.val = 512 * (t.val % 16) + j.val; omega))

/-- A first point leaves in the scratch, at row p, zero plus the row's first tile sum. -/
theorem scratch_first (c : Dev nD) (t : Fin cfg5.N) (h0 : t.val % 16 = 0) (p : Fin 2048) (r : Fin 8192)
    (hr : r.val = 2048 * (t.val / 16) + p.val) :
    (outsAt V c t.val t.isLt).2 (ix2 p (0 : Fin 1)) = 0 + tile (E1 V c) (E2 V c) r 0 := by
  have h1 : ¬t.val % 16 = 15 := by omega
  rw [outsAt_first V c t h0 h1]
  dsimp only
  refine (congrFun (scratchFirst_eq (F := Ideal) c (grid5.coords t) (m_e1 t) (h_e1 t) (m_e2 t) (h_e2 t) (m_out t) (h_out t) scratch (Memref.isWhole_whole _) _ _ (blockAt V c 0 t) (blockAt V c 1 t)) (ix2 p (0 : Fin 1))).trans ?_
  refine (pay2_at V c t _ p r hr).trans ?_
  rw [pay1_apply, h0]

/-- Every other point adds, at row p, the row's tile sum over the point's column tile to what the point before left. -/
theorem scratch_step (c : Dev nD) (t : Fin cfg5.N) (h0 : ¬t.val % 16 = 0) (p : Fin 2048) (r : Fin 8192)
    (hr : r.val = 2048 * (t.val / 16) + p.val) :
    (outsAt V c t.val t.isLt).2 (ix2 p (0 : Fin 1))
      = (outsAt V c (t.val - 1) (Nat.lt_of_le_of_lt (Nat.sub_le _ _) t.isLt)).2 (ix2 p (0 : Fin 1)) + tile (E1 V c) (E2 V c) r (t.val % 16) := by
  by_cases h1 : t.val % 16 = 15
  · rw [outsAt_last V c t h0 h1]
    dsimp only
    refine (congrFun (scratchLast_eq (F := Ideal) c (grid5.coords t) (m_e1 t) (h_e1 t) (m_e2 t) (h_e2 t) (m_out t) (h_out t) scratch (Memref.isWhole_whole _) _ _ (blockAt V c 0 t) (blockAt V c 1 t) _) (ix2 p (0 : Fin 1))).trans ?_
    exact pay2_at V c t _ p r hr
  · rw [outsAt_mid V c t h0 h1]
    dsimp only
    refine (congrFun (scratchMid_eq (F := Ideal) c (grid5.coords t) (m_e1 t) (h_e1 t) (m_e2 t) (h_e2 t) (m_out t) (h_out t) scratch (Memref.isWhole_whole _) _ _ (blockAt V c 0 t) (blockAt V c 1 t) _) (ix2 p (0 : Fin 1))).trans ?_
    exact pay2_at V c t _ p r hr

/-- THE ACCUMULATION: after point n = 16·a + k the scratch holds, at row p, the sum of the tile sums of row 2048·a + p over the
    column tiles 0 … k. By induction on the point: a first point starts the sum from zero, every other adds its tile. -/
theorem scratch_eq (c : Dev nD) : ∀ (n : ℕ) (hn : n < cfg5.N) (p : Fin 2048) (r : Fin 8192), r.val = 2048 * (n / 16) + p.val →
    (outsAt V c n hn).2 (ix2 p (0 : Fin 1)) = ∑ k ∈ Finset.range (n % 16 + 1), tile (E1 V c) (E2 V c) r k := by
  intro n
  induction n with
  | zero =>
    intro hn p r hr
    refine (scratch_first V c ⟨0, hn⟩ (Nat.zero_mod _) p r hr).trans ?_
    rw [zero_add, Nat.zero_mod, Finset.sum_range_one]
  | succ n ih =>
    intro hn p r hr
    by_cases h0 : (n + 1) % 16 = 0
    · refine (scratch_first V c ⟨n + 1, hn⟩ h0 p r hr).trans ?_
      rw [zero_add, h0, Finset.sum_range_one]
    · refine (scratch_step V c ⟨n + 1, hn⟩ h0 p r hr).trans ?_
      show (outsAt V c n _).2 _ + _ = _
      rw [ih _ p r (by omega)]
      have e : (n + 1) % 16 = n % 16 + 1 := by omega
      rw [e, Finset.sum_range_succ _ (n % 16 + 1)]

/-- At a last point the output block is the scratch: at row p, the row's sum over all 8192 rows of e2. -/
theorem out_last (c : Dev nD) (t : Fin cfg5.N) (h15 : t.val % 16 = 15) (p : Fin 2048) (r : Fin 8192)
    (hr : r.val = 2048 * (t.val / 16) + p.val) :
    (outsAt V c t.val t.isLt).1 (ix2 p (0 : Fin 1)) = ∑ j : Fin 8192, term (E1 V c) (E2 V c) r j := by
  have h0 : ¬t.val % 16 = 0 := by omega
  have e : (outsAt V c t.val t.isLt).1 = (outsAt V c t.val t.isLt).2 := by
    rw [outsAt_last V c t h0 h15]
    dsimp only
    exact (outLast_eq (F := Ideal) c (grid5.coords t) (m_e1 t) (h_e1 t) (m_e2 t) (h_e2 t) (m_out t) (h_out t) scratch (Memref.isWhole_whole _) _ _ (blockAt V c 0 t) (blockAt V c 1 t) _).trans (scratchLast_eq (F := Ideal) c (grid5.coords t) (m_e1 t) (h_e1 t) (m_e2 t) (h_e2 t) (m_out t) (h_out t) scratch (Memref.isWhole_whole _) _ _ (blockAt V c 0 t) (blockAt V c 1 t) _).symm
  rw [e, scratch_eq V c t.val t.isLt p r hr, h15]
  exact sum_tiles _ _ r

end Invariant

/-! ## From blocks to the array, and the reference -/

section Final
variable (V : (c : Dev nD) → (b : Ref sig .tc) → Buf (Elt Ideal) ((c : Thread nD τ).loc b))

/-- The negative sums as a column: entry (r, 0) is row r's sum over all of e2's rows. -/
def negCol (E1 E2 : S8192x64.Idx → EReal) : S8192x1.Idx → EReal :=
  fun i => ∑ j : Fin 8192, term E1 E2 ⟨(i 0).val, idx2_lt0 i⟩ j

/-- WHAT A LAST POINT WRITES BACK is its block of that column: block a of the output holds rows 2048·a … of it. -/
theorem flushed_eq (c : Dev nD) (t : Fin cfg5.N) (hf : (cfg5.win 2).flush t = true) :
    (dat V c).flushed 2 t = ((cfg5.win 2).blk t).view.read (Elt Ideal) (negCol (E1 V c) (E2 V c)) := by
  have h15 : t.val % 16 = 15 := (flush5_2 t).mp hf
  have hN : t.val < 64 := lt_of_lt_of_eq t.isLt (show cfg5.N = 64 from N_5)
  obtain ⟨-, -, -, -, i0, i1⟩ := idx_facts t
  show (cfg5.win 2).cut (grid5.coords t) ((dat V c).after 2 t) = _
  rw [dat_after_out]
  funext y
  obtain ⟨p, u, rfl⟩ : ∃ (p : Fin 2048) (u : Fin 1), y = ix2 p u := ⟨y 0, y 1, eq_ix2 y⟩
  obtain rfl : u = 0 := Fin.ext (by omega)
  rw [View.read_apply]
  show (outsAt V c t.val t.isLt).1 (ix2 p (0 : Fin 1)) = negCol (E1 V c) (E2 V c) (((cfg5.win 2).blk t).view.emb (ix2 p (0 : Fin 1)))
  refine (out_last V c t h15 p ⟨2048 * (t.val / 16) + p.val, by have := p.isLt; omega⟩ rfl).trans ?_
  unfold negCol
  refine Finset.sum_congr rfl fun j _ => congrArg (fun r => term _ _ r j) (Fin.ext ?_)
  show 2048 * (t.val / 16) + p.val = win5_2.index t (0 : Fin 2) * 2048 + 1 * p.val
  omega

/-- Every row of the [8192, 1] output is in the block of the last point of its row of the grid. -/
theorem covered (i : S8192x1.Idx) : ∃ t : Fin cfg5.N, (cfg5.win 2).flush t = true ∧ i ∈ ((cfg5.win 2).blk t).view.set := by
  have hi0 : (i 0).val < 8192 := idx2_lt0 i
  have hi1 : (i 1).val < 1 := idx2_lt1 i
  have hN : cfg5.N = 64 := N_5
  obtain ⟨t, ht⟩ : ∃ t : Fin cfg5.N, t.val = 16 * ((i 0).val / 2048) + 15 := ⟨⟨_, by rw [hN]; omega⟩, rfl⟩
  obtain ⟨-, -, -, -, e0, e1⟩ := idx_facts t
  refine ⟨t, (flush5_2 t).mpr (by omega), ?_⟩
  show i ∈ ((View.whole main_v239).slice (win5_2.rect t)).set
  rw [View.set_slice_whole, Rect.mem_set_unit]
  intro a
  match a with
  | ⟨0, _⟩ =>
    show win5_2.index t (0 : Fin 2) * 2048 ≤ (i 0).val ∧ (i 0).val < win5_2.index t (0 : Fin 2) * 2048 + 2048
    omega
  | ⟨1, _⟩ =>
    show win5_2.index t (1 : Fin 2) * 1 ≤ (i 1).val ∧ (i 1).val < win5_2.index t (1 : Fin 2) * 1 + 1
    omega

/-- So the output array ends holding the column of negative sums. -/
theorem arr_eq (c : Dev nD) : (dat V c).arrAt 2 cfg5.N = negCol (E1 V c) (E2 V c) :=
  (dat V c).arrAt_eq_of_cover 2 (negCol (E1 V c) (E2 V c)) (flushed_eq V c) covered

/-- The reference's temperature denotes the rational 13421773 / 67108864, the reciprocal of the inverse temperature. -/
theorem temp_eq : Ideal.ofBits .f32 0x3E4CCCCD#32 = ((13421773 / 67108864 : ℝ) : EReal) := by
  simp [Ideal.ofBits, Ideal.ieee, -EReal.coe_mul]; norm_num

theorem host_last2 : Cert.LibDotLast.IsLast2 Cert.ReferenceIdeal.dot_S8192x64_S8192x64_S8192x8192_1_1_0_0_n_n :=
  ⟨rfl, rfl, rfl, rfl, rfl, rfl⟩

/-- THE REFERENCE at row r: zero plus the sum over all rows j of e2 of exp(⟨e1[r], e2[j]⟩ / c); dividing by the temperature c is
    multiplying by its reciprocal on every extended real. -/
theorem negHost_apply (e1 e2 : FVec Ideal S8192x64 .f32) (r : Fin 8192) :
    Cert.Proof.Parts.negHost e1 e2 (ix1 r) = ∑ j : Fin 8192, term e1 e2 r j := by
  unfold Cert.Proof.Parts.negHost
  refine (Cert.LibKeepdims.hostReduceAdd_row _ (by decide) _ _ r).trans ?_
  refine (congrArg (· + _) Ideal.ofBits_zero_f32).trans ((zero_add _).trans ?_)
  refine Finset.sum_congr rfl fun j _ => ?_
  show Ideal.exp (Ideal.div (FloatOps.dotGeneral Cert.ReferenceIdeal.dot_S8192x64_S8192x64_S8192x8192_1_1_0_0_n_n none .single e1 e2 (ix2 r j)) (Ideal.ofBits .f32 0x3E4CCCCD#32)) = term e1 e2 r j
  rw [temp_eq, Ideal.div_coe (by norm_num), Ideal.dotGeneral_apply,
    Cert.LibDotLast.sum_contr2 _ host_last2 (fun a b => e1 a * e2 b) (ix2 r j)]
  unfold term
  refine congrArg (fun s : ℝ => Ideal.exp ((∑ k : Fin 64, e1 (ix2 r k) * e2 (ix2 j k)) * (s : EReal))) ?_
  norm_num

/-- An [a, 1] column read as an [a] vector reads, at r, the column at (r, 0). -/
theorem shapeCast_col (x : S8192x1.Idx → EReal) (r : Fin 8192) :
    shapeCast S8192 x shapeCasts_S8192x1_S8192 (ix1 r) = x (ix2 r (0 : Fin 1)) :=
  shapeCast_apply x shapeCasts_S8192x1_S8192 (ix1 r) (ix2 r (0 : Fin 1)) (by
    rw [Shape.rowMajor_val_two, Shape.rowMajor_val_one]
    show r.val * 1 + 0 = r.val
    omega)

/-- THE REGION'S RESULT: the output array, read as an [8192] vector, is the reference's negative sum of the two arrays the
    region finds. Entry r of both is the sum over the 8192 rows j of e2 of exp(⟨e1[r], e2[j]⟩ · s). -/
theorem final_eq (c : Dev nD) :
    shapeCast S8192 ((dat (F := Ideal) V c).arrAt 2 cfg5.N : S8192x1.Idx → EReal) shapeCasts_S8192x1_S8192
      = Cert.Proof.Parts.negHost (V c (Pipeline.arrRef spec5 0)) (V c (Pipeline.arrRef spec5 1)) := by
  funext i
  obtain ⟨r, rfl⟩ : ∃ r : Fin 8192, i = ix1 r := ⟨i 0, eq_ix1 i⟩
  refine (shapeCast_col _ r).trans ?_
  rw [arr_eq V c]
  exact (negHost_apply _ _ r).symm

end Final

end Cert.KernelIdeal.NegSumVal5

end
-- ==== Proof.BridgeLib.lean ====
/-
  The bridge between the two programs' host sides. Every buffer of either program, after its run, is a fold of host operations
  over the launch contents; read at one buffer, the fold unwinds to the operation that wrote it applied to the folds at its
  operands. Unwound to the arguments, the kernel program's buffers and the reference's are the same terms wherever the two
  programs apply the same operations — everywhere outside the six regions — and a region's output is the reference's buffer at
  the matching place by the region's value lemma.
-/
import proofs.«131157_j87900800680713_1_alg».proof.Defs
import proofs.«131157_j87900800680713_1_alg».proof.Proof.ValueRunI
import proofs.«131157_j87900800680713_1_alg».proof.Proof.RefFrame
import proofs.«131157_j87900800680713_1_alg».proof.Proof.PerturbValI0
import proofs.«131157_j87900800680713_1_alg».proof.Proof.PerturbValI1
import proofs.«131157_j87900800680713_1_alg».proof.Proof.PerturbValI2
import proofs.«131157_j87900800680713_1_alg».proof.Proof.PerturbValI3
import proofs.«131157_j87900800680713_1_alg».proof.Proof.NegSumValI4
import proofs.«131157_j87900800680713_1_alg».proof.Proof.NegSumValI5

noncomputable section

open Idealize.ShloMosaic Idealize.ShloMosaic.TcCoe Idealize.SL.Sem Idealize.ShloMosaic.StableHlo

namespace Cert.Proof.Parts

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's contents after its run, on core `c`, as a fold over its launch contents. -/
abbrev refAfter (c : Dev Cert.ReferenceIdeal.nD) : Valuation Cert.ReferenceIdeal.τ Cert.ReferenceIdeal.sig (Elt Ideal) :=
  after (Cert.ReferenceIdeal.ValueP.ops (F := Ideal)) (launchContents m' c)

/-! ## Concatenations with plain arguments

The side condition of a concatenation mentions the list of its pieces, so a rewrite cannot pass under it; with the pieces as
plain arguments it can. -/

def concat2 (s : Shape) (d : Fin s.rank) (s1 s2 : Shape) (φ : FTy) (h : Shape.Concatenates [s1, s2] s d) (a : FVec Ideal s1 φ) (b : FVec Ideal s2 φ) : FVec Ideal s φ :=
  concatenate s d [⟨s1, a⟩, ⟨s2, b⟩] h
theorem concat2_fold (s : Shape) (d : Fin s.rank) (s1 s2 : Shape) (φ : FTy) (h : Shape.Concatenates [s1, s2] s d) (a : FVec Ideal s1 φ) (b : FVec Ideal s2 φ) :
    concatenate s d [⟨s1, a⟩, ⟨s2, b⟩] h = concat2 s d s1 s2 φ h a b := rfl
def concat4 (s : Shape) (d : Fin s.rank) (s1 s2 s3 s4 : Shape) (φ : FTy) (h : Shape.Concatenates [s1, s2, s3, s4] s d)
    (a : FVec Ideal s1 φ) (b : FVec Ideal s2 φ) (c : FVec Ideal s3 φ) (e : FVec Ideal s4 φ) : FVec Ideal s φ :=
  concatenate s d [⟨s1, a⟩, ⟨s2, b⟩, ⟨s3, c⟩, ⟨s4, e⟩] h
theorem concat4_fold (s : Shape) (d : Fin s.rank) (s1 s2 s3 s4 : Shape) (φ : FTy) (h : Shape.Concatenates [s1, s2, s3, s4] s d)
    (a : FVec Ideal s1 φ) (b : FVec Ideal s2 φ) (c : FVec Ideal s3 φ) (e : FVec Ideal s4 φ) :
    concatenate s d [⟨s1, a⟩, ⟨s2, b⟩, ⟨s3, c⟩, ⟨s4, e⟩] h = concat4 s d s1 s2 s3 s4 φ h a b c e := rfl

/-! ## The operations whose payload concatenates a literal list, read with the pieces as plain arguments -/

open Cert.KernelIdeal Cert.KernelIdeal.Gen in
/-- The kernel program's table of all embeddings: the user table above the item table. -/
theorem e0K (G : Valuation τ sig (Elt Ideal)) :
    (binary main_arg3 main_arg4 main_v24 ((fun a b => concatenate S90000x64 0 [⟨S30000x64, a⟩, ⟨S60000x64, b⟩] concatenates_S30000x64_S60000x64_S90000x64_d0) : (⟨S30000x64, .f32⟩ : BufTy).Contents (Elt Ideal) → (⟨S60000x64, .f32⟩ : BufTy).Contents (Elt Ideal) → (⟨S90000x64, .f32⟩ : BufTy).Contents (Elt Ideal)) : HloOp τ sig (Elt Ideal)).result G (no_index (Proc.devRef .tc main_v24))
      = concat2 S90000x64 0 S30000x64 S60000x64 .f32 concatenates_S30000x64_S60000x64_S90000x64_d0 (G (Proc.devRef .tc main_arg3)) (G (Proc.devRef .tc main_arg4)) :=
  binary_result' _ _ _ _ G

open Cert.ReferenceIdeal Cert.ReferenceIdeal.Gen in
/-- The same table in the reference. -/
theorem e0R (G : Valuation τ sig (Elt Ideal)) :
    (binary main_arg3 main_arg4 main_v24 ((fun a b => concatenate S90000x64 0 [⟨S30000x64, a⟩, ⟨S60000x64, b⟩] concatenates_S30000x64_S60000x64_S90000x64_d0) : (⟨S30000x64, .f32⟩ : BufTy).Contents (Elt Ideal) → (⟨S60000x64, .f32⟩ : BufTy).Contents (Elt Ideal) → (⟨S90000x64, .f32⟩ : BufTy).Contents (Elt Ideal)) : HloOp τ sig (Elt Ideal)).result G (no_index (Proc.devRef .tc main_v24))
      = concat2 S90000x64 0 S30000x64 S60000x64 .f32 concatenates_S30000x64_S60000x64_S90000x64_d0 (G (Proc.devRef .tc main_arg3)) (G (Proc.devRef .tc main_arg4)) :=
  binary_result' _ _ _ _ G

open Cert.KernelIdeal Cert.KernelIdeal.Gen in
/-- The kernel program's result: the four losses stacked. -/
theorem stackK (G : Valuation τ sig (Elt Ideal)) :
    (nary ![main_v268, main_v269, main_v270, main_v271] main_v272 (fun u => concatenate S4 0 [⟨S1, u 0⟩, ⟨S1, u 1⟩, ⟨S1, u 2⟩, ⟨S1, u 3⟩] concatenates_S1_S1_S1_S1_S4_d0) : HloOp τ sig (Elt Ideal)).result G (no_index (Proc.devRef .tc main_v272))
      = concat4 S4 0 S1 S1 S1 S1 .f32 concatenates_S1_S1_S1_S1_S4_d0 (G (Proc.devRef .tc main_v268)) (G (Proc.devRef .tc main_v269)) (G (Proc.devRef .tc main_v270)) (G (Proc.devRef .tc main_v271)) :=
  (nary4_result' _ _ _ G).trans rfl

open Cert.ReferenceIdeal Cert.ReferenceIdeal.Gen in
/-- The reference's result: the four losses stacked. -/
theorem stackR (G : Valuation τ sig (Elt Ideal)) :
    (nary ![main_v310, main_v311, main_v312, main_v313] main_v314 (fun u => concatenate S4 0 [⟨S1, u 0⟩, ⟨S1, u 1⟩, ⟨S1, u 2⟩, ⟨S1, u 3⟩] concatenates_S1_S1_S1_S1_S4_d0) : HloOp τ sig (Elt Ideal)).result G (no_index (Proc.devRef .tc main_v314))
      = concat4 S4 0 S1 S1 S1 S1 .f32 concatenates_S1_S1_S1_S1_S4_d0 (G (Proc.devRef .tc main_v310)) (G (Proc.devRef .tc main_v311)) (G (Proc.devRef .tc main_v312)) (G (Proc.devRef .tc main_v313)) :=
  (nary4_result' _ _ _ G).trans rfl

/-! ## The kernel program's boundaries -/

theorem skip1 (outs : Cert.KernelIdeal.Gen.Outs (F := Ideal)) (c : Dev Cert.KernelIdeal.nD) (r : Ref Cert.KernelIdeal.sig .tc) (h : r ∉ Cert.KernelIdeal.Gen.hostOps0_W) :
    Cert.KernelIdeal.Gen.V1 m c (no_index (Proc.devRef .tc r)) = Cert.KernelIdeal.Gen.V0 m c (Proc.devRef .tc r) := Cert.KernelIdeal.Gen.V1_of m c r h
theorem open1 (outs : Cert.KernelIdeal.Gen.Outs (F := Ideal)) (c : Dev Cert.KernelIdeal.nD) (r : Ref Cert.KernelIdeal.sig .tc) (h : r ∈ Cert.KernelIdeal.Gen.hostOps0_W) :
    Cert.KernelIdeal.Gen.V1 m c (no_index (Proc.devRef .tc r)) = after Cert.KernelIdeal.Gen.hostOps0 (Cert.KernelIdeal.Gen.V0 m c) (Proc.devRef .tc r) := rfl
theorem skip2 (outs : Cert.KernelIdeal.Gen.Outs (F := Ideal)) (c : Dev Cert.KernelIdeal.nD) (r : Ref Cert.KernelIdeal.sig .tc) (h : r ∉ Cert.KernelIdeal.Gen.hostOps0_1_W) :
    Cert.KernelIdeal.Gen.V2 m c (no_index (Proc.devRef .tc r)) = Cert.KernelIdeal.Gen.V1 m c (Proc.devRef .tc r) := Cert.KernelIdeal.Gen.V2_of m c r h
theorem open2 (outs : Cert.KernelIdeal.Gen.Outs (F := Ideal)) (c : Dev Cert.KernelIdeal.nD) (r : Ref Cert.KernelIdeal.sig .tc) (h : r ∈ Cert.KernelIdeal.Gen.hostOps0_1_W) :
    Cert.KernelIdeal.Gen.V2 m c (no_index (Proc.devRef .tc r)) = after Cert.KernelIdeal.Gen.hostOps0_1 (Cert.KernelIdeal.Gen.V1 m c) (Proc.devRef .tc r) := rfl
theorem skip3 (outs : Cert.KernelIdeal.Gen.Outs (F := Ideal)) (c : Dev Cert.KernelIdeal.nD) (r : Ref Cert.KernelIdeal.sig .tc) (h : r ∉ Cert.KernelIdeal.Gen.hostOps0_2_W) :
    Cert.KernelIdeal.Gen.V3 m c (no_index (Proc.devRef .tc r)) = Cert.KernelIdeal.Gen.V2 m c (Proc.devRef .tc r) := Cert.KernelIdeal.Gen.V3_of m c r h
theorem open3 (outs : Cert.KernelIdeal.Gen.Outs (F := Ideal)) (c : Dev Cert.KernelIdeal.nD) (r : Ref Cert.KernelIdeal.sig .tc) (h : r ∈ Cert.KernelIdeal.Gen.hostOps0_2_W) :
    Cert.KernelIdeal.Gen.V3 m c (no_index (Proc.devRef .tc r)) = after Cert.KernelIdeal.Gen.hostOps0_2 (Cert.KernelIdeal.Gen.V2 m c) (Proc.devRef .tc r) := rfl
theorem skip5 (outs : Cert.KernelIdeal.Gen.Outs (F := Ideal)) (c : Dev Cert.KernelIdeal.nD) (r : Ref Cert.KernelIdeal.sig .tc) (h : r ∉ Cert.KernelIdeal.Gen.hostOps1_W) :
    Cert.KernelIdeal.Gen.V5 m outs c (no_index (Proc.devRef .tc r)) = Cert.KernelIdeal.Gen.V4 m outs c (Proc.devRef .tc r) := Cert.KernelIdeal.Gen.V5_of m outs c r h
theorem open5 (outs : Cert.KernelIdeal.Gen.Outs (F := Ideal)) (c : Dev Cert.KernelIdeal.nD) (r : Ref Cert.KernelIdeal.sig .tc) (h : r ∈ Cert.KernelIdeal.Gen.hostOps1_W) :
    Cert.KernelIdeal.Gen.V5 m outs c (no_index (Proc.devRef .tc r)) = after Cert.KernelIdeal.Gen.hostOps1 (Cert.KernelIdeal.Gen.V4 m outs c) (Proc.devRef .tc r) := rfl
theorem skip7 (outs : Cert.KernelIdeal.Gen.Outs (F := Ideal)) (c : Dev Cert.KernelIdeal.nD) (r : Ref Cert.KernelIdeal.sig .tc) (h : r ∉ Cert.KernelIdeal.Gen.hostOps2_W) :
    Cert.KernelIdeal.Gen.V7 m outs c (no_index (Proc.devRef .tc r)) = Cert.KernelIdeal.Gen.V6 m outs c (Proc.devRef .tc r) := Cert.KernelIdeal.Gen.V7_of m outs c r h
theorem open7 (outs : Cert.KernelIdeal.Gen.Outs (F := Ideal)) (c : Dev Cert.KernelIdeal.nD) (r : Ref Cert.KernelIdeal.sig .tc) (h : r ∈ Cert.KernelIdeal.Gen.hostOps2_W) :
    Cert.KernelIdeal.Gen.V7 m outs c (no_index (Proc.devRef .tc r)) = after Cert.KernelIdeal.Gen.hostOps2 (Cert.KernelIdeal.Gen.V6 m outs c) (Proc.devRef .tc r) := rfl
theorem skip9 (outs : Cert.KernelIdeal.Gen.Outs (F := Ideal)) (c : Dev Cert.KernelIdeal.nD) (r : Ref Cert.KernelIdeal.sig .tc) (h : r ∉ Cert.KernelIdeal.Gen.hostOps3_W) :
    Cert.KernelIdeal.Gen.V9 m outs c (no_index (Proc.devRef .tc r)) = Cert.KernelIdeal.Gen.V8 m outs c (Proc.devRef .tc r) := Cert.KernelIdeal.Gen.V9_of m outs c r h
theorem open9 (outs : Cert.KernelIdeal.Gen.Outs (F := Ideal)) (c : Dev Cert.KernelIdeal.nD) (r : Ref Cert.KernelIdeal.sig .tc) (h : r ∈ Cert.KernelIdeal.Gen.hostOps3_W) :
    Cert.KernelIdeal.Gen.V9 m outs c (no_index (Proc.devRef .tc r)) = after Cert.KernelIdeal.Gen.hostOps3 (Cert.KernelIdeal.Gen.V8 m outs c) (Proc.devRef .tc r) := rfl
theorem skip11 (outs : Cert.KernelIdeal.Gen.Outs (F := Ideal)) (c : Dev Cert.KernelIdeal.nD) (r : Ref Cert.KernelIdeal.sig .tc) (h : r ∉ Cert.KernelIdeal.Gen.hostOps4_W) :
    Cert.KernelIdeal.Gen.V11 m outs c (no_index (Proc.devRef .tc r)) = Cert.KernelIdeal.Gen.V10 m outs c (Proc.devRef .tc r) := Cert.KernelIdeal.Gen.V11_of m outs c r h
theorem open11 (outs : Cert.KernelIdeal.Gen.Outs (F := Ideal)) (c : Dev Cert.KernelIdeal.nD) (r : Ref Cert.KernelIdeal.sig .tc) (h : r ∈ Cert.KernelIdeal.Gen.hostOps4_W) :
    Cert.KernelIdeal.Gen.V11 m outs c (no_index (Proc.devRef .tc r)) = after Cert.KernelIdeal.Gen.hostOps4 (Cert.KernelIdeal.Gen.V10 m outs c) (Proc.devRef .tc r) := rfl
theorem skip12 (outs : Cert.KernelIdeal.Gen.Outs (F := Ideal)) (c : Dev Cert.KernelIdeal.nD) (r : Ref Cert.KernelIdeal.sig .tc) (h : r ∉ Cert.KernelIdeal.Gen.hostOps4_1_W) :
    Cert.KernelIdeal.Gen.V12 m outs c (no_index (Proc.devRef .tc r)) = Cert.KernelIdeal.Gen.V11 m outs c (Proc.devRef .tc r) := Cert.KernelIdeal.Gen.V12_of m outs c r h
theorem open12 (outs : Cert.KernelIdeal.Gen.Outs (F := Ideal)) (c : Dev Cert.KernelIdeal.nD) (r : Ref Cert.KernelIdeal.sig .tc) (h : r ∈ Cert.KernelIdeal.Gen.hostOps4_1_W) :
    Cert.KernelIdeal.Gen.V12 m outs c (no_index (Proc.devRef .tc r)) = after Cert.KernelIdeal.Gen.hostOps4_1 (Cert.KernelIdeal.Gen.V11 m outs c) (Proc.devRef .tc r) := rfl
theorem skip13 (outs : Cert.KernelIdeal.Gen.Outs (F := Ideal)) (c : Dev Cert.KernelIdeal.nD) (r : Ref Cert.KernelIdeal.sig .tc) (h : r ∉ Cert.KernelIdeal.Gen.hostOps4_2_W) :
    Cert.KernelIdeal.Gen.V13 m outs c (no_index (Proc.devRef .tc r)) = Cert.KernelIdeal.Gen.V12 m outs c (Proc.devRef .tc r) := Cert.KernelIdeal.Gen.V13_of m outs c r h
theorem open13 (outs : Cert.KernelIdeal.Gen.Outs (F := Ideal)) (c : Dev Cert.KernelIdeal.nD) (r : Ref Cert.KernelIdeal.sig .tc) (h : r ∈ Cert.KernelIdeal.Gen.hostOps4_2_W) :
    Cert.KernelIdeal.Gen.V13 m outs c (no_index (Proc.devRef .tc r)) = after Cert.KernelIdeal.Gen.hostOps4_2 (Cert.KernelIdeal.Gen.V12 m outs c) (Proc.devRef .tc r) := rfl
theorem skip14 (outs : Cert.KernelIdeal.Gen.Outs (F := Ideal)) (c : Dev Cert.KernelIdeal.nD) (r : Ref Cert.KernelIdeal.sig .tc) (h : r ∉ Cert.KernelIdeal.Gen.hostOps4_3_W) :
    Cert.KernelIdeal.Gen.V14 m outs c (no_index (Proc.devRef .tc r)) = Cert.KernelIdeal.Gen.V13 m outs c (Proc.devRef .tc r) := Cert.KernelIdeal.Gen.V14_of m outs c r h
theorem open14 (outs : Cert.KernelIdeal.Gen.Outs (F := Ideal)) (c : Dev Cert.KernelIdeal.nD) (r : Ref Cert.KernelIdeal.sig .tc) (h : r ∈ Cert.KernelIdeal.Gen.hostOps4_3_W) :
    Cert.KernelIdeal.Gen.V14 m outs c (no_index (Proc.devRef .tc r)) = after Cert.KernelIdeal.Gen.hostOps4_3 (Cert.KernelIdeal.Gen.V13 m outs c) (Proc.devRef .tc r) := rfl
theorem skip15 (outs : Cert.KernelIdeal.Gen.Outs (F := Ideal)) (c : Dev Cert.KernelIdeal.nD) (r : Ref Cert.KernelIdeal.sig .tc) (h : r ∉ Cert.KernelIdeal.Gen.hostOps4_4_W) :
    Cert.KernelIdeal.Gen.V15 m outs c (no_index (Proc.devRef .tc r)) = Cert.KernelIdeal.Gen.V14 m outs c (Proc.devRef .tc r) := Cert.KernelIdeal.Gen.V15_of m outs c r h
theorem open15 (outs : Cert.KernelIdeal.Gen.Outs (F := Ideal)) (c : Dev Cert.KernelIdeal.nD) (r : Ref Cert.KernelIdeal.sig .tc) (h : r ∈ Cert.KernelIdeal.Gen.hostOps4_4_W) :
    Cert.KernelIdeal.Gen.V15 m outs c (no_index (Proc.devRef .tc r)) = after Cert.KernelIdeal.Gen.hostOps4_4 (Cert.KernelIdeal.Gen.V14 m outs c) (Proc.devRef .tc r) := rfl
theorem skip16 (outs : Cert.KernelIdeal.Gen.Outs (F := Ideal)) (c : Dev Cert.KernelIdeal.nD) (r : Ref Cert.KernelIdeal.sig .tc) (h : r ∉ Cert.KernelIdeal.Gen.hostOps4_5_W) :
    Cert.KernelIdeal.Gen.V16 m outs c (no_index (Proc.devRef .tc r)) = Cert.KernelIdeal.Gen.V15 m outs c (Proc.devRef .tc r) := Cert.KernelIdeal.Gen.V16_of m outs c r h
theorem open16 (outs : Cert.KernelIdeal.Gen.Outs (F := Ideal)) (c : Dev Cert.KernelIdeal.nD) (r : Ref Cert.KernelIdeal.sig .tc) (h : r ∈ Cert.KernelIdeal.Gen.hostOps4_5_W) :
    Cert.KernelIdeal.Gen.V16 m outs c (no_index (Proc.devRef .tc r)) = after Cert.KernelIdeal.Gen.hostOps4_5 (Cert.KernelIdeal.Gen.V15 m outs c) (Proc.devRef .tc r) := rfl
theorem skip17 (outs : Cert.KernelIdeal.Gen.Outs (F := Ideal)) (c : Dev Cert.KernelIdeal.nD) (r : Ref Cert.KernelIdeal.sig .tc) (h : r ∉ Cert.KernelIdeal.Gen.hostOps4_6_W) :
    Cert.KernelIdeal.Gen.V17 m outs c (no_index (Proc.devRef .tc r)) = Cert.KernelIdeal.Gen.V16 m outs c (Proc.devRef .tc r) := Cert.KernelIdeal.Gen.V17_of m outs c r h
theorem open17 (outs : Cert.KernelIdeal.Gen.Outs (F := Ideal)) (c : Dev Cert.KernelIdeal.nD) (r : Ref Cert.KernelIdeal.sig .tc) (h : r ∈ Cert.KernelIdeal.Gen.hostOps4_6_W) :
    Cert.KernelIdeal.Gen.V17 m outs c (no_index (Proc.devRef .tc r)) = after Cert.KernelIdeal.Gen.hostOps4_6 (Cert.KernelIdeal.Gen.V16 m outs c) (Proc.devRef .tc r) := rfl
theorem skip18 (outs : Cert.KernelIdeal.Gen.Outs (F := Ideal)) (c : Dev Cert.KernelIdeal.nD) (r : Ref Cert.KernelIdeal.sig .tc) (h : r ∉ Cert.KernelIdeal.Gen.hostOps4_7_W) :
    Cert.KernelIdeal.Gen.V18 m outs c (no_index (Proc.devRef .tc r)) = Cert.KernelIdeal.Gen.V17 m outs c (Proc.devRef .tc r) := Cert.KernelIdeal.Gen.V18_of m outs c r h
theorem open18 (outs : Cert.KernelIdeal.Gen.Outs (F := Ideal)) (c : Dev Cert.KernelIdeal.nD) (r : Ref Cert.KernelIdeal.sig .tc) (h : r ∈ Cert.KernelIdeal.Gen.hostOps4_7_W) :
    Cert.KernelIdeal.Gen.V18 m outs c (no_index (Proc.devRef .tc r)) = after Cert.KernelIdeal.Gen.hostOps4_7 (Cert.KernelIdeal.Gen.V17 m outs c) (Proc.devRef .tc r) := rfl
theorem skip19 (outs : Cert.KernelIdeal.Gen.Outs (F := Ideal)) (c : Dev Cert.KernelIdeal.nD) (r : Ref Cert.KernelIdeal.sig .tc) (h : r ∉ Cert.KernelIdeal.Gen.hostOps4_8_W) :
    Cert.KernelIdeal.Gen.V19 m outs c (no_index (Proc.devRef .tc r)) = Cert.KernelIdeal.Gen.V18 m outs c (Proc.devRef .tc r) := Cert.KernelIdeal.Gen.V19_of m outs c r h
theorem open19 (outs : Cert.KernelIdeal.Gen.Outs (F := Ideal)) (c : Dev Cert.KernelIdeal.nD) (r : Ref Cert.KernelIdeal.sig .tc) (h : r ∈ Cert.KernelIdeal.Gen.hostOps4_8_W) :
    Cert.KernelIdeal.Gen.V19 m outs c (no_index (Proc.devRef .tc r)) = after Cert.KernelIdeal.Gen.hostOps4_8 (Cert.KernelIdeal.Gen.V18 m outs c) (Proc.devRef .tc r) := rfl
theorem skip20 (outs : Cert.KernelIdeal.Gen.Outs (F := Ideal)) (c : Dev Cert.KernelIdeal.nD) (r : Ref Cert.KernelIdeal.sig .tc) (h : r ∉ Cert.KernelIdeal.Gen.hostOps4_9_W) :
    Cert.KernelIdeal.Gen.V20 m outs c (no_index (Proc.devRef .tc r)) = Cert.KernelIdeal.Gen.V19 m outs c (Proc.devRef .tc r) := Cert.KernelIdeal.Gen.V20_of m outs c r h
theorem open20 (outs : Cert.KernelIdeal.Gen.Outs (F := Ideal)) (c : Dev Cert.KernelIdeal.nD) (r : Ref Cert.KernelIdeal.sig .tc) (h : r ∈ Cert.KernelIdeal.Gen.hostOps4_9_W) :
    Cert.KernelIdeal.Gen.V20 m outs c (no_index (Proc.devRef .tc r)) = after Cert.KernelIdeal.Gen.hostOps4_9 (Cert.KernelIdeal.Gen.V19 m outs c) (Proc.devRef .tc r) := rfl
theorem skip21 (outs : Cert.KernelIdeal.Gen.Outs (F := Ideal)) (c : Dev Cert.KernelIdeal.nD) (r : Ref Cert.KernelIdeal.sig .tc) (h : r ∉ Cert.KernelIdeal.Gen.hostOps4_10_W) :
    Cert.KernelIdeal.Gen.V21 m outs c (no_index (Proc.devRef .tc r)) = Cert.KernelIdeal.Gen.V20 m outs c (Proc.devRef .tc r) := Cert.KernelIdeal.Gen.V21_of m outs c r h
theorem open21 (outs : Cert.KernelIdeal.Gen.Outs (F := Ideal)) (c : Dev Cert.KernelIdeal.nD) (r : Ref Cert.KernelIdeal.sig .tc) (h : r ∈ Cert.KernelIdeal.Gen.hostOps4_10_W) :
    Cert.KernelIdeal.Gen.V21 m outs c (no_index (Proc.devRef .tc r)) = after Cert.KernelIdeal.Gen.hostOps4_10 (Cert.KernelIdeal.Gen.V20 m outs c) (Proc.devRef .tc r) := rfl
theorem skip23 (outs : Cert.KernelIdeal.Gen.Outs (F := Ideal)) (c : Dev Cert.KernelIdeal.nD) (r : Ref Cert.KernelIdeal.sig .tc) (h : r ∉ Cert.KernelIdeal.Gen.hostOps5_W) :
    Cert.KernelIdeal.Gen.V23 m outs c (no_index (Proc.devRef .tc r)) = Cert.KernelIdeal.Gen.V22 m outs c (Proc.devRef .tc r) := Cert.KernelIdeal.Gen.V23_of m outs c r h
theorem open23 (outs : Cert.KernelIdeal.Gen.Outs (F := Ideal)) (c : Dev Cert.KernelIdeal.nD) (r : Ref Cert.KernelIdeal.sig .tc) (h : r ∈ Cert.KernelIdeal.Gen.hostOps5_W) :
    Cert.KernelIdeal.Gen.V23 m outs c (no_index (Proc.devRef .tc r)) = after Cert.KernelIdeal.Gen.hostOps5 (Cert.KernelIdeal.Gen.V22 m outs c) (Proc.devRef .tc r) := rfl
theorem skip25 (outs : Cert.KernelIdeal.Gen.Outs (F := Ideal)) (c : Dev Cert.KernelIdeal.nD) (r : Ref Cert.KernelIdeal.sig .tc) (h : r ∉ Cert.KernelIdeal.Gen.hostOps6_W) :
    Cert.KernelIdeal.Gen.V25 m outs c (no_index (Proc.devRef .tc r)) = Cert.KernelIdeal.Gen.V24 m outs c (Proc.devRef .tc r) := Cert.KernelIdeal.Gen.V25_of m outs c r h
theorem open25 (outs : Cert.KernelIdeal.Gen.Outs (F := Ideal)) (c : Dev Cert.KernelIdeal.nD) (r : Ref Cert.KernelIdeal.sig .tc) (h : r ∈ Cert.KernelIdeal.Gen.hostOps6_W) :
    Cert.KernelIdeal.Gen.V25 m outs c (no_index (Proc.devRef .tc r)) = after Cert.KernelIdeal.Gen.hostOps6 (Cert.KernelIdeal.Gen.V24 m outs c) (Proc.devRef .tc r) := rfl
theorem skip4 (outs : Cert.KernelIdeal.Gen.Outs (F := Ideal)) (c : Dev Cert.KernelIdeal.nD) (r : Ref Cert.KernelIdeal.sig .tc) (h : r ∉ ([Cert.KernelIdeal.main_v53] : List (Ref Cert.KernelIdeal.sig .tc))) :
    Cert.KernelIdeal.Gen.V4 m outs c (no_index (Proc.devRef .tc r)) = Cert.KernelIdeal.Gen.V3 m c (Proc.devRef .tc r) := Cert.KernelIdeal.Gen.V4_of m outs c r h
theorem at4 (outs : Cert.KernelIdeal.Gen.Outs (F := Ideal)) (c : Dev Cert.KernelIdeal.nD) :
    Cert.KernelIdeal.Gen.V4 m outs c (no_index (Proc.devRef .tc Cert.KernelIdeal.main_v53)) = outs 4 Cert.KernelIdeal.main_v53 c := Function.update_self ..
theorem skip6 (outs : Cert.KernelIdeal.Gen.Outs (F := Ideal)) (c : Dev Cert.KernelIdeal.nD) (r : Ref Cert.KernelIdeal.sig .tc) (h : r ∉ ([Cert.KernelIdeal.main_v69] : List (Ref Cert.KernelIdeal.sig .tc))) :
    Cert.KernelIdeal.Gen.V6 m outs c (no_index (Proc.devRef .tc r)) = Cert.KernelIdeal.Gen.V5 m outs c (Proc.devRef .tc r) := Cert.KernelIdeal.Gen.V6_of m outs c r h
theorem at6 (outs : Cert.KernelIdeal.Gen.Outs (F := Ideal)) (c : Dev Cert.KernelIdeal.nD) :
    Cert.KernelIdeal.Gen.V6 m outs c (no_index (Proc.devRef .tc Cert.KernelIdeal.main_v69)) = outs 6 Cert.KernelIdeal.main_v69 c := Function.update_self ..
theorem skip8 (outs : Cert.KernelIdeal.Gen.Outs (F := Ideal)) (c : Dev Cert.KernelIdeal.nD) (r : Ref Cert.KernelIdeal.sig .tc) (h : r ∉ ([Cert.KernelIdeal.main_v101] : List (Ref Cert.KernelIdeal.sig .tc))) :
    Cert.KernelIdeal.Gen.V8 m outs c (no_index (Proc.devRef .tc r)) = Cert.KernelIdeal.Gen.V7 m outs c (Proc.devRef .tc r) := Cert.KernelIdeal.Gen.V8_of m outs c r h
theorem at8 (outs : Cert.KernelIdeal.Gen.Outs (F := Ideal)) (c : Dev Cert.KernelIdeal.nD) :
    Cert.KernelIdeal.Gen.V8 m outs c (no_index (Proc.devRef .tc Cert.KernelIdeal.main_v101)) = outs 8 Cert.KernelIdeal.main_v101 c := Function.update_self ..
theorem skip10 (outs : Cert.KernelIdeal.Gen.Outs (F := Ideal)) (c : Dev Cert.KernelIdeal.nD) (r : Ref Cert.KernelIdeal.sig .tc) (h : r ∉ ([Cert.KernelIdeal.main_v117] : List (Ref Cert.KernelIdeal.sig .tc))) :
    Cert.KernelIdeal.Gen.V10 m outs c (no_index (Proc.devRef .tc r)) = Cert.KernelIdeal.Gen.V9 m outs c (Proc.devRef .tc r) := Cert.KernelIdeal.Gen.V10_of m outs c r h
theorem at10 (outs : Cert.KernelIdeal.Gen.Outs (F := Ideal)) (c : Dev Cert.KernelIdeal.nD) :
    Cert.KernelIdeal.Gen.V10 m outs c (no_index (Proc.devRef .tc Cert.KernelIdeal.main_v117)) = outs 10 Cert.KernelIdeal.main_v117 c := Function.update_self ..
theorem skip22 (outs : Cert.KernelIdeal.Gen.Outs (F := Ideal)) (c : Dev Cert.KernelIdeal.nD) (r : Ref Cert.KernelIdeal.sig .tc) (h : r ∉ ([Cert.KernelIdeal.main_v239] : List (Ref Cert.KernelIdeal.sig .tc))) :
    Cert.KernelIdeal.Gen.V22 m outs c (no_index (Proc.devRef .tc r)) = Cert.KernelIdeal.Gen.V21 m outs c (Proc.devRef .tc r) := Cert.KernelIdeal.Gen.V22_of m outs c r h
theorem at22 (outs : Cert.KernelIdeal.Gen.Outs (F := Ideal)) (c : Dev Cert.KernelIdeal.nD) :
    Cert.KernelIdeal.Gen.V22 m outs c (no_index (Proc.devRef .tc Cert.KernelIdeal.main_v239)) = outs 22 Cert.KernelIdeal.main_v239 c := Function.update_self ..
theorem skip24 (outs : Cert.KernelIdeal.Gen.Outs (F := Ideal)) (c : Dev Cert.KernelIdeal.nD) (r : Ref Cert.KernelIdeal.sig .tc) (h : r ∉ ([Cert.KernelIdeal.main_v255] : List (Ref Cert.KernelIdeal.sig .tc))) :
    Cert.KernelIdeal.Gen.V24 m outs c (no_index (Proc.devRef .tc r)) = Cert.KernelIdeal.Gen.V23 m outs c (Proc.devRef .tc r) := Cert.KernelIdeal.Gen.V24_of m outs c r h
theorem at24 (outs : Cert.KernelIdeal.Gen.Outs (F := Ideal)) (c : Dev Cert.KernelIdeal.nD) :
    Cert.KernelIdeal.Gen.V24 m outs c (no_index (Proc.devRef .tc Cert.KernelIdeal.main_v255)) = outs 24 Cert.KernelIdeal.main_v255 c := Function.update_self ..

/-! ## Stepping back across a region boundary -/

/-- At a buffer the region does not write, the contents after the region are the contents before it. -/
theorem upd_skip {f : Valuation Cert.KernelIdeal.τ Cert.KernelIdeal.sig (Elt Ideal)} {o r : Ref Cert.KernelIdeal.sig .tc} (v : (Proc.devRef (τ := Cert.KernelIdeal.τ) .tc o).ty.Contents (Elt Ideal)) (h : r ≠ o) :
    Function.update f (no_index (Proc.devRef .tc o)) v (no_index (Proc.devRef .tc r)) = f (Proc.devRef .tc r) :=
  Function.update_of_ne (StableHlo.devRef_ne_of_ne h) v f
/-- At the region's output array, they are what the region leaves there. -/
theorem upd_at {f : Valuation Cert.KernelIdeal.τ Cert.KernelIdeal.sig (Elt Ideal)} {o : Ref Cert.KernelIdeal.sig .tc} (v : (Proc.devRef (τ := Cert.KernelIdeal.τ) .tc o).ty.Contents (Elt Ideal)) :
    Function.update f (no_index (Proc.devRef .tc o)) v (no_index (Proc.devRef .tc o)) = v := Function.update_self ..

/-! ## The arguments -/

section Agree

variable (c : Dev Cert.KernelIdeal.nD)

/-- The two memories agree on the eight arguments on core `c`. -/
abbrev Agrees : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

theorem argR0 (hag : Agrees m m' c) : launchContents m' c (no_index (Proc.devRef .tc Cert.ReferenceIdeal.main_arg0)) = m ((c.tc : Thread Cert.KernelIdeal.nD Cert.KernelIdeal.τ).loc Cert.KernelIdeal.main_arg0) := hag.1
theorem argR1 (hag : Agrees m m' c) : launchContents m' c (no_index (Proc.devRef .tc Cert.ReferenceIdeal.main_arg1)) = m ((c.tc : Thread Cert.KernelIdeal.nD Cert.KernelIdeal.τ).loc Cert.KernelIdeal.main_arg1) := hag.2.1
theorem argR2 (hag : Agrees m m' c) : launchContents m' c (no_index (Proc.devRef .tc Cert.ReferenceIdeal.main_arg2)) = m ((c.tc : Thread Cert.KernelIdeal.nD Cert.KernelIdeal.τ).loc Cert.KernelIdeal.main_arg2) := hag.2.2.1
theorem argR3 (hag : Agrees m m' c) : launchContents m' c (no_index (Proc.devRef .tc Cert.ReferenceIdeal.main_arg3)) = m ((c.tc : Thread Cert.KernelIdeal.nD Cert.KernelIdeal.τ).loc Cert.KernelIdeal.main_arg3) := hag.2.2.2.1
theorem argR4 (hag : Agrees m m' c) : launchContents m' c (no_index (Proc.devRef .tc Cert.ReferenceIdeal.main_arg4)) = m ((c.tc : Thread Cert.KernelIdeal.nD Cert.KernelIdeal.τ).loc Cert.KernelIdeal.main_arg4) := hag.2.2.2.2.1
theorem argR5 (hag : Agrees m m' c) : launchContents m' c (no_index (Proc.devRef .tc Cert.ReferenceIdeal.main_arg5)) = m ((c.tc : Thread Cert.KernelIdeal.nD Cert.KernelIdeal.τ).loc Cert.KernelIdeal.main_arg5) := hag.2.2.2.2.2.1
theorem argR6 (hag : Agrees m m' c) : launchContents m' c (no_index (Proc.devRef .tc Cert.ReferenceIdeal.main_arg6)) = m ((c.tc : Thread Cert.KernelIdeal.nD Cert.KernelIdeal.τ).loc Cert.KernelIdeal.main_arg6) := hag.2.2.2.2.2.2.1
theorem argR7 (hag : Agrees m m' c) : launchContents m' c (no_index (Proc.devRef .tc Cert.ReferenceIdeal.main_arg7)) = m ((c.tc : Thread Cert.KernelIdeal.nD Cert.KernelIdeal.τ).loc Cert.KernelIdeal.main_arg7) := hag.2.2.2.2.2.2.2

end Agree

end Cert.Proof.Parts

end
-- ==== Proof.BridgeL0.lean ====
/-
  The first perturbation region's output array (layer 1, first noise branch) is the reference's buffer at the matching place:
  both are the perturbation step of the propagated embedding table and the first noise slice, and unwound to the arguments the two
  programs' terms for those are the same.
-/
import proofs.«131157_j87900800680713_1_alg».proof.Proof.BridgeLib

noncomputable section

open Idealize.ShloMosaic Idealize.ShloMosaic.TcCoe Idealize.SL.Sem Idealize.ShloMosaic.StableHlo

namespace Cert.Proof.Parts

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

set_option maxRecDepth 65536 in
set_option maxHeartbeats 400000000 in
/-- Perturbation region 0: its output array is the reference's perturbation step at the matching place. -/
theorem L0 (hag : Agrees m m' c) : Cert.KernelIdeal.Whole.left m 4 Cert.KernelIdeal.main_v53 c = refAfter m' c (Proc.devRef .tc Cert.ReferenceIdeal.main_v62) := by
  rw [Cert.KernelIdeal.Whole.left_at0 m c, Cert.KernelIdeal.Perturb0.final_eq (Cert.KernelIdeal.Whole.entry0 m) c]
  show perturbHost (Cert.KernelIdeal.Gen.V3 m c (Proc.devRef .tc Cert.KernelIdeal.main_v50)) (Cert.KernelIdeal.Gen.V3 m c (Proc.devRef .tc Cert.KernelIdeal.main_v52)) = _
  simp (disch := decide) only [refAfter, Cert.ReferenceIdeal.ValueP.ops, skip1, open1, skip2, open2, skip3, open3, skip5, open5, skip7, open7, skip9, open9, skip11, open11, skip12, open12, skip13, open13, skip14, open14, skip15, open15, skip16, open16, skip17, open17, skip18, open18, skip19, open19, skip20, open20, skip21, open21, skip23, open23, skip25, open25, Cert.KernelIdeal.Gen.hostOps0, Cert.KernelIdeal.Gen.hostOps0_1, Cert.KernelIdeal.Gen.hostOps0_2, Cert.KernelIdeal.Gen.hostOps1, Cert.KernelIdeal.Gen.hostOps2, Cert.KernelIdeal.Gen.hostOps3, Cert.KernelIdeal.Gen.hostOps4, Cert.KernelIdeal.Gen.hostOps4_1, Cert.KernelIdeal.Gen.hostOps4_2, Cert.KernelIdeal.Gen.hostOps4_3, Cert.KernelIdeal.Gen.hostOps4_4, Cert.KernelIdeal.Gen.hostOps4_5, Cert.KernelIdeal.Gen.hostOps4_6, Cert.KernelIdeal.Gen.hostOps4_7, Cert.KernelIdeal.Gen.hostOps4_8, Cert.KernelIdeal.Gen.hostOps4_9, Cert.KernelIdeal.Gen.hostOps4_10, Cert.KernelIdeal.Gen.hostOps5, Cert.KernelIdeal.Gen.hostOps6, upd_skip, upd_at, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ↓e0K, ↓e0R, ↓stackK, ↓stackR, argR0 m m' c hag, argR1 m m' c hag, argR2 m m' c hag, argR3 m m' c hag, argR4 m m' c hag, argR5 m m' c hag, argR6 m m' c hag, argR7 m m' c hag]
  rfl

end Cert.Proof.Parts

end
-- ==== Proof.BridgeL2.lean ====
/-
  The third perturbation region's output array (layer 2, first branch) is the reference's buffer at the matching place: its input
  is the propagation of the first region's output, which is the reference's by the first region's lemma.
-/
import proofs.«131157_j87900800680713_1_alg».proof.Proof.BridgeLib
import proofs.«131157_j87900800680713_1_alg».proof.Proof.BridgeL0

noncomputable section

open Idealize.ShloMosaic Idealize.ShloMosaic.TcCoe Idealize.SL.Sem Idealize.ShloMosaic.StableHlo

namespace Cert.Proof.Parts

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

set_option maxRecDepth 65536 in
set_option maxHeartbeats 400000000 in
/-- Perturbation region 2: its output array is the reference's perturbation step at the matching place. -/
theorem L2 (hag : Agrees m m' c) : Cert.KernelIdeal.Whole.left m 8 Cert.KernelIdeal.main_v101 c = refAfter m' c (Proc.devRef .tc Cert.ReferenceIdeal.main_v128) := by
  rw [Cert.KernelIdeal.Whole.left_at2 m c, Cert.KernelIdeal.Perturb2.final_eq (Cert.KernelIdeal.Whole.entry2 m (Cert.KernelIdeal.Whole.left m)) c]
  show perturbHost (Cert.KernelIdeal.Gen.V7 m (Cert.KernelIdeal.Whole.left m) c (Proc.devRef .tc Cert.KernelIdeal.main_v98)) (Cert.KernelIdeal.Gen.V7 m (Cert.KernelIdeal.Whole.left m) c (Proc.devRef .tc Cert.KernelIdeal.main_v100)) = _
  simp (disch := decide) only [refAfter, Cert.ReferenceIdeal.ValueP.ops, skip1, open1, skip2, open2, skip3, open3, skip5, open5, skip7, open7, skip9, open9, skip11, open11, skip12, open12, skip13, open13, skip14, open14, skip15, open15, skip16, open16, skip17, open17, skip18, open18, skip19, open19, skip20, open20, skip21, open21, skip23, open23, skip25, open25, Cert.KernelIdeal.Gen.hostOps0, Cert.KernelIdeal.Gen.hostOps0_1, Cert.KernelIdeal.Gen.hostOps0_2, Cert.KernelIdeal.Gen.hostOps1, Cert.KernelIdeal.Gen.hostOps2, Cert.KernelIdeal.Gen.hostOps3, Cert.KernelIdeal.Gen.hostOps4, Cert.KernelIdeal.Gen.hostOps4_1, Cert.KernelIdeal.Gen.hostOps4_2, Cert.KernelIdeal.Gen.hostOps4_3, Cert.KernelIdeal.Gen.hostOps4_4, Cert.KernelIdeal.Gen.hostOps4_5, Cert.KernelIdeal.Gen.hostOps4_6, Cert.KernelIdeal.Gen.hostOps4_7, Cert.KernelIdeal.Gen.hostOps4_8, Cert.KernelIdeal.Gen.hostOps4_9, Cert.KernelIdeal.Gen.hostOps4_10, Cert.KernelIdeal.Gen.hostOps5, Cert.KernelIdeal.Gen.hostOps6, upd_skip, upd_at, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ↓e0K, ↓e0R, ↓stackK, ↓stackR, argR0 m m' c hag, argR1 m m' c hag, argR2 m m' c hag, argR3 m m' c hag, argR4 m m' c hag, argR5 m m' c hag, argR6 m m' c hag, argR7 m m' c hag, L0 m m' c hag]
  rfl

end Cert.Proof.Parts

end
-- ==== Proof.BridgeL1.lean ====
/-
  The second perturbation region's output array (layer 1, second noise branch) is the reference's buffer at the matching place.
-/
import proofs.«131157_j87900800680713_1_alg».proof.Proof.BridgeLib

noncomputable section

open Idealize.ShloMosaic Idealize.ShloMosaic.TcCoe Idealize.SL.Sem Idealize.ShloMosaic.StableHlo

namespace Cert.Proof.Parts

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

set_option maxRecDepth 65536 in
set_option maxHeartbeats 400000000 in
/-- Perturbation region 1: its output array is the reference's perturbation step at the matching place. -/
theorem L1 (hag : Agrees m m' c) : Cert.KernelIdeal.Whole.left m 6 Cert.KernelIdeal.main_v69 c = refAfter m' c (Proc.devRef .tc Cert.ReferenceIdeal.main_v87) := by
  rw [Cert.KernelIdeal.Whole.left_at1 m c, Cert.KernelIdeal.Perturb1.final_eq (Cert.KernelIdeal.Whole.entry1 m (Cert.KernelIdeal.Whole.left m)) c]
  show perturbHost (Cert.KernelIdeal.Gen.V5 m (Cert.KernelIdeal.Whole.left m) c (Proc.devRef .tc Cert.KernelIdeal.main_v66)) (Cert.KernelIdeal.Gen.V5 m (Cert.KernelIdeal.Whole.left m) c (Proc.devRef .tc Cert.KernelIdeal.main_v68)) = _
  simp (disch := decide) only [refAfter, Cert.ReferenceIdeal.ValueP.ops, skip1, open1, skip2, open2, skip3, open3, skip5, open5, skip7, open7, skip9, open9, skip11, open11, skip12, open12, skip13, open13, skip14, open14, skip15, open15, skip16, open16, skip17, open17, skip18, open18, skip19, open19, skip20, open20, skip21, open21, skip23, open23, skip25, open25, Cert.KernelIdeal.Gen.hostOps0, Cert.KernelIdeal.Gen.hostOps0_1, Cert.KernelIdeal.Gen.hostOps0_2, Cert.KernelIdeal.Gen.hostOps1, Cert.KernelIdeal.Gen.hostOps2, Cert.KernelIdeal.Gen.hostOps3, Cert.KernelIdeal.Gen.hostOps4, Cert.KernelIdeal.Gen.hostOps4_1, Cert.KernelIdeal.Gen.hostOps4_2, Cert.KernelIdeal.Gen.hostOps4_3, Cert.KernelIdeal.Gen.hostOps4_4, Cert.KernelIdeal.Gen.hostOps4_5, Cert.KernelIdeal.Gen.hostOps4_6, Cert.KernelIdeal.Gen.hostOps4_7, Cert.KernelIdeal.Gen.hostOps4_8, Cert.KernelIdeal.Gen.hostOps4_9, Cert.KernelIdeal.Gen.hostOps4_10, Cert.KernelIdeal.Gen.hostOps5, Cert.KernelIdeal.Gen.hostOps6, upd_skip, upd_at, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ↓e0K, ↓e0R, ↓stackK, ↓stackR, argR0 m m' c hag, argR1 m m' c hag, argR2 m m' c hag, argR3 m m' c hag, argR4 m m' c hag, argR5 m m' c hag, argR6 m m' c hag, argR7 m m' c hag]
  rfl

end Cert.Proof.Parts

end
-- ==== Proof.BridgeL3.lean ====
/-
  The fourth perturbation region's output array (layer 2, second branch) is the reference's buffer at the matching place: its input
  is the propagation of the second region's output.
-/
import proofs.«131157_j87900800680713_1_alg».proof.Proof.BridgeLib
import proofs.«131157_j87900800680713_1_alg».proof.Proof.BridgeL1

noncomputable section

open Idealize.ShloMosaic Idealize.ShloMosaic.TcCoe Idealize.SL.Sem Idealize.ShloMosaic.StableHlo

namespace Cert.Proof.Parts

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

set_option maxRecDepth 65536 in
set_option maxHeartbeats 400000000 in
/-- Perturbation region 3: its output array is the reference's perturbation step at the matching place. -/
theorem L3 (hag : Agrees m m' c) : Cert.KernelIdeal.Whole.left m 10 Cert.KernelIdeal.main_v117 c = refAfter m' c (Proc.devRef .tc Cert.ReferenceIdeal.main_v153) := by
  rw [Cert.KernelIdeal.Whole.left_at3 m c, Cert.KernelIdeal.Perturb3.final_eq (Cert.KernelIdeal.Whole.entry3 m (Cert.KernelIdeal.Whole.left m)) c]
  show perturbHost (Cert.KernelIdeal.Gen.V9 m (Cert.KernelIdeal.Whole.left m) c (Proc.devRef .tc Cert.KernelIdeal.main_v114)) (Cert.KernelIdeal.Gen.V9 m (Cert.KernelIdeal.Whole.left m) c (Proc.devRef .tc Cert.KernelIdeal.main_v116)) = _
  simp (disch := decide) only [refAfter, Cert.ReferenceIdeal.ValueP.ops, skip1, open1, skip2, open2, skip3, open3, skip5, open5, skip7, open7, skip9, open9, skip11, open11, skip12, open12, skip13, open13, skip14, open14, skip15, open15, skip16, open16, skip17, open17, skip18, open18, skip19, open19, skip20, open20, skip21, open21, skip23, open23, skip25, open25, Cert.KernelIdeal.Gen.hostOps0, Cert.KernelIdeal.Gen.hostOps0_1, Cert.KernelIdeal.Gen.hostOps0_2, Cert.KernelIdeal.Gen.hostOps1, Cert.KernelIdeal.Gen.hostOps2, Cert.KernelIdeal.Gen.hostOps3, Cert.KernelIdeal.Gen.hostOps4, Cert.KernelIdeal.Gen.hostOps4_1, Cert.KernelIdeal.Gen.hostOps4_2, Cert.KernelIdeal.Gen.hostOps4_3, Cert.KernelIdeal.Gen.hostOps4_4, Cert.KernelIdeal.Gen.hostOps4_5, Cert.KernelIdeal.Gen.hostOps4_6, Cert.KernelIdeal.Gen.hostOps4_7, Cert.KernelIdeal.Gen.hostOps4_8, Cert.KernelIdeal.Gen.hostOps4_9, Cert.KernelIdeal.Gen.hostOps4_10, Cert.KernelIdeal.Gen.hostOps5, Cert.KernelIdeal.Gen.hostOps6, upd_skip, upd_at, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ↓e0K, ↓e0R, ↓stackK, ↓stackR, argR0 m m' c hag, argR1 m m' c hag, argR2 m m' c hag, argR3 m m' c hag, argR4 m m' c hag, argR5 m m' c hag, argR6 m m' c hag, argR7 m m' c hag, L1 m m' c hag]
  rfl

end Cert.Proof.Parts

end
-- ==== Proof.BridgeN4.lean ====
/-
  The first negative-sum region's output (the users' contrastive term), read as a vector, is the reference's negative sum at the
  matching place: its two inputs are the row-normalised batch rows of the two perturbed accumulated tables, which involve all four
  perturbation regions' outputs.
-/
import proofs.«131157_j87900800680713_1_alg».proof.Proof.BridgeLib
import proofs.«131157_j87900800680713_1_alg».proof.Proof.BridgeL2
import proofs.«131157_j87900800680713_1_alg».proof.Proof.BridgeL3

noncomputable section

open Idealize.ShloMosaic Idealize.ShloMosaic.TcCoe Idealize.SL.Sem Idealize.ShloMosaic.StableHlo

namespace Cert.Proof.Parts

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

set_option maxRecDepth 65536 in
set_option maxHeartbeats 400000000 in
/-- Negative-sum region 4: its output, read as a vector by the host operation right after the region, is the reference's
    negative sum at the matching place. -/
theorem N4 (hag : Agrees m m' c) : (reshape Cert.KernelIdeal.main_v239 Cert.KernelIdeal.main_v240 rfl Cert.KernelIdeal.Gen.shapeCasts_S8192x1_S8192 : HloOp Cert.KernelIdeal.τ Cert.KernelIdeal.sig (Elt Ideal)).result (Cert.KernelIdeal.Gen.V22 m (Cert.KernelIdeal.Whole.left m) c) (no_index (Proc.devRef .tc Cert.KernelIdeal.main_v240))
    = refAfter m' c (Proc.devRef .tc Cert.ReferenceIdeal.main_v279) := by
  rw [reshape_result', at22]
  show shapeCast Cert.KernelIdeal.S8192 (Cert.KernelIdeal.Whole.left m 22 Cert.KernelIdeal.main_v239 c) Cert.KernelIdeal.Gen.shapeCasts_S8192x1_S8192 = _
  rw [Cert.KernelIdeal.Whole.left_at4 m c]
  refine (Cert.KernelIdeal.NegSumVal4.final_eq (Cert.KernelIdeal.Whole.entry4 m (Cert.KernelIdeal.Whole.left m)) c).trans ?_
  show negHost (Cert.KernelIdeal.Gen.V21 m (Cert.KernelIdeal.Whole.left m) c (Proc.devRef .tc Cert.KernelIdeal.main_v197)) (Cert.KernelIdeal.Gen.V21 m (Cert.KernelIdeal.Whole.left m) c (Proc.devRef .tc Cert.KernelIdeal.main_v209)) = _
  simp (disch := decide) only [refAfter, Cert.ReferenceIdeal.ValueP.ops, skip1, open1, skip2, open2, skip3, open3, skip5, open5, skip7, open7, skip9, open9, skip11, open11, skip12, open12, skip13, open13, skip14, open14, skip15, open15, skip16, open16, skip17, open17, skip18, open18, skip19, open19, skip20, open20, skip21, open21, skip23, open23, skip25, open25, Cert.KernelIdeal.Gen.hostOps0, Cert.KernelIdeal.Gen.hostOps0_1, Cert.KernelIdeal.Gen.hostOps0_2, Cert.KernelIdeal.Gen.hostOps1, Cert.KernelIdeal.Gen.hostOps2, Cert.KernelIdeal.Gen.hostOps3, Cert.KernelIdeal.Gen.hostOps4, Cert.KernelIdeal.Gen.hostOps4_1, Cert.KernelIdeal.Gen.hostOps4_2, Cert.KernelIdeal.Gen.hostOps4_3, Cert.KernelIdeal.Gen.hostOps4_4, Cert.KernelIdeal.Gen.hostOps4_5, Cert.KernelIdeal.Gen.hostOps4_6, Cert.KernelIdeal.Gen.hostOps4_7, Cert.KernelIdeal.Gen.hostOps4_8, Cert.KernelIdeal.Gen.hostOps4_9, Cert.KernelIdeal.Gen.hostOps4_10, Cert.KernelIdeal.Gen.hostOps5, Cert.KernelIdeal.Gen.hostOps6, upd_skip, upd_at, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ↓e0K, ↓e0R, ↓stackK, ↓stackR, argR0 m m' c hag, argR1 m m' c hag, argR2 m m' c hag, argR3 m m' c hag, argR4 m m' c hag, argR5 m m' c hag, argR6 m m' c hag, argR7 m m' c hag, L0 m m' c hag, L1 m m' c hag, L2 m m' c hag, L3 m m' c hag]
  rfl

end Cert.Proof.Parts

end
-- ==== Proof.BridgeN5.lean ====
/-
  The second negative-sum region's output (the items' contrastive term), read as a vector, is the reference's negative sum at the
  matching place.
-/
import proofs.«131157_j87900800680713_1_alg».proof.Proof.BridgeLib
import proofs.«131157_j87900800680713_1_alg».proof.Proof.BridgeL2
import proofs.«131157_j87900800680713_1_alg».proof.Proof.BridgeL3

noncomputable section

open Idealize.ShloMosaic Idealize.ShloMosaic.TcCoe Idealize.SL.Sem Idealize.ShloMosaic.StableHlo

namespace Cert.Proof.Parts

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

set_option maxRecDepth 65536 in
set_option maxHeartbeats 400000000 in
/-- Negative-sum region 5: its output, read as a vector by the host operation right after the region, is the reference's
    negative sum at the matching place. -/
theorem N5 (hag : Agrees m m' c) : (reshape Cert.KernelIdeal.main_v255 Cert.KernelIdeal.main_v256 rfl Cert.KernelIdeal.Gen.shapeCasts_S8192x1_S8192 : HloOp Cert.KernelIdeal.τ Cert.KernelIdeal.sig (Elt Ideal)).result (Cert.KernelIdeal.Gen.V24 m (Cert.KernelIdeal.Whole.left m) c) (no_index (Proc.devRef .tc Cert.KernelIdeal.main_v256))
    = refAfter m' c (Proc.devRef .tc Cert.ReferenceIdeal.main_v298) := by
  rw [reshape_result', at24]
  show shapeCast Cert.KernelIdeal.S8192 (Cert.KernelIdeal.Whole.left m 24 Cert.KernelIdeal.main_v255 c) Cert.KernelIdeal.Gen.shapeCasts_S8192x1_S8192 = _
  rw [Cert.KernelIdeal.Whole.left_at5 m c]
  refine (Cert.KernelIdeal.NegSumVal5.final_eq (Cert.KernelIdeal.Whole.entry5 m (Cert.KernelIdeal.Whole.left m)) c).trans ?_
  show negHost (Cert.KernelIdeal.Gen.V23 m (Cert.KernelIdeal.Whole.left m) c (Proc.devRef .tc Cert.KernelIdeal.main_v221)) (Cert.KernelIdeal.Gen.V23 m (Cert.KernelIdeal.Whole.left m) c (Proc.devRef .tc Cert.KernelIdeal.main_v233)) = _
  simp (disch := decide) only [refAfter, Cert.ReferenceIdeal.ValueP.ops, skip1, open1, skip2, open2, skip3, open3, skip5, open5, skip7, open7, skip9, open9, skip11, open11, skip12, open12, skip13, open13, skip14, open14, skip15, open15, skip16, open16, skip17, open17, skip18, open18, skip19, open19, skip20, open20, skip21, open21, skip23, open23, skip25, open25, Cert.KernelIdeal.Gen.hostOps0, Cert.KernelIdeal.Gen.hostOps0_1, Cert.KernelIdeal.Gen.hostOps0_2, Cert.KernelIdeal.Gen.hostOps1, Cert.KernelIdeal.Gen.hostOps2, Cert.KernelIdeal.Gen.hostOps3, Cert.KernelIdeal.Gen.hostOps4, Cert.KernelIdeal.Gen.hostOps4_1, Cert.KernelIdeal.Gen.hostOps4_2, Cert.KernelIdeal.Gen.hostOps4_3, Cert.KernelIdeal.Gen.hostOps4_4, Cert.KernelIdeal.Gen.hostOps4_5, Cert.KernelIdeal.Gen.hostOps4_6, Cert.KernelIdeal.Gen.hostOps4_7, Cert.KernelIdeal.Gen.hostOps4_8, Cert.KernelIdeal.Gen.hostOps4_9, Cert.KernelIdeal.Gen.hostOps4_10, Cert.KernelIdeal.Gen.hostOps5, Cert.KernelIdeal.Gen.hostOps6, upd_skip, upd_at, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ↓e0K, ↓e0R, ↓stackK, ↓stackR, argR0 m m' c hag, argR1 m m' c hag, argR2 m m' c hag, argR3 m m' c hag, argR4 m m' c hag, argR5 m m' c hag, argR6 m m' c hag, argR7 m m' c hag, L0 m m' c hag, L1 m m' c hag, L2 m m' c hag, L3 m m' c hag]
  rfl

end Cert.Proof.Parts

end
-- ==== Proof.BridgeFinal.lean ====
/-
  The equation: from memories agreeing on the eight arguments, the kernel program's result buffer holds what the reference's
  does. Every host operation outside the regions is the same on both sides, and each region's output has been matched.
-/
import proofs.«131157_j87900800680713_1_alg».proof.Proof.BridgeLib
import proofs.«131157_j87900800680713_1_alg».proof.Proof.BridgeN4
import proofs.«131157_j87900800680713_1_alg».proof.Proof.BridgeN5

noncomputable section

open Idealize.ShloMosaic Idealize.ShloMosaic.TcCoe Idealize.SL.Sem Idealize.ShloMosaic.StableHlo

namespace Cert.Proof.Parts

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

set_option maxRecDepth 65536 in
set_option maxHeartbeats 800000000 in
/-- THE EQUATION: from memories agreeing on the eight arguments, the kernel program's result is the reference's. -/
theorem results_agree (hag : Agrees m m' c) :
    Cert.KernelIdeal.Gen.V25 m (Cert.KernelIdeal.Whole.left m) c (Proc.devRef .tc Cert.KernelIdeal.main_v272) = refAfter m' c (Proc.devRef .tc Cert.ReferenceIdeal.main_v314) := by
  simp (disch := decide) only [refAfter, Cert.ReferenceIdeal.ValueP.ops, skip1, open1, skip2, open2, skip3, open3, skip5, open5, skip7, open7, skip9, open9, skip11, open11, skip12, open12, skip13, open13, skip14, open14, skip15, open15, skip16, open16, skip17, open17, skip18, open18, skip19, open19, skip20, open20, skip21, open21, skip23, open23, skip25, open25, Cert.KernelIdeal.Gen.hostOps0, Cert.KernelIdeal.Gen.hostOps0_1, Cert.KernelIdeal.Gen.hostOps0_2, Cert.KernelIdeal.Gen.hostOps1, Cert.KernelIdeal.Gen.hostOps2, Cert.KernelIdeal.Gen.hostOps3, Cert.KernelIdeal.Gen.hostOps4, Cert.KernelIdeal.Gen.hostOps4_1, Cert.KernelIdeal.Gen.hostOps4_2, Cert.KernelIdeal.Gen.hostOps4_3, Cert.KernelIdeal.Gen.hostOps4_4, Cert.KernelIdeal.Gen.hostOps4_5, Cert.KernelIdeal.Gen.hostOps4_6, Cert.KernelIdeal.Gen.hostOps4_7, Cert.KernelIdeal.Gen.hostOps4_8, Cert.KernelIdeal.Gen.hostOps4_9, Cert.KernelIdeal.Gen.hostOps4_10, Cert.KernelIdeal.Gen.hostOps5, Cert.KernelIdeal.Gen.hostOps6, upd_skip, upd_at, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', ↓e0K, ↓e0R, ↓stackK, ↓stackR, argR0 m m' c hag, argR1 m m' c hag, argR2 m m' c hag, argR3 m m' c hag, argR4 m m' c hag, argR5 m m' c hag, argR6 m m' c hag, argR7 m m' c hag, L0 m m' c hag, L1 m m' c hag, L2 m m' c hag, L3 m m' c hag, ↓N4 m m' c hag, ↓N5 m m' c hag]
  rfl

end Cert.Proof.Parts

end
-- ==== Proof.Algebraic.lean ====
/-
  The two idealized programs end with equal results: the claim's last conjunct, assembled. The kernel program's run names its
  result as the last boundary's contents at the result buffer; the reference's run names its result as the fold of its operations
  at its result buffer; the bridge shows the two equal from memories agreeing on the arguments; both runs leave the arguments as
  launched.
-/
import proofs.«131157_j87900800680713_1_alg».proof.Defs
import proofs.«131157_j87900800680713_1_alg».proof.Proof.BridgeFinal

noncomputable section

open Idealize.ShloMosaic Idealize.ShloMosaic.TcCoe Idealize.SL.Sem Idealize.ShloMosaic.StableHlo

namespace Cert.Proof.Parts

/-- From memories agreeing on the arguments both idealized programs run to the end, leave their arguments as launched, and
    end with the same four numbers. -/
theorem algebraic : Cert.algebraic_KernelIdeal_ReferenceIdeal := by
  intro m ρ m' ρ' _ hag
  refine ⟨fun c => refAfter m' c (Proc.devRef .tc Cert.ReferenceIdeal.main_v314), ?_, ?_⟩
  · exact (θ_run Cert.KernelIdeal.defs _ _).mono (fun _ h c => ⟨(h c).1.trans (results_agree m m' c (hag c)), (h c).2⟩)
      (Cert.KernelIdeal.Whole.result_run (F := Ideal) m ρ)
  · exact (θ_run Cert.ReferenceIdeal.defs _ _).mono (fun _ h c =>
      ⟨h c Cert.ReferenceIdeal.main_v314, (h c Cert.ReferenceIdeal.main_arg0).trans (reference_keeps m' c).1, (h c Cert.ReferenceIdeal.main_arg1).trans (reference_keeps m' c).2.1,
       (h c Cert.ReferenceIdeal.main_arg2).trans (reference_keeps m' c).2.2.1, (h c Cert.ReferenceIdeal.main_arg3).trans (reference_keeps m' c).2.2.2.1,
       (h c Cert.ReferenceIdeal.main_arg4).trans (reference_keeps m' c).2.2.2.2.1, (h c Cert.ReferenceIdeal.main_arg5).trans (reference_keeps m' c).2.2.2.2.2.1,
       (h c Cert.ReferenceIdeal.main_arg6).trans (reference_keeps m' c).2.2.2.2.2.2.1, (h c Cert.ReferenceIdeal.main_arg7).trans (reference_keeps m' c).2.2.2.2.2.2.2⟩)
      (reference_fold m' ρ')

end Cert.Proof.Parts

end
-- ==== Proof.lean ====
/-
  The certificate: the word-level kernel program, its idealization and the reference each run to the end without a fault and
  leave their eight argument arrays as launched; the idealization differs from the word-level program only at six sites, each an
  instance of a stated rule; and over the extended reals the idealized kernel program and the reference end with equal results.

  The kernel program is six kernel regions among stretches of host operations: four perturbation kernels (one block of 9000
  rows per grid point, nothing carried between points) and two negative-sum kernels (a scratch column accumulated over the
  sixteen column tiles of a row of the grid). Each region's run is proved from its kernel body's run; the host side of the
  frame is the generated conditional frame. The reference is a straight line of host operations, read back as a fold.
-/
import proofs.«131157_j87900800680713_1_alg».proof.Defs
import proofs.«131157_j87900800680713_1_alg».proof.Proof.Gen.Kernel
import proofs.«131157_j87900800680713_1_alg».proof.Proof.Gen.KernelIdeal
import proofs.«131157_j87900800680713_1_alg».proof.Proof.Gen.ReferenceIdeal
import proofs.«131157_j87900800680713_1_alg».proof.Proof.Gen.Pre_finite_inputs
import proofs.«131157_j87900800680713_1_alg».proof.Proof.Preserves
import proofs.«131157_j87900800680713_1_alg».proof.Proof.WholeB
import proofs.«131157_j87900800680713_1_alg».proof.Proof.WholeI
import proofs.«131157_j87900800680713_1_alg».proof.Proof.RefFrame
import proofs.«131157_j87900800680713_1_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
   fun m ρ _ => Cert.Kernel.Whole.frame (F := Bits) m ρ,
   fun m ρ _ => Cert.KernelIdeal.Whole.frame (F := Ideal) m ρ,
   Cert.Proof.Parts.frame_reference,
   Cert.Proof.Parts.preserves,
   Cert.Proof.Parts.algebraic⟩

end Cert.Proof

end
